-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v119)) (v1 : (c : Dev Cert.KernelIdeal.nD) → Buf (Elt Ideal) ((c.tc : Thread Cert.KernelIdeal.nD Cert.KernelIdeal.τ).loc Cert.KernelIdeal.main_v239)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_v239) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v255) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S44x4096 : Shape := ⟨2, ![44, 4096]⟩
abbrev S44 : Shape := ⟨1, ![44]⟩
abbrev S4096x4096 : Shape := ⟨2, ![4096, 4096]⟩
abbrev S4096 : Shape := ⟨1, ![4096]⟩
abbrev S1x4096 : Shape := ⟨2, ![1, 4096]⟩
abbrev S1 : Shape := ⟨1, ![1]⟩
abbrev S_ : Shape := ⟨0, ![]⟩

class Facts : Prop where
  bcast_S_S44x4096 : S_.BroadcastsInDim S44x4096 (![] : Fin 0 → Fin S44x4096.rank)
  reducesTo_S44x4096_S_d0_1 : S44x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1x4096 .f32) (main_arg14 : FVec F S1 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S1x4096 .f32 := Host.absf main_arg13
  let main_cst_20 : FVec F S_ .f32 := constant S_ .f32 0x7F800000#32
  let main_v55 : FVec F S1x4096 .f32 := broadcastInDim S1x4096 ![] bcast_S_S1x4096 main_cst_20
  let main_v56 : IVec S1x4096 1 := cmpf .olt main_v54 main_v55
  let main_c_21 : IVec S_ 1 := constantI S_ 1 1#1
  let main_v57 : IVec S_ 1 := (fun x v => Host.reduce IntOp.andi x v reducesTo_S1x4096_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S4096x4096 .f32) (main_arg10 : FVec F S4096 .f32) (main_arg11 : FVec F S4096x4096 .f32) (main_arg12 : FVec F S4096 .f32) (main_arg13 : FVec F S1x4096 .f32) (main_arg14 : FVec F S1 .f32) (main_v33 : IVec S_ 1) : IVec S_ 1 :=
  let main_v34 : FVec F S4096x4096 .f32 := Host.absf main_arg9
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg10
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x4096 .f32 := Host.absf main_arg11
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096 .f32 := Host.absf main_arg12
  let main_cst_18 : FVec F S_ .f32 := constant S_ .f32 0x7F800000#32
  let main_v50 : FVec F S4096 .f32 := broadcastInDim S4096 ![] bcast_S_S4096 main_cst_18
  fn_part3 (F := F) main_arg13 main_arg14 main_v48 main_v49 main_v50

def fn_part1 {F : FTy → Type} [FloatOps F] (main_arg6 : FVec F S4096 .f32) (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S1x4096 .f32) (main_arg14 : FVec F S1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg6
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg7
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg8
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S44x4096 .f32) (main_arg1 : IVec S44 32) (main_arg2 : IVec S44 32) (main_arg3 : FVec F S4096x4096 .f32) (main_arg4 : FVec F S4096 .f32) (main_arg5 : FVec F S4096x4096 .f32) (main_arg6 : FVec F S4096 .f32) (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S1x4096 .f32) (main_arg14 : FVec F S1 .f32) : IVec S_ 1 :=
  let main_v0 : FVec F S44x4096 .f32 := Host.absf main_arg0
  let main_cst : FVec F S_ .f32 := constant S_ .f32 0x7F800000#32
  let main_v1 : FVec F S44x4096 .f32 := broadcastInDim S44x4096 ![] bcast_S_S44x4096 main_cst
  let main_v2 : IVec S44x4096 1 := cmpf .olt main_v0 main_v1
  let main_c : IVec S_ 1 := constantI S_ 1 1#1
  let main_v3 : IVec S_ 1 := (fun x v => Host.reduce IntOp.andi x v reducesTo_S44x4096_S_d0_1 h_S_) main_v2 main_c
  let main_v4 : FVec F S4096x4096 .f32 := Host.absf main_arg3
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg5
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg6 main_arg7 main_arg8 main_arg9 main_arg10 main_arg11 main_arg12 main_arg13 main_arg14 main_v13 main_v16
-- ==== Kernel.lean ====
abbrev S44x4096 : Shape := ⟨2, ![44, 4096]⟩
abbrev S44 : Shape := ⟨1, ![44]⟩
abbrev S4096x4096 : Shape := ⟨2, ![4096, 4096]⟩
abbrev S4096 : Shape := ⟨1, ![4096]⟩
abbrev S1x4096 : Shape := ⟨2, ![1, 4096]⟩
abbrev S1 : Shape := ⟨1, ![1]⟩
abbrev S_ : Shape := ⟨0, ![]⟩
abbrev S14 : Shape := ⟨1, ![14]⟩
abbrev S44x1 : Shape := ⟨2, ![44, 1]⟩
abbrev S14x4096 : Shape := ⟨2, ![14, 4096]⟩
abbrev S14x1 : Shape := ⟨2, ![14, 1]⟩
abbrev S44x2048 : Shape := ⟨2, ![44, 2048]⟩
abbrev S2048x2048 : Shape := ⟨2, ![2048, 2048]⟩
abbrev S2048 : Shape := ⟨1, ![2048]⟩
abbrev S1x2048 : Shape := ⟨2, ![1, 2048]⟩
abbrev S2048x1 : Shape := ⟨2, ![2048, 1]⟩
abbrev S1x1 : Shape := ⟨2, ![1, 1]⟩

abbrev nBuf : Space → Nat
  | .hbm => 321
  | .vmem => 52
  | .smem => 0
  | _ => 0

abbrev hbmTy0_0 (i : Nat) : BufTy := match i % 128 with
  | 0 => ⟨S44x4096, .f32⟩
  | 1 => ⟨S44, .i32⟩
  | 2 => ⟨S44, .i32⟩
  | 3 => ⟨S4096x4096, .f32⟩
  | 4 => ⟨S4096, .f32⟩
  | 5 => ⟨S4096x4096, .f32⟩
  | 6 => ⟨S4096, .f32⟩
  | 7 => ⟨S4096x4096, .f32⟩
  | 8 => ⟨S4096, .f32⟩
  | 9 => ⟨S4096x4096, .f32⟩
  | 10 => ⟨S4096, .f32⟩
  | 11 => ⟨S4096x4096, .f32⟩
  | 12 => ⟨S4096, .f32⟩
  | 13 => ⟨S1x4096, .f32⟩
  | 14 => ⟨S1, .f32⟩
  | 15 => ⟨S_, .f32⟩
  | 16 => ⟨S44, .f32⟩
  | 17 => ⟨S_, .f32⟩
  | 18 => ⟨S14, .f32⟩
  | 19 => ⟨S44x1, .i32⟩
  | 20 => ⟨S14, .f32⟩
  | 21 => ⟨S_, .f32⟩
  | 22 => ⟨S14x4096, .f32⟩
  | 23 => ⟨S44x1, .i32⟩
  | 24 => ⟨S14x4096, .f32⟩
  | 25 => ⟨S14x1, .f32⟩
  | 26 => ⟨S14x4096, .f32⟩
  | 27 => ⟨S14x4096, .f32⟩
  | 28 => ⟨S_, .i32⟩
  | 29 => ⟨S44, .i32⟩
  | 30 => ⟨S44, .i1⟩
  | 31 => ⟨S_, .i32⟩
  | 32 => ⟨S44, .i32⟩
  | 33 => ⟨S44, .i32⟩
  | 34 => ⟨S44, .i32⟩
  | 35 => ⟨S44x1, .i32⟩
  | 36 => ⟨S44x4096, .f32⟩
  | 37 => ⟨S_, .f32⟩
  | 38 => ⟨S14x4096, .f32⟩
  | 39 => ⟨S44x1, .i32⟩
  | 40 => ⟨S14x4096, .f32⟩
  | 41 => ⟨S_, .i32⟩
  | 42 => ⟨S44, .i32⟩
  | 43 => ⟨S44, .i1⟩
  | 44 => ⟨S_, .i32⟩
  | 45 => ⟨S44, .i32⟩
  | 46 => ⟨S44, .i32⟩
  | 47 => ⟨S44, .i32⟩
  | 48 => ⟨S44x1, .i32⟩
  | 49 => ⟨S44x4096, .f32⟩
  | 50 => ⟨S_, .i32⟩
  | 51 => ⟨S44, .i32⟩
  | 52 => ⟨S44, .i1⟩
  | 53 => ⟨S_, .i32⟩
  | 54 => ⟨S44, .i32⟩
  | 55 => ⟨S44, .i32⟩
  | 56 => ⟨S44, .i32⟩
  | 57 => ⟨S44x1, .i32⟩
  | 58 => ⟨S44x4096, .f32⟩
  | 59 => ⟨S44x4096, .f32⟩
  | 60 => ⟨S_, .f32⟩
  | 61 => ⟨S44x4096, .f32⟩
  | 62 => ⟨S44x4096, .f32⟩
  | 63 => ⟨S44x4096, .bf16⟩
  | 64 => ⟨S4096x4096, .bf16⟩
  | 65 => ⟨S44x4096, .f32⟩
  | 66 => ⟨S_, .f32⟩
  | 67 => ⟨S44, .f32⟩
  | 68 => ⟨S_, .f32⟩
  | 69 => ⟨S14, .f32⟩
  | 70 => ⟨S44x1, .i32⟩
  | 71 => ⟨S14, .f32⟩
  | 72 => ⟨S_, .f32⟩
  | 73 => ⟨S14x4096, .f32⟩
  | 74 => ⟨S44x1, .i32⟩
  | 75 => ⟨S14x4096, .f32⟩
  | 76 => ⟨S14x1, .f32⟩
  | 77 => ⟨S14x4096, .f32⟩
  | 78 => ⟨S14x4096, .f32⟩
  | 79 => ⟨S_, .i32⟩
  | 80 => ⟨S44, .i32⟩
  | 81 => ⟨S44, .i1⟩
  | 82 => ⟨S_, .i32⟩
  | 83 => ⟨S44, .i32⟩
  | 84 => ⟨S44, .i32⟩
  | 85 => ⟨S44, .i32⟩
  | 86 => ⟨S44x1, .i32⟩
  | 87 => ⟨S44x4096, .f32⟩
  | 88 => ⟨S_, .f32⟩
  | 89 => ⟨S14x4096, .f32⟩
  | 90 => ⟨S44x1, .i32⟩
  | 91 => ⟨S14x4096, .f32⟩
  | 92 => ⟨S_, .i32⟩
  | 93 => ⟨S44, .i32⟩
  | 94 => ⟨S44, .i1⟩
  | 95 => ⟨S_, .i32⟩
  | 96 => ⟨S44, .i32⟩
  | 97 => ⟨S44, .i32⟩
  | 98 => ⟨S44, .i32⟩
  | 99 => ⟨S44x1, .i32⟩
  | 100 => ⟨S44x4096, .f32⟩
  | 101 => ⟨S_, .i32⟩
  | 102 => ⟨S44, .i32⟩
  | 103 => ⟨S44, .i1⟩
  | 104 => ⟨S_, .i32⟩
  | 105 => ⟨S44, .i32⟩
  | 106 => ⟨S44, .i32⟩
  | 107 => ⟨S44, .i32⟩
  | 108 => ⟨S44x1, .i32⟩
  | 109 => ⟨S44x4096, .f32⟩
  | 110 => ⟨S44x4096, .f32⟩
  | 111 => ⟨S_, .f32⟩
  | 112 => ⟨S44x4096, .f32⟩
  | 113 => ⟨S44x4096, .f32⟩
  | 114 => ⟨S44x4096, .bf16⟩
  | 115 => ⟨S4096x4096, .bf16⟩
  | 116 => ⟨S44x4096, .f32⟩
  | 117 => ⟨S_, .f32⟩
  | 118 => ⟨S44, .f32⟩
  | 119 => ⟨S_, .f32⟩
  | 120 => ⟨S14, .f32⟩
  | 121 => ⟨S44x1, .i32⟩
  | 122 => ⟨S14, .f32⟩
  | 123 => ⟨S_, .f32⟩
  | 124 => ⟨S14x4096, .f32⟩
  | 125 => ⟨S44x1, .i32⟩
  | 126 => ⟨S14x4096, .f32⟩
  | 127 => ⟨S14x1, .f32⟩
  | _ => ⟨S44x4096, .f32⟩

abbrev hbmTy0_1 (i : Nat) : BufTy := match i % 128 with
  | 0 => ⟨S14x4096, .f32⟩
  | 1 => ⟨S14x4096, .f32⟩
  | 2 => ⟨S_, .i32⟩
  | 3 => ⟨S44, .i32⟩
  | 4 => ⟨S44, .i1⟩
  | 5 => ⟨S_, .i32⟩
  | 6 => ⟨S44, .i32⟩
  | 7 => ⟨S44, .i32⟩
  | 8 => ⟨S44, .i32⟩
  | 9 => ⟨S44x1, .i32⟩
  | 10 => ⟨S44x4096, .f32⟩
  | 11 => ⟨S_, .f32⟩
  | 12 => ⟨S14x4096, .f32⟩
  | 13 => ⟨S44x1, .i32⟩
  | 14 => ⟨S14x4096, .f32⟩
  | 15 => ⟨S_, .i32⟩
  | 16 => ⟨S44, .i32⟩
  | 17 => ⟨S44, .i1⟩
  | 18 => ⟨S_, .i32⟩
  | 19 => ⟨S44, .i32⟩
  | 20 => ⟨S44, .i32⟩
  | 21 => ⟨S44, .i32⟩
  | 22 => ⟨S44x1, .i32⟩
  | 23 => ⟨S44x4096, .f32⟩
  | 24 => ⟨S_, .i32⟩
  | 25 => ⟨S44, .i32⟩
  | 26 => ⟨S44, .i1⟩
  | 27 => ⟨S_, .i32⟩
  | 28 => ⟨S44, .i32⟩
  | 29 => ⟨S44, .i32⟩
  | 30 => ⟨S44, .i32⟩
  | 31 => ⟨S44x1, .i32⟩
  | 32 => ⟨S44x4096, .f32⟩
  | 33 => ⟨S44x4096, .f32⟩
  | 34 => ⟨S_, .f32⟩
  | 35 => ⟨S44x4096, .f32⟩
  | 36 => ⟨S44x4096, .f32⟩
  | 37 => ⟨S44x4096, .bf16⟩
  | 38 => ⟨S4096x4096, .bf16⟩
  | 39 => ⟨S44x4096, .f32⟩
  | 40 => ⟨S_, .f32⟩
  | 41 => ⟨S44, .f32⟩
  | 42 => ⟨S_, .f32⟩
  | 43 => ⟨S14, .f32⟩
  | 44 => ⟨S44x1, .i32⟩
  | 45 => ⟨S14, .f32⟩
  | 46 => ⟨S_, .f32⟩
  | 47 => ⟨S14x4096, .f32⟩
  | 48 => ⟨S44x1, .i32⟩
  | 49 => ⟨S14x4096, .f32⟩
  | 50 => ⟨S14x1, .f32⟩
  | 51 => ⟨S14x4096, .f32⟩
  | 52 => ⟨S14x4096, .f32⟩
  | 53 => ⟨S_, .i32⟩
  | 54 => ⟨S44, .i32⟩
  | 55 => ⟨S44, .i1⟩
  | 56 => ⟨S_, .i32⟩
  | 57 => ⟨S44, .i32⟩
  | 58 => ⟨S44, .i32⟩
  | 59 => ⟨S44, .i32⟩
  | 60 => ⟨S44x1, .i32⟩
  | 61 => ⟨S44x4096, .f32⟩
  | 62 => ⟨S_, .f32⟩
  | 63 => ⟨S14x4096, .f32⟩
  | 64 => ⟨S44x1, .i32⟩
  | 65 => ⟨S14x4096, .f32⟩
  | 66 => ⟨S_, .i32⟩
  | 67 => ⟨S44, .i32⟩
  | 68 => ⟨S44, .i1⟩
  | 69 => ⟨S_, .i32⟩
  | 70 => ⟨S44, .i32⟩
  | 71 => ⟨S44, .i32⟩
  | 72 => ⟨S44, .i32⟩
  | 73 => ⟨S44x1, .i32⟩
  | 74 => ⟨S44x4096, .f32⟩
  | 75 => ⟨S_, .i32⟩
  | 76 => ⟨S44, .i32⟩
  | 77 => ⟨S44, .i1⟩
  | 78 => ⟨S_, .i32⟩
  | 79 => ⟨S44, .i32⟩
  | 80 => ⟨S44, .i32⟩
  | 81 => ⟨S44, .i32⟩
  | 82 => ⟨S44x1, .i32⟩
  | 83 => ⟨S44x4096, .f32⟩
  | 84 => ⟨S44x4096, .f32⟩
  | 85 => ⟨S_, .f32⟩
  | 86 => ⟨S44x4096, .f32⟩
  | 87 => ⟨S44x4096, .f32⟩
  | 88 => ⟨S44x4096, .bf16⟩
  | 89 => ⟨S4096x4096, .bf16⟩
  | 90 => ⟨S44x4096, .f32⟩
  | 91 => ⟨S_, .f32⟩
  | 92 => ⟨S44, .f32⟩
  | 93 => ⟨S_, .f32⟩
  | 94 => ⟨S14, .f32⟩
  | 95 => ⟨S44x1, .i32⟩
  | 96 => ⟨S14, .f32⟩
  | 97 => ⟨S_, .f32⟩
  | 98 => ⟨S14x4096, .f32⟩
  | 99 => ⟨S44x1, .i32⟩
  | 100 => ⟨S14x4096, .f32⟩
  | 101 => ⟨S14x1, .f32⟩
  | 102 => ⟨S14x4096, .f32⟩
  | 103 => ⟨S14x4096, .f32⟩
  | 104 => ⟨S_, .i32⟩
  | 105 => ⟨S44, .i32⟩
  | 106 => ⟨S44, .i1⟩
  | 107 => ⟨S_, .i32⟩
  | 108 => ⟨S44, .i32⟩
  | 109 => ⟨S44, .i32⟩
  | 110 => ⟨S44, .i32⟩
  | 111 => ⟨S44x1, .i32⟩
  | 112 => ⟨S44x4096, .f32⟩
  | 113 => ⟨S_, .f32⟩
  | 114 => ⟨S14x4096, .f32⟩
  | 115 => ⟨S44x1, .i32⟩
  | 116 => ⟨S14x4096, .f32⟩
  | 117 => ⟨S_, .i32⟩
  | 118 => ⟨S44, .i32⟩
  | 119 => ⟨S44, .i1⟩
  | 120 => ⟨S_, .i32⟩
  | 121 => ⟨S44, .i32⟩
  | 122 => ⟨S44, .i32⟩
  | 123 => ⟨S44, .i32⟩
  | 124 => ⟨S44x1, .i32⟩
  | 125 => ⟨S44x4096, .f32⟩
  | 126 => ⟨S_, .i32⟩
  | 127 => ⟨S44, .i32⟩
  | _ => ⟨S44x4096, .f32⟩

abbrev hbmTy0_2 (i : Nat) : BufTy := match i % 128 with
  | 0 => ⟨S44, .i1⟩
  | 1 => ⟨S_, .i32⟩
  | 2 => ⟨S44, .i32⟩
  | 3 => ⟨S44, .i32⟩
  | 4 => ⟨S44, .i32⟩
  | 5 => ⟨S44x1, .i32⟩
  | 6 => ⟨S44x4096, .f32⟩
  | 7 => ⟨S44x4096, .f32⟩
  | 8 => ⟨S_, .f32⟩
  | 9 => ⟨S44x4096, .f32⟩
  | 10 => ⟨S44x4096, .f32⟩
  | 11 => ⟨S44x4096, .bf16⟩
  | 12 => ⟨S4096x4096, .bf16⟩
  | 13 => ⟨S44x4096, .f32⟩
  | 14 => ⟨S_, .f32⟩
  | 15 => ⟨S44, .f32⟩
  | 16 => ⟨S_, .f32⟩
  | 17 => ⟨S14, .f32⟩
  | 18 => ⟨S44x1, .i32⟩
  | 19 => ⟨S14, .f32⟩
  | 20 => ⟨S_, .f32⟩
  | 21 => ⟨S14x4096, .f32⟩
  | 22 => ⟨S44x1, .i32⟩
  | 23 => ⟨S14x4096, .f32⟩
  | 24 => ⟨S14x1, .f32⟩
  | 25 => ⟨S14x4096, .f32⟩
  | 26 => ⟨S14x4096, .f32⟩
  | 27 => ⟨S_, .i32⟩
  | 28 => ⟨S44, .i32⟩
  | 29 => ⟨S44, .i1⟩
  | 30 => ⟨S_, .i32⟩
  | 31 => ⟨S44, .i32⟩
  | 32 => ⟨S44, .i32⟩
  | 33 => ⟨S44, .i32⟩
  | 34 => ⟨S44x1, .i32⟩
  | 35 => ⟨S44x4096, .f32⟩
  | 36 => ⟨S_, .f32⟩
  | 37 => ⟨S14x4096, .f32⟩
  | 38 => ⟨S44x1, .i32⟩
  | 39 => ⟨S14x4096, .f32⟩
  | 40 => ⟨S_, .i32⟩
  | 41 => ⟨S44, .i32⟩
  | 42 => ⟨S44, .i1⟩
  | 43 => ⟨S_, .i32⟩
  | 44 => ⟨S44, .i32⟩
  | 45 => ⟨S44, .i32⟩
  | 46 => ⟨S44, .i32⟩
  | 47 => ⟨S44x1, .i32⟩
  | 48 => ⟨S44x4096, .f32⟩
  | 49 => ⟨S_, .i32⟩
  | 50 => ⟨S44, .i32⟩
  | 51 => ⟨S44, .i1⟩
  | 52 => ⟨S_, .i32⟩
  | 53 => ⟨S44, .i32⟩
  | 54 => ⟨S44, .i32⟩
  | 55 => ⟨S44, .i32⟩
  | 56 => ⟨S44x1, .i32⟩
  | 57 => ⟨S44x4096, .f32⟩
  | 58 => ⟨S44x4096, .f32⟩
  | 59 => ⟨S_, .f32⟩
  | 60 => ⟨S44x4096, .f32⟩
  | 61 => ⟨S44x4096, .f32⟩
  | 62 => ⟨S44x4096, .bf16⟩
  | 63 => ⟨S1x4096, .bf16⟩
  | 64 => ⟨S44x1, .f32⟩
  | _ => ⟨S44x4096, .f32⟩

abbrev hbmTy (i : Nat) : BufTy := match i / 128 with
  | 0 => hbmTy0_0 i
  | 1 => hbmTy0_1 i
  | 2 => hbmTy0_2 i
  | _ => ⟨S44x4096, .f32⟩

abbrev bufTy : (tb : Table) → Fin (tcTables nBuf tb) → BufTy
  | .hbm, ⟨i, _⟩ => hbmTy i
  | .local _ .vmem, ⟨0, _⟩ => ⟨S44x2048, .bf16⟩
  | .local _ .vmem, ⟨1, _⟩ => ⟨S44x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048, .f32⟩
  | .local _ .vmem, ⟨5, _⟩ => ⟨S2048, .f32⟩
  | .local _ .vmem, ⟨6, _⟩ => ⟨S44x2048, .f32⟩
  | .local _ .vmem, ⟨7, _⟩ => ⟨S44x2048, .f32⟩
  | .local _ .vmem, ⟨8, _⟩ => ⟨S44x2048, .f32⟩
  | .local _ .vmem, ⟨9, _⟩ => ⟨S44x2048, .bf16⟩
  | .local _ .vmem, ⟨10, _⟩ => ⟨S44x2048, .bf16⟩
  | .local _ .vmem, ⟨11, _⟩ => ⟨S2048x2048, .bf16⟩
  | .local _ .vmem, ⟨12, _⟩ => ⟨S2048x2048, .bf16⟩
  | .local _ .vmem, ⟨13, _⟩ => ⟨S2048, .f32⟩
  | .local _ .vmem, ⟨14, _⟩ => ⟨S2048, .f32⟩
  | .local _ .vmem, ⟨15, _⟩ => ⟨S44x2048, .f32⟩
  | .local _ .vmem, ⟨16, _⟩ => ⟨S44x2048, .f32⟩
  | .local _ .vmem, ⟨17, _⟩ => ⟨S44x2048, .f32⟩
  | .local _ .vmem, ⟨18, _⟩ => ⟨S44x2048, .bf16⟩
  | .local _ .vmem, ⟨19, _⟩ => ⟨S44x2048, .bf16⟩
  | .local _ .vmem, ⟨20, _⟩ => ⟨S2048x2048, .bf16⟩
  | .local _ .vmem, ⟨21, _⟩ => ⟨S2048x2048, .bf16⟩
  | .local _ .vmem, ⟨22, _⟩ => ⟨S2048, .f32⟩
  | .local _ .vmem, ⟨23, _⟩ => ⟨S2048, .f32⟩
  | .local _ .vmem, ⟨24, _⟩ => ⟨S44x2048, .f32⟩
  | .local _ .vmem, ⟨25, _⟩ => ⟨S44x2048, .f32⟩
  | .local _ .vmem, ⟨26, _⟩ => ⟨S44x2048, .f32⟩
  | .local _ .vmem, ⟨27, _⟩ => ⟨S44x2048, .bf16⟩
  | .local _ .vmem, ⟨28, _⟩ => ⟨S44x2048, .bf16⟩
  | .local _ .vmem, ⟨29, _⟩ => ⟨S2048x2048, .bf16⟩
  | .local _ .vmem, ⟨30, _⟩ => ⟨S2048x2048, .bf16⟩
  | .local _ .vmem, ⟨31, _⟩ => ⟨S2048, .f32⟩
  | .local _ .vmem, ⟨32, _⟩ => ⟨S2048, .f32⟩
  | .local _ .vmem, ⟨33, _⟩ => ⟨S44x2048, .f32⟩
  | .local _ .vmem, ⟨34, _⟩ => ⟨S44x2048, .f32⟩
  | .local _ .vmem, ⟨35, _⟩ => ⟨S44x2048, .f32⟩
  | .local _ .vmem, ⟨36, _⟩ => ⟨S44x2048, .bf16⟩
  | .local _ .vmem, ⟨37, _⟩ => ⟨S44x2048, .bf16⟩
  | .local _ .vmem, ⟨38, _⟩ => ⟨S2048x2048, .bf16⟩
  | .local _ .vmem, ⟨39, _⟩ => ⟨S2048x2048, .bf16⟩
  | .local _ .vmem, ⟨40, _⟩ => ⟨S2048, .f32⟩
  | .local _ .vmem, ⟨41, _⟩ => ⟨S2048, .f32⟩
  | .local _ .vmem, ⟨42, _⟩ => ⟨S44x2048, .f32⟩
  | .local _ .vmem, ⟨43, _⟩ => ⟨S44x2048, .f32⟩
  | .local _ .vmem, ⟨44, _⟩ => ⟨S44x2048, .f32⟩
  | .local _ .vmem, ⟨45, _⟩ => ⟨S44x2048, .bf16⟩
  | .local _ .vmem, ⟨46, _⟩ => ⟨S44x2048, .bf16⟩
  | .local _ .vmem, ⟨47, _⟩ => ⟨S1x2048, .bf16⟩
  | .local _ .vmem, ⟨48, _⟩ => ⟨S1x2048, .bf16⟩
  | .local _ .vmem, ⟨49, _⟩ => ⟨S1, .f32⟩
  | .local _ .vmem, ⟨50, _⟩ => ⟨S44x1, .f32⟩
  | .local _ .vmem, ⟨51, _⟩ => ⟨S44x1, .f32⟩
  | _, _ => ⟨S44x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_11 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_12 : Ref sig .tc := ⟨.hbm, 79, rfl⟩
abbrev main_v50 : Ref sig .tc := ⟨.hbm, 80, rfl⟩
abbrev main_v51 : Ref sig .tc := ⟨.hbm, 81, rfl⟩
abbrev main_c_13 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_15 : Ref sig .tc := ⟨.hbm, 92, rfl⟩
abbrev main_v60 : Ref sig .tc := ⟨.hbm, 93, rfl⟩
abbrev main_v61 : Ref sig .tc := ⟨.hbm, 94, rfl⟩
abbrev main_c_16 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_17 : Ref sig .tc := ⟨.hbm, 101, rfl⟩
abbrev main_v67 : Ref sig .tc := ⟨.hbm, 102, rfl⟩
abbrev main_v68 : Ref sig .tc := ⟨.hbm, 103, rfl⟩
abbrev main_c_18 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_19 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_20 : Ref sig .tc := ⟨.hbm, 117, rfl⟩
abbrev main_v80 : Ref sig .tc := ⟨.hbm, 118, rfl⟩
abbrev main_cst_21 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_22 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_23 : Ref sig .tc := ⟨.hbm, 130, rfl⟩
abbrev main_v90 : Ref sig .tc := ⟨.hbm, 131, rfl⟩
abbrev main_v91 : Ref sig .tc := ⟨.hbm, 132, rfl⟩
abbrev main_c_24 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_25 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_26 : Ref sig .tc := ⟨.hbm, 143, rfl⟩
abbrev main_v100 : Ref sig .tc := ⟨.hbm, 144, rfl⟩
abbrev main_v101 : Ref sig .tc := ⟨.hbm, 145, rfl⟩
abbrev main_c_27 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_28 : Ref sig .tc := ⟨.hbm, 152, rfl⟩
abbrev main_v107 : Ref sig .tc := ⟨.hbm, 153, rfl⟩
abbrev main_v108 : Ref sig .tc := ⟨.hbm, 154, rfl⟩
abbrev main_c_29 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_30 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_31 : Ref sig .tc := ⟨.hbm, 168, rfl⟩
abbrev main_v120 : Ref sig .tc := ⟨.hbm, 169, rfl⟩
abbrev main_cst_32 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_33 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_c_34 : Ref sig .tc := ⟨.hbm, 181, rfl⟩
abbrev main_v130 : Ref sig .tc := ⟨.hbm, 182, rfl⟩
abbrev main_v131 : Ref sig .tc := ⟨.hbm, 183, rfl⟩
abbrev main_c_35 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_36 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_c_37 : Ref sig .tc := ⟨.hbm, 194, rfl⟩
abbrev main_v140 : Ref sig .tc := ⟨.hbm, 195, rfl⟩
abbrev main_v141 : Ref sig .tc := ⟨.hbm, 196, rfl⟩
abbrev main_c_38 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_c_39 : Ref sig .tc := ⟨.hbm, 203, rfl⟩
abbrev main_v147 : Ref sig .tc := ⟨.hbm, 204, rfl⟩
abbrev main_v148 : Ref sig .tc := ⟨.hbm, 205, rfl⟩
abbrev main_c_40 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_41 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_cst_42 : Ref sig .tc := ⟨.hbm, 219, rfl⟩
abbrev main_v160 : Ref sig .tc := ⟨.hbm, 220, rfl⟩
abbrev main_cst_43 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_cst_44 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_c_45 : Ref sig .tc := ⟨.hbm, 232, rfl⟩
abbrev main_v170 : Ref sig .tc := ⟨.hbm, 233, rfl⟩
abbrev main_v171 : Ref sig .tc := ⟨.hbm, 234, rfl⟩
abbrev main_c_46 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_cst_47 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_c_48 : Ref sig .tc := ⟨.hbm, 245, rfl⟩
abbrev main_v180 : Ref sig .tc := ⟨.hbm, 246, rfl⟩
abbrev main_v181 : Ref sig .tc := ⟨.hbm, 247, rfl⟩
abbrev main_c_49 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_c_50 : Ref sig .tc := ⟨.hbm, 254, rfl⟩
abbrev main_v187 : Ref sig .tc := ⟨.hbm, 255, rfl⟩
abbrev main_v188 : Ref sig .tc := ⟨.hbm, 256, rfl⟩
abbrev main_c_51 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_cst_52 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_cst_53 : Ref sig .tc := ⟨.hbm, 270, rfl⟩
abbrev main_v200 : Ref sig .tc := ⟨.hbm, 271, rfl⟩
abbrev main_cst_54 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_cst_55 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_c_56 : Ref sig .tc := ⟨.hbm, 283, rfl⟩
abbrev main_v210 : Ref sig .tc := ⟨.hbm, 284, rfl⟩
abbrev main_v211 : Ref sig .tc := ⟨.hbm, 285, rfl⟩
abbrev main_c_57 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_cst_58 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_c_59 : Ref sig .tc := ⟨.hbm, 296, rfl⟩
abbrev main_v220 : Ref sig .tc := ⟨.hbm, 297, rfl⟩
abbrev main_v221 : Ref sig .tc := ⟨.hbm, 298, rfl⟩
abbrev main_c_60 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_c_61 : Ref sig .tc := ⟨.hbm, 305, rfl⟩
abbrev main_v227 : Ref sig .tc := ⟨.hbm, 306, rfl⟩
abbrev main_v228 : Ref sig .tc := ⟨.hbm, 307, rfl⟩
abbrev main_c_62 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_cst_63 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S44x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S44x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 2], ![false, false]⟩

def k1_cond2 (i : grid1.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S44x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S44x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 2], ![false, false]⟩

def k2_cond2 (i : grid2.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S44x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S44x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![2, 2], ![false, false]⟩

def k3_cond2 (i : grid3.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  ![arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S44x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S44x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![2, 2], ![false, false]⟩

def k4_cond2 (i : grid4.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S44x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S44x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![1, 2], ![false, false]⟩

def k5_cond2 (i : grid5.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_2 (i : grid5.Coords) : Fin 1 → Nat :=
  let arg0 : BitVec 32 := BitVec.ofNat 32 (i 0).val
  let arg1 : BitVec 32 := BitVec.ofNat 32 (i 1).val
  let c0_i32 : BitVec 32 := 0#32
  ![arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S44x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, false]

abbrev stage5_3 : Fin 1 → Memref sig .tc .vmem S44x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true, false]

class Facts₀ : Prop where
  bcast_S_S44 : S_.BroadcastsInDim S44 (![] : Fin 0 → Fin S44.rank)
  bcast_S_S14 : S_.BroadcastsInDim S14 (![] : Fin 0 → Fin S14.rank)
  bcast_S44_S44x1_0 : S44.BroadcastsInDim S44x1 (![0] : Fin 1 → Fin S44x1.rank)
  bcast_S_S14x4096 : S_.BroadcastsInDim S14x4096 (![] : Fin 0 → Fin S14x4096.rank)
  bcast_S14_S14x1_0 : S14.BroadcastsInDim S14x1 (![0] : Fin 1 → Fin S14x1.rank)
  bcast_S14x1_S14x4096_0_1 : S14x1.BroadcastsInDim S14x4096 (![0, 1] : Fin 2 → Fin S14x4096.rank)
  bcast_S_S44x4096 : S_.BroadcastsInDim S44x4096 (![] : Fin 0 → Fin S44x4096.rank)
  bitsLt_bf16_f32 : FTy.bits .bf16 < FTy.bits .f32
  inb_S44x2048_S44x2048_0_0 : ∀ a, (![0, 0] : Fin 2 → Nat) a + S44x2048.size a ≤ S44x2048.size a
  h_S44x2048 : 0 < S44x2048.numel
  shapeCasts_S44x2048_S44x2048 : S44x2048.ShapeCasts S44x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  transposes_S2048x2048_p1_0_S2048x2048 : S2048x2048.Transposes [1, 0] S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S44x2048 : S1x2048.Broadcasts S44x2048
  inb_S44x1_S44x1_0_0 : ∀ a, (![0, 0] : Fin 2 → Nat) a + S44x1.size a ≤ S44x1.size a
  h_S44x1 : 0 < S44x1.numel
  shapeCasts_S44x1_S44x1 : S44x1.ShapeCasts S44x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  transposes_S1x2048_p1_0_S2048x1 : S1x2048.Transposes [1, 0] S2048x1
  inb_S1_S1_0 : ∀ a, (![0] : Fin 1 → Nat) a + S1.size a ≤ S1.size a
  h_S1 : 0 < S1.numel
  shapeCasts_S1_S1x1 : S1.ShapeCasts S1x1
  broadcasts_S1x1_S44x1 : S1x1.Broadcasts S44x1
  scatter_S14_S44x1_S44_n_0_0_1_wf : ScatterDims.WF S14 S44x1 S44 [] [0] [0] 1
  scatter_S14x4096_S44x1_S44x4096_1_0_0_1_wf : ScatterDims.WF S14x4096 S44x1 S44x4096 [1] [0] [0] 1
  gather_S14x4096_S44x1_S44x4096_1_0_n_n_0_1_14096_wf : GatherDims.WF S14x4096 S44x1 S44x4096 [1] [0] [] [0] [] 1 ![1, 4096]
  dot_S44x2048_S2048x2048_S44x2048_1_0_0_1_n_n_wf : DotDims.WF S44x2048 S2048x2048 S44x2048 [1] [0] [0] [1] [] []
  dot_S44x2048_S2048x1_S44x1_1_0_0_1_n_n_wf : DotDims.WF S44x2048 S2048x1 S44x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S44x2048.size a ≤ S44x4096.size a
  hwx0_0 : ∀ i : grid0.Coords, EltTy.bits .bf16 = 32 ∨ (Rect.block (s := S44x4096) S44x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S4096x4096.size a
  hwx0_1 : ∀ i : grid0.Coords, EltTy.bits .bf16 = 32 ∨ (Rect.block (s := S4096x4096) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S4096.size a
  hwx0_2 : ∀ i : grid0.Coords, EltTy.bits .f32 = 32 ∨ (Rect.block (s := S4096) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S44x2048.size a ≤ S44x4096.size a
  hwx0_3 : ∀ i : grid0.Coords, EltTy.bits .f32 = 32 ∨ (Rect.block (s := S44x4096) S44x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S44x2048.size a ≤ S44x4096.size a
  hwx1_0 : ∀ i : grid1.Coords, EltTy.bits .bf16 = 32 ∨ (Rect.block (s := S44x4096) S44x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S4096x4096.size a
  hwx1_1 : ∀ i : grid1.Coords, EltTy.bits .bf16 = 32 ∨ (Rect.block (s := S4096x4096) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S4096.size a
  hwx1_2 : ∀ i : grid1.Coords, EltTy.bits .f32 = 32 ∨ (Rect.block (s := S4096) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S44x2048.size a ≤ S44x4096.size a
  hwx1_3 : ∀ i : grid1.Coords, EltTy.bits .f32 = 32 ∨ (Rect.block (s := S44x4096) S44x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S44x2048.size a ≤ S44x4096.size a
  hwx2_0 : ∀ i : grid2.Coords, EltTy.bits .bf16 = 32 ∨ (Rect.block (s := S44x4096) S44x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S4096x4096.size a
  hwx2_1 : ∀ i : grid2.Coords, EltTy.bits .bf16 = 32 ∨ (Rect.block (s := S4096x4096) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048.size a ≤ S4096.size a
  hwx2_2 : ∀ i : grid2.Coords, EltTy.bits .f32 = 32 ∨ (Rect.block (s := S4096) S2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S44x2048.size a ≤ S44x4096.size a
  hwx2_3 : ∀ i : grid2.Coords, EltTy.bits .f32 = 32 ∨ (Rect.block (s := S44x4096) S44x2048.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S44x2048.size a ≤ S44x4096.size a
  hwx3_0 : ∀ i : grid3.Coords, EltTy.bits .bf16 = 32 ∨ (Rect.block (s := S44x4096) S44x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x2048.size a ≤ S4096x4096.size a
  hwx3_1 : ∀ i : grid3.Coords, EltTy.bits .bf16 = 32 ∨ (Rect.block (s := S4096x4096) S2048x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048.size a ≤ S4096.size a
  hwx3_2 : ∀ i : grid3.Coords, EltTy.bits .f32 = 32 ∨ (Rect.block (s := S4096) S2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S44x2048.size a ≤ S44x4096.size a
  hwx3_3 : ∀ i : grid3.Coords, EltTy.bits .f32 = 32 ∨ (Rect.block (s := S44x4096) S44x2048.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S44x2048.size a ≤ S44x4096.size a
  hwx4_0 : ∀ i : grid4.Coords, EltTy.bits .bf16 = 32 ∨ (Rect.block (s := S44x4096) S44x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S4096x4096.size a
  hwx4_1 : ∀ i : grid4.Coords, EltTy.bits .bf16 = 32 ∨ (Rect.block (s := S4096x4096) S2048x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048.size a ≤ S4096.size a
  hwx4_2 : ∀ i : grid4.Coords, EltTy.bits .f32 = 32 ∨ (Rect.block (s := S4096) S2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S44x2048.size a ≤ S44x4096.size a
  hwx4_3 : ∀ i : grid4.Coords, EltTy.bits .f32 = 32 ∨ (Rect.block (s := S44x4096) S44x2048.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S44x2048.size a ≤ S44x4096.size a
  hwx5_0 : ∀ i : grid5.Coords, EltTy.bits .bf16 = 32 ∨ (Rect.block (s := S44x4096) S44x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x2048.size a ≤ S1x4096.size a
  hwx5_1 : ∀ i : grid5.Coords, EltTy.bits .bf16 = 32 ∨ (Rect.block (s := S1x4096) S1x2048.size (cc5_transform_1 i) (hinb5_1 i)).WholeWords (EltTy.packing .bf16)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1.size a ≤ S1.size a
  hwx5_2 : ∀ i : grid5.Coords, EltTy.bits .f32 = 32 ∨ (Rect.block (s := S1) S1.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S44x1.size a ≤ S44x1.size a
  hwx5_3 : ∀ i : grid5.Coords, EltTy.bits .f32 = 32 ∨ (Rect.block (s := S44x1) S44x1.size (cc5_transform_3 i) (hinb5_3 i)).WholeWords (EltTy.packing .f32)

variable [Facts₀]

def scatter_S14_S44x1_S44_n_0_0_1 : ScatterDims S14 S44x1 S44 where
  updateWindowDims := []
  insertedWindowDims := [0]
  scatterDimsToOperandDims := [0]
  indexVectorDim := 1
  wf := scatter_S14_S44x1_S44_n_0_0_1_wf
def scatter_S14x4096_S44x1_S44x4096_1_0_0_1 : ScatterDims S14x4096 S44x1 S44x4096 where
  updateWindowDims := [1]
  insertedWindowDims := [0]
  scatterDimsToOperandDims := [0]
  indexVectorDim := 1
  wf := scatter_S14x4096_S44x1_S44x4096_1_0_0_1_wf
def gather_S14x4096_S44x1_S44x4096_1_0_n_n_0_1_14096 : GatherDims S14x4096 S44x1 S44x4096 where
  offsetDims := [1]
  collapsedSliceDims := [0]
  operandBatchingDims := []
  startIndicesBatchingDims := []
  startIndexMap := [0]
  indexVectorDim := 1
  sliceSizes := ![1, 4096]
  wf := gather_S14x4096_S44x1_S44x4096_1_0_n_n_0_1_14096_wf
def dot_S44x2048_S2048x2048_S44x2048_1_0_0_1_n_n : DotDims S44x2048 S2048x2048 S44x2048 where
  lhsContracting := [1]
  rhsContracting := [0]
  lhsNonContracting := [0]
  rhsNonContracting := [1]
  lhsBatch := []
  rhsBatch := []
  wf := dot_S44x2048_S2048x2048_S44x2048_1_0_0_1_n_n_wf
def dot_S44x2048_S2048x1_S44x1_1_0_0_1_n_n : DotDims S44x2048 S2048x1 S44x1 where
  lhsContracting := [1]
  rhsContracting := [0]
  lhsNonContracting := [0]
  rhsNonContracting := [1]
  lhsBatch := []
  rhsBatch := []
  wf := dot_S44x2048_S2048x1_S44x1_1_0_0_1_n_n_wf

abbrev win0_0 : Pipeline.Window sig grid0 :=
  Pipeline.Window.ofSpec (Memref.whole main_v37) S44x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S44x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v77) S44x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v78) S2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v79) S44x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v117) S44x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v118) S2048x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v119) S44x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v157) S44x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v158) S2048x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v159) S44x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v197) S44x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v198) S2048x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v199) S44x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v237) S44x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v238) S1x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S1.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v239) S44x1.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S44x4096 : Shape := ⟨2, ![44, 4096]⟩
abbrev S44 : Shape := ⟨1, ![44]⟩
abbrev S4096x4096 : Shape := ⟨2, ![4096, 4096]⟩
abbrev S4096 : Shape := ⟨1, ![4096]⟩
abbrev S1x4096 : Shape := ⟨2, ![1, 4096]⟩
abbrev S1 : Shape := ⟨1, ![1]⟩
abbrev S_ : Shape := ⟨0, ![]⟩
abbrev S14 : Shape := ⟨1, ![14]⟩
abbrev S44x1 : Shape := ⟨2, ![44, 1]⟩
abbrev S14x4096 : Shape := ⟨2, ![14, 4096]⟩
abbrev S14x1 : Shape := ⟨2, ![14, 1]⟩
abbrev S4096x1 : Shape := ⟨2, ![4096, 1]⟩
abbrev S1x1 : Shape := ⟨2, ![1, 1]⟩

abbrev nBuf : Space → Nat
  | .hbm => 365
  | .vmem => 0
  | .smem => 0
  | _ => 0

abbrev hbmTy0_0 (i : Nat) : BufTy := match i % 128 with
  | 0 => ⟨S44x4096, .f32⟩
  | 1 => ⟨S44, .i32⟩
  | 2 => ⟨S44, .i32⟩
  | 3 => ⟨S4096x4096, .f32⟩
  | 4 => ⟨S4096, .f32⟩
  | 5 => ⟨S4096x4096, .f32⟩
  | 6 => ⟨S4096, .f32⟩
  | 7 => ⟨S4096x4096, .f32⟩
  | 8 => ⟨S4096, .f32⟩
  | 9 => ⟨S4096x4096, .f32⟩
  | 10 => ⟨S4096, .f32⟩
  | 11 => ⟨S4096x4096, .f32⟩
  | 12 => ⟨S4096, .f32⟩
  | 13 => ⟨S1x4096, .f32⟩
  | 14 => ⟨S1, .f32⟩
  | 15 => ⟨S_, .f32⟩
  | 16 => ⟨S44, .f32⟩
  | 17 => ⟨S_, .f32⟩
  | 18 => ⟨S14, .f32⟩
  | 19 => ⟨S44x1, .i32⟩
  | 20 => ⟨S14, .f32⟩
  | 21 => ⟨S_, .f32⟩
  | 22 => ⟨S14x4096, .f32⟩
  | 23 => ⟨S44x1, .i32⟩
  | 24 => ⟨S14x4096, .f32⟩
  | 25 => ⟨S14x1, .f32⟩
  | 26 => ⟨S14x4096, .f32⟩
  | 27 => ⟨S14x4096, .f32⟩
  | 28 => ⟨S_, .i32⟩
  | 29 => ⟨S44, .i32⟩
  | 30 => ⟨S44, .i1⟩
  | 31 => ⟨S_, .i32⟩
  | 32 => ⟨S44, .i32⟩
  | 33 => ⟨S44, .i32⟩
  | 34 => ⟨S44, .i32⟩
  | 35 => ⟨S44x1, .i32⟩
  | 36 => ⟨S44x4096, .f32⟩
  | 37 => ⟨S_, .f32⟩
  | 38 => ⟨S14x4096, .f32⟩
  | 39 => ⟨S44x1, .i32⟩
  | 40 => ⟨S14x4096, .f32⟩
  | 41 => ⟨S_, .i32⟩
  | 42 => ⟨S44, .i32⟩
  | 43 => ⟨S44, .i1⟩
  | 44 => ⟨S_, .i32⟩
  | 45 => ⟨S44, .i32⟩
  | 46 => ⟨S44, .i32⟩
  | 47 => ⟨S44, .i32⟩
  | 48 => ⟨S44x1, .i32⟩
  | 49 => ⟨S44x4096, .f32⟩
  | 50 => ⟨S_, .i32⟩
  | 51 => ⟨S44, .i32⟩
  | 52 => ⟨S44, .i1⟩
  | 53 => ⟨S_, .i32⟩
  | 54 => ⟨S44, .i32⟩
  | 55 => ⟨S44, .i32⟩
  | 56 => ⟨S44, .i32⟩
  | 57 => ⟨S44x1, .i32⟩
  | 58 => ⟨S44x4096, .f32⟩
  | 59 => ⟨S44x4096, .f32⟩
  | 60 => ⟨S_, .f32⟩
  | 61 => ⟨S44x4096, .f32⟩
  | 62 => ⟨S44x4096, .f32⟩
  | 63 => ⟨S4096x4096, .f32⟩
  | 64 => ⟨S44x4096, .f32⟩
  | 65 => ⟨S1x4096, .f32⟩
  | 66 => ⟨S44x4096, .f32⟩
  | 67 => ⟨S44x4096, .f32⟩
  | 68 => ⟨S_, .f32⟩
  | 69 => ⟨S_, .f32⟩
  | 70 => ⟨S44x4096, .f32⟩
  | 71 => ⟨S44x4096, .i1⟩
  | 72 => ⟨S_, .f32⟩
  | 73 => ⟨S44x4096, .f32⟩
  | 74 => ⟨S44x4096, .f32⟩
  | 75 => ⟨S44x4096, .f32⟩
  | 76 => ⟨S_, .f32⟩
  | 77 => ⟨S44, .f32⟩
  | 78 => ⟨S_, .f32⟩
  | 79 => ⟨S14, .f32⟩
  | 80 => ⟨S44x1, .i32⟩
  | 81 => ⟨S14, .f32⟩
  | 82 => ⟨S_, .f32⟩
  | 83 => ⟨S14x4096, .f32⟩
  | 84 => ⟨S44x1, .i32⟩
  | 85 => ⟨S14x4096, .f32⟩
  | 86 => ⟨S14x1, .f32⟩
  | 87 => ⟨S14x4096, .f32⟩
  | 88 => ⟨S14x4096, .f32⟩
  | 89 => ⟨S_, .i32⟩
  | 90 => ⟨S44, .i32⟩
  | 91 => ⟨S44, .i1⟩
  | 92 => ⟨S_, .i32⟩
  | 93 => ⟨S44, .i32⟩
  | 94 => ⟨S44, .i32⟩
  | 95 => ⟨S44, .i32⟩
  | 96 => ⟨S44x1, .i32⟩
  | 97 => ⟨S44x4096, .f32⟩
  | 98 => ⟨S_, .f32⟩
  | 99 => ⟨S14x4096, .f32⟩
  | 100 => ⟨S44x1, .i32⟩
  | 101 => ⟨S14x4096, .f32⟩
  | 102 => ⟨S_, .i32⟩
  | 103 => ⟨S44, .i32⟩
  | 104 => ⟨S44, .i1⟩
  | 105 => ⟨S_, .i32⟩
  | 106 => ⟨S44, .i32⟩
  | 107 => ⟨S44, .i32⟩
  | 108 => ⟨S44, .i32⟩
  | 109 => ⟨S44x1, .i32⟩
  | 110 => ⟨S44x4096, .f32⟩
  | 111 => ⟨S_, .i32⟩
  | 112 => ⟨S44, .i32⟩
  | 113 => ⟨S44, .i1⟩
  | 114 => ⟨S_, .i32⟩
  | 115 => ⟨S44, .i32⟩
  | 116 => ⟨S44, .i32⟩
  | 117 => ⟨S44, .i32⟩
  | 118 => ⟨S44x1, .i32⟩
  | 119 => ⟨S44x4096, .f32⟩
  | 120 => ⟨S44x4096, .f32⟩
  | 121 => ⟨S_, .f32⟩
  | 122 => ⟨S44x4096, .f32⟩
  | 123 => ⟨S44x4096, .f32⟩
  | 124 => ⟨S4096x4096, .f32⟩
  | 125 => ⟨S44x4096, .f32⟩
  | 126 => ⟨S1x4096, .f32⟩
  | 127 => ⟨S44x4096, .f32⟩
  | _ => ⟨S44x4096, .f32⟩

abbrev hbmTy0_1 (i : Nat) : BufTy := match i % 128 with
  | 0 => ⟨S44x4096, .f32⟩
  | 1 => ⟨S_, .f32⟩
  | 2 => ⟨S_, .f32⟩
  | 3 => ⟨S44x4096, .f32⟩
  | 4 => ⟨S44x4096, .i1⟩
  | 5 => ⟨S_, .f32⟩
  | 6 => ⟨S44x4096, .f32⟩
  | 7 => ⟨S44x4096, .f32⟩
  | 8 => ⟨S44x4096, .f32⟩
  | 9 => ⟨S_, .f32⟩
  | 10 => ⟨S44, .f32⟩
  | 11 => ⟨S_, .f32⟩
  | 12 => ⟨S14, .f32⟩
  | 13 => ⟨S44x1, .i32⟩
  | 14 => ⟨S14, .f32⟩
  | 15 => ⟨S_, .f32⟩
  | 16 => ⟨S14x4096, .f32⟩
  | 17 => ⟨S44x1, .i32⟩
  | 18 => ⟨S14x4096, .f32⟩
  | 19 => ⟨S14x1, .f32⟩
  | 20 => ⟨S14x4096, .f32⟩
  | 21 => ⟨S14x4096, .f32⟩
  | 22 => ⟨S_, .i32⟩
  | 23 => ⟨S44, .i32⟩
  | 24 => ⟨S44, .i1⟩
  | 25 => ⟨S_, .i32⟩
  | 26 => ⟨S44, .i32⟩
  | 27 => ⟨S44, .i32⟩
  | 28 => ⟨S44, .i32⟩
  | 29 => ⟨S44x1, .i32⟩
  | 30 => ⟨S44x4096, .f32⟩
  | 31 => ⟨S_, .f32⟩
  | 32 => ⟨S14x4096, .f32⟩
  | 33 => ⟨S44x1, .i32⟩
  | 34 => ⟨S14x4096, .f32⟩
  | 35 => ⟨S_, .i32⟩
  | 36 => ⟨S44, .i32⟩
  | 37 => ⟨S44, .i1⟩
  | 38 => ⟨S_, .i32⟩
  | 39 => ⟨S44, .i32⟩
  | 40 => ⟨S44, .i32⟩
  | 41 => ⟨S44, .i32⟩
  | 42 => ⟨S44x1, .i32⟩
  | 43 => ⟨S44x4096, .f32⟩
  | 44 => ⟨S_, .i32⟩
  | 45 => ⟨S44, .i32⟩
  | 46 => ⟨S44, .i1⟩
  | 47 => ⟨S_, .i32⟩
  | 48 => ⟨S44, .i32⟩
  | 49 => ⟨S44, .i32⟩
  | 50 => ⟨S44, .i32⟩
  | 51 => ⟨S44x1, .i32⟩
  | 52 => ⟨S44x4096, .f32⟩
  | 53 => ⟨S44x4096, .f32⟩
  | 54 => ⟨S_, .f32⟩
  | 55 => ⟨S44x4096, .f32⟩
  | 56 => ⟨S44x4096, .f32⟩
  | 57 => ⟨S4096x4096, .f32⟩
  | 58 => ⟨S44x4096, .f32⟩
  | 59 => ⟨S1x4096, .f32⟩
  | 60 => ⟨S44x4096, .f32⟩
  | 61 => ⟨S44x4096, .f32⟩
  | 62 => ⟨S_, .f32⟩
  | 63 => ⟨S44, .f32⟩
  | 64 => ⟨S_, .f32⟩
  | 65 => ⟨S14, .f32⟩
  | 66 => ⟨S44x1, .i32⟩
  | 67 => ⟨S14, .f32⟩
  | 68 => ⟨S_, .f32⟩
  | 69 => ⟨S14x4096, .f32⟩
  | 70 => ⟨S44x1, .i32⟩
  | 71 => ⟨S14x4096, .f32⟩
  | 72 => ⟨S14x1, .f32⟩
  | 73 => ⟨S14x4096, .f32⟩
  | 74 => ⟨S14x4096, .f32⟩
  | 75 => ⟨S_, .i32⟩
  | 76 => ⟨S44, .i32⟩
  | 77 => ⟨S44, .i1⟩
  | 78 => ⟨S_, .i32⟩
  | 79 => ⟨S44, .i32⟩
  | 80 => ⟨S44, .i32⟩
  | 81 => ⟨S44, .i32⟩
  | 82 => ⟨S44x1, .i32⟩
  | 83 => ⟨S44x4096, .f32⟩
  | 84 => ⟨S_, .f32⟩
  | 85 => ⟨S14x4096, .f32⟩
  | 86 => ⟨S44x1, .i32⟩
  | 87 => ⟨S14x4096, .f32⟩
  | 88 => ⟨S_, .i32⟩
  | 89 => ⟨S44, .i32⟩
  | 90 => ⟨S44, .i1⟩
  | 91 => ⟨S_, .i32⟩
  | 92 => ⟨S44, .i32⟩
  | 93 => ⟨S44, .i32⟩
  | 94 => ⟨S44, .i32⟩
  | 95 => ⟨S44x1, .i32⟩
  | 96 => ⟨S44x4096, .f32⟩
  | 97 => ⟨S_, .i32⟩
  | 98 => ⟨S44, .i32⟩
  | 99 => ⟨S44, .i1⟩
  | 100 => ⟨S_, .i32⟩
  | 101 => ⟨S44, .i32⟩
  | 102 => ⟨S44, .i32⟩
  | 103 => ⟨S44, .i32⟩
  | 104 => ⟨S44x1, .i32⟩
  | 105 => ⟨S44x4096, .f32⟩
  | 106 => ⟨S44x4096, .f32⟩
  | 107 => ⟨S_, .f32⟩
  | 108 => ⟨S44x4096, .f32⟩
  | 109 => ⟨S44x4096, .f32⟩
  | 110 => ⟨S4096x4096, .f32⟩
  | 111 => ⟨S44x4096, .f32⟩
  | 112 => ⟨S1x4096, .f32⟩
  | 113 => ⟨S44x4096, .f32⟩
  | 114 => ⟨S44x4096, .f32⟩
  | 115 => ⟨S_, .f32⟩
  | 116 => ⟨S_, .f32⟩
  | 117 => ⟨S44x4096, .f32⟩
  | 118 => ⟨S44x4096, .i1⟩
  | 119 => ⟨S_, .f32⟩
  | 120 => ⟨S44x4096, .f32⟩
  | 121 => ⟨S44x4096, .f32⟩
  | 122 => ⟨S44x4096, .f32⟩
  | 123 => ⟨S_, .f32⟩
  | 124 => ⟨S44, .f32⟩
  | 125 => ⟨S_, .f32⟩
  | 126 => ⟨S14, .f32⟩
  | 127 => ⟨S44x1, .i32⟩
  | _ => ⟨S44x4096, .f32⟩

abbrev hbmTy0_2 (i : Nat) : BufTy := match i % 128 with
  | 0 => ⟨S14, .f32⟩
  | 1 => ⟨S_, .f32⟩
  | 2 => ⟨S14x4096, .f32⟩
  | 3 => ⟨S44x1, .i32⟩
  | 4 => ⟨S14x4096, .f32⟩
  | 5 => ⟨S14x1, .f32⟩
  | 6 => ⟨S14x4096, .f32⟩
  | 7 => ⟨S14x4096, .f32⟩
  | 8 => ⟨S_, .i32⟩
  | 9 => ⟨S44, .i32⟩
  | 10 => ⟨S44, .i1⟩
  | 11 => ⟨S_, .i32⟩
  | 12 => ⟨S44, .i32⟩
  | 13 => ⟨S44, .i32⟩
  | 14 => ⟨S44, .i32⟩
  | 15 => ⟨S44x1, .i32⟩
  | 16 => ⟨S44x4096, .f32⟩
  | 17 => ⟨S_, .f32⟩
  | 18 => ⟨S14x4096, .f32⟩
  | 19 => ⟨S44x1, .i32⟩
  | 20 => ⟨S14x4096, .f32⟩
  | 21 => ⟨S_, .i32⟩
  | 22 => ⟨S44, .i32⟩
  | 23 => ⟨S44, .i1⟩
  | 24 => ⟨S_, .i32⟩
  | 25 => ⟨S44, .i32⟩
  | 26 => ⟨S44, .i32⟩
  | 27 => ⟨S44, .i32⟩
  | 28 => ⟨S44x1, .i32⟩
  | 29 => ⟨S44x4096, .f32⟩
  | 30 => ⟨S_, .i32⟩
  | 31 => ⟨S44, .i32⟩
  | 32 => ⟨S44, .i1⟩
  | 33 => ⟨S_, .i32⟩
  | 34 => ⟨S44, .i32⟩
  | 35 => ⟨S44, .i32⟩
  | 36 => ⟨S44, .i32⟩
  | 37 => ⟨S44x1, .i32⟩
  | 38 => ⟨S44x4096, .f32⟩
  | 39 => ⟨S44x4096, .f32⟩
  | 40 => ⟨S_, .f32⟩
  | 41 => ⟨S44x4096, .f32⟩
  | 42 => ⟨S44x4096, .f32⟩
  | 43 => ⟨S4096x4096, .f32⟩
  | 44 => ⟨S44x4096, .f32⟩
  | 45 => ⟨S1x4096, .f32⟩
  | 46 => ⟨S44x4096, .f32⟩
  | 47 => ⟨S44x4096, .f32⟩
  | 48 => ⟨S_, .f32⟩
  | 49 => ⟨S_, .f32⟩
  | 50 => ⟨S44x4096, .f32⟩
  | 51 => ⟨S44x4096, .i1⟩
  | 52 => ⟨S_, .f32⟩
  | 53 => ⟨S44x4096, .f32⟩
  | 54 => ⟨S44x4096, .f32⟩
  | 55 => ⟨S44x4096, .f32⟩
  | 56 => ⟨S_, .f32⟩
  | 57 => ⟨S44, .f32⟩
  | 58 => ⟨S_, .f32⟩
  | 59 => ⟨S14, .f32⟩
  | 60 => ⟨S44x1, .i32⟩
  | 61 => ⟨S14, .f32⟩
  | 62 => ⟨S_, .f32⟩
  | 63 => ⟨S14x4096, .f32⟩
  | 64 => ⟨S44x1, .i32⟩
  | 65 => ⟨S14x4096, .f32⟩
  | 66 => ⟨S14x1, .f32⟩
  | 67 => ⟨S14x4096, .f32⟩
  | 68 => ⟨S14x4096, .f32⟩
  | 69 => ⟨S_, .i32⟩
  | 70 => ⟨S44, .i32⟩
  | 71 => ⟨S44, .i1⟩
  | 72 => ⟨S_, .i32⟩
  | 73 => ⟨S44, .i32⟩
  | 74 => ⟨S44, .i32⟩
  | 75 => ⟨S44, .i32⟩
  | 76 => ⟨S44x1, .i32⟩
  | 77 => ⟨S44x4096, .f32⟩
  | 78 => ⟨S_, .f32⟩
  | 79 => ⟨S14x4096, .f32⟩
  | 80 => ⟨S44x1, .i32⟩
  | 81 => ⟨S14x4096, .f32⟩
  | 82 => ⟨S_, .i32⟩
  | 83 => ⟨S44, .i32⟩
  | 84 => ⟨S44, .i1⟩
  | 85 => ⟨S_, .i32⟩
  | 86 => ⟨S44, .i32⟩
  | 87 => ⟨S44, .i32⟩
  | 88 => ⟨S44, .i32⟩
  | 89 => ⟨S44x1, .i32⟩
  | 90 => ⟨S44x4096, .f32⟩
  | 91 => ⟨S_, .i32⟩
  | 92 => ⟨S44, .i32⟩
  | 93 => ⟨S44, .i1⟩
  | 94 => ⟨S_, .i32⟩
  | 95 => ⟨S44, .i32⟩
  | 96 => ⟨S44, .i32⟩
  | 97 => ⟨S44, .i32⟩
  | 98 => ⟨S44x1, .i32⟩
  | 99 => ⟨S44x4096, .f32⟩
  | 100 => ⟨S44x4096, .f32⟩
  | 101 => ⟨S_, .f32⟩
  | 102 => ⟨S44x4096, .f32⟩
  | 103 => ⟨S44x4096, .f32⟩
  | 104 => ⟨S4096x1, .f32⟩
  | 105 => ⟨S44x1, .f32⟩
  | 106 => ⟨S1x1, .f32⟩
  | 107 => ⟨S44x1, .f32⟩
  | 108 => ⟨S44x1, .f32⟩
  | _ => ⟨S44x4096, .f32⟩

abbrev hbmTy (i : Nat) : BufTy := match i / 128 with
  | 0 => hbmTy0_0 i
  | 1 => hbmTy0_1 i
  | 2 => hbmTy0_2 i
  | _ => ⟨S44x4096, .f32⟩

abbrev bufTy : (tb : Table) → Fin (tcTables nBuf tb) → BufTy
  | .hbm, ⟨i, _⟩ => hbmTy i
  | _, _ => ⟨S44x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v42 : Ref sig .tc := ⟨.hbm, 75, rfl⟩
abbrev main_cst_10 : Ref sig .tc := ⟨.hbm, 76, rfl⟩
abbrev main_v43 : Ref sig .tc := ⟨.hbm, 77, rfl⟩
abbrev main_cst_11 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_12 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_13 : Ref sig .tc := ⟨.hbm, 89, rfl⟩
abbrev main_v53 : Ref sig .tc := ⟨.hbm, 90, rfl⟩
abbrev main_v54 : Ref sig .tc := ⟨.hbm, 91, rfl⟩
abbrev main_c_14 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_15 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_c_16 : Ref sig .tc := ⟨.hbm, 102, rfl⟩
abbrev main_v63 : Ref sig .tc := ⟨.hbm, 103, rfl⟩
abbrev main_v64 : Ref sig .tc := ⟨.hbm, 104, rfl⟩
abbrev main_c_17 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_18 : Ref sig .tc := ⟨.hbm, 111, rfl⟩
abbrev main_v70 : Ref sig .tc := ⟨.hbm, 112, rfl⟩
abbrev main_v71 : Ref sig .tc := ⟨.hbm, 113, rfl⟩
abbrev main_c_19 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_20 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_21 : Ref sig .tc := ⟨.hbm, 129, rfl⟩
abbrev main_call1_cst : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_call1_v3 : Ref sig .tc := ⟨.hbm, 134, rfl⟩
abbrev main_call1_v4 : Ref sig .tc := ⟨.hbm, 135, rfl⟩
abbrev main_v85 : Ref sig .tc := ⟨.hbm, 136, rfl⟩
abbrev main_cst_22 : Ref sig .tc := ⟨.hbm, 137, rfl⟩
abbrev main_v86 : Ref sig .tc := ⟨.hbm, 138, rfl⟩
abbrev main_cst_23 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_cst_24 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_c_25 : Ref sig .tc := ⟨.hbm, 150, rfl⟩
abbrev main_v96 : Ref sig .tc := ⟨.hbm, 151, rfl⟩
abbrev main_v97 : Ref sig .tc := ⟨.hbm, 152, rfl⟩
abbrev main_c_26 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_27 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_c_28 : Ref sig .tc := ⟨.hbm, 163, rfl⟩
abbrev main_v106 : Ref sig .tc := ⟨.hbm, 164, rfl⟩
abbrev main_v107 : Ref sig .tc := ⟨.hbm, 165, rfl⟩
abbrev main_c_29 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_c_30 : Ref sig .tc := ⟨.hbm, 172, rfl⟩
abbrev main_v113 : Ref sig .tc := ⟨.hbm, 173, rfl⟩
abbrev main_v114 : Ref sig .tc := ⟨.hbm, 174, rfl⟩
abbrev main_c_31 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_cst_32 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_cst_33 : Ref sig .tc := ⟨.hbm, 190, rfl⟩
abbrev main_v128 : Ref sig .tc := ⟨.hbm, 191, rfl⟩
abbrev main_cst_34 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_cst_35 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_c_36 : Ref sig .tc := ⟨.hbm, 203, rfl⟩
abbrev main_v138 : Ref sig .tc := ⟨.hbm, 204, rfl⟩
abbrev main_v139 : Ref sig .tc := ⟨.hbm, 205, rfl⟩
abbrev main_c_37 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_cst_38 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_c_39 : Ref sig .tc := ⟨.hbm, 216, rfl⟩
abbrev main_v148 : Ref sig .tc := ⟨.hbm, 217, rfl⟩
abbrev main_v149 : Ref sig .tc := ⟨.hbm, 218, rfl⟩
abbrev main_c_40 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_c_41 : Ref sig .tc := ⟨.hbm, 225, rfl⟩
abbrev main_v155 : Ref sig .tc := ⟨.hbm, 226, rfl⟩
abbrev main_v156 : Ref sig .tc := ⟨.hbm, 227, rfl⟩
abbrev main_c_42 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_43 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_cst_44 : Ref sig .tc := ⟨.hbm, 243, rfl⟩
abbrev main_call2_cst : Ref sig .tc := ⟨.hbm, 244, rfl⟩
abbrev main_call2_v0 : Ref sig .tc := ⟨.hbm, 245, rfl⟩
abbrev main_call2_v1 : Ref sig .tc := ⟨.hbm, 246, rfl⟩
abbrev main_call2_v2 : Ref sig .tc := ⟨.hbm, 247, rfl⟩
abbrev main_call2_v3 : Ref sig .tc := ⟨.hbm, 248, rfl⟩
abbrev main_call2_v4 : Ref sig .tc := ⟨.hbm, 249, rfl⟩
abbrev main_v170 : Ref sig .tc := ⟨.hbm, 250, rfl⟩
abbrev main_cst_45 : Ref sig .tc := ⟨.hbm, 251, rfl⟩
abbrev main_v171 : Ref sig .tc := ⟨.hbm, 252, rfl⟩
abbrev main_cst_46 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_cst_47 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_c_48 : Ref sig .tc := ⟨.hbm, 264, rfl⟩
abbrev main_v181 : Ref sig .tc := ⟨.hbm, 265, rfl⟩
abbrev main_v182 : Ref sig .tc := ⟨.hbm, 266, rfl⟩
abbrev main_c_49 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_cst_50 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_c_51 : Ref sig .tc := ⟨.hbm, 277, rfl⟩
abbrev main_v191 : Ref sig .tc := ⟨.hbm, 278, rfl⟩
abbrev main_v192 : Ref sig .tc := ⟨.hbm, 279, rfl⟩
abbrev main_c_52 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_c_53 : Ref sig .tc := ⟨.hbm, 286, rfl⟩
abbrev main_v198 : Ref sig .tc := ⟨.hbm, 287, rfl⟩
abbrev main_v199 : Ref sig .tc := ⟨.hbm, 288, rfl⟩
abbrev main_c_54 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_cst_55 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_cst_56 : Ref sig .tc := ⟨.hbm, 304, rfl⟩
abbrev main_call3_cst : Ref sig .tc := ⟨.hbm, 305, rfl⟩
abbrev main_call3_v0 : Ref sig .tc := ⟨.hbm, 306, rfl⟩
abbrev main_call3_v1 : Ref sig .tc := ⟨.hbm, 307, rfl⟩
abbrev main_call3_v2 : Ref sig .tc := ⟨.hbm, 308, rfl⟩
abbrev main_call3_v3 : Ref sig .tc := ⟨.hbm, 309, rfl⟩
abbrev main_call3_v4 : Ref sig .tc := ⟨.hbm, 310, rfl⟩
abbrev main_v213 : Ref sig .tc := ⟨.hbm, 311, rfl⟩
abbrev main_cst_57 : Ref sig .tc := ⟨.hbm, 312, rfl⟩
abbrev main_v214 : Ref sig .tc := ⟨.hbm, 313, rfl⟩
abbrev main_cst_58 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_cst_59 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_c_60 : Ref sig .tc := ⟨.hbm, 325, rfl⟩
abbrev main_v224 : Ref sig .tc := ⟨.hbm, 326, rfl⟩
abbrev main_v225 : Ref sig .tc := ⟨.hbm, 327, rfl⟩
abbrev main_c_61 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_cst_62 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_c_63 : Ref sig .tc := ⟨.hbm, 338, rfl⟩
abbrev main_v234 : Ref sig .tc := ⟨.hbm, 339, rfl⟩
abbrev main_v235 : Ref sig .tc := ⟨.hbm, 340, rfl⟩
abbrev main_c_64 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_c_65 : Ref sig .tc := ⟨.hbm, 347, rfl⟩
abbrev main_v241 : Ref sig .tc := ⟨.hbm, 348, rfl⟩
abbrev main_v242 : Ref sig .tc := ⟨.hbm, 349, rfl⟩
abbrev main_c_66 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_cst_67 : Ref sig .tc := ⟨.hbm, 357, rfl⟩
abbrev main_v249 : Ref sig .tc := ⟨.hbm, 358, rfl⟩
abbrev main_v250 : Ref sig .tc := ⟨.hbm, 359, rfl⟩
abbrev main_v251 : Ref sig .tc := ⟨.hbm, 360, rfl⟩
abbrev main_v252 : Ref sig .tc := ⟨.hbm, 361, rfl⟩
abbrev main_v253 : Ref sig .tc := ⟨.hbm, 362, rfl⟩
abbrev main_v254 : Ref sig .tc := ⟨.hbm, 363, rfl⟩
abbrev main_v255 : Ref sig .tc := ⟨.hbm, 364, rfl⟩

abbrev nD : Nat := 1
abbrev τ : Topo := Topo.v7x

variable {F : FTy → Type} [FloatOps F]

class Facts₀ : Prop where
  bcast_S_S44 : S_.BroadcastsInDim S44 (![] : Fin 0 → Fin S44.rank)
  bcast_S_S14 : S_.BroadcastsInDim S14 (![] : Fin 0 → Fin S14.rank)
  bcast_S44_S44x1_0 : S44.BroadcastsInDim S44x1 (![0] : Fin 1 → Fin S44x1.rank)
  bcast_S_S14x4096 : S_.BroadcastsInDim S14x4096 (![] : Fin 0 → Fin S14x4096.rank)
  bcast_S14_S14x1_0 : S14.BroadcastsInDim S14x1 (![0] : Fin 1 → Fin S14x1.rank)
  bcast_S14x1_S14x4096_0_1 : S14x1.BroadcastsInDim S14x4096 (![0, 1] : Fin 2 → Fin S14x4096.rank)
  bcast_S_S44x4096 : S_.BroadcastsInDim S44x4096 (![] : Fin 0 → Fin S44x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S44x4096_0_1 : S1x4096.BroadcastsInDim S44x4096 (![0, 1] : Fin 2 → Fin S44x4096.rank)
  transposes_S1x4096_S4096x1_1_0 : S1x4096.Transposes [1, 0] S4096x1
  bcast_S1_S1x1_1 : S1.BroadcastsInDim S1x1 (![1] : Fin 1 → Fin S1x1.rank)
  bcast_S1x1_S44x1_0_1 : S1x1.BroadcastsInDim S44x1 (![0, 1] : Fin 2 → Fin S44x1.rank)
  scatter_S14_S44x1_S44_n_0_0_1_wf : ScatterDims.WF S14 S44x1 S44 [] [0] [0] 1
  scatter_S14x4096_S44x1_S44x4096_1_0_0_1_wf : ScatterDims.WF S14x4096 S44x1 S44x4096 [1] [0] [0] 1
  gather_S14x4096_S44x1_S44x4096_1_0_n_n_0_1_14096_wf : GatherDims.WF S14x4096 S44x1 S44x4096 [1] [0] [] [0] [] 1 ![1, 4096]
  dot_S44x4096_S4096x4096_S44x4096_1_0_0_1_n_n_wf : DotDims.WF S44x4096 S4096x4096 S44x4096 [1] [0] [0] [1] [] []
  dot_S44x4096_S4096x1_S44x1_1_0_0_1_n_n_wf : DotDims.WF S44x4096 S4096x1 S44x1 [1] [0] [0] [1] [] []

variable [Facts₀]

def scatter_S14_S44x1_S44_n_0_0_1 : ScatterDims S14 S44x1 S44 where
  updateWindowDims := []
  insertedWindowDims := [0]
  scatterDimsToOperandDims := [0]
  indexVectorDim := 1
  wf := scatter_S14_S44x1_S44_n_0_0_1_wf
def scatter_S14x4096_S44x1_S44x4096_1_0_0_1 : ScatterDims S14x4096 S44x1 S44x4096 where
  updateWindowDims := [1]
  insertedWindowDims := [0]
  scatterDimsToOperandDims := [0]
  indexVectorDim := 1
  wf := scatter_S14x4096_S44x1_S44x4096_1_0_0_1_wf
def gather_S14x4096_S44x1_S44x4096_1_0_n_n_0_1_14096 : GatherDims S14x4096 S44x1 S44x4096 where
  offsetDims := [1]
  collapsedSliceDims := [0]
  operandBatchingDims := []
  startIndicesBatchingDims := []
  startIndexMap := [0]
  indexVectorDim := 1
  sliceSizes := ![1, 4096]
  wf := gather_S14x4096_S44x1_S44x4096_1_0_n_n_0_1_14096_wf
def dot_S44x4096_S4096x4096_S44x4096_1_0_0_1_n_n : DotDims S44x4096 S4096x4096 S44x4096 where
  lhsContracting := [1]
  rhsContracting := [0]
  lhsNonContracting := [0]
  rhsNonContracting := [1]
  lhsBatch := []
  rhsBatch := []
  wf := dot_S44x4096_S4096x4096_S44x4096_1_0_0_1_n_n_wf
def dot_S44x4096_S4096x1_S44x1_1_0_0_1_n_n : DotDims S44x4096 S4096x1 S44x1 where
  lhsContracting := [1]
  rhsContracting := [0]
  lhsNonContracting := [0]
  rhsNonContracting := [1]
  lhsBatch := []
  rhsBatch := []
  wf := dot_S44x4096_S4096x1_S44x1_1_0_0_1_n_n_wf

class Facts : Prop extends Facts₀ where

variable [Facts]
-- ==== Proof.BitsR0Base.lean ====
/-
  Region 0 of the program: one launch of the blocked linear kernel over the grid (output block n, contraction block k).
  Stated here, for any float instance and at any contents `V` of the buffers when the region is entered:
  the two branch conditions of the body as functions of the grid point (k = 0: the accumulator is zeroed first;
  k = 1: the output block is written), where the output window rests, and each window's block at a point read off
  its array.
-/
import proofs.«135243_j27986006901491_1_alg».proof.Proof.Gen.Kernel.Launch
import proofs.«135243_j27986006901491_1_alg».proof.Proof.Gen.Kernel.Skeleton
import proofs.«135243_j27986006901491_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (when it is not
    fetched its block index has not moved), for any proof data whose array is `V`'s and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The first branch (zero the accumulator) is taken when the contraction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second branch (write the output block) is taken when the contraction coordinate is the last, 1. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows rest -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a point with k = 0 nothing is stored into the output window, and its block is not written back there. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At a point with k = 1 the output window is stored. -/
theorem liveAt0_3_C : ∀ t : Fin cfg0.N, ¬cond0_0 (grid0.coords t) → cond0_1 (grid0.coords t) → cfg0.idle 3 (grid0.coords t) = false := by decide +kernel

/-! ## The staging memrefs and the accumulator -/

/-- One staging buffer of the output window, through which its contents are stated (which one does not matter). -/
abbrev VO0_3 : View sig .tc .vmem S44x2048 .f32 := (Memref.whole cc0_stg3_0 : Memref sig .tc .vmem S44x2048 .f32).view
abbrev ms0_0 (t : Fin cfg0.N) : Memref sig .tc .vmem S44x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S44x2048 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0_0 : Memref sig .tc .vmem S44x2048 .f32 := Memref.whole cc0_scratch0
abbrev VS0_0 : View sig .tc .vmem S44x2048 .f32 := scM0_0.view

/-- The scoped buffers no window stages, with the accumulator taken out as a memref owned at some contents. -/
theorem scopedRest0_acc (c : Dev nD) :
    (Pipeline.scopedRest (Ix := Unit) (Name := ℕ) (U := UR sig nD τ) (Lvl := ℕ) (Val := Elt F) spec0 c : sProp 𝕄)
      = iprop(iprop((∃ d, owns (c : Thread nD τ) scM0_0 fullShare d))
          ∗ Pipeline.scopedRestBut (Ix := Unit) (Name := ℕ) (U := UR sig nD τ) (Lvl := ℕ) (Val := Elt F) spec0 c [cc0_scratch0]) := by
  rw [scopedRest0_split]; simp only [scM0_0, owns_whole]; try rfl

end Cert.Kernel.Fr

end
-- ==== Proof.BitsR0RunA.lean ====
/-
  Region 0, a grid point with contraction coordinate k = 0: the body zeroes the accumulator, adds this point's
  product of the activation block with the transposed weight block, and leaves the output window alone. Run once on
  arbitrary whole staging memrefs; what the accumulator ends with is found by the run as a list of stored pieces.
-/
import proofs.«135243_j27986006901491_1_alg».proof.Proof.BitsR0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 0, from the inputs' buffers at their contents, the output's buffer at any contents
    (handed back untouched) and the accumulator at anything: it runs to the continuation with the inputs as they
    were and the accumulator holding its stored pieces. -/
noncomputable def kernelRun0_A (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond0_0 i) (hc1 : ¬cond0_1 i)
    (x0 : Vec F S44x2048 .bf16) (x1 : Vec F S2048x2048 .bf16) (x2 : Vec F S2048 .f32) :
    Σ' (L3 : List (View.Piece (Elt F) S44x2048 .f32)), { LS0 : List (View.Piece (Elt F) S44x2048 .f32) //
      ∀ (xi3 : Vec F S44x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__linear_kernel i arg2 harg2 arg3 harg3 arg4 harg4 arg5 harg5 arg6 harg6) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.BitsR0RunC.lean ====
/-
  Region 0, a grid point with contraction coordinate k = 1 (the last): the body adds this point's product to the
  accumulator the point before left, then stores accumulator plus bias (through the activation, where the layer has
  one) into the output window. Run once on arbitrary whole staging memrefs; what the accumulator and the output
  window end with is found by the run as lists of stored pieces.
-/
import proofs.«135243_j27986006901491_1_alg».proof.Proof.BitsR0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 1, from the inputs' buffers at their contents, the output's buffer at anything and
    the accumulator at what the point before left (`xs0`): it runs to the continuation with the inputs as they were,
    the output's buffer and the accumulator holding their stored pieces. -/
noncomputable def kernelRun0_C (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond0_0 i) (hc1 : cond0_1 i)
    (x0 : Vec F S44x2048 .bf16) (x1 : Vec F S2048x2048 .bf16) (x2 : Vec F S2048 .f32) (xs0 : Vec F S44x2048 .f32) :
    Σ' (L3 : List (View.Piece (Elt F) S44x2048 .f32)), { LS0 : List (View.Piece (Elt F) S44x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__linear_kernel i arg2 harg2 arg3 harg3 arg4 harg4 arg5 harg5 arg6 harg6) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.BitsR0Frame.lean ====
/-
  Region 0: what the body leaves at each grid point, the pipeline's proof data, and the body obligation.
  A point with k = 0 leaves in the accumulator its stored pieces over nothing (the output window rests); a point with
  k = 1 leaves in the accumulator and in the output window their stored pieces over what the point before left in the
  accumulator. The region's invariant before point n > 0 is the accumulator at what point n − 1 left, beside the
  scoped buffers no window stages and the generator register; before the first point the accumulator is at anything.
-/
import proofs.«135243_j27986006901491_1_alg».proof.Proof.BitsR0RunA
import proofs.«135243_j27986006901491_1_alg».proof.Proof.BitsR0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A point with k = 0 stores nothing into the output window: a placeholder nothing consults. -/
def out0_A_3 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond0_0 i) (hc1 : ¬cond0_1 i)
    (x0 : Vec F S44x2048 .bf16) (x1 : Vec F S2048x2048 .bf16) (x2 : Vec F S2048 .f32) : Vec F S44x2048 .f32 :=
  VO0_3.read (Elt F) (VO0_3.writes (Elt F) VO0_3.junk (kernelRun0_A c i arg2 harg2 arg3 harg3 arg4 harg4 arg5 harg5 arg6 harg6 hc0 hc1 x0 x1 x2).1)

/-- The pieces a point with k = 0 stores into the accumulator cover it. -/
theorem scover0_A_0 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond0_0 i) (hc1 : ¬cond0_1 i)
    (x0 : Vec F S44x2048 .bf16) (x1 : Vec F S2048x2048 .bf16) (x2 : Vec F S2048 .f32) (y : S44x2048.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S44x2048.size (by sl_kernel_rfl) y

/-- What a point with k = 0 leaves in the accumulator. -/
def sout0_A_0 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond0_0 i) (hc1 : ¬cond0_1 i)
    (x0 : Vec F S44x2048 .bf16) (x1 : Vec F S2048x2048 .bf16) (x2 : Vec F S2048 .f32) : Vec F S44x2048 .f32 :=
  VS0_0.read (Elt F) (VS0_0.writes (Elt F) VS0_0.junk (kernelRun0_A c i arg2 harg2 arg3 harg3 arg4 harg4 arg5 harg5 arg6 harg6 hc0 hc1 x0 x1 x2).2.1)

/-- The pieces a point with k = 1 stores into the output window cover its block. -/
theorem cover0_C_3 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond0_0 i) (hc1 : cond0_1 i)
    (x0 : Vec F S44x2048 .bf16) (x1 : Vec F S2048x2048 .bf16) (x2 : Vec F S2048 .f32) (xs0 : Vec F S44x2048 .f32) (y : S44x2048.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S44x2048.size (by sl_kernel_rfl) y

/-- What a point with k = 1 leaves in the output window's staging buffer. -/
def out0_C_3 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond0_0 i) (hc1 : cond0_1 i)
    (x0 : Vec F S44x2048 .bf16) (x1 : Vec F S2048x2048 .bf16) (x2 : Vec F S2048 .f32) (xs0 : Vec F S44x2048 .f32) : Vec F S44x2048 .f32 :=
  VO0_3.read (Elt F) (VO0_3.writes (Elt F) VO0_3.junk (kernelRun0_C c i arg2 harg2 arg3 harg3 arg4 harg4 arg5 harg5 arg6 harg6 hc0 hc1 x0 x1 x2 xs0).1)

/-- The pieces a point with k = 1 stores into the accumulator cover it. -/
theorem scover0_C_0 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond0_0 i) (hc1 : cond0_1 i)
    (x0 : Vec F S44x2048 .bf16) (x1 : Vec F S2048x2048 .bf16) (x2 : Vec F S2048 .f32) (xs0 : Vec F S44x2048 .f32) (y : S44x2048.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S44x2048.size (by sl_kernel_rfl) y

/-- What a point with k = 1 leaves in the accumulator. -/
def sout0_C_0 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond0_0 i) (hc1 : cond0_1 i)
    (x0 : Vec F S44x2048 .bf16) (x1 : Vec F S2048x2048 .bf16) (x2 : Vec F S2048 .f32) (xs0 : Vec F S44x2048 .f32) : Vec F S44x2048 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output window and the accumulator hold after each point -/

/-- After the body at position `n`: (the output window's staging buffer, the accumulator). An even position has
    k = 0, an odd one k = 1 and reads the accumulator the position before left. -/
def outsAt0 (c : Dev nD) : (n : ℕ) → n < cfg0.N → Vec F S44x2048 .f32 × Vec F S44x2048 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr (by (try dsimp only at h0 ⊢); omega)) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr (by (try dsimp only at h0 ⊢); omega)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 2 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => (fun h => by (try dsimp only at h); omega) ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => (fun h => by (try dsimp only at h); omega) ((hcond0_1 t).mp h)) (iblk0 V c 0 t) (iblk0 V c 1 t) (iblk0 V c 2 t)) := by
  obtain ⟨n, hn⟩ := t
  cases n with
  | zero => exact rfl
  | succ n => exact (dif_pos h0).trans rfl

theorem outsAt0_C (c : Dev nD) (t : Fin cfg0.N) (h0 : ¬t.val % 2 = 0) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr (by (try dsimp only at h0 ⊢); omega)) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr (by (try dsimp only at h0 ⊢); omega)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant, point by point -/

abbrev restBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop(iprop((∃ d, owns (c : Thread nD τ) scM0_0 fullShare d)) ∗ restBut0 c) ∗ (∃ r, prngReg c r)) := by
  unfold Pipeline.ΦA; rw [scopedRest0_acc]

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 c) ∗ (∃ r, prngReg c r)) := by
  cases n with
  | zero => exact absurd rfl hz
  | succ n => rfl

/-! ## The pipeline's proof data -/

/-- The arrays as the region finds them; after the body at point `t` each input's buffer at its block and the
    output's at what `outsAt0` says; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the parity of the position says which case the
    point is in; the invariant hands the body the accumulator (at anything before the first point, otherwise at what
    the point before left) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 2 = 0
  · have hc0 : cond0_0 (grid0.coords t) := (hcond0_0 t).mpr h0
    have hc1 : ¬cond0_1 (grid0.coords t) := fun h => (fun h => by (try dsimp only at h); omega) ((hcond0_1 t).mp h)
    rw [Dat.leavesExact_idle (dat0 V c) 3 t (idleAt0_3_A t hc0 hc1) (noFlush0_3_A t hc0 hc1)]
    rw [outsAt0_A V c t h0]
    unfold sout0_A_0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond0_0 (grid0.coords t) := fun h => h0 ((hcond0_0 t).mp h)
    have hc1 : cond0_1 (grid0.coords t) := (hcond0_1 t).mpr (by (try dsimp only at h0 ⊢); omega)
    rw [show (dat0 V c).leavesExact 3 t = owns (c : Thread nD τ) (ms0_3 t) fullShare ((dat0 V c).after 3 t) from by
      unfold Dat.leavesExact; rw [liveAt0_3_C t hc0 hc1], after0_3]
    rw [outsAt0_C V c t h0]
    unfold out0_C_3 sout0_C_0; (try dsimp only)
    have hz : t.val ≠ 0 := fun e => h0 (by rw [e])
    rw [PhiS0_castSucc V c t, PhiS0_pos V c _ _ hz]
    iintro ⟨⟨⟨HS0, Hr⟩, Hg⟩, Ho, ⟨%d0, H0⟩, ⟨%d1, H1⟩, ⟨%d2, H2⟩, ⟨%d3, H3⟩⟩
    iapply ((kernelRun0_C c (grid0.coords t) _ _ _ _ _ _ _ _ _ _ hc0 hc1 (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the same back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 4 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hr⟩, Hg⟩
  isplitl [HS0 Hr]
  · isplitl [HS0]
    · iexists _; iexact HS0
    iexact Hr
  iexact Hg

end Cert.Kernel.Fr

end
-- ==== Proof.BitsR1Base.lean ====
/-
  Region 1 of the program: one launch of the blocked linear kernel over the grid (output block n, contraction block k).
  Stated here, for any float instance and at any contents `V` of the buffers when the region is entered:
  the two branch conditions of the body as functions of the grid point (k = 0: the accumulator is zeroed first;
  k = 1: the output block is written), where the output window rests, and each window's block at a point read off
  its array.
-/
import proofs.«135243_j27986006901491_1_alg».proof.Proof.Gen.Kernel.Launch
import proofs.«135243_j27986006901491_1_alg».proof.Proof.Gen.Kernel.Skeleton
import proofs.«135243_j27986006901491_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched its block index has not moved), for any proof data whose array is `V`'s and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first branch (zero the accumulator) is taken when the contraction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- The second branch (write the output block) is taken when the contraction coordinate is the last, 1. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows rest -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a point with k = 0 nothing is stored into the output window, and its block is not written back there. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At a point with k = 1 the output window is stored. -/
theorem liveAt1_3_C : ∀ t : Fin cfg1.N, ¬cond1_0 (grid1.coords t) → cond1_1 (grid1.coords t) → cfg1.idle 3 (grid1.coords t) = false := by decide +kernel

/-! ## The staging memrefs and the accumulator -/

/-- One staging buffer of the output window, through which its contents are stated (which one does not matter). -/
abbrev VO1_3 : View sig .tc .vmem S44x2048 .f32 := (Memref.whole cc1_stg3_0 : Memref sig .tc .vmem S44x2048 .f32).view
abbrev ms1_0 (t : Fin cfg1.N) : Memref sig .tc .vmem S44x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S44x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S44x2048 .f32 := Memref.whole cc1_scratch0
abbrev VS1_0 : View sig .tc .vmem S44x2048 .f32 := scM1_0.view

/-- The scoped buffers no window stages, with the accumulator taken out as a memref owned at some contents. -/
theorem scopedRest1_acc (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d))
          ∗ Pipeline.scopedRestBut (Ix := Unit) (Name := ℕ) (U := UR sig nD τ) (Lvl := ℕ) (Val := Elt F) spec1 c [cc1_scratch0]) := by
  rw [scopedRest1_split]; simp only [scM1_0, owns_whole]; try rfl

end Cert.Kernel.Fr

end
-- ==== Proof.BitsR1RunA.lean ====
/-
  Region 1, a grid point with contraction coordinate k = 0: the body zeroes the accumulator, adds this point's
  product of the activation block with the transposed weight block, and leaves the output window alone. Run once on
  arbitrary whole staging memrefs; what the accumulator ends with is found by the run as a list of stored pieces.
-/
import proofs.«135243_j27986006901491_1_alg».proof.Proof.BitsR1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 0, from the inputs' buffers at their contents, the output's buffer at any contents
    (handed back untouched) and the accumulator at anything: it runs to the continuation with the inputs as they
    were and the accumulator holding its stored pieces. -/
noncomputable def kernelRun1_A (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond1_0 i) (hc1 : ¬cond1_1 i)
    (x0 : Vec F S44x2048 .bf16) (x1 : Vec F S2048x2048 .bf16) (x2 : Vec F S2048 .f32) :
    Σ' (L3 : List (View.Piece (Elt F) S44x2048 .f32)), { LS0 : List (View.Piece (Elt F) S44x2048 .f32) //
      ∀ (xi3 : Vec F S44x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.BitsR1RunC.lean ====
/-
  Region 1, a grid point with contraction coordinate k = 1 (the last): the body adds this point's product to the
  accumulator the point before left, then stores accumulator plus bias (through the activation, where the layer has
  one) into the output window. Run once on arbitrary whole staging memrefs; what the accumulator and the output
  window end with is found by the run as lists of stored pieces.
-/
import proofs.«135243_j27986006901491_1_alg».proof.Proof.BitsR1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 1, from the inputs' buffers at their contents, the output's buffer at anything and
    the accumulator at what the point before left (`xs0`): it runs to the continuation with the inputs as they were,
    the output's buffer and the accumulator holding their stored pieces. -/
noncomputable def kernelRun1_C (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond1_0 i) (hc1 : cond1_1 i)
    (x0 : Vec F S44x2048 .bf16) (x1 : Vec F S2048x2048 .bf16) (x2 : Vec F S2048 .f32) (xs0 : Vec F S44x2048 .f32) :
    Σ' (L3 : List (View.Piece (Elt F) S44x2048 .f32)), { LS0 : List (View.Piece (Elt F) S44x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.BitsR1Frame.lean ====
/-
  Region 1: what the body leaves at each grid point, the pipeline's proof data, and the body obligation.
  A point with k = 0 leaves in the accumulator its stored pieces over nothing (the output window rests); a point with
  k = 1 leaves in the accumulator and in the output window their stored pieces over what the point before left in the
  accumulator. The region's invariant before point n > 0 is the accumulator at what point n − 1 left, beside the
  scoped buffers no window stages and the generator register; before the first point the accumulator is at anything.
-/
import proofs.«135243_j27986006901491_1_alg».proof.Proof.BitsR1RunA
import proofs.«135243_j27986006901491_1_alg».proof.Proof.BitsR1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A point with k = 0 stores nothing into the output window: a placeholder nothing consults. -/
def out1_A_3 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond1_0 i) (hc1 : ¬cond1_1 i)
    (x0 : Vec F S44x2048 .bf16) (x1 : Vec F S2048x2048 .bf16) (x2 : Vec F S2048 .f32) : Vec F S44x2048 .f32 :=
  VO1_3.read (Elt F) (VO1_3.writes (Elt F) VO1_3.junk (kernelRun1_A c i arg2 harg2 arg3 harg3 arg4 harg4 arg5 harg5 arg6 harg6 hc0 hc1 x0 x1 x2).1)

/-- The pieces a point with k = 0 stores into the accumulator cover it. -/
theorem scover1_A_0 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond1_0 i) (hc1 : ¬cond1_1 i)
    (x0 : Vec F S44x2048 .bf16) (x1 : Vec F S2048x2048 .bf16) (x2 : Vec F S2048 .f32) (y : S44x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S44x2048.size (by sl_kernel_rfl) y

/-- What a point with k = 0 leaves in the accumulator. -/
def sout1_A_0 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond1_0 i) (hc1 : ¬cond1_1 i)
    (x0 : Vec F S44x2048 .bf16) (x1 : Vec F S2048x2048 .bf16) (x2 : Vec F S2048 .f32) : Vec F S44x2048 .f32 :=
  VS1_0.read (Elt F) (VS1_0.writes (Elt F) VS1_0.junk (kernelRun1_A c i arg2 harg2 arg3 harg3 arg4 harg4 arg5 harg5 arg6 harg6 hc0 hc1 x0 x1 x2).2.1)

/-- The pieces a point with k = 1 stores into the output window cover its block. -/
theorem cover1_C_3 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond1_0 i) (hc1 : cond1_1 i)
    (x0 : Vec F S44x2048 .bf16) (x1 : Vec F S2048x2048 .bf16) (x2 : Vec F S2048 .f32) (xs0 : Vec F S44x2048 .f32) (y : S44x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S44x2048.size (by sl_kernel_rfl) y

/-- What a point with k = 1 leaves in the output window's staging buffer. -/
def out1_C_3 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond1_0 i) (hc1 : cond1_1 i)
    (x0 : Vec F S44x2048 .bf16) (x1 : Vec F S2048x2048 .bf16) (x2 : Vec F S2048 .f32) (xs0 : Vec F S44x2048 .f32) : Vec F S44x2048 .f32 :=
  VO1_3.read (Elt F) (VO1_3.writes (Elt F) VO1_3.junk (kernelRun1_C c i arg2 harg2 arg3 harg3 arg4 harg4 arg5 harg5 arg6 harg6 hc0 hc1 x0 x1 x2 xs0).1)

/-- The pieces a point with k = 1 stores into the accumulator cover it. -/
theorem scover1_C_0 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond1_0 i) (hc1 : cond1_1 i)
    (x0 : Vec F S44x2048 .bf16) (x1 : Vec F S2048x2048 .bf16) (x2 : Vec F S2048 .f32) (xs0 : Vec F S44x2048 .f32) (y : S44x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S44x2048.size (by sl_kernel_rfl) y

/-- What a point with k = 1 leaves in the accumulator. -/
def sout1_C_0 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond1_0 i) (hc1 : cond1_1 i)
    (x0 : Vec F S44x2048 .bf16) (x1 : Vec F S2048x2048 .bf16) (x2 : Vec F S2048 .f32) (xs0 : Vec F S44x2048 .f32) : Vec F S44x2048 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output window and the accumulator hold after each point -/

/-- After the body at position `n`: (the output window's staging buffer, the accumulator). An even position has
    k = 0, an odd one k = 1 and reads the accumulator the position before left. -/
def outsAt1 (c : Dev nD) : (n : ℕ) → n < cfg1.N → Vec F S44x2048 .f32 × Vec F S44x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (by (try dsimp only at h0 ⊢); omega)) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (by (try dsimp only at h0 ⊢); omega)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 2 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => (fun h => by (try dsimp only at h); omega) ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => (fun h => by (try dsimp only at h); omega) ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_C (c : Dev nD) (t : Fin cfg1.N) (h0 : ¬t.val % 2 = 0) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr (by (try dsimp only at h0 ⊢); omega)) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr (by (try dsimp only at h0 ⊢); omega)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant, point by point -/

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1_0 fullShare d)) ∗ restBut1 c) ∗ (∃ r, prngReg c r)) := by
  unfold Pipeline.ΦA; rw [scopedRest1_acc]

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 c) ∗ (∃ r, prngReg c r)) := by
  cases n with
  | zero => exact absurd rfl hz
  | succ n => rfl

/-! ## The pipeline's proof data -/

/-- The arrays as the region finds them; after the body at point `t` each input's buffer at its block and the
    output's at what `outsAt1` says; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the parity of the position says which case the
    point is in; the invariant hands the body the accumulator (at anything before the first point, otherwise at what
    the point before left) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have hc0 : cond1_0 (grid1.coords t) := (hcond1_0 t).mpr h0
    have hc1 : ¬cond1_1 (grid1.coords t) := fun h => (fun h => by (try dsimp only at h); omega) ((hcond1_1 t).mp h)
    rw [Dat.leavesExact_idle (dat1 V c) 3 t (idleAt1_3_A t hc0 hc1) (noFlush1_3_A t hc0 hc1)]
    rw [outsAt1_A V c t h0]
    unfold sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hc1 : cond1_1 (grid1.coords t) := (hcond1_1 t).mpr (by (try dsimp only at h0 ⊢); omega)
    rw [show (dat1 V c).leavesExact 3 t = owns (c : Thread nD τ) (ms1_3 t) fullShare ((dat1 V c).after 3 t) from by
      unfold Dat.leavesExact; rw [liveAt1_3_C t hc0 hc1], after1_3]
    rw [outsAt1_C V c t h0]
    unfold out1_C_3 sout1_C_0; (try dsimp only)
    have hz : t.val ≠ 0 := fun e => h0 (by rw [e])
    rw [PhiS1_castSucc V c t, PhiS1_pos V c _ _ hz]
    iintro ⟨⟨⟨HS0, Hr⟩, Hg⟩, Ho, ⟨%d0, H0⟩, ⟨%d1, H1⟩, ⟨%d2, H2⟩, ⟨%d3, H3⟩⟩
    iapply ((kernelRun1_C c (grid1.coords t) _ _ _ _ _ _ _ _ _ _ hc0 hc1 (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_C_0 c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the same back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 4 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hr⟩, Hg⟩
  isplitl [HS0 Hr]
  · isplitl [HS0]
    · iexists _; iexact HS0
    iexact Hr
  iexact Hg

end Cert.Kernel.Fr

end
-- ==== Proof.BitsR2Base.lean ====
/-
  Region 2 of the program: one launch of the blocked linear kernel over the grid (output block n, contraction block k).
  Stated here, for any float instance and at any contents `V` of the buffers when the region is entered:
  the two branch conditions of the body as functions of the grid point (k = 0: the accumulator is zeroed first;
  k = 1: the output block is written), where the output window rests, and each window's block at a point read off
  its array.
-/
import proofs.«135243_j27986006901491_1_alg».proof.Proof.Gen.Kernel.Launch
import proofs.«135243_j27986006901491_1_alg».proof.Proof.Gen.Kernel.Skeleton
import proofs.«135243_j27986006901491_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (when it is not
    fetched its block index has not moved), for any proof data whose array is `V`'s and whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions -/

/-- The first branch (zero the accumulator) is taken when the contraction coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

/-- The second branch (write the output block) is taken when the contraction coordinate is the last, 1. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows rest -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At a point with k = 0 nothing is stored into the output window, and its block is not written back there. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
/-- At a point with k = 1 the output window is stored. -/
theorem liveAt2_3_C : ∀ t : Fin cfg2.N, ¬cond2_0 (grid2.coords t) → cond2_1 (grid2.coords t) → cfg2.idle 3 (grid2.coords t) = false := by decide +kernel

/-! ## The staging memrefs and the accumulator -/

/-- One staging buffer of the output window, through which its contents are stated (which one does not matter). -/
abbrev VO2_3 : View sig .tc .vmem S44x2048 .f32 := (Memref.whole cc2_stg3_0 : Memref sig .tc .vmem S44x2048 .f32).view
abbrev ms2_0 (t : Fin cfg2.N) : Memref sig .tc .vmem S44x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S44x2048 .f32 := win2_3.stage (cfg2.slots t 3)
abbrev hs2_3 (t : Fin cfg2.N) : (ms2_3 t).IsWhole := hstage2_3 ((cfg2.slots t 3).cast nbuf2_3)
/-- The accumulator: a whole scoped buffer of the kernel's own, carried from point to point. -/
abbrev scM2_0 : Memref sig .tc .vmem S44x2048 .f32 := Memref.whole cc2_scratch0
abbrev VS2_0 : View sig .tc .vmem S44x2048 .f32 := scM2_0.view

/-- The scoped buffers no window stages, with the accumulator taken out as a memref owned at some contents. -/
theorem scopedRest2_acc (c : Dev nD) :
    (Pipeline.scopedRest (Ix := Unit) (Name := ℕ) (U := UR sig nD τ) (Lvl := ℕ) (Val := Elt F) spec2 c : sProp 𝕄)
      = iprop(iprop((∃ d, owns (c : Thread nD τ) scM2_0 fullShare d))
          ∗ Pipeline.scopedRestBut (Ix := Unit) (Name := ℕ) (U := UR sig nD τ) (Lvl := ℕ) (Val := Elt F) spec2 c [cc2_scratch0]) := by
  rw [scopedRest2_split]; simp only [scM2_0, owns_whole]; try rfl

end Cert.Kernel.Fr

end
-- ==== Proof.BitsR2RunA.lean ====
/-
  Region 2, a grid point with contraction coordinate k = 0: the body zeroes the accumulator, adds this point's
  product of the activation block with the transposed weight block, and leaves the output window alone. Run once on
  arbitrary whole staging memrefs; what the accumulator ends with is found by the run as a list of stored pieces.
-/
import proofs.«135243_j27986006901491_1_alg».proof.Proof.BitsR2Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 0, from the inputs' buffers at their contents, the output's buffer at any contents
    (handed back untouched) and the accumulator at anything: it runs to the continuation with the inputs as they
    were and the accumulator holding its stored pieces. -/
noncomputable def kernelRun2_A (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond2_0 i) (hc1 : ¬cond2_1 i)
    (x0 : Vec F S44x2048 .bf16) (x1 : Vec F S2048x2048 .bf16) (x2 : Vec F S2048 .f32) :
    Σ' (L3 : List (View.Piece (Elt F) S44x2048 .f32)), { LS0 : List (View.Piece (Elt F) S44x2048 .f32) //
      ∀ (xi3 : Vec F S44x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__linear_kernel i arg2 harg2 arg3 harg3 arg4 harg4 arg5 harg5 arg6 harg6) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.BitsR2RunC.lean ====
/-
  Region 2, a grid point with contraction coordinate k = 1 (the last): the body adds this point's product to the
  accumulator the point before left, then stores accumulator plus bias (through the activation, where the layer has
  one) into the output window. Run once on arbitrary whole staging memrefs; what the accumulator and the output
  window end with is found by the run as lists of stored pieces.
-/
import proofs.«135243_j27986006901491_1_alg».proof.Proof.BitsR2Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 1, from the inputs' buffers at their contents, the output's buffer at anything and
    the accumulator at what the point before left (`xs0`): it runs to the continuation with the inputs as they were,
    the output's buffer and the accumulator holding their stored pieces. -/
noncomputable def kernelRun2_C (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond2_0 i) (hc1 : cond2_1 i)
    (x0 : Vec F S44x2048 .bf16) (x1 : Vec F S2048x2048 .bf16) (x2 : Vec F S2048 .f32) (xs0 : Vec F S44x2048 .f32) :
    Σ' (L3 : List (View.Piece (Elt F) S44x2048 .f32)), { LS0 : List (View.Piece (Elt F) S44x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__linear_kernel i arg2 harg2 arg3 harg3 arg4 harg4 arg5 harg5 arg6 harg6) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.BitsR2Frame.lean ====
/-
  Region 2: what the body leaves at each grid point, the pipeline's proof data, and the body obligation.
  A point with k = 0 leaves in the accumulator its stored pieces over nothing (the output window rests); a point with
  k = 1 leaves in the accumulator and in the output window their stored pieces over what the point before left in the
  accumulator. The region's invariant before point n > 0 is the accumulator at what point n − 1 left, beside the
  scoped buffers no window stages and the generator register; before the first point the accumulator is at anything.
-/
import proofs.«135243_j27986006901491_1_alg».proof.Proof.BitsR2RunA
import proofs.«135243_j27986006901491_1_alg».proof.Proof.BitsR2RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A point with k = 0 stores nothing into the output window: a placeholder nothing consults. -/
def out2_A_3 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond2_0 i) (hc1 : ¬cond2_1 i)
    (x0 : Vec F S44x2048 .bf16) (x1 : Vec F S2048x2048 .bf16) (x2 : Vec F S2048 .f32) : Vec F S44x2048 .f32 :=
  VO2_3.read (Elt F) (VO2_3.writes (Elt F) VO2_3.junk (kernelRun2_A c i arg2 harg2 arg3 harg3 arg4 harg4 arg5 harg5 arg6 harg6 hc0 hc1 x0 x1 x2).1)

/-- The pieces a point with k = 0 stores into the accumulator cover it. -/
theorem scover2_A_0 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond2_0 i) (hc1 : ¬cond2_1 i)
    (x0 : Vec F S44x2048 .bf16) (x1 : Vec F S2048x2048 .bf16) (x2 : Vec F S2048 .f32) (y : S44x2048.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S44x2048.size (by sl_kernel_rfl) y

/-- What a point with k = 0 leaves in the accumulator. -/
def sout2_A_0 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond2_0 i) (hc1 : ¬cond2_1 i)
    (x0 : Vec F S44x2048 .bf16) (x1 : Vec F S2048x2048 .bf16) (x2 : Vec F S2048 .f32) : Vec F S44x2048 .f32 :=
  VS2_0.read (Elt F) (VS2_0.writes (Elt F) VS2_0.junk (kernelRun2_A c i arg2 harg2 arg3 harg3 arg4 harg4 arg5 harg5 arg6 harg6 hc0 hc1 x0 x1 x2).2.1)

/-- The pieces a point with k = 1 stores into the output window cover its block. -/
theorem cover2_C_3 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond2_0 i) (hc1 : cond2_1 i)
    (x0 : Vec F S44x2048 .bf16) (x1 : Vec F S2048x2048 .bf16) (x2 : Vec F S2048 .f32) (xs0 : Vec F S44x2048 .f32) (y : S44x2048.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S44x2048.size (by sl_kernel_rfl) y

/-- What a point with k = 1 leaves in the output window's staging buffer. -/
def out2_C_3 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond2_0 i) (hc1 : cond2_1 i)
    (x0 : Vec F S44x2048 .bf16) (x1 : Vec F S2048x2048 .bf16) (x2 : Vec F S2048 .f32) (xs0 : Vec F S44x2048 .f32) : Vec F S44x2048 .f32 :=
  VO2_3.read (Elt F) (VO2_3.writes (Elt F) VO2_3.junk (kernelRun2_C c i arg2 harg2 arg3 harg3 arg4 harg4 arg5 harg5 arg6 harg6 hc0 hc1 x0 x1 x2 xs0).1)

/-- The pieces a point with k = 1 stores into the accumulator cover it. -/
theorem scover2_C_0 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond2_0 i) (hc1 : cond2_1 i)
    (x0 : Vec F S44x2048 .bf16) (x1 : Vec F S2048x2048 .bf16) (x2 : Vec F S2048 .f32) (xs0 : Vec F S44x2048 .f32) (y : S44x2048.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S44x2048.size (by sl_kernel_rfl) y

/-- What a point with k = 1 leaves in the accumulator. -/
def sout2_C_0 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond2_0 i) (hc1 : cond2_1 i)
    (x0 : Vec F S44x2048 .bf16) (x1 : Vec F S2048x2048 .bf16) (x2 : Vec F S2048 .f32) (xs0 : Vec F S44x2048 .f32) : Vec F S44x2048 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output window and the accumulator hold after each point -/

/-- After the body at position `n`: (the output window's staging buffer, the accumulator). An even position has
    k = 0, an odd one k = 1 and reads the accumulator the position before left. -/
def outsAt2 (c : Dev nD) : (n : ℕ) → n < cfg2.N → Vec F S44x2048 .f32 × Vec F S44x2048 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 2 = 0 then
      (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩))
    else
      (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr (by (try dsimp only at h0 ⊢); omega)) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr (by (try dsimp only at h0 ⊢); omega)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 2 = 0) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => (fun h => by (try dsimp only at h); omega) ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => (fun h => by (try dsimp only at h); omega) ((hcond2_1 t).mp h)) (iblk2 V c 0 t) (iblk2 V c 1 t) (iblk2 V c 2 t)) := by
  obtain ⟨n, hn⟩ := t
  cases n with
  | zero => exact rfl
  | succ n => exact (dif_pos h0).trans rfl

theorem outsAt2_C (c : Dev nD) (t : Fin cfg2.N) (h0 : ¬t.val % 2 = 0) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr (by (try dsimp only at h0 ⊢); omega)) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr (by (try dsimp only at h0 ⊢); omega)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant, point by point -/

abbrev restBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop(iprop((∃ d, owns (c : Thread nD τ) scM2_0 fullShare d)) ∗ restBut2 c) ∗ (∃ r, prngReg c r)) := by
  unfold Pipeline.ΦA; rw [scopedRest2_acc]

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 c) ∗ (∃ r, prngReg c r)) := by
  cases n with
  | zero => exact absurd rfl hz
  | succ n => rfl

/-! ## The pipeline's proof data -/

/-- The arrays as the region finds them; after the body at point `t` each input's buffer at its block and the
    output's at what `outsAt2` says; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the parity of the position says which case the
    point is in; the invariant hands the body the accumulator (at anything before the first point, otherwise at what
    the point before left) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 2 = 0
  · have hc0 : cond2_0 (grid2.coords t) := (hcond2_0 t).mpr h0
    have hc1 : ¬cond2_1 (grid2.coords t) := fun h => (fun h => by (try dsimp only at h); omega) ((hcond2_1 t).mp h)
    rw [Dat.leavesExact_idle (dat2 V c) 3 t (idleAt2_3_A t hc0 hc1) (noFlush2_3_A t hc0 hc1)]
    rw [outsAt2_A V c t h0]
    unfold sout2_A_0; (try dsimp only)
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond2_0 (grid2.coords t) := fun h => h0 ((hcond2_0 t).mp h)
    have hc1 : cond2_1 (grid2.coords t) := (hcond2_1 t).mpr (by (try dsimp only at h0 ⊢); omega)
    rw [show (dat2 V c).leavesExact 3 t = owns (c : Thread nD τ) (ms2_3 t) fullShare ((dat2 V c).after 3 t) from by
      unfold Dat.leavesExact; rw [liveAt2_3_C t hc0 hc1], after2_3]
    rw [outsAt2_C V c t h0]
    unfold out2_C_3 sout2_C_0; (try dsimp only)
    have hz : t.val ≠ 0 := fun e => h0 (by rw [e])
    rw [PhiS2_castSucc V c t, PhiS2_pos V c _ _ hz]
    iintro ⟨⟨⟨HS0, Hr⟩, Hg⟩, Ho, ⟨%d0, H0⟩, ⟨%d1, H1⟩, ⟨%d2, H2⟩, ⟨%d3, H3⟩⟩
    iapply ((kernelRun2_C c (grid2.coords t) _ _ _ _ _ _ _ _ _ _ hc0 hc1 (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover2_C_0 c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C_3 c _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the same back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 4 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hr⟩, Hg⟩
  isplitl [HS0 Hr]
  · isplitl [HS0]
    · iexists _; iexact HS0
    iexact Hr
  iexact Hg

end Cert.Kernel.Fr

end
-- ==== Proof.BitsR3Base.lean ====
/-
  Region 3 of the program: one launch of the blocked linear kernel over the grid (output block n, contraction block k).
  Stated here, for any float instance and at any contents `V` of the buffers when the region is entered:
  the two branch conditions of the body as functions of the grid point (k = 0: the accumulator is zeroed first;
  k = 1: the output block is written), where the output window rests, and each window's block at a point read off
  its array.
-/
import proofs.«135243_j27986006901491_1_alg».proof.Proof.Gen.Kernel.Launch
import proofs.«135243_j27986006901491_1_alg».proof.Proof.Gen.Kernel.Skeleton
import proofs.«135243_j27986006901491_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (when it is not
    fetched its block index has not moved), for any proof data whose array is `V`'s and whose body leaves the block
    in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions -/

/-- The first branch (zero the accumulator) is taken when the contraction coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)

/-- The second branch (write the output block) is taken when the contraction coordinate is the last, 1. -/
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

/-! ## Where the windows rest -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At a point with k = 0 nothing is stored into the output window, and its block is not written back there. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- At a point with k = 1 the output window is stored. -/
theorem liveAt3_3_C : ∀ t : Fin cfg3.N, ¬cond3_0 (grid3.coords t) → cond3_1 (grid3.coords t) → cfg3.idle 3 (grid3.coords t) = false := by decide +kernel

/-! ## The staging memrefs and the accumulator -/

/-- One staging buffer of the output window, through which its contents are stated (which one does not matter). -/
abbrev VO3_3 : View sig .tc .vmem S44x2048 .f32 := (Memref.whole cc3_stg3_0 : Memref sig .tc .vmem S44x2048 .f32).view
abbrev ms3_0 (t : Fin cfg3.N) : Memref sig .tc .vmem S44x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S44x2048 .f32 := win3_3.stage (cfg3.slots t 3)
abbrev hs3_3 (t : Fin cfg3.N) : (ms3_3 t).IsWhole := hstage3_3 ((cfg3.slots t 3).cast nbuf3_3)
/-- The accumulator: a whole scoped buffer of the kernel's own, carried from point to point. -/
abbrev scM3_0 : Memref sig .tc .vmem S44x2048 .f32 := Memref.whole cc3_scratch0
abbrev VS3_0 : View sig .tc .vmem S44x2048 .f32 := scM3_0.view

/-- The scoped buffers no window stages, with the accumulator taken out as a memref owned at some contents. -/
theorem scopedRest3_acc (c : Dev nD) :
    (Pipeline.scopedRest (Ix := Unit) (Name := ℕ) (U := UR sig nD τ) (Lvl := ℕ) (Val := Elt F) spec3 c : sProp 𝕄)
      = iprop(iprop((∃ d, owns (c : Thread nD τ) scM3_0 fullShare d))
          ∗ Pipeline.scopedRestBut (Ix := Unit) (Name := ℕ) (U := UR sig nD τ) (Lvl := ℕ) (Val := Elt F) spec3 c [cc3_scratch0]) := by
  rw [scopedRest3_split]; simp only [scM3_0, owns_whole]; try rfl

end Cert.Kernel.Fr

end
-- ==== Proof.BitsR3RunA.lean ====
/-
  Region 3, a grid point with contraction coordinate k = 0: the body zeroes the accumulator, adds this point's
  product of the activation block with the transposed weight block, and leaves the output window alone. Run once on
  arbitrary whole staging memrefs; what the accumulator ends with is found by the run as a list of stored pieces.
-/
import proofs.«135243_j27986006901491_1_alg».proof.Proof.BitsR3Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 0, from the inputs' buffers at their contents, the output's buffer at any contents
    (handed back untouched) and the accumulator at anything: it runs to the continuation with the inputs as they
    were and the accumulator holding its stored pieces. -/
noncomputable def kernelRun3_A (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond3_0 i) (hc1 : ¬cond3_1 i)
    (x0 : Vec F S44x2048 .bf16) (x1 : Vec F S2048x2048 .bf16) (x2 : Vec F S2048 .f32) :
    Σ' (L3 : List (View.Piece (Elt F) S44x2048 .f32)), { LS0 : List (View.Piece (Elt F) S44x2048 .f32) //
      ∀ (xi3 : Vec F S44x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__linear_kernel i arg2 harg2 arg3 harg3 arg4 harg4 arg5 harg5 arg6 harg6) K } := by
  refine ⟨[], ?_, fun xi3 E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.BitsR3RunC.lean ====
/-
  Region 3, a grid point with contraction coordinate k = 1 (the last): the body adds this point's product to the
  accumulator the point before left, then stores accumulator plus bias (through the activation, where the layer has
  one) into the output window. Run once on arbitrary whole staging memrefs; what the accumulator and the output
  window end with is found by the run as lists of stored pieces.
-/
import proofs.«135243_j27986006901491_1_alg».proof.Proof.BitsR3Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 1, from the inputs' buffers at their contents, the output's buffer at anything and
    the accumulator at what the point before left (`xs0`): it runs to the continuation with the inputs as they were,
    the output's buffer and the accumulator holding their stored pieces. -/
noncomputable def kernelRun3_C (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond3_0 i) (hc1 : cond3_1 i)
    (x0 : Vec F S44x2048 .bf16) (x1 : Vec F S2048x2048 .bf16) (x2 : Vec F S2048 .f32) (xs0 : Vec F S44x2048 .f32) :
    Σ' (L3 : List (View.Piece (Elt F) S44x2048 .f32)), { LS0 : List (View.Piece (Elt F) S44x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__linear_kernel i arg2 harg2 arg3 harg3 arg4 harg4 arg5 harg5 arg6 harg6) K } := by
  refine ⟨?_, ?_, fun E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.BitsR3Frame.lean ====
/-
  Region 3: what the body leaves at each grid point, the pipeline's proof data, and the body obligation.
  A point with k = 0 leaves in the accumulator its stored pieces over nothing (the output window rests); a point with
  k = 1 leaves in the accumulator and in the output window their stored pieces over what the point before left in the
  accumulator. The region's invariant before point n > 0 is the accumulator at what point n − 1 left, beside the
  scoped buffers no window stages and the generator register; before the first point the accumulator is at anything.
-/
import proofs.«135243_j27986006901491_1_alg».proof.Proof.BitsR3RunA
import proofs.«135243_j27986006901491_1_alg».proof.Proof.BitsR3RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A point with k = 0 stores nothing into the output window: a placeholder nothing consults. -/
def out3_A_3 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond3_0 i) (hc1 : ¬cond3_1 i)
    (x0 : Vec F S44x2048 .bf16) (x1 : Vec F S2048x2048 .bf16) (x2 : Vec F S2048 .f32) : Vec F S44x2048 .f32 :=
  VO3_3.read (Elt F) (VO3_3.writes (Elt F) VO3_3.junk (kernelRun3_A c i arg2 harg2 arg3 harg3 arg4 harg4 arg5 harg5 arg6 harg6 hc0 hc1 x0 x1 x2).1)

/-- The pieces a point with k = 0 stores into the accumulator cover it. -/
theorem scover3_A_0 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond3_0 i) (hc1 : ¬cond3_1 i)
    (x0 : Vec F S44x2048 .bf16) (x1 : Vec F S2048x2048 .bf16) (x2 : Vec F S2048 .f32) (y : S44x2048.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S44x2048.size (by sl_kernel_rfl) y

/-- What a point with k = 0 leaves in the accumulator. -/
def sout3_A_0 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond3_0 i) (hc1 : ¬cond3_1 i)
    (x0 : Vec F S44x2048 .bf16) (x1 : Vec F S2048x2048 .bf16) (x2 : Vec F S2048 .f32) : Vec F S44x2048 .f32 :=
  VS3_0.read (Elt F) (VS3_0.writes (Elt F) VS3_0.junk (kernelRun3_A c i arg2 harg2 arg3 harg3 arg4 harg4 arg5 harg5 arg6 harg6 hc0 hc1 x0 x1 x2).2.1)

/-- The pieces a point with k = 1 stores into the output window cover its block. -/
theorem cover3_C_3 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond3_0 i) (hc1 : cond3_1 i)
    (x0 : Vec F S44x2048 .bf16) (x1 : Vec F S2048x2048 .bf16) (x2 : Vec F S2048 .f32) (xs0 : Vec F S44x2048 .f32) (y : S44x2048.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S44x2048.size (by sl_kernel_rfl) y

/-- What a point with k = 1 leaves in the output window's staging buffer. -/
def out3_C_3 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond3_0 i) (hc1 : cond3_1 i)
    (x0 : Vec F S44x2048 .bf16) (x1 : Vec F S2048x2048 .bf16) (x2 : Vec F S2048 .f32) (xs0 : Vec F S44x2048 .f32) : Vec F S44x2048 .f32 :=
  VO3_3.read (Elt F) (VO3_3.writes (Elt F) VO3_3.junk (kernelRun3_C c i arg2 harg2 arg3 harg3 arg4 harg4 arg5 harg5 arg6 harg6 hc0 hc1 x0 x1 x2 xs0).1)

/-- The pieces a point with k = 1 stores into the accumulator cover it. -/
theorem scover3_C_0 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond3_0 i) (hc1 : cond3_1 i)
    (x0 : Vec F S44x2048 .bf16) (x1 : Vec F S2048x2048 .bf16) (x2 : Vec F S2048 .f32) (xs0 : Vec F S44x2048 .f32) (y : S44x2048.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S44x2048.size (by sl_kernel_rfl) y

/-- What a point with k = 1 leaves in the accumulator. -/
def sout3_C_0 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond3_0 i) (hc1 : cond3_1 i)
    (x0 : Vec F S44x2048 .bf16) (x1 : Vec F S2048x2048 .bf16) (x2 : Vec F S2048 .f32) (xs0 : Vec F S44x2048 .f32) : Vec F S44x2048 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output window and the accumulator hold after each point -/

/-- After the body at position `n`: (the output window's staging buffer, the accumulator). An even position has
    k = 0, an odd one k = 1 and reads the accumulator the position before left. -/
def outsAt3 (c : Dev nD) : (n : ℕ) → n < cfg3.N → Vec F S44x2048 .f32 × Vec F S44x2048 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 2 = 0 then
      (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => (fun h => by (try dsimp only at h); omega) ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => (fun h => by (try dsimp only at h); omega) ((hcond3_1 ⟨n + 1, hn⟩).mp h)) (iblk3 V c 0 ⟨n + 1, hn⟩) (iblk3 V c 1 ⟨n + 1, hn⟩) (iblk3 V c 2 ⟨n + 1, hn⟩))
    else
      (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr (by (try dsimp only at h0 ⊢); omega)) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr (by (try dsimp only at h0 ⊢); omega)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 2 = 0) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => (fun h => by (try dsimp only at h); omega) ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => (fun h => by (try dsimp only at h); omega) ((hcond3_1 t).mp h)) (iblk3 V c 0 t) (iblk3 V c 1 t) (iblk3 V c 2 t)) := by
  obtain ⟨n, hn⟩ := t
  cases n with
  | zero => exact rfl
  | succ n => exact (dif_pos h0).trans rfl

theorem outsAt3_C (c : Dev nD) (t : Fin cfg3.N) (h0 : ¬t.val % 2 = 0) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr (by (try dsimp only at h0 ⊢); omega)) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr (by (try dsimp only at h0 ⊢); omega)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant, point by point -/

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns (c : Thread nD τ) scM3_0 fullShare d)) ∗ restBut3 c) ∗ (∃ r, prngReg c r)) := by
  unfold Pipeline.ΦA; rw [scopedRest3_acc]

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ restBut3 c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ restBut3 c) ∗ (∃ r, prngReg c r)) := by
  cases n with
  | zero => exact absurd rfl hz
  | succ n => rfl

/-! ## The pipeline's proof data -/

/-- The arrays as the region finds them; after the body at point `t` each input's buffer at its block and the
    output's at what `outsAt3` says; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the parity of the position says which case the
    point is in; the invariant hands the body the accumulator (at anything before the first point, otherwise at what
    the point before left) and takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 2 = 0
  · have hc0 : cond3_0 (grid3.coords t) := (hcond3_0 t).mpr h0
    have hc1 : ¬cond3_1 (grid3.coords t) := fun h => (fun h => by (try dsimp only at h); omega) ((hcond3_1 t).mp h)
    rw [Dat.leavesExact_idle (dat3 V c) 3 t (idleAt3_3_A t hc0 hc1) (noFlush3_3_A t hc0 hc1)]
    rw [outsAt3_A V c t h0]
    unfold sout3_A_0; (try dsimp only)
    by_cases hz : t.val = 0
    · rw [PhiS3_castSucc V c t, PhiS3_zero V c _ _ hz, PhiA3_eq]
      iintro ⟨⟨⟨HS0, Hr⟩, Hg⟩, Ho, ⟨%d0, H0⟩, ⟨%d1, H1⟩, ⟨%d2, H2⟩, ⟨%d3, H3⟩⟩
      iapply ((kernelRun3_A c (grid3.coords t) _ _ _ _ _ _ _ _ _ _ hc0 hc1 (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩⟩
      iapply ((kernelRun3_A c (grid3.coords t) _ _ _ _ _ _ _ _ _ _ hc0 hc1 (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond3_0 (grid3.coords t) := fun h => h0 ((hcond3_0 t).mp h)
    have hc1 : cond3_1 (grid3.coords t) := (hcond3_1 t).mpr (by (try dsimp only at h0 ⊢); omega)
    rw [show (dat3 V c).leavesExact 3 t = owns (c : Thread nD τ) (ms3_3 t) fullShare ((dat3 V c).after 3 t) from by
      unfold Dat.leavesExact; rw [liveAt3_3_C t hc0 hc1], after3_3]
    rw [outsAt3_C V c t h0]
    unfold out3_C_3 sout3_C_0; (try dsimp only)
    have hz : t.val ≠ 0 := fun e => h0 (by rw [e])
    rw [PhiS3_castSucc V c t, PhiS3_pos V c _ _ hz]
    iintro ⟨⟨⟨HS0, Hr⟩, Hg⟩, Ho, ⟨%d0, H0⟩, ⟨%d1, H1⟩, ⟨%d2, H2⟩, ⟨%d3, H3⟩⟩
    iapply ((kernelRun3_C c (grid3.coords t) _ _ _ _ _ _ _ _ _ _ hc0 hc1 (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_C_0 c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_C_3 c _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the same back: the accumulator's contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 4 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, Hr⟩, Hg⟩
  isplitl [HS0 Hr]
  · isplitl [HS0]
    · iexists _; iexact HS0
    iexact Hr
  iexact Hg

end Cert.Kernel.Fr

end
-- ==== Proof.BitsR4Base.lean ====
/-
  Region 4 of the program: one launch of the blocked linear kernel over the grid (output block n, contraction block k).
  Stated here, for any float instance and at any contents `V` of the buffers when the region is entered:
  the two branch conditions of the body as functions of the grid point (k = 0: the accumulator is zeroed first;
  k = 1: the output block is written), where the output window rests, and each window's block at a point read off
  its array.
-/
import proofs.«135243_j27986006901491_1_alg».proof.Proof.Gen.Kernel.Launch
import proofs.«135243_j27986006901491_1_alg».proof.Proof.Gen.Kernel.Skeleton
import proofs.«135243_j27986006901491_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (when it is not
    fetched its block index has not moved), for any proof data whose array is `V`'s and whose body leaves the block
    in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions -/

/-- The first branch (zero the accumulator) is taken when the contraction coordinate is 0. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 2 = 0 :=
  (by decide +kernel : ∀ t : Fin grid4.N, cond4_0 (grid4.coords t) ↔ t.val % 2 = 0)

/-- The second branch (write the output block) is taken when the contraction coordinate is the last, 1. -/
abbrev cond4_1 (i : grid4.Coords) : Prop := k4_cond2 i = 1#1
theorem hcond4_1 : ∀ t : Fin cfg4.N, cond4_1 (grid4.coords t) ↔ t.val % 2 = 1 :=
  (by decide +kernel : ∀ t : Fin grid4.N, cond4_1 (grid4.coords t) ↔ t.val % 2 = 1)

/-! ## Where the windows rest -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- At a point with k = 0 nothing is stored into the output window, and its block is not written back there. -/
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
/-- At a point with k = 1 the output window is stored. -/
theorem liveAt4_3_C : ∀ t : Fin cfg4.N, ¬cond4_0 (grid4.coords t) → cond4_1 (grid4.coords t) → cfg4.idle 3 (grid4.coords t) = false := by decide +kernel

/-! ## The staging memrefs and the accumulator -/

/-- One staging buffer of the output window, through which its contents are stated (which one does not matter). -/
abbrev VO4_3 : View sig .tc .vmem S44x2048 .f32 := (Memref.whole cc4_stg3_0 : Memref sig .tc .vmem S44x2048 .f32).view
abbrev ms4_0 (t : Fin cfg4.N) : Memref sig .tc .vmem S44x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x2048 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S44x2048 .f32 := win4_3.stage (cfg4.slots t 3)
abbrev hs4_3 (t : Fin cfg4.N) : (ms4_3 t).IsWhole := hstage4_3 ((cfg4.slots t 3).cast nbuf4_3)
/-- The accumulator: a whole scoped buffer of the kernel's own, carried from point to point. -/
abbrev scM4_0 : Memref sig .tc .vmem S44x2048 .f32 := Memref.whole cc4_scratch0
abbrev VS4_0 : View sig .tc .vmem S44x2048 .f32 := scM4_0.view

/-- The scoped buffers no window stages, with the accumulator taken out as a memref owned at some contents. -/
theorem scopedRest4_acc (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d))
          ∗ Pipeline.scopedRestBut (Ix := Unit) (Name := ℕ) (U := UR sig nD τ) (Lvl := ℕ) (Val := Elt F) spec4 c [cc4_scratch0]) := by
  rw [scopedRest4_split]; simp only [scM4_0, owns_whole]; try rfl

end Cert.Kernel.Fr

end
-- ==== Proof.BitsR4RunA.lean ====
/-
  Region 4, a grid point with contraction coordinate k = 0: the body zeroes the accumulator, adds this point's
  product of the activation block with the transposed weight block, and leaves the output window alone. Run once on
  arbitrary whole staging memrefs; what the accumulator ends with is found by the run as a list of stored pieces.
-/
import proofs.«135243_j27986006901491_1_alg».proof.Proof.BitsR4Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 0, from the inputs' buffers at their contents, the output's buffer at any contents
    (handed back untouched) and the accumulator at anything: it runs to the continuation with the inputs as they
    were and the accumulator holding its stored pieces. -/
noncomputable def kernelRun4_A (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond4_0 i) (hc1 : ¬cond4_1 i)
    (x0 : Vec F S44x2048 .bf16) (x1 : Vec F S2048x2048 .bf16) (x2 : Vec F S2048 .f32) :
    Σ' (L3 : List (View.Piece (Elt F) S44x2048 .f32)), { LS0 : List (View.Piece (Elt F) S44x2048 .f32) //
      ∀ (xi3 : Vec F S44x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__linear_kernel i arg2 harg2 arg3 harg3 arg4 harg4 arg5 harg5 arg6 harg6) K } := by
  refine ⟨[], ?_, fun xi3 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.BitsR4RunC.lean ====
/-
  Region 4, a grid point with contraction coordinate k = 1 (the last): the body adds this point's product to the
  accumulator the point before left, then stores accumulator plus bias (through the activation, where the layer has
  one) into the output window. Run once on arbitrary whole staging memrefs; what the accumulator and the output
  window end with is found by the run as lists of stored pieces.
-/
import proofs.«135243_j27986006901491_1_alg».proof.Proof.BitsR4Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 1, from the inputs' buffers at their contents, the output's buffer at anything and
    the accumulator at what the point before left (`xs0`): it runs to the continuation with the inputs as they were,
    the output's buffer and the accumulator holding their stored pieces. -/
noncomputable def kernelRun4_C (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond4_0 i) (hc1 : cond4_1 i)
    (x0 : Vec F S44x2048 .bf16) (x1 : Vec F S2048x2048 .bf16) (x2 : Vec F S2048 .f32) (xs0 : Vec F S44x2048 .f32) :
    Σ' (L3 : List (View.Piece (Elt F) S44x2048 .f32)), { LS0 : List (View.Piece (Elt F) S44x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__linear_kernel i arg2 harg2 arg3 harg3 arg4 harg4 arg5 harg5 arg6 harg6) K } := by
  refine ⟨?_, ?_, fun E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.BitsR4Frame.lean ====
/-
  Region 4: what the body leaves at each grid point, the pipeline's proof data, and the body obligation.
  A point with k = 0 leaves in the accumulator its stored pieces over nothing (the output window rests); a point with
  k = 1 leaves in the accumulator and in the output window their stored pieces over what the point before left in the
  accumulator. The region's invariant before point n > 0 is the accumulator at what point n − 1 left, beside the
  scoped buffers no window stages and the generator register; before the first point the accumulator is at anything.
-/
import proofs.«135243_j27986006901491_1_alg».proof.Proof.BitsR4RunA
import proofs.«135243_j27986006901491_1_alg».proof.Proof.BitsR4RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A point with k = 0 stores nothing into the output window: a placeholder nothing consults. -/
def out4_A_3 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond4_0 i) (hc1 : ¬cond4_1 i)
    (x0 : Vec F S44x2048 .bf16) (x1 : Vec F S2048x2048 .bf16) (x2 : Vec F S2048 .f32) : Vec F S44x2048 .f32 :=
  VO4_3.read (Elt F) (VO4_3.writes (Elt F) VO4_3.junk (kernelRun4_A c i arg2 harg2 arg3 harg3 arg4 harg4 arg5 harg5 arg6 harg6 hc0 hc1 x0 x1 x2).1)

/-- The pieces a point with k = 0 stores into the accumulator cover it. -/
theorem scover4_A_0 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond4_0 i) (hc1 : ¬cond4_1 i)
    (x0 : Vec F S44x2048 .bf16) (x1 : Vec F S2048x2048 .bf16) (x2 : Vec F S2048 .f32) (y : S44x2048.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S44x2048.size (by sl_kernel_rfl) y

/-- What a point with k = 0 leaves in the accumulator. -/
def sout4_A_0 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond4_0 i) (hc1 : ¬cond4_1 i)
    (x0 : Vec F S44x2048 .bf16) (x1 : Vec F S2048x2048 .bf16) (x2 : Vec F S2048 .f32) : Vec F S44x2048 .f32 :=
  VS4_0.read (Elt F) (VS4_0.writes (Elt F) VS4_0.junk (kernelRun4_A c i arg2 harg2 arg3 harg3 arg4 harg4 arg5 harg5 arg6 harg6 hc0 hc1 x0 x1 x2).2.1)

/-- The pieces a point with k = 1 stores into the output window cover its block. -/
theorem cover4_C_3 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond4_0 i) (hc1 : cond4_1 i)
    (x0 : Vec F S44x2048 .bf16) (x1 : Vec F S2048x2048 .bf16) (x2 : Vec F S2048 .f32) (xs0 : Vec F S44x2048 .f32) (y : S44x2048.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S44x2048.size (by sl_kernel_rfl) y

/-- What a point with k = 1 leaves in the output window's staging buffer. -/
def out4_C_3 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond4_0 i) (hc1 : cond4_1 i)
    (x0 : Vec F S44x2048 .bf16) (x1 : Vec F S2048x2048 .bf16) (x2 : Vec F S2048 .f32) (xs0 : Vec F S44x2048 .f32) : Vec F S44x2048 .f32 :=
  VO4_3.read (Elt F) (VO4_3.writes (Elt F) VO4_3.junk (kernelRun4_C c i arg2 harg2 arg3 harg3 arg4 harg4 arg5 harg5 arg6 harg6 hc0 hc1 x0 x1 x2 xs0).1)

/-- The pieces a point with k = 1 stores into the accumulator cover it. -/
theorem scover4_C_0 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond4_0 i) (hc1 : cond4_1 i)
    (x0 : Vec F S44x2048 .bf16) (x1 : Vec F S2048x2048 .bf16) (x2 : Vec F S2048 .f32) (xs0 : Vec F S44x2048 .f32) (y : S44x2048.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S44x2048.size (by sl_kernel_rfl) y

/-- What a point with k = 1 leaves in the accumulator. -/
def sout4_C_0 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond4_0 i) (hc1 : cond4_1 i)
    (x0 : Vec F S44x2048 .bf16) (x1 : Vec F S2048x2048 .bf16) (x2 : Vec F S2048 .f32) (xs0 : Vec F S44x2048 .f32) : Vec F S44x2048 .f32 :=
  VS4_0.read (Elt F) (VS4_0.writes (Elt F) VS4_0.junk (kernelRun4_C c i arg2 harg2 arg3 harg3 arg4 harg4 arg5 harg5 arg6 harg6 hc0 hc1 x0 x1 x2 xs0).2.1)

/-! ## What the output window and the accumulator hold after each point -/

/-- After the body at position `n`: (the output window's staging buffer, the accumulator). An even position has
    k = 0, an odd one k = 1 and reads the accumulator the position before left. -/
def outsAt4 (c : Dev nD) : (n : ℕ) → n < cfg4.N → Vec F S44x2048 .f32 × Vec F S44x2048 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 2 = 0 then
      (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩) (iblk4 V c 2 ⟨n + 1, hn⟩))
    else
      (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr (by (try dsimp only at h0 ⊢); omega)) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr (by (try dsimp only at h0 ⊢); omega)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 2 = 0) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => (fun h => by (try dsimp only at h); omega) ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => (fun h => by (try dsimp only at h); omega) ((hcond4_1 t).mp h)) (iblk4 V c 0 t) (iblk4 V c 1 t) (iblk4 V c 2 t)) := by
  obtain ⟨n, hn⟩ := t
  cases n with
  | zero => exact rfl
  | succ n => exact (dif_pos h0).trans rfl

theorem outsAt4_C (c : Dev nD) (t : Fin cfg4.N) (h0 : ¬t.val % 2 = 0) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr (by (try dsimp only at h0 ⊢); omega)) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr (by (try dsimp only at h0 ⊢); omega)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant, point by point -/

abbrev restBut4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop(iprop((∃ d, owns (c : Thread nD τ) scM4_0 fullShare d)) ∗ restBut4 c) ∗ (∃ r, prngReg c r)) := by
  unfold Pipeline.ΦA; rw [scopedRest4_acc]

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ restBut4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ restBut4 c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ restBut4 c) ∗ (∃ r, prngReg c r)) := by
  cases n with
  | zero => exact absurd rfl hz
  | succ n => rfl

/-! ## The pipeline's proof data -/

/-- The arrays as the region finds them; after the body at point `t` each input's buffer at its block and the
    output's at what `outsAt4` says; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; the parity of the position says which case the
    point is in; the invariant hands the body the accumulator (at anything before the first point, otherwise at what
    the point before left) and takes it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 2 = 0
  · have hc0 : cond4_0 (grid4.coords t) := (hcond4_0 t).mpr h0
    have hc1 : ¬cond4_1 (grid4.coords t) := fun h => (fun h => by (try dsimp only at h); omega) ((hcond4_1 t).mp h)
    rw [Dat.leavesExact_idle (dat4 V c) 3 t (idleAt4_3_A t hc0 hc1) (noFlush4_3_A t hc0 hc1)]
    rw [outsAt4_A V c t h0]
    unfold sout4_A_0; (try dsimp only)
    by_cases hz : t.val = 0
    · rw [PhiS4_castSucc V c t, PhiS4_zero V c _ _ hz, PhiA4_eq]
      iintro ⟨⟨⟨HS0, Hr⟩, Hg⟩, Ho, ⟨%d0, H0⟩, ⟨%d1, H1⟩, ⟨%d2, H2⟩, ⟨%d3, H3⟩⟩
      iapply ((kernelRun4_A c (grid4.coords t) _ _ _ _ _ _ _ _ _ _ hc0 hc1 (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, Hr⟩, Hg⟩, Ho, ⟨%d0, H0⟩, ⟨%d1, H1⟩, ⟨%d2, H2⟩, ⟨%d3, H3⟩⟩
      iapply ((kernelRun4_A c (grid4.coords t) _ _ _ _ _ _ _ _ _ _ hc0 hc1 (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond4_0 (grid4.coords t) := fun h => h0 ((hcond4_0 t).mp h)
    have hc1 : cond4_1 (grid4.coords t) := (hcond4_1 t).mpr (by (try dsimp only at h0 ⊢); omega)
    rw [show (dat4 V c).leavesExact 3 t = owns (c : Thread nD τ) (ms4_3 t) fullShare ((dat4 V c).after 3 t) from by
      unfold Dat.leavesExact; rw [liveAt4_3_C t hc0 hc1], after4_3]
    rw [outsAt4_C V c t h0]
    unfold out4_C_3 sout4_C_0; (try dsimp only)
    have hz : t.val ≠ 0 := fun e => h0 (by rw [e])
    rw [PhiS4_castSucc V c t, PhiS4_pos V c _ _ hz]
    iintro ⟨⟨⟨HS0, Hr⟩, Hg⟩, Ho, ⟨%d0, H0⟩, ⟨%d1, H1⟩, ⟨%d2, H2⟩, ⟨%d3, H3⟩⟩
    iapply ((kernelRun4_C c (grid4.coords t) _ _ _ _ _ _ _ _ _ _ hc0 hc1 (iblk4 V c 0 t) (iblk4 V c 1 t) (iblk4 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover4_C_0 c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover4_C_3 c _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the same back: the accumulator's contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 4 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨HS0, Hr⟩, Hg⟩
  isplitl [HS0 Hr]
  · isplitl [HS0]
    · iexists _; iexact HS0
    iexact Hr
  iexact Hg

end Cert.Kernel.Fr

end
-- ==== Proof.BitsR5Base.lean ====
/-
  Region 5 of the program: one launch of the blocked linear kernel over the grid (output block n, contraction block k).
  Stated here, for any float instance and at any contents `V` of the buffers when the region is entered:
  the two branch conditions of the body as functions of the grid point (k = 0: the accumulator is zeroed first;
  k = 1: the output block is written), where the output window rests, and each window's block at a point read off
  its array.
-/
import proofs.«135243_j27986006901491_1_alg».proof.Proof.Gen.Kernel.Launch
import proofs.«135243_j27986006901491_1_alg».proof.Proof.Gen.Kernel.Skeleton
import proofs.«135243_j27986006901491_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (when it is not
    fetched its block index has not moved), for any proof data whose array is `V`'s and whose body leaves the block
    in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's two branch conditions -/

/-- The first branch (zero the accumulator) is taken when the contraction coordinate is 0. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 2 = 0 :=
  (by decide +kernel : ∀ t : Fin grid5.N, cond5_0 (grid5.coords t) ↔ t.val % 2 = 0)

/-- The second branch (write the output block) is taken when the contraction coordinate is the last, 1. -/
abbrev cond5_1 (i : grid5.Coords) : Prop := k5_cond2 i = 1#1
theorem hcond5_1 : ∀ t : Fin cfg5.N, cond5_1 (grid5.coords t) ↔ t.val % 2 = 1 :=
  (by decide +kernel : ∀ t : Fin grid5.N, cond5_1 (grid5.coords t) ↔ t.val % 2 = 1)

/-! ## Where the windows rest -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- At a point with k = 0 nothing is stored into the output window, and its block is not written back there. -/
theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
/-- At a point with k = 1 the output window is stored. -/
theorem liveAt5_3_C : ∀ t : Fin cfg5.N, ¬cond5_0 (grid5.coords t) → cond5_1 (grid5.coords t) → cfg5.idle 3 (grid5.coords t) = false := by decide +kernel

/-! ## The staging memrefs and the accumulator -/

/-- One staging buffer of the output window, through which its contents are stated (which one does not matter). -/
abbrev VO5_3 : View sig .tc .vmem S44x1 .f32 := (Memref.whole cc5_stg3_0 : Memref sig .tc .vmem S44x1 .f32).view
abbrev ms5_0 (t : Fin cfg5.N) : Memref sig .tc .vmem S44x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x2048 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S44x1 .f32 := win5_3.stage (cfg5.slots t 3)
abbrev hs5_3 (t : Fin cfg5.N) : (ms5_3 t).IsWhole := hstage5_3 ((cfg5.slots t 3).cast nbuf5_3)
/-- The accumulator: a whole scoped buffer of the kernel's own, carried from point to point. -/
abbrev scM5_0 : Memref sig .tc .vmem S44x1 .f32 := Memref.whole cc5_scratch0
abbrev VS5_0 : View sig .tc .vmem S44x1 .f32 := scM5_0.view

/-- The scoped buffers no window stages, with the accumulator taken out as a memref owned at some contents. -/
theorem scopedRest5_acc (c : Dev nD) :
    (Pipeline.scopedRest (Ix := Unit) (Name := ℕ) (U := UR sig nD τ) (Lvl := ℕ) (Val := Elt F) spec5 c : sProp 𝕄)
      = iprop(iprop((∃ d, owns (c : Thread nD τ) scM5_0 fullShare d))
          ∗ Pipeline.scopedRestBut (Ix := Unit) (Name := ℕ) (U := UR sig nD τ) (Lvl := ℕ) (Val := Elt F) spec5 c [cc5_scratch0]) := by
  rw [scopedRest5_split]; simp only [scM5_0, owns_whole]; try rfl

end Cert.Kernel.Fr

end
-- ==== Proof.BitsR5RunA.lean ====
/-
  Region 5, a grid point with contraction coordinate k = 0: the body zeroes the accumulator, adds this point's
  product of the activation block with the transposed weight block, and leaves the output window alone. Run once on
  arbitrary whole staging memrefs; what the accumulator ends with is found by the run as a list of stored pieces.
-/
import proofs.«135243_j27986006901491_1_alg».proof.Proof.BitsR5Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 0, from the inputs' buffers at their contents, the output's buffer at any contents
    (handed back untouched) and the accumulator at anything: it runs to the continuation with the inputs as they
    were and the accumulator holding its stored pieces. -/
noncomputable def kernelRun5_A (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : cond5_0 i) (hc1 : ¬cond5_1 i)
    (x0 : Vec F S44x2048 .bf16) (x1 : Vec F S1x2048 .bf16) (x2 : Vec F S1 .f32) :
    Σ' (L3 : List (View.Piece (Elt F) S44x1 .f32)), { LS0 : List (View.Piece (Elt F) S44x1 .f32) //
      ∀ (xi3 : Vec F S44x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__linear_kernel i arg2 harg2 arg3 harg3 arg4 harg4 arg5 harg5 arg6 harg6) K } := by
  refine ⟨[], ?_, fun xi3 E K => ?run⟩
  case run =>
    simp only [cc5__linear_kernel_eq_skeleton]; unfold cc5__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.BitsR5RunC.lean ====
/-
  Region 5, a grid point with contraction coordinate k = 1 (the last): the body adds this point's product to the
  accumulator the point before left, then stores accumulator plus bias (through the activation, where the layer has
  one) into the output window. Run once on arbitrary whole staging memrefs; what the accumulator and the output
  window end with is found by the run as lists of stored pieces.
-/
import proofs.«135243_j27986006901491_1_alg».proof.Proof.BitsR5Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 1, from the inputs' buffers at their contents, the output's buffer at anything and
    the accumulator at what the point before left (`xs0`): it runs to the continuation with the inputs as they were,
    the output's buffer and the accumulator holding their stored pieces. -/
noncomputable def kernelRun5_C (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : ¬cond5_0 i) (hc1 : cond5_1 i)
    (x0 : Vec F S44x2048 .bf16) (x1 : Vec F S1x2048 .bf16) (x2 : Vec F S1 .f32) (xs0 : Vec F S44x1 .f32) :
    Σ' (L3 : List (View.Piece (Elt F) S44x1 .f32)), { LS0 : List (View.Piece (Elt F) S44x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__linear_kernel i arg2 harg2 arg3 harg3 arg4 harg4 arg5 harg5 arg6 harg6) K } := by
  refine ⟨?_, ?_, fun E K => ?run⟩
  case run =>
    simp only [cc5__linear_kernel_eq_skeleton]; unfold cc5__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.BitsR5Frame.lean ====
/-
  Region 5: what the body leaves at each grid point, the pipeline's proof data, and the body obligation.
  A point with k = 0 leaves in the accumulator its stored pieces over nothing (the output window rests); a point with
  k = 1 leaves in the accumulator and in the output window their stored pieces over what the point before left in the
  accumulator. The region's invariant before point n > 0 is the accumulator at what point n − 1 left, beside the
  scoped buffers no window stages and the generator register; before the first point the accumulator is at anything.
-/
import proofs.«135243_j27986006901491_1_alg».proof.Proof.BitsR5RunA
import proofs.«135243_j27986006901491_1_alg».proof.Proof.BitsR5RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A point with k = 0 stores nothing into the output window: a placeholder nothing consults. -/
def out5_A_3 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : cond5_0 i) (hc1 : ¬cond5_1 i)
    (x0 : Vec F S44x2048 .bf16) (x1 : Vec F S1x2048 .bf16) (x2 : Vec F S1 .f32) : Vec F S44x1 .f32 :=
  VO5_3.read (Elt F) (VO5_3.writes (Elt F) VO5_3.junk (kernelRun5_A c i arg2 harg2 arg3 harg3 arg4 harg4 arg5 harg5 arg6 harg6 hc0 hc1 x0 x1 x2).1)

/-- The pieces a point with k = 0 stores into the accumulator cover it. -/
theorem scover5_A_0 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : cond5_0 i) (hc1 : ¬cond5_1 i)
    (x0 : Vec F S44x2048 .bf16) (x1 : Vec F S1x2048 .bf16) (x2 : Vec F S1 .f32) (y : S44x1.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S44x1.size (by sl_kernel_rfl) y

/-- What a point with k = 0 leaves in the accumulator. -/
def sout5_A_0 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : cond5_0 i) (hc1 : ¬cond5_1 i)
    (x0 : Vec F S44x2048 .bf16) (x1 : Vec F S1x2048 .bf16) (x2 : Vec F S1 .f32) : Vec F S44x1 .f32 :=
  VS5_0.read (Elt F) (VS5_0.writes (Elt F) VS5_0.junk (kernelRun5_A c i arg2 harg2 arg3 harg3 arg4 harg4 arg5 harg5 arg6 harg6 hc0 hc1 x0 x1 x2).2.1)

/-- The pieces a point with k = 1 stores into the output window cover its block. -/
theorem cover5_C_3 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : ¬cond5_0 i) (hc1 : cond5_1 i)
    (x0 : Vec F S44x2048 .bf16) (x1 : Vec F S1x2048 .bf16) (x2 : Vec F S1 .f32) (xs0 : Vec F S44x1 .f32) (y : S44x1.Idx) :
    ∃ pc ∈ (kernelRun5_C c i arg2 harg2 arg3 harg3 arg4 harg4 arg5 harg5 arg6 harg6 hc0 hc1 x0 x1 x2 xs0).1, y ∈ pc.1.set :=
  View.cover_of_tiledL (kernelRun5_C c i arg2 harg2 arg3 harg3 arg4 harg4 arg5 harg5 arg6 harg6 hc0 hc1 x0 x1 x2 xs0).1 S44x1.size (by sl_kernel_rfl) y

/-- What a point with k = 1 leaves in the output window's staging buffer. -/
def out5_C_3 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : ¬cond5_0 i) (hc1 : cond5_1 i)
    (x0 : Vec F S44x2048 .bf16) (x1 : Vec F S1x2048 .bf16) (x2 : Vec F S1 .f32) (xs0 : Vec F S44x1 .f32) : Vec F S44x1 .f32 :=
  VO5_3.read (Elt F) (VO5_3.writes (Elt F) VO5_3.junk (kernelRun5_C c i arg2 harg2 arg3 harg3 arg4 harg4 arg5 harg5 arg6 harg6 hc0 hc1 x0 x1 x2 xs0).1)

/-- The pieces a point with k = 1 stores into the accumulator cover it. -/
theorem scover5_C_0 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : ¬cond5_0 i) (hc1 : cond5_1 i)
    (x0 : Vec F S44x2048 .bf16) (x1 : Vec F S1x2048 .bf16) (x2 : Vec F S1 .f32) (xs0 : Vec F S44x1 .f32) (y : S44x1.Idx) :
    ∃ pc ∈ (kernelRun5_C c i arg2 harg2 arg3 harg3 arg4 harg4 arg5 harg5 arg6 harg6 hc0 hc1 x0 x1 x2 xs0).2.1, y ∈ pc.1.set :=
  View.cover_of_tiledL (kernelRun5_C c i arg2 harg2 arg3 harg3 arg4 harg4 arg5 harg5 arg6 harg6 hc0 hc1 x0 x1 x2 xs0).2.1 S44x1.size (by sl_kernel_rfl) y

/-- What a point with k = 1 leaves in the accumulator. -/
def sout5_C_0 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : ¬cond5_0 i) (hc1 : cond5_1 i)
    (x0 : Vec F S44x2048 .bf16) (x1 : Vec F S1x2048 .bf16) (x2 : Vec F S1 .f32) (xs0 : Vec F S44x1 .f32) : Vec F S44x1 .f32 :=
  VS5_0.read (Elt F) (VS5_0.writes (Elt F) VS5_0.junk (kernelRun5_C c i arg2 harg2 arg3 harg3 arg4 harg4 arg5 harg5 arg6 harg6 hc0 hc1 x0 x1 x2 xs0).2.1)

/-! ## What the output window and the accumulator hold after each point -/

/-- After the body at position `n`: (the output window's staging buffer, the accumulator). An even position has
    k = 0, an odd one k = 1 and reads the accumulator the position before left. -/
def outsAt5 (c : Dev nD) : (n : ℕ) → n < cfg5.N → Vec F S44x1 .f32 × Vec F S44x1 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 2 = 0 then
      (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => (fun h => by (try dsimp only at h); omega) ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => (fun h => by (try dsimp only at h); omega) ((hcond5_1 ⟨n + 1, hn⟩).mp h)) (iblk5 V c 0 ⟨n + 1, hn⟩) (iblk5 V c 1 ⟨n + 1, hn⟩) (iblk5 V c 2 ⟨n + 1, hn⟩))
    else
      (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr (by (try dsimp only at h0 ⊢); omega)) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr (by (try dsimp only at h0 ⊢); omega)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 2 = 0) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => (fun h => by (try dsimp only at h); omega) ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => (fun h => by (try dsimp only at h); omega) ((hcond5_1 t).mp h)) (iblk5 V c 0 t) (iblk5 V c 1 t) (iblk5 V c 2 t)) := by
  obtain ⟨n, hn⟩ := t
  cases n with
  | zero => exact rfl
  | succ n => exact (dif_pos h0).trans rfl

theorem outsAt5_C (c : Dev nD) (t : Fin cfg5.N) (h0 : ¬t.val % 2 = 0) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr (by (try dsimp only at h0 ⊢); omega)) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr (by (try dsimp only at h0 ⊢); omega)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant, point by point -/

abbrev restBut5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop(iprop((∃ d, owns (c : Thread nD τ) scM5_0 fullShare d)) ∗ restBut5 c) ∗ (∃ r, prngReg c r)) := by
  unfold Pipeline.ΦA; rw [scopedRest5_acc]

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ restBut5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ restBut5 c) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ restBut5 c) ∗ (∃ r, prngReg c r)) := by
  cases n with
  | zero => exact absurd rfl hz
  | succ n => rfl

/-! ## The pipeline's proof data -/

/-- The arrays as the region finds them; after the body at point `t` each input's buffer at its block and the
    output's at what `outsAt5` says; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks; the parity of the position says which case the
    point is in; the invariant hands the body the accumulator (at anything before the first point, otherwise at what
    the point before left) and takes it back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  by_cases h0 : t.val % 2 = 0
  · have hc0 : cond5_0 (grid5.coords t) := (hcond5_0 t).mpr h0
    have hc1 : ¬cond5_1 (grid5.coords t) := fun h => (fun h => by (try dsimp only at h); omega) ((hcond5_1 t).mp h)
    rw [Dat.leavesExact_idle (dat5 V c) 3 t (idleAt5_3_A t hc0 hc1) (noFlush5_3_A t hc0 hc1)]
    rw [outsAt5_A V c t h0]
    unfold sout5_A_0; (try dsimp only)
    by_cases hz : t.val = 0
    · rw [PhiS5_castSucc V c t, PhiS5_zero V c _ _ hz, PhiA5_eq]
      iintro ⟨⟨⟨HS0, Hr⟩, Hg⟩, Ho, ⟨%d0, H0⟩, ⟨%d1, H1⟩, ⟨%d2, H2⟩, ⟨%d3, H3⟩⟩
      iapply ((kernelRun5_A c (grid5.coords t) _ _ _ _ _ _ _ _ _ _ hc0 hc1 (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩⟩
      iapply ((kernelRun5_A c (grid5.coords t) _ _ _ _ _ _ _ _ _ _ hc0 hc1 (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond5_0 (grid5.coords t) := fun h => h0 ((hcond5_0 t).mp h)
    have hc1 : cond5_1 (grid5.coords t) := (hcond5_1 t).mpr (by (try dsimp only at h0 ⊢); omega)
    rw [show (dat5 V c).leavesExact 3 t = owns (c : Thread nD τ) (ms5_3 t) fullShare ((dat5 V c).after 3 t) from by
      unfold Dat.leavesExact; rw [liveAt5_3_C t hc0 hc1], after5_3]
    rw [outsAt5_C V c t h0]
    unfold out5_C_3 sout5_C_0; (try dsimp only)
    have hz : t.val ≠ 0 := fun e => h0 (by rw [e])
    rw [PhiS5_castSucc V c t, PhiS5_pos V c _ _ hz]
    iintro ⟨⟨⟨HS0, Hr⟩, Hg⟩, Ho, ⟨%d0, H0⟩, ⟨%d1, H1⟩, ⟨%d2, H2⟩, ⟨%d3, H3⟩⟩
    iapply ((kernelRun5_C c (grid5.coords t) _ _ _ _ _ _ _ _ _ _ hc0 hc1 (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover5_C_0 c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_C_3 c _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the region is entered with is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the same back: the accumulator's contents are forgotten. -/
theorem hout5 (c : Dev nD) : (dat5 V c).Φ (Fin.last cfg5.N) ⊢ Pipeline.ΦA spec5 c := by
  have ht : (Fin.last cfg5.N).val ≠ 0 := by rw [Fin.val_last]; have : cfg5.N = 2 := N_5; omega
  rw [show (dat5 V c).Φ (Fin.last cfg5.N) = PhiS5 V c (Fin.last cfg5.N).val (Nat.le_of_lt_succ (Fin.last cfg5.N).isLt) from rfl, PhiS5_pos V c _ _ ht, PhiA5_eq]
  iintro ⟨⟨HS0, Hr⟩, Hg⟩
  isplitl [HS0 Hr]
  · isplitl [HS0]
    · iexists _; iexact HS0
    iexact Hr
  iexact Hg

end Cert.Kernel.Fr

end
-- ==== Proof.BitsRun.lean ====
/-
  The whole program as a run of twelve segments: six stretches of host operations, each followed by one launch of
  the blocked linear kernel. The buffers' contents at every boundary are a fold from the launch memory: a host
  stretch applies its operations; a region leaves every buffer as it found it except its output array, which ends
  at what the pipeline's write-backs leave. Each region is entered with every unscoped buffer at the boundary's
  contents, the generator register at some state and nothing owed, and is left the same way at the next boundary's
  contents. The run ends with every unscoped buffer at the last boundary's contents.
-/
import proofs.«135243_j27986006901491_1_alg».proof.Proof.BitsR0Frame
import proofs.«135243_j27986006901491_1_alg».proof.Proof.BitsR1Frame
import proofs.«135243_j27986006901491_1_alg».proof.Proof.BitsR2Frame
import proofs.«135243_j27986006901491_1_alg».proof.Proof.BitsR3Frame
import proofs.«135243_j27986006901491_1_alg».proof.Proof.BitsR4Frame
import proofs.«135243_j27986006901491_1_alg».proof.Proof.BitsR5Frame
import proofs.«135243_j27986006901491_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Bd0 : Dev nD → Valuation τ sig (Elt F) := fun c b => m (c, b)

/-- After host stretch 0: region 0's entry. -/
abbrev Bd1 : Dev nD → Valuation τ sig (Elt F) := fun c => StableHlo.after hostOps0 (Bd0 m c)
abbrev En1 : (c : Dev nD) → (b : Ref sig .tc) → Buf (Elt F) ((c : Thread nD τ).loc b) := fun c b => Bd1 m c b
/-- At region 0's exit: its arrays at what the pipeline leaves, every other buffer as entered. -/
def Bd2 (c : Dev nD) : Valuation τ sig (Elt F) :=
  Pipeline.withArrays spec0 c (Bd1 m c) fun w => (dat0 (En1 m) c).arrAt w cfg0.N
theorem Bd2_arr (c : Dev nD) (w : Fin cfg0.W) :
    Bd2 m c (Proc.devRef .tc (Pipeline.arrRef spec0 w)) = (dat0 (En1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
abbrev Ex2 : (c : Dev nD) → (b : Ref sig .tc) → Buf (Elt F) ((c : Thread nD τ).loc b) := fun c b => Bd2 m c b
theorem hF0 (c : Dev nD) (w : Fin cfg0.W) : (dat0 (En1 m) c).arrAt w cfg0.N = Ex2 m c (Pipeline.arrRef spec0 w) :=
  (Bd2_arr m c w).symm
theorem hrest0 (c : Dev nD) : ∀ b, b ∉ Finset.univ.image (Pipeline.arrRef spec0) → Ex2 m c b = En1 m c b :=
  fun b hb => Bd2_of_ne m c b fun w e => hb (Finset.mem_image.mpr ⟨w, Finset.mem_univ _, e⟩)
/-- Region 0 changes no buffer but its output array: an input array is read only, any other buffer bypasses it. -/
theorem Bd2_keep (c : Dev nD) (b : Ref sig .tc) (hb : b ≠ main_v39) : Bd2 m c (Proc.devRef .tc b) = Bd1 m c (Proc.devRef .tc b) := by
  by_cases h : ∃ w, Pipeline.arrRef spec0 w = b
  · obtain ⟨w, rfl⟩ := h
    rw [Bd2_arr]
    have hin : (cfg0.win w).isOut = false := by
      fin_cases w
      · rfl
      · rfl
      · rfl
      · exact absurd rfl hb
    exact ((dat0 (En1 m) c).arrAt_in w hin _).trans (A_eq0 (En1 m) c w)
  · exact Bd2_of_ne m c b fun w e => h ⟨w, e⟩

/-- After host stretch 1: region 1's entry. -/
abbrev Bd3 : Dev nD → Valuation τ sig (Elt F) := fun c => StableHlo.after hostOps1 (Bd2 m c)
abbrev En3 : (c : Dev nD) → (b : Ref sig .tc) → Buf (Elt F) ((c : Thread nD τ).loc b) := fun c b => Bd3 m c b
/-- At region 1's exit: its arrays at what the pipeline leaves, every other buffer as entered. -/
def Bd4 (c : Dev nD) : Valuation τ sig (Elt F) :=
  Pipeline.withArrays spec1 c (Bd3 m c) fun w => (dat1 (En3 m) c).arrAt w cfg1.N
theorem Bd4_arr (c : Dev nD) (w : Fin cfg1.W) :
    Bd4 m c (Proc.devRef .tc (Pipeline.arrRef spec1 w)) = (dat1 (En3 m) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m c (Proc.devRef .tc b) = Bd3 m c (Proc.devRef .tc b) := by
  unfold Bd4; exact Pipeline.withArrays_of_ne spec1 c _ _ b hb
abbrev Ex4 : (c : Dev nD) → (b : Ref sig .tc) → Buf (Elt F) ((c : Thread nD τ).loc b) := fun c b => Bd4 m c b
theorem hF1 (c : Dev nD) (w : Fin cfg1.W) : (dat1 (En3 m) c).arrAt w cfg1.N = Ex4 m c (Pipeline.arrRef spec1 w) :=
  (Bd4_arr m c w).symm
theorem hrest1 (c : Dev nD) : ∀ b, b ∉ Finset.univ.image (Pipeline.arrRef spec1) → Ex4 m c b = En3 m c b :=
  fun b hb => Bd4_of_ne m c b fun w e => hb (Finset.mem_image.mpr ⟨w, Finset.mem_univ _, e⟩)
/-- Region 1 changes no buffer but its output array: an input array is read only, any other buffer bypasses it. -/
theorem Bd4_keep (c : Dev nD) (b : Ref sig .tc) (hb : b ≠ main_v79) : Bd4 m c (Proc.devRef .tc b) = Bd3 m c (Proc.devRef .tc b) := by
  by_cases h : ∃ w, Pipeline.arrRef spec1 w = b
  · obtain ⟨w, rfl⟩ := h
    rw [Bd4_arr]
    have hin : (cfg1.win w).isOut = false := by
      fin_cases w
      · rfl
      · rfl
      · rfl
      · exact absurd rfl hb
    exact ((dat1 (En3 m) c).arrAt_in w hin _).trans (A_eq1 (En3 m) c w)
  · exact Bd4_of_ne m c b fun w e => h ⟨w, e⟩

/-- After host stretch 2: region 2's entry. -/
abbrev Bd5 : Dev nD → Valuation τ sig (Elt F) := fun c => StableHlo.after hostOps2 (Bd4 m c)
abbrev En5 : (c : Dev nD) → (b : Ref sig .tc) → Buf (Elt F) ((c : Thread nD τ).loc b) := fun c b => Bd5 m c b
/-- At region 2's exit: its arrays at what the pipeline leaves, every other buffer as entered. -/
def Bd6 (c : Dev nD) : Valuation τ sig (Elt F) :=
  Pipeline.withArrays spec2 c (Bd5 m c) fun w => (dat2 (En5 m) c).arrAt w cfg2.N
theorem Bd6_arr (c : Dev nD) (w : Fin cfg2.W) :
    Bd6 m c (Proc.devRef .tc (Pipeline.arrRef spec2 w)) = (dat2 (En5 m) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m c (Proc.devRef .tc b) = Bd5 m c (Proc.devRef .tc b) := by
  unfold Bd6; exact Pipeline.withArrays_of_ne spec2 c _ _ b hb
abbrev Ex6 : (c : Dev nD) → (b : Ref sig .tc) → Buf (Elt F) ((c : Thread nD τ).loc b) := fun c b => Bd6 m c b
theorem hF2 (c : Dev nD) (w : Fin cfg2.W) : (dat2 (En5 m) c).arrAt w cfg2.N = Ex6 m c (Pipeline.arrRef spec2 w) :=
  (Bd6_arr m c w).symm
theorem hrest2 (c : Dev nD) : ∀ b, b ∉ Finset.univ.image (Pipeline.arrRef spec2) → Ex6 m c b = En5 m c b :=
  fun b hb => Bd6_of_ne m c b fun w e => hb (Finset.mem_image.mpr ⟨w, Finset.mem_univ _, e⟩)
/-- Region 2 changes no buffer but its output array: an input array is read only, any other buffer bypasses it. -/
theorem Bd6_keep (c : Dev nD) (b : Ref sig .tc) (hb : b ≠ main_v119) : Bd6 m c (Proc.devRef .tc b) = Bd5 m c (Proc.devRef .tc b) := by
  by_cases h : ∃ w, Pipeline.arrRef spec2 w = b
  · obtain ⟨w, rfl⟩ := h
    rw [Bd6_arr]
    have hin : (cfg2.win w).isOut = false := by
      fin_cases w
      · rfl
      · rfl
      · rfl
      · exact absurd rfl hb
    exact ((dat2 (En5 m) c).arrAt_in w hin _).trans (A_eq2 (En5 m) c w)
  · exact Bd6_of_ne m c b fun w e => h ⟨w, e⟩

/-- After host stretch 3: region 3's entry. -/
abbrev Bd7 : Dev nD → Valuation τ sig (Elt F) := fun c => StableHlo.after hostOps3 (Bd6 m c)
abbrev En7 : (c : Dev nD) → (b : Ref sig .tc) → Buf (Elt F) ((c : Thread nD τ).loc b) := fun c b => Bd7 m c b
/-- At region 3's exit: its arrays at what the pipeline leaves, every other buffer as entered. -/
def Bd8 (c : Dev nD) : Valuation τ sig (Elt F) :=
  Pipeline.withArrays spec3 c (Bd7 m c) fun w => (dat3 (En7 m) c).arrAt w cfg3.N
theorem Bd8_arr (c : Dev nD) (w : Fin cfg3.W) :
    Bd8 m c (Proc.devRef .tc (Pipeline.arrRef spec3 w)) = (dat3 (En7 m) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m c (Proc.devRef .tc b) = Bd7 m c (Proc.devRef .tc b) := by
  unfold Bd8; exact Pipeline.withArrays_of_ne spec3 c _ _ b hb
abbrev Ex8 : (c : Dev nD) → (b : Ref sig .tc) → Buf (Elt F) ((c : Thread nD τ).loc b) := fun c b => Bd8 m c b
theorem hF3 (c : Dev nD) (w : Fin cfg3.W) : (dat3 (En7 m) c).arrAt w cfg3.N = Ex8 m c (Pipeline.arrRef spec3 w) :=
  (Bd8_arr m c w).symm
theorem hrest3 (c : Dev nD) : ∀ b, b ∉ Finset.univ.image (Pipeline.arrRef spec3) → Ex8 m c b = En7 m c b :=
  fun b hb => Bd8_of_ne m c b fun w e => hb (Finset.mem_image.mpr ⟨w, Finset.mem_univ _, e⟩)
/-- Region 3 changes no buffer but its output array: an input array is read only, any other buffer bypasses it. -/
theorem Bd8_keep (c : Dev nD) (b : Ref sig .tc) (hb : b ≠ main_v159) : Bd8 m c (Proc.devRef .tc b) = Bd7 m c (Proc.devRef .tc b) := by
  by_cases h : ∃ w, Pipeline.arrRef spec3 w = b
  · obtain ⟨w, rfl⟩ := h
    rw [Bd8_arr]
    have hin : (cfg3.win w).isOut = false := by
      fin_cases w
      · rfl
      · rfl
      · rfl
      · exact absurd rfl hb
    exact ((dat3 (En7 m) c).arrAt_in w hin _).trans (A_eq3 (En7 m) c w)
  · exact Bd8_of_ne m c b fun w e => h ⟨w, e⟩

/-- After host stretch 4: region 4's entry. -/
abbrev Bd9 : Dev nD → Valuation τ sig (Elt F) := fun c => StableHlo.after hostOps4 (Bd8 m c)
abbrev En9 : (c : Dev nD) → (b : Ref sig .tc) → Buf (Elt F) ((c : Thread nD τ).loc b) := fun c b => Bd9 m c b
/-- At region 4's exit: its arrays at what the pipeline leaves, every other buffer as entered. -/
def Bd10 (c : Dev nD) : Valuation τ sig (Elt F) :=
  Pipeline.withArrays spec4 c (Bd9 m c) fun w => (dat4 (En9 m) c).arrAt w cfg4.N
theorem Bd10_arr (c : Dev nD) (w : Fin cfg4.W) :
    Bd10 m c (Proc.devRef .tc (Pipeline.arrRef spec4 w)) = (dat4 (En9 m) c).arrAt w cfg4.N := by
  unfold Bd10; exact Pipeline.withArrays_arr spec4 launch4.win.arr_inj c _ _ w
theorem Bd10_of_ne (c : Dev nD) (b : Ref sig .tc) (hb : ∀ w, Pipeline.arrRef spec4 w ≠ b) :
    Bd10 m c (Proc.devRef .tc b) = Bd9 m c (Proc.devRef .tc b) := by
  unfold Bd10; exact Pipeline.withArrays_of_ne spec4 c _ _ b hb
abbrev Ex10 : (c : Dev nD) → (b : Ref sig .tc) → Buf (Elt F) ((c : Thread nD τ).loc b) := fun c b => Bd10 m c b
theorem hF4 (c : Dev nD) (w : Fin cfg4.W) : (dat4 (En9 m) c).arrAt w cfg4.N = Ex10 m c (Pipeline.arrRef spec4 w) :=
  (Bd10_arr m c w).symm
theorem hrest4 (c : Dev nD) : ∀ b, b ∉ Finset.univ.image (Pipeline.arrRef spec4) → Ex10 m c b = En9 m c b :=
  fun b hb => Bd10_of_ne m c b fun w e => hb (Finset.mem_image.mpr ⟨w, Finset.mem_univ _, e⟩)
/-- Region 4 changes no buffer but its output array: an input array is read only, any other buffer bypasses it. -/
theorem Bd10_keep (c : Dev nD) (b : Ref sig .tc) (hb : b ≠ main_v199) : Bd10 m c (Proc.devRef .tc b) = Bd9 m c (Proc.devRef .tc b) := by
  by_cases h : ∃ w, Pipeline.arrRef spec4 w = b
  · obtain ⟨w, rfl⟩ := h
    rw [Bd10_arr]
    have hin : (cfg4.win w).isOut = false := by
      fin_cases w
      · rfl
      · rfl
      · rfl
      · exact absurd rfl hb
    exact ((dat4 (En9 m) c).arrAt_in w hin _).trans (A_eq4 (En9 m) c w)
  · exact Bd10_of_ne m c b fun w e => h ⟨w, e⟩

/-- After host stretch 5: region 5's entry. -/
abbrev Bd11 : Dev nD → Valuation τ sig (Elt F) := fun c => StableHlo.after hostOps5 (Bd10 m c)
abbrev En11 : (c : Dev nD) → (b : Ref sig .tc) → Buf (Elt F) ((c : Thread nD τ).loc b) := fun c b => Bd11 m c b
/-- At region 5's exit: its arrays at what the pipeline leaves, every other buffer as entered. -/
def Bd12 (c : Dev nD) : Valuation τ sig (Elt F) :=
  Pipeline.withArrays spec5 c (Bd11 m c) fun w => (dat5 (En11 m) c).arrAt w cfg5.N
theorem Bd12_arr (c : Dev nD) (w : Fin cfg5.W) :
    Bd12 m c (Proc.devRef .tc (Pipeline.arrRef spec5 w)) = (dat5 (En11 m) c).arrAt w cfg5.N := by
  unfold Bd12; exact Pipeline.withArrays_arr spec5 launch5.win.arr_inj c _ _ w
theorem Bd12_of_ne (c : Dev nD) (b : Ref sig .tc) (hb : ∀ w, Pipeline.arrRef spec5 w ≠ b) :
    Bd12 m c (Proc.devRef .tc b) = Bd11 m c (Proc.devRef .tc b) := by
  unfold Bd12; exact Pipeline.withArrays_of_ne spec5 c _ _ b hb
abbrev Ex12 : (c : Dev nD) → (b : Ref sig .tc) → Buf (Elt F) ((c : Thread nD τ).loc b) := fun c b => Bd12 m c b
theorem hF5 (c : Dev nD) (w : Fin cfg5.W) : (dat5 (En11 m) c).arrAt w cfg5.N = Ex12 m c (Pipeline.arrRef spec5 w) :=
  (Bd12_arr m c w).symm
theorem hrest5 (c : Dev nD) : ∀ b, b ∉ Finset.univ.image (Pipeline.arrRef spec5) → Ex12 m c b = En11 m c b :=
  fun b hb => Bd12_of_ne m c b fun w e => hb (Finset.mem_image.mpr ⟨w, Finset.mem_univ _, e⟩)
/-- Region 5 changes no buffer but its output array: an input array is read only, any other buffer bypasses it. -/
theorem Bd12_keep (c : Dev nD) (b : Ref sig .tc) (hb : b ≠ main_v239) : Bd12 m c (Proc.devRef .tc b) = Bd11 m c (Proc.devRef .tc b) := by
  by_cases h : ∃ w, Pipeline.arrRef spec5 w = b
  · obtain ⟨w, rfl⟩ := h
    rw [Bd12_arr]
    have hin : (cfg5.win w).isOut = false := by
      fin_cases w
      · rfl
      · rfl
      · rfl
      · exact absurd rfl hb
    exact ((dat5 (En11 m) c).arrAt_in w hin _).trans (A_eq5 (En11 m) c w)
  · exact Bd12_of_ne m c b fun w e => h ⟨w, e⟩

/-- A buffer no host operation writes and no region outputs ends as launched. -/
theorem Bd12_of (c : Dev nD) (b : Ref sig .tc)
    (h0 : b ∉ hostOps0_W) (o0 : b ≠ main_v39) (h1 : b ∉ hostOps1_W) (o1 : b ≠ main_v79) (h2 : b ∉ hostOps2_W) (o2 : b ≠ main_v119)
    (h3 : b ∉ hostOps3_W) (o3 : b ≠ main_v159) (h4 : b ∉ hostOps4_W) (o4 : b ≠ main_v199) (h5 : b ∉ hostOps5_W) (o5 : b ≠ main_v239) :
    Bd12 m c (Proc.devRef .tc b) = m ((c : Thread nD τ).loc b) :=
  (Bd12_keep m c b o5).trans <| (StableHlo.after_of_writes_sub hostOps5 _ hostOps5_writes h5).trans <|
  (Bd10_keep m c b o4).trans <| (StableHlo.after_of_writes_sub hostOps4 _ hostOps4_writes h4).trans <|
  (Bd8_keep m c b o3).trans <| (StableHlo.after_of_writes_sub hostOps3 _ hostOps3_writes h3).trans <|
  (Bd6_keep m c b o2).trans <| (StableHlo.after_of_writes_sub hostOps2 _ hostOps2_writes h2).trans <|
  (Bd4_keep m c b o1).trans <| (StableHlo.after_of_writes_sub hostOps1 _ hostOps1_writes h1).trans <|
  (Bd2_keep m c b o0).trans <| (StableHlo.after_of_writes_sub hostOps0 _ hostOps0_writes h0)

/-- The first result is region 2's output array: nothing after region 2 writes it. -/
theorem Bd12_v119 (c : Dev nD) : Bd12 m c (Proc.devRef .tc main_v119) = (dat2 (En5 m) c).arrAt 3 cfg2.N :=
  (Bd12_keep m c main_v119 (by decide)).trans <| (StableHlo.after_of_writes_sub hostOps5 _ hostOps5_writes (by decide)).trans <|
  (Bd10_keep m c main_v119 (by decide)).trans <| (StableHlo.after_of_writes_sub hostOps4 _ hostOps4_writes (by decide)).trans <|
  (Bd8_keep m c main_v119 (by decide)).trans <| (StableHlo.after_of_writes_sub hostOps3 _ hostOps3_writes (by decide)).trans <|
  Bd6_arr m c 3

/-- The second result is region 5's output array. -/
theorem Bd12_v239 (c : Dev nD) : Bd12 m c (Proc.devRef .tc main_v239) = (dat5 (En11 m) c).arrAt 3 cfg5.N :=
  Bd12_arr m c 3

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (En1 m) c
  | ⟨1, _⟩ => fun c => dat1 (En3 m) c
  | ⟨2, _⟩ => fun c => dat2 (En5 m) c
  | ⟨3, _⟩ => fun c => dat3 (En7 m) c
  | ⟨4, _⟩ => fun c => dat4 (En9 m) c
  | ⟨5, _⟩ => fun c => dat5 (En11 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Bd12 m c) ∗ ∃ r, prngReg c r)

/-! ## The regions as segments -/

set_option backward.isDefEq.respectTransparency.types false in
/-- Region 0 over the thread state: entered from every unscoped buffer at `Bd1`, left at `Bd2`. Its arrays
    split out of the unscoped buffers and are put back at the exit contents; the generator register and the scoped
    buffers go into the region's invariant and come back out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ L lv 0 fun _ _ => rfl
  pre c := iprop(StableHlo.held (c : Thread nD τ) (Pipeline.ucRefs τ sig) (Bd1 m c) ∗ R c)
  post c := iprop(StableHlo.held (c : Thread nD τ) (Pipeline.ucRefs τ sig) (Bd2 m c) ∗ R c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin0 (En1 m) c
    unfold Pipeline.ΦA at h0
    have h : _ ⊢ (pdats m 0 c).Φ 0 := h0
    iintro ⟨Hp, -, Hr⟩
    iapply h
    isplitl [Hr]; · iexact Hr
    iexact Hp
  hout c := by
    rw [Pipeline.ownSems0_none]
    have h0 := hout0 (En1 m) c
    unfold Pipeline.ΦA at h0
    have h : (pdats m 0 c).Φ (Fin.last _) ⊢ _ := h0
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En1 m c) (Ex2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Bd3`, left at `Bd4`. Its arrays
    split out of the unscoped buffers and are put back at the exit contents; the generator register and the scoped
    buffers go into the region's invariant and come back out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m) c).loose
  hwaits := Pipeline.hwaits_of_owed_zero _ _ _ _ L lv 1 fun _ _ => rfl
  pre c := iprop(StableHlo.held (c : Thread nD τ) (Pipeline.ucRefs τ sig) (Bd3 m c) ∗ R c)
  post c := iprop(StableHlo.held (c : Thread nD τ) (Pipeline.ucRefs τ sig) (Bd4 m c) ∗ R c)
  X c := iprop(∃ r, prngReg c r)
  Y c := iprop(∃ r, prngReg c r)
  Z c := Pipeline.unscopedRest (Ix := Unit) (Name := ℕ) (U := UR sig nD τ) (Lvl := ℕ) spec1 c (En3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin1 (En3 m) c
    unfold Pipeline.ΦA at h0
    have h : _ ⊢ (pdats m 1 c).Φ 0 := h0
    iintro ⟨Hp, -, Hr⟩
    iapply h
    isplitl [Hr]; · iexact Hr
    iexact Hp
  hout c := by
    rw [Pipeline.ownSems0_none]
    have h0 := hout1 (En3 m) c
    unfold Pipeline.ΦA at h0
    have h : (pdats m 1 c).Φ (Fin.last _) ⊢ _ := h0
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En3 m c) (Ex4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Bd5`, left at `Bd6`. Its arrays
    split out of the unscoped buffers and are put back at the exit contents; the generator register and the scoped
    buffers go into the region's invariant and come back out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m) c).loose
  hwaits := Pipeline.hwaits_of_owed_zero _ _ _ _ L lv 2 fun _ _ => rfl
  pre c := iprop(StableHlo.held (c : Thread nD τ) (Pipeline.ucRefs τ sig) (Bd5 m c) ∗ R c)
  post c := iprop(StableHlo.held (c : Thread nD τ) (Pipeline.ucRefs τ sig) (Bd6 m c) ∗ R c)
  X c := iprop(∃ r, prngReg c r)
  Y c := iprop(∃ r, prngReg c r)
  Z c := Pipeline.unscopedRest (Ix := Unit) (Name := ℕ) (U := UR sig nD τ) (Lvl := ℕ) spec2 c (En5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin2 (En5 m) c
    unfold Pipeline.ΦA at h0
    have h : _ ⊢ (pdats m 2 c).Φ 0 := h0
    iintro ⟨Hp, -, Hr⟩
    iapply h
    isplitl [Hr]; · iexact Hr
    iexact Hp
  hout c := by
    rw [Pipeline.ownSems0_none]
    have h0 := hout2 (En5 m) c
    unfold Pipeline.ΦA at h0
    have h : (pdats m 2 c).Φ (Fin.last _) ⊢ _ := h0
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En5 m c) (Ex6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `Bd7`, left at `Bd8`. Its arrays
    split out of the unscoped buffers and are put back at the exit contents; the generator register and the scoped
    buffers go into the region's invariant and come back out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En7 m) c).loose
  hwaits := Pipeline.hwaits_of_owed_zero _ _ _ _ L lv 3 fun _ _ => rfl
  pre c := iprop(StableHlo.held (c : Thread nD τ) (Pipeline.ucRefs τ sig) (Bd7 m c) ∗ R c)
  post c := iprop(StableHlo.held (c : Thread nD τ) (Pipeline.ucRefs τ sig) (Bd8 m c) ∗ R c)
  X c := iprop(∃ r, prngReg c r)
  Y c := iprop(∃ r, prngReg c r)
  Z c := Pipeline.unscopedRest (Ix := Unit) (Name := ℕ) (U := UR sig nD τ) (Lvl := ℕ) spec3 c (En7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin3 (En7 m) c
    unfold Pipeline.ΦA at h0
    have h : _ ⊢ (pdats m 3 c).Φ 0 := h0
    iintro ⟨Hp, -, Hr⟩
    iapply h
    isplitl [Hr]; · iexact Hr
    iexact Hp
  hout c := by
    rw [Pipeline.ownSems0_none]
    have h0 := hout3 (En7 m) c
    unfold Pipeline.ΦA at h0
    have h : (pdats m 3 c).Φ (Fin.last _) ⊢ _ := h0
    iintro HΦ
    ihave H := h $$ HΦ
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En7 m c) (Ex8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `Bd9`, left at `Bd10`. Its arrays
    split out of the unscoped buffers and are put back at the exit contents; the generator register and the scoped
    buffers go into the region's invariant and come back out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (En9 m) c).loose
  hwaits := Pipeline.hwaits_of_owed_zero _ _ _ _ L lv 4 fun _ _ => rfl
  pre c := iprop(StableHlo.held (c : Thread nD τ) (Pipeline.ucRefs τ sig) (Bd9 m c) ∗ R c)
  post c := iprop(StableHlo.held (c : Thread nD τ) (Pipeline.ucRefs τ sig) (Bd10 m c) ∗ R c)
  X c := iprop(∃ r, prngReg c r)
  Y c := iprop(∃ r, prngReg c r)
  Z c := Pipeline.unscopedRest (Ix := Unit) (Name := ℕ) (U := UR sig nD τ) (Lvl := ℕ) spec4 c (En9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (En9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin4 (En9 m) c
    unfold Pipeline.ΦA at h0
    have h : _ ⊢ (pdats m 4 c).Φ 0 := h0
    iintro ⟨Hp, -, Hr⟩
    iapply h
    isplitl [Hr]; · iexact Hr
    iexact Hp
  hout c := by
    rw [Pipeline.ownSems0_none]
    have h0 := hout4 (En9 m) c
    unfold Pipeline.ΦA at h0
    have h : (pdats m 4 c).Φ (Fin.last _) ⊢ _ := h0
    iintro HΦ
    ihave H := h $$ HΦ
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (En9 m c) (Ex10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `Bd11`, left at `Bd12`. Its arrays
    split out of the unscoped buffers and are put back at the exit contents; the generator register and the scoped
    buffers go into the region's invariant and come back out; nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (En11 m) c).loose
  hwaits := Pipeline.hwaits_of_owed_zero _ _ _ _ L lv 5 fun _ _ => rfl
  pre c := iprop(StableHlo.held (c : Thread nD τ) (Pipeline.ucRefs τ sig) (Bd11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (En11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (En11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin5 (En11 m) c
    unfold Pipeline.ΦA at h0
    have h : _ ⊢ (pdats m 5 c).Φ 0 := h0
    iintro ⟨Hp, -, Hr⟩
    iapply h
    isplitl [Hr]; · iexact Hr
    iexact Hp
  hout c := by
    rw [Pipeline.ownSems0_none]
    have h0 := hout5 (En11 m) c
    unfold Pipeline.ΦA at h0
    have h : (pdats m 5 c).Φ (Fin.last _) ⊢ _ := h0
    iintro HΦ
    ihave H := h $$ HΦ
    icases H with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (En11 m c) (Ex12 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (Bd0 m)), .region (reg0 m),
    .host (hseg hostOps1 hostOps1_sub hostOps1_fresh (Bd2 m)), .region (reg1 m),
    .host (hseg hostOps2 hostOps2_sub hostOps2_fresh (Bd4 m)), .region (reg2 m),
    .host (hseg hostOps3 hostOps3_sub hostOps3_fresh (Bd6 m)), .region (reg3 m),
    .host (hseg hostOps4 hostOps4_sub hostOps4_fresh (Bd8 m)), .region (reg4 m),
    .host (hseg hostOps5 hostOps5_sub hostOps5_fresh (Bd10 m)), .region (reg5 m) ]

set_option backward.isDefEq.respectTransparency.types false in
/-- From any memory with zero counters, every weakly fair execution of the program terminates, nothing faulting, and
    every final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Bd12 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()),
          StableHlo.seq hostOps3, Prog.lift (.customCall (Pipeline.entry 3) ()),
          StableHlo.seq hostOps4, Prog.lift (.customCall (Pipeline.entry 4) ()),
          StableHlo.seq hostOps5, Prog.lift (.customCall (Pipeline.entry 5) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd12 m c b)
    (hfin := fun c s' => by
      iintro ⟨⟨Hh, -⟩, HSI⟩
      unfold StableHlo.held
      imodintro
      iapply (pointsTo_read_all (Pipeline.ucRefs τ sig) (fun b => (((c : Thread nD τ)).1, b)) (Bd12 m c) s')
      isplitl [Hh] <;> iassumption)
    (hQ := fun s h c => h c)

/-- Every argument array ends holding its launch contents: no host operation writes it, and a region reads it at most
    through an input window. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (Bd12_of m c main_arg0 (by decide) (by decide) (by decide) (by decide) (by decide) (by decide) (by decide) (by decide) (by decide) (by decide) (by decide) (by decide)),
    (h c _ (mem_uc main_arg1 (by decide))).trans (Bd12_of m c main_arg1 (by decide) (by decide) (by decide) (by decide) (by decide) (by decide) (by decide) (by decide) (by decide) (by decide) (by decide) (by decide)),
    (h c _ (mem_uc main_arg2 (by decide))).trans (Bd12_of m c main_arg2 (by decide) (by decide) (by decide) (by decide) (by decide) (by decide) (by decide) (by decide) (by decide) (by decide) (by decide) (by decide)),
    (h c _ (mem_uc main_arg3 (by decide))).trans (Bd12_of m c main_arg3 (by decide) (by decide) (by decide) (by decide) (by decide) (by decide) (by decide) (by decide) (by decide) (by decide) (by decide) (by decide)),
    (h c _ (mem_uc main_arg4 (by decide))).trans (Bd12_of m c main_arg4 (by decide) (by decide) (by decide) (by decide) (by decide) (by decide) (by decide) (by decide) (by decide) (by decide) (by decide) (by decide)),
    (h c _ (mem_uc main_arg5 (by decide))).trans (Bd12_of m c main_arg5 (by decide) (by decide) (by decide) (by decide) (by decide) (by decide) (by decide) (by decide) (by decide) (by decide) (by decide) (by decide)),
    (h c _ (mem_uc main_arg6 (by decide))).trans (Bd12_of m c main_arg6 (by decide) (by decide) (by decide) (by decide) (by decide) (by decide) (by decide) (by decide) (by decide) (by decide) (by decide) (by decide)),
    (h c _ (mem_uc main_arg7 (by decide))).trans (Bd12_of m c main_arg7 (by decide) (by decide) (by decide) (by decide) (by decide) (by decide) (by decide) (by decide) (by decide) (by decide) (by decide) (by decide)),
    (h c _ (mem_uc main_arg8 (by decide))).trans (Bd12_of m c main_arg8 (by decide) (by decide) (by decide) (by decide) (by decide) (by decide) (by decide) (by decide) (by decide) (by decide) (by decide) (by decide)),
    (h c _ (mem_uc main_arg9 (by decide))).trans (Bd12_of m c main_arg9 (by decide) (by decide) (by decide) (by decide) (by decide) (by decide) (by decide) (by decide) (by decide) (by decide) (by decide) (by decide)),
    (h c _ (mem_uc main_arg10 (by decide))).trans (Bd12_of m c main_arg10 (by decide) (by decide) (by decide) (by decide) (by decide) (by decide) (by decide) (by decide) (by decide) (by decide) (by decide) (by decide)),
    (h c _ (mem_uc main_arg11 (by decide))).trans (Bd12_of m c main_arg11 (by decide) (by decide) (by decide) (by decide) (by decide) (by decide) (by decide) (by decide) (by decide) (by decide) (by decide) (by decide)),
    (h c _ (mem_uc main_arg12 (by decide))).trans (Bd12_of m c main_arg12 (by decide) (by decide) (by decide) (by decide) (by decide) (by decide) (by decide) (by decide) (by decide) (by decide) (by decide) (by decide)),
    (h c _ (mem_uc main_arg13 (by decide))).trans (Bd12_of m c main_arg13 (by decide) (by decide) (by decide) (by decide) (by decide) (by decide) (by decide) (by decide) (by decide) (by decide) (by decide) (by decide)),
    (h c _ (mem_uc main_arg14 (by decide))).trans (Bd12_of m c main_arg14 (by decide) (by decide) (by decide) (by decide) (by decide) (by decide) (by decide) (by decide) (by decide) (by decide) (by decide) (by decide))⟩) (run_all m ρ)

/-- The run with both results named: the first result is what region 2's write-backs leave in its output array,
    the second what region 5's leave; the arguments end as launched. -/
theorem run_results : θ_run defs (onTc (τ := τ) (main (F := F))) ⟨m, fun _ => 0, ρ⟩ (fun r => ∀ c : Dev nD,
      r.2.mem ((c.tc : Thread nD τ).loc main_v119) = (dat2 (En5 m) c).arrAt 3 cfg2.N
      ∧ r.2.mem ((c.tc : Thread nD τ).loc main_v239) = (dat5 (En11 m) c).arrAt 3 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_v119 (by decide))).trans (Bd12_v119 m c),
    (h c _ (mem_uc main_v239 (by decide))).trans (Bd12_v239 m c),
    (h c _ (mem_uc main_arg0 (by decide))).trans (Bd12_of m c main_arg0 (by decide) (by decide) (by decide) (by decide) (by decide) (by decide) (by decide) (by decide) (by decide) (by decide) (by decide) (by decide)),
    (h c _ (mem_uc main_arg1 (by decide))).trans (Bd12_of m c main_arg1 (by decide) (by decide) (by decide) (by decide) (by decide) (by decide) (by decide) (by decide) (by decide) (by decide) (by decide) (by decide)),
    (h c _ (mem_uc main_arg2 (by decide))).trans (Bd12_of m c main_arg2 (by decide) (by decide) (by decide) (by decide) (by decide) (by decide) (by decide) (by decide) (by decide) (by decide) (by decide) (by decide)),
    (h c _ (mem_uc main_arg3 (by decide))).trans (Bd12_of m c main_arg3 (by decide) (by decide) (by decide) (by decide) (by decide) (by decide) (by decide) (by decide) (by decide) (by decide) (by decide) (by decide)),
    (h c _ (mem_uc main_arg4 (by decide))).trans (Bd12_of m c main_arg4 (by decide) (by decide) (by decide) (by decide) (by decide) (by decide) (by decide) (by decide) (by decide) (by decide) (by decide) (by decide)),
    (h c _ (mem_uc main_arg5 (by decide))).trans (Bd12_of m c main_arg5 (by decide) (by decide) (by decide) (by decide) (by decide) (by decide) (by decide) (by decide) (by decide) (by decide) (by decide) (by decide)),
    (h c _ (mem_uc main_arg6 (by decide))).trans (Bd12_of m c main_arg6 (by decide) (by decide) (by decide) (by decide) (by decide) (by decide) (by decide) (by decide) (by decide) (by decide) (by decide) (by decide)),
    (h c _ (mem_uc main_arg7 (by decide))).trans (Bd12_of m c main_arg7 (by decide) (by decide) (by decide) (by decide) (by decide) (by decide) (by decide) (by decide) (by decide) (by decide) (by decide) (by decide)),
    (h c _ (mem_uc main_arg8 (by decide))).trans (Bd12_of m c main_arg8 (by decide) (by decide) (by decide) (by decide) (by decide) (by decide) (by decide) (by decide) (by decide) (by decide) (by decide) (by decide)),
    (h c _ (mem_uc main_arg9 (by decide))).trans (Bd12_of m c main_arg9 (by decide) (by decide) (by decide) (by decide) (by decide) (by decide) (by decide) (by decide) (by decide) (by decide) (by decide) (by decide)),
    (h c _ (mem_uc main_arg10 (by decide))).trans (Bd12_of m c main_arg10 (by decide) (by decide) (by decide) (by decide) (by decide) (by decide) (by decide) (by decide) (by decide) (by decide) (by decide) (by decide)),
    (h c _ (mem_uc main_arg11 (by decide))).trans (Bd12_of m c main_arg11 (by decide) (by decide) (by decide) (by decide) (by decide) (by decide) (by decide) (by decide) (by decide) (by decide) (by decide) (by decide)),
    (h c _ (mem_uc main_arg12 (by decide))).trans (Bd12_of m c main_arg12 (by decide) (by decide) (by decide) (by decide) (by decide) (by decide) (by decide) (by decide) (by decide) (by decide) (by decide) (by decide)),
    (h c _ (mem_uc main_arg13 (by decide))).trans (Bd12_of m c main_arg13 (by decide) (by decide) (by decide) (by decide) (by decide) (by decide) (by decide) (by decide) (by decide) (by decide) (by decide) (by decide)),
    (h c _ (mem_uc main_arg14 (by decide))).trans (Bd12_of m c main_arg14 (by decide) (by decide) (by decide) (by decide) (by decide) (by decide) (by decide) (by decide) (by decide) (by decide) (by decide) (by decide))⟩) (run_all m ρ)

end Cert.Kernel.Fr

end
-- ==== Proof.IdealR0Base.lean ====
/-
  Region 0 of the program: one launch of the blocked linear kernel over the grid (output block n, contraction block k).
  Stated here, for any float instance and at any contents `V` of the buffers when the region is entered:
  the two branch conditions of the body as functions of the grid point (k = 0: the accumulator is zeroed first;
  k = 1: the output block is written), where the output window rests, and each window's block at a point read off
  its array.
-/
import proofs.«135243_j27986006901491_1_alg».proof.Proof.Gen.KernelIdeal.Launch
import proofs.«135243_j27986006901491_1_alg».proof.Proof.Gen.KernelIdeal.Skeleton
import proofs.«135243_j27986006901491_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (when it is not
    fetched its block index has not moved), for any proof data whose array is `V`'s and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The first branch (zero the accumulator) is taken when the contraction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second branch (write the output block) is taken when the contraction coordinate is the last, 1. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows rest -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a point with k = 0 nothing is stored into the output window, and its block is not written back there. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At a point with k = 1 the output window is stored. -/
theorem liveAt0_3_C : ∀ t : Fin cfg0.N, ¬cond0_0 (grid0.coords t) → cond0_1 (grid0.coords t) → cfg0.idle 3 (grid0.coords t) = false := by decide +kernel

/-! ## The staging memrefs and the accumulator -/

/-- One staging buffer of the output window, through which its contents are stated (which one does not matter). -/
abbrev VO0_3 : View sig .tc .vmem S44x2048 .f32 := (Memref.whole cc0_stg3_0 : Memref sig .tc .vmem S44x2048 .f32).view
abbrev ms0_0 (t : Fin cfg0.N) : Memref sig .tc .vmem S44x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S44x2048 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0_0 : Memref sig .tc .vmem S44x2048 .f32 := Memref.whole cc0_scratch0
abbrev VS0_0 : View sig .tc .vmem S44x2048 .f32 := scM0_0.view

/-- The scoped buffers no window stages, with the accumulator taken out as a memref owned at some contents. -/
theorem scopedRest0_acc (c : Dev nD) :
    (Pipeline.scopedRest (Ix := Unit) (Name := ℕ) (U := UR sig nD τ) (Lvl := ℕ) (Val := Elt F) spec0 c : sProp 𝕄)
      = iprop(iprop((∃ d, owns (c : Thread nD τ) scM0_0 fullShare d))
          ∗ Pipeline.scopedRestBut (Ix := Unit) (Name := ℕ) (U := UR sig nD τ) (Lvl := ℕ) (Val := Elt F) spec0 c [cc0_scratch0]) := by
  rw [scopedRest0_split]; simp only [scM0_0, owns_whole]; try rfl

end Cert.KernelIdeal.Fr

end
-- ==== Proof.IdealR0RunA.lean ====
/-
  Region 0, a grid point with contraction coordinate k = 0: the body zeroes the accumulator, adds this point's
  product of the activation block with the transposed weight block, and leaves the output window alone. Run once on
  arbitrary whole staging memrefs; what the accumulator ends with is found by the run as a list of stored pieces.
-/
import proofs.«135243_j27986006901491_1_alg».proof.Proof.IdealR0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 0, from the inputs' buffers at their contents, the output's buffer at any contents
    (handed back untouched) and the accumulator at anything: it runs to the continuation with the inputs as they
    were and the accumulator holding its stored pieces. -/
noncomputable def kernelRun0_A (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond0_0 i) (hc1 : ¬cond0_1 i)
    (x0 : Vec F S44x2048 .bf16) (x1 : Vec F S2048x2048 .bf16) (x2 : Vec F S2048 .f32) :
    Σ' (L3 : List (View.Piece (Elt F) S44x2048 .f32)), { LS0 : List (View.Piece (Elt F) S44x2048 .f32) //
      ∀ (xi3 : Vec F S44x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__linear_kernel i arg2 harg2 arg3 harg3 arg4 harg4 arg5 harg5 arg6 harg6) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.IdealR0RunC.lean ====
/-
  Region 0, a grid point with contraction coordinate k = 1 (the last): the body adds this point's product to the
  accumulator the point before left, then stores accumulator plus bias (through the activation, where the layer has
  one) into the output window. Run once on arbitrary whole staging memrefs; what the accumulator and the output
  window end with is found by the run as lists of stored pieces.
-/
import proofs.«135243_j27986006901491_1_alg».proof.Proof.IdealR0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 1, from the inputs' buffers at their contents, the output's buffer at anything and
    the accumulator at what the point before left (`xs0`): it runs to the continuation with the inputs as they were,
    the output's buffer and the accumulator holding their stored pieces. -/
noncomputable def kernelRun0_C (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond0_0 i) (hc1 : cond0_1 i)
    (x0 : Vec F S44x2048 .bf16) (x1 : Vec F S2048x2048 .bf16) (x2 : Vec F S2048 .f32) (xs0 : Vec F S44x2048 .f32) :
    Σ' (L3 : List (View.Piece (Elt F) S44x2048 .f32)), { LS0 : List (View.Piece (Elt F) S44x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__linear_kernel i arg2 harg2 arg3 harg3 arg4 harg4 arg5 harg5 arg6 harg6) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.IdealR0Frame.lean ====
/-
  Region 0: what the body leaves at each grid point, the pipeline's proof data, and the body obligation.
  A point with k = 0 leaves in the accumulator its stored pieces over nothing (the output window rests); a point with
  k = 1 leaves in the accumulator and in the output window their stored pieces over what the point before left in the
  accumulator. The region's invariant before point n > 0 is the accumulator at what point n − 1 left, beside the
  scoped buffers no window stages and the generator register; before the first point the accumulator is at anything.
-/
import proofs.«135243_j27986006901491_1_alg».proof.Proof.IdealR0RunA
import proofs.«135243_j27986006901491_1_alg».proof.Proof.IdealR0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A point with k = 0 stores nothing into the output window: a placeholder nothing consults. -/
def out0_A_3 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond0_0 i) (hc1 : ¬cond0_1 i)
    (x0 : Vec F S44x2048 .bf16) (x1 : Vec F S2048x2048 .bf16) (x2 : Vec F S2048 .f32) : Vec F S44x2048 .f32 :=
  VO0_3.read (Elt F) (VO0_3.writes (Elt F) VO0_3.junk (kernelRun0_A c i arg2 harg2 arg3 harg3 arg4 harg4 arg5 harg5 arg6 harg6 hc0 hc1 x0 x1 x2).1)

/-- The pieces a point with k = 0 stores into the accumulator cover it. -/
theorem scover0_A_0 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond0_0 i) (hc1 : ¬cond0_1 i)
    (x0 : Vec F S44x2048 .bf16) (x1 : Vec F S2048x2048 .bf16) (x2 : Vec F S2048 .f32) (y : S44x2048.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S44x2048.size (by sl_kernel_rfl) y

/-- What a point with k = 0 leaves in the accumulator. -/
def sout0_A_0 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond0_0 i) (hc1 : ¬cond0_1 i)
    (x0 : Vec F S44x2048 .bf16) (x1 : Vec F S2048x2048 .bf16) (x2 : Vec F S2048 .f32) : Vec F S44x2048 .f32 :=
  VS0_0.read (Elt F) (VS0_0.writes (Elt F) VS0_0.junk (kernelRun0_A c i arg2 harg2 arg3 harg3 arg4 harg4 arg5 harg5 arg6 harg6 hc0 hc1 x0 x1 x2).2.1)

/-- The pieces a point with k = 1 stores into the output window cover its block. -/
theorem cover0_C_3 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond0_0 i) (hc1 : cond0_1 i)
    (x0 : Vec F S44x2048 .bf16) (x1 : Vec F S2048x2048 .bf16) (x2 : Vec F S2048 .f32) (xs0 : Vec F S44x2048 .f32) (y : S44x2048.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S44x2048.size (by sl_kernel_rfl) y

/-- What a point with k = 1 leaves in the output window's staging buffer. -/
def out0_C_3 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond0_0 i) (hc1 : cond0_1 i)
    (x0 : Vec F S44x2048 .bf16) (x1 : Vec F S2048x2048 .bf16) (x2 : Vec F S2048 .f32) (xs0 : Vec F S44x2048 .f32) : Vec F S44x2048 .f32 :=
  VO0_3.read (Elt F) (VO0_3.writes (Elt F) VO0_3.junk (kernelRun0_C c i arg2 harg2 arg3 harg3 arg4 harg4 arg5 harg5 arg6 harg6 hc0 hc1 x0 x1 x2 xs0).1)

/-- The pieces a point with k = 1 stores into the accumulator cover it. -/
theorem scover0_C_0 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond0_0 i) (hc1 : cond0_1 i)
    (x0 : Vec F S44x2048 .bf16) (x1 : Vec F S2048x2048 .bf16) (x2 : Vec F S2048 .f32) (xs0 : Vec F S44x2048 .f32) (y : S44x2048.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S44x2048.size (by sl_kernel_rfl) y

/-- What a point with k = 1 leaves in the accumulator. -/
def sout0_C_0 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond0_0 i) (hc1 : cond0_1 i)
    (x0 : Vec F S44x2048 .bf16) (x1 : Vec F S2048x2048 .bf16) (x2 : Vec F S2048 .f32) (xs0 : Vec F S44x2048 .f32) : Vec F S44x2048 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output window and the accumulator hold after each point -/

/-- After the body at position `n`: (the output window's staging buffer, the accumulator). An even position has
    k = 0, an odd one k = 1 and reads the accumulator the position before left. -/
def outsAt0 (c : Dev nD) : (n : ℕ) → n < cfg0.N → Vec F S44x2048 .f32 × Vec F S44x2048 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr (by (try dsimp only at h0 ⊢); omega)) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr (by (try dsimp only at h0 ⊢); omega)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 2 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => (fun h => by (try dsimp only at h); omega) ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => (fun h => by (try dsimp only at h); omega) ((hcond0_1 t).mp h)) (iblk0 V c 0 t) (iblk0 V c 1 t) (iblk0 V c 2 t)) := by
  obtain ⟨n, hn⟩ := t
  cases n with
  | zero => exact rfl
  | succ n => exact (dif_pos h0).trans rfl

theorem outsAt0_C (c : Dev nD) (t : Fin cfg0.N) (h0 : ¬t.val % 2 = 0) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr (by (try dsimp only at h0 ⊢); omega)) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr (by (try dsimp only at h0 ⊢); omega)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant, point by point -/

abbrev restBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop(iprop((∃ d, owns (c : Thread nD τ) scM0_0 fullShare d)) ∗ restBut0 c) ∗ (∃ r, prngReg c r)) := by
  unfold Pipeline.ΦA; rw [scopedRest0_acc]

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 c) ∗ (∃ r, prngReg c r)) := by
  cases n with
  | zero => exact absurd rfl hz
  | succ n => rfl

/-! ## The pipeline's proof data -/

/-- The arrays as the region finds them; after the body at point `t` each input's buffer at its block and the
    output's at what `outsAt0` says; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the parity of the position says which case the
    point is in; the invariant hands the body the accumulator (at anything before the first point, otherwise at what
    the point before left) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 2 = 0
  · have hc0 : cond0_0 (grid0.coords t) := (hcond0_0 t).mpr h0
    have hc1 : ¬cond0_1 (grid0.coords t) := fun h => (fun h => by (try dsimp only at h); omega) ((hcond0_1 t).mp h)
    rw [Dat.leavesExact_idle (dat0 V c) 3 t (idleAt0_3_A t hc0 hc1) (noFlush0_3_A t hc0 hc1)]
    rw [outsAt0_A V c t h0]
    unfold sout0_A_0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond0_0 (grid0.coords t) := fun h => h0 ((hcond0_0 t).mp h)
    have hc1 : cond0_1 (grid0.coords t) := (hcond0_1 t).mpr (by (try dsimp only at h0 ⊢); omega)
    rw [show (dat0 V c).leavesExact 3 t = owns (c : Thread nD τ) (ms0_3 t) fullShare ((dat0 V c).after 3 t) from by
      unfold Dat.leavesExact; rw [liveAt0_3_C t hc0 hc1], after0_3]
    rw [outsAt0_C V c t h0]
    unfold out0_C_3 sout0_C_0; (try dsimp only)
    have hz : t.val ≠ 0 := fun e => h0 (by rw [e])
    rw [PhiS0_castSucc V c t, PhiS0_pos V c _ _ hz]
    iintro ⟨⟨⟨HS0, Hr⟩, Hg⟩, Ho, ⟨%d0, H0⟩, ⟨%d1, H1⟩, ⟨%d2, H2⟩, ⟨%d3, H3⟩⟩
    iapply ((kernelRun0_C c (grid0.coords t) _ _ _ _ _ _ _ _ _ _ hc0 hc1 (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the same back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 4 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hr⟩, Hg⟩
  isplitl [HS0 Hr]
  · isplitl [HS0]
    · iexists _; iexact HS0
    iexact Hr
  iexact Hg

end Cert.KernelIdeal.Fr

end
-- ==== Proof.IdealR1Base.lean ====
/-
  Region 1 of the program: one launch of the blocked linear kernel over the grid (output block n, contraction block k).
  Stated here, for any float instance and at any contents `V` of the buffers when the region is entered:
  the two branch conditions of the body as functions of the grid point (k = 0: the accumulator is zeroed first;
  k = 1: the output block is written), where the output window rests, and each window's block at a point read off
  its array.
-/
import proofs.«135243_j27986006901491_1_alg».proof.Proof.Gen.KernelIdeal.Launch
import proofs.«135243_j27986006901491_1_alg».proof.Proof.Gen.KernelIdeal.Skeleton
import proofs.«135243_j27986006901491_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched its block index has not moved), for any proof data whose array is `V`'s and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first branch (zero the accumulator) is taken when the contraction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- The second branch (write the output block) is taken when the contraction coordinate is the last, 1. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows rest -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a point with k = 0 nothing is stored into the output window, and its block is not written back there. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At a point with k = 1 the output window is stored. -/
theorem liveAt1_3_C : ∀ t : Fin cfg1.N, ¬cond1_0 (grid1.coords t) → cond1_1 (grid1.coords t) → cfg1.idle 3 (grid1.coords t) = false := by decide +kernel

/-! ## The staging memrefs and the accumulator -/

/-- One staging buffer of the output window, through which its contents are stated (which one does not matter). -/
abbrev VO1_3 : View sig .tc .vmem S44x2048 .f32 := (Memref.whole cc1_stg3_0 : Memref sig .tc .vmem S44x2048 .f32).view
abbrev ms1_0 (t : Fin cfg1.N) : Memref sig .tc .vmem S44x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S44x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S44x2048 .f32 := Memref.whole cc1_scratch0
abbrev VS1_0 : View sig .tc .vmem S44x2048 .f32 := scM1_0.view

/-- The scoped buffers no window stages, with the accumulator taken out as a memref owned at some contents. -/
theorem scopedRest1_acc (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d))
          ∗ Pipeline.scopedRestBut (Ix := Unit) (Name := ℕ) (U := UR sig nD τ) (Lvl := ℕ) (Val := Elt F) spec1 c [cc1_scratch0]) := by
  rw [scopedRest1_split]; simp only [scM1_0, owns_whole]; try rfl

end Cert.KernelIdeal.Fr

end
-- ==== Proof.IdealR1RunA.lean ====
/-
  Region 1, a grid point with contraction coordinate k = 0: the body zeroes the accumulator, adds this point's
  product of the activation block with the transposed weight block, and leaves the output window alone. Run once on
  arbitrary whole staging memrefs; what the accumulator ends with is found by the run as a list of stored pieces.
-/
import proofs.«135243_j27986006901491_1_alg».proof.Proof.IdealR1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 0, from the inputs' buffers at their contents, the output's buffer at any contents
    (handed back untouched) and the accumulator at anything: it runs to the continuation with the inputs as they
    were and the accumulator holding its stored pieces. -/
noncomputable def kernelRun1_A (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond1_0 i) (hc1 : ¬cond1_1 i)
    (x0 : Vec F S44x2048 .bf16) (x1 : Vec F S2048x2048 .bf16) (x2 : Vec F S2048 .f32) :
    Σ' (L3 : List (View.Piece (Elt F) S44x2048 .f32)), { LS0 : List (View.Piece (Elt F) S44x2048 .f32) //
      ∀ (xi3 : Vec F S44x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.IdealR1RunC.lean ====
/-
  Region 1, a grid point with contraction coordinate k = 1 (the last): the body adds this point's product to the
  accumulator the point before left, then stores accumulator plus bias (through the activation, where the layer has
  one) into the output window. Run once on arbitrary whole staging memrefs; what the accumulator and the output
  window end with is found by the run as lists of stored pieces.
-/
import proofs.«135243_j27986006901491_1_alg».proof.Proof.IdealR1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 1, from the inputs' buffers at their contents, the output's buffer at anything and
    the accumulator at what the point before left (`xs0`): it runs to the continuation with the inputs as they were,
    the output's buffer and the accumulator holding their stored pieces. -/
noncomputable def kernelRun1_C (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond1_0 i) (hc1 : cond1_1 i)
    (x0 : Vec F S44x2048 .bf16) (x1 : Vec F S2048x2048 .bf16) (x2 : Vec F S2048 .f32) (xs0 : Vec F S44x2048 .f32) :
    Σ' (L3 : List (View.Piece (Elt F) S44x2048 .f32)), { LS0 : List (View.Piece (Elt F) S44x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.IdealR1Frame.lean ====
/-
  Region 1: what the body leaves at each grid point, the pipeline's proof data, and the body obligation.
  A point with k = 0 leaves in the accumulator its stored pieces over nothing (the output window rests); a point with
  k = 1 leaves in the accumulator and in the output window their stored pieces over what the point before left in the
  accumulator. The region's invariant before point n > 0 is the accumulator at what point n − 1 left, beside the
  scoped buffers no window stages and the generator register; before the first point the accumulator is at anything.
-/
import proofs.«135243_j27986006901491_1_alg».proof.Proof.IdealR1RunA
import proofs.«135243_j27986006901491_1_alg».proof.Proof.IdealR1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A point with k = 0 stores nothing into the output window: a placeholder nothing consults. -/
def out1_A_3 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond1_0 i) (hc1 : ¬cond1_1 i)
    (x0 : Vec F S44x2048 .bf16) (x1 : Vec F S2048x2048 .bf16) (x2 : Vec F S2048 .f32) : Vec F S44x2048 .f32 :=
  VO1_3.read (Elt F) (VO1_3.writes (Elt F) VO1_3.junk (kernelRun1_A c i arg2 harg2 arg3 harg3 arg4 harg4 arg5 harg5 arg6 harg6 hc0 hc1 x0 x1 x2).1)

/-- The pieces a point with k = 0 stores into the accumulator cover it. -/
theorem scover1_A_0 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond1_0 i) (hc1 : ¬cond1_1 i)
    (x0 : Vec F S44x2048 .bf16) (x1 : Vec F S2048x2048 .bf16) (x2 : Vec F S2048 .f32) (y : S44x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S44x2048.size (by sl_kernel_rfl) y

/-- What a point with k = 0 leaves in the accumulator. -/
def sout1_A_0 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond1_0 i) (hc1 : ¬cond1_1 i)
    (x0 : Vec F S44x2048 .bf16) (x1 : Vec F S2048x2048 .bf16) (x2 : Vec F S2048 .f32) : Vec F S44x2048 .f32 :=
  VS1_0.read (Elt F) (VS1_0.writes (Elt F) VS1_0.junk (kernelRun1_A c i arg2 harg2 arg3 harg3 arg4 harg4 arg5 harg5 arg6 harg6 hc0 hc1 x0 x1 x2).2.1)

/-- The pieces a point with k = 1 stores into the output window cover its block. -/
theorem cover1_C_3 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond1_0 i) (hc1 : cond1_1 i)
    (x0 : Vec F S44x2048 .bf16) (x1 : Vec F S2048x2048 .bf16) (x2 : Vec F S2048 .f32) (xs0 : Vec F S44x2048 .f32) (y : S44x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S44x2048.size (by sl_kernel_rfl) y

/-- What a point with k = 1 leaves in the output window's staging buffer. -/
def out1_C_3 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond1_0 i) (hc1 : cond1_1 i)
    (x0 : Vec F S44x2048 .bf16) (x1 : Vec F S2048x2048 .bf16) (x2 : Vec F S2048 .f32) (xs0 : Vec F S44x2048 .f32) : Vec F S44x2048 .f32 :=
  VO1_3.read (Elt F) (VO1_3.writes (Elt F) VO1_3.junk (kernelRun1_C c i arg2 harg2 arg3 harg3 arg4 harg4 arg5 harg5 arg6 harg6 hc0 hc1 x0 x1 x2 xs0).1)

/-- The pieces a point with k = 1 stores into the accumulator cover it. -/
theorem scover1_C_0 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond1_0 i) (hc1 : cond1_1 i)
    (x0 : Vec F S44x2048 .bf16) (x1 : Vec F S2048x2048 .bf16) (x2 : Vec F S2048 .f32) (xs0 : Vec F S44x2048 .f32) (y : S44x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S44x2048.size (by sl_kernel_rfl) y

/-- What a point with k = 1 leaves in the accumulator. -/
def sout1_C_0 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond1_0 i) (hc1 : cond1_1 i)
    (x0 : Vec F S44x2048 .bf16) (x1 : Vec F S2048x2048 .bf16) (x2 : Vec F S2048 .f32) (xs0 : Vec F S44x2048 .f32) : Vec F S44x2048 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output window and the accumulator hold after each point -/

/-- After the body at position `n`: (the output window's staging buffer, the accumulator). An even position has
    k = 0, an odd one k = 1 and reads the accumulator the position before left. -/
def outsAt1 (c : Dev nD) : (n : ℕ) → n < cfg1.N → Vec F S44x2048 .f32 × Vec F S44x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (by (try dsimp only at h0 ⊢); omega)) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (by (try dsimp only at h0 ⊢); omega)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 2 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => (fun h => by (try dsimp only at h); omega) ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => (fun h => by (try dsimp only at h); omega) ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_C (c : Dev nD) (t : Fin cfg1.N) (h0 : ¬t.val % 2 = 0) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr (by (try dsimp only at h0 ⊢); omega)) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr (by (try dsimp only at h0 ⊢); omega)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant, point by point -/

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1_0 fullShare d)) ∗ restBut1 c) ∗ (∃ r, prngReg c r)) := by
  unfold Pipeline.ΦA; rw [scopedRest1_acc]

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 c) ∗ (∃ r, prngReg c r)) := by
  cases n with
  | zero => exact absurd rfl hz
  | succ n => rfl

/-! ## The pipeline's proof data -/

/-- The arrays as the region finds them; after the body at point `t` each input's buffer at its block and the
    output's at what `outsAt1` says; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the parity of the position says which case the
    point is in; the invariant hands the body the accumulator (at anything before the first point, otherwise at what
    the point before left) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have hc0 : cond1_0 (grid1.coords t) := (hcond1_0 t).mpr h0
    have hc1 : ¬cond1_1 (grid1.coords t) := fun h => (fun h => by (try dsimp only at h); omega) ((hcond1_1 t).mp h)
    rw [Dat.leavesExact_idle (dat1 V c) 3 t (idleAt1_3_A t hc0 hc1) (noFlush1_3_A t hc0 hc1)]
    rw [outsAt1_A V c t h0]
    unfold sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hc1 : cond1_1 (grid1.coords t) := (hcond1_1 t).mpr (by (try dsimp only at h0 ⊢); omega)
    rw [show (dat1 V c).leavesExact 3 t = owns (c : Thread nD τ) (ms1_3 t) fullShare ((dat1 V c).after 3 t) from by
      unfold Dat.leavesExact; rw [liveAt1_3_C t hc0 hc1], after1_3]
    rw [outsAt1_C V c t h0]
    unfold out1_C_3 sout1_C_0; (try dsimp only)
    have hz : t.val ≠ 0 := fun e => h0 (by rw [e])
    rw [PhiS1_castSucc V c t, PhiS1_pos V c _ _ hz]
    iintro ⟨⟨⟨HS0, Hr⟩, Hg⟩, Ho, ⟨%d0, H0⟩, ⟨%d1, H1⟩, ⟨%d2, H2⟩, ⟨%d3, H3⟩⟩
    iapply ((kernelRun1_C c (grid1.coords t) _ _ _ _ _ _ _ _ _ _ hc0 hc1 (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_C_0 c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the same back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 4 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hr⟩, Hg⟩
  isplitl [HS0 Hr]
  · isplitl [HS0]
    · iexists _; iexact HS0
    iexact Hr
  iexact Hg

end Cert.KernelIdeal.Fr

end
-- ==== Proof.IdealR2Base.lean ====
/-
  Region 2 of the program: one launch of the blocked linear kernel over the grid (output block n, contraction block k).
  Stated here, for any float instance and at any contents `V` of the buffers when the region is entered:
  the two branch conditions of the body as functions of the grid point (k = 0: the accumulator is zeroed first;
  k = 1: the output block is written), where the output window rests, and each window's block at a point read off
  its array.
-/
import proofs.«135243_j27986006901491_1_alg».proof.Proof.Gen.KernelIdeal.Launch
import proofs.«135243_j27986006901491_1_alg».proof.Proof.Gen.KernelIdeal.Skeleton
import proofs.«135243_j27986006901491_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (when it is not
    fetched its block index has not moved), for any proof data whose array is `V`'s and whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions -/

/-- The first branch (zero the accumulator) is taken when the contraction coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

/-- The second branch (write the output block) is taken when the contraction coordinate is the last, 1. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows rest -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At a point with k = 0 nothing is stored into the output window, and its block is not written back there. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
/-- At a point with k = 1 the output window is stored. -/
theorem liveAt2_3_C : ∀ t : Fin cfg2.N, ¬cond2_0 (grid2.coords t) → cond2_1 (grid2.coords t) → cfg2.idle 3 (grid2.coords t) = false := by decide +kernel

/-! ## The staging memrefs and the accumulator -/

/-- One staging buffer of the output window, through which its contents are stated (which one does not matter). -/
abbrev VO2_3 : View sig .tc .vmem S44x2048 .f32 := (Memref.whole cc2_stg3_0 : Memref sig .tc .vmem S44x2048 .f32).view
abbrev ms2_0 (t : Fin cfg2.N) : Memref sig .tc .vmem S44x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S44x2048 .f32 := win2_3.stage (cfg2.slots t 3)
abbrev hs2_3 (t : Fin cfg2.N) : (ms2_3 t).IsWhole := hstage2_3 ((cfg2.slots t 3).cast nbuf2_3)
/-- The accumulator: a whole scoped buffer of the kernel's own, carried from point to point. -/
abbrev scM2_0 : Memref sig .tc .vmem S44x2048 .f32 := Memref.whole cc2_scratch0
abbrev VS2_0 : View sig .tc .vmem S44x2048 .f32 := scM2_0.view

/-- The scoped buffers no window stages, with the accumulator taken out as a memref owned at some contents. -/
theorem scopedRest2_acc (c : Dev nD) :
    (Pipeline.scopedRest (Ix := Unit) (Name := ℕ) (U := UR sig nD τ) (Lvl := ℕ) (Val := Elt F) spec2 c : sProp 𝕄)
      = iprop(iprop((∃ d, owns (c : Thread nD τ) scM2_0 fullShare d))
          ∗ Pipeline.scopedRestBut (Ix := Unit) (Name := ℕ) (U := UR sig nD τ) (Lvl := ℕ) (Val := Elt F) spec2 c [cc2_scratch0]) := by
  rw [scopedRest2_split]; simp only [scM2_0, owns_whole]; try rfl

end Cert.KernelIdeal.Fr

end
-- ==== Proof.IdealR2RunA.lean ====
/-
  Region 2, a grid point with contraction coordinate k = 0: the body zeroes the accumulator, adds this point's
  product of the activation block with the transposed weight block, and leaves the output window alone. Run once on
  arbitrary whole staging memrefs; what the accumulator ends with is found by the run as a list of stored pieces.
-/
import proofs.«135243_j27986006901491_1_alg».proof.Proof.IdealR2Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 0, from the inputs' buffers at their contents, the output's buffer at any contents
    (handed back untouched) and the accumulator at anything: it runs to the continuation with the inputs as they
    were and the accumulator holding its stored pieces. -/
noncomputable def kernelRun2_A (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond2_0 i) (hc1 : ¬cond2_1 i)
    (x0 : Vec F S44x2048 .bf16) (x1 : Vec F S2048x2048 .bf16) (x2 : Vec F S2048 .f32) :
    Σ' (L3 : List (View.Piece (Elt F) S44x2048 .f32)), { LS0 : List (View.Piece (Elt F) S44x2048 .f32) //
      ∀ (xi3 : Vec F S44x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__linear_kernel i arg2 harg2 arg3 harg3 arg4 harg4 arg5 harg5 arg6 harg6) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.IdealR2RunC.lean ====
/-
  Region 2, a grid point with contraction coordinate k = 1 (the last): the body adds this point's product to the
  accumulator the point before left, then stores accumulator plus bias (through the activation, where the layer has
  one) into the output window. Run once on arbitrary whole staging memrefs; what the accumulator and the output
  window end with is found by the run as lists of stored pieces.
-/
import proofs.«135243_j27986006901491_1_alg».proof.Proof.IdealR2Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 1, from the inputs' buffers at their contents, the output's buffer at anything and
    the accumulator at what the point before left (`xs0`): it runs to the continuation with the inputs as they were,
    the output's buffer and the accumulator holding their stored pieces. -/
noncomputable def kernelRun2_C (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond2_0 i) (hc1 : cond2_1 i)
    (x0 : Vec F S44x2048 .bf16) (x1 : Vec F S2048x2048 .bf16) (x2 : Vec F S2048 .f32) (xs0 : Vec F S44x2048 .f32) :
    Σ' (L3 : List (View.Piece (Elt F) S44x2048 .f32)), { LS0 : List (View.Piece (Elt F) S44x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__linear_kernel i arg2 harg2 arg3 harg3 arg4 harg4 arg5 harg5 arg6 harg6) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.IdealR2Frame.lean ====
/-
  Region 2: what the body leaves at each grid point, the pipeline's proof data, and the body obligation.
  A point with k = 0 leaves in the accumulator its stored pieces over nothing (the output window rests); a point with
  k = 1 leaves in the accumulator and in the output window their stored pieces over what the point before left in the
  accumulator. The region's invariant before point n > 0 is the accumulator at what point n − 1 left, beside the
  scoped buffers no window stages and the generator register; before the first point the accumulator is at anything.
-/
import proofs.«135243_j27986006901491_1_alg».proof.Proof.IdealR2RunA
import proofs.«135243_j27986006901491_1_alg».proof.Proof.IdealR2RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A point with k = 0 stores nothing into the output window: a placeholder nothing consults. -/
def out2_A_3 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond2_0 i) (hc1 : ¬cond2_1 i)
    (x0 : Vec F S44x2048 .bf16) (x1 : Vec F S2048x2048 .bf16) (x2 : Vec F S2048 .f32) : Vec F S44x2048 .f32 :=
  VO2_3.read (Elt F) (VO2_3.writes (Elt F) VO2_3.junk (kernelRun2_A c i arg2 harg2 arg3 harg3 arg4 harg4 arg5 harg5 arg6 harg6 hc0 hc1 x0 x1 x2).1)

/-- The pieces a point with k = 0 stores into the accumulator cover it. -/
theorem scover2_A_0 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond2_0 i) (hc1 : ¬cond2_1 i)
    (x0 : Vec F S44x2048 .bf16) (x1 : Vec F S2048x2048 .bf16) (x2 : Vec F S2048 .f32) (y : S44x2048.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S44x2048.size (by sl_kernel_rfl) y

/-- What a point with k = 0 leaves in the accumulator. -/
def sout2_A_0 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond2_0 i) (hc1 : ¬cond2_1 i)
    (x0 : Vec F S44x2048 .bf16) (x1 : Vec F S2048x2048 .bf16) (x2 : Vec F S2048 .f32) : Vec F S44x2048 .f32 :=
  VS2_0.read (Elt F) (VS2_0.writes (Elt F) VS2_0.junk (kernelRun2_A c i arg2 harg2 arg3 harg3 arg4 harg4 arg5 harg5 arg6 harg6 hc0 hc1 x0 x1 x2).2.1)

/-- The pieces a point with k = 1 stores into the output window cover its block. -/
theorem cover2_C_3 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond2_0 i) (hc1 : cond2_1 i)
    (x0 : Vec F S44x2048 .bf16) (x1 : Vec F S2048x2048 .bf16) (x2 : Vec F S2048 .f32) (xs0 : Vec F S44x2048 .f32) (y : S44x2048.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S44x2048.size (by sl_kernel_rfl) y

/-- What a point with k = 1 leaves in the output window's staging buffer. -/
def out2_C_3 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond2_0 i) (hc1 : cond2_1 i)
    (x0 : Vec F S44x2048 .bf16) (x1 : Vec F S2048x2048 .bf16) (x2 : Vec F S2048 .f32) (xs0 : Vec F S44x2048 .f32) : Vec F S44x2048 .f32 :=
  VO2_3.read (Elt F) (VO2_3.writes (Elt F) VO2_3.junk (kernelRun2_C c i arg2 harg2 arg3 harg3 arg4 harg4 arg5 harg5 arg6 harg6 hc0 hc1 x0 x1 x2 xs0).1)

/-- The pieces a point with k = 1 stores into the accumulator cover it. -/
theorem scover2_C_0 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond2_0 i) (hc1 : cond2_1 i)
    (x0 : Vec F S44x2048 .bf16) (x1 : Vec F S2048x2048 .bf16) (x2 : Vec F S2048 .f32) (xs0 : Vec F S44x2048 .f32) (y : S44x2048.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S44x2048.size (by sl_kernel_rfl) y

/-- What a point with k = 1 leaves in the accumulator. -/
def sout2_C_0 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond2_0 i) (hc1 : cond2_1 i)
    (x0 : Vec F S44x2048 .bf16) (x1 : Vec F S2048x2048 .bf16) (x2 : Vec F S2048 .f32) (xs0 : Vec F S44x2048 .f32) : Vec F S44x2048 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output window and the accumulator hold after each point -/

/-- After the body at position `n`: (the output window's staging buffer, the accumulator). An even position has
    k = 0, an odd one k = 1 and reads the accumulator the position before left. -/
def outsAt2 (c : Dev nD) : (n : ℕ) → n < cfg2.N → Vec F S44x2048 .f32 × Vec F S44x2048 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 2 = 0 then
      (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩))
    else
      (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr (by (try dsimp only at h0 ⊢); omega)) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr (by (try dsimp only at h0 ⊢); omega)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 2 = 0) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => (fun h => by (try dsimp only at h); omega) ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => (fun h => by (try dsimp only at h); omega) ((hcond2_1 t).mp h)) (iblk2 V c 0 t) (iblk2 V c 1 t) (iblk2 V c 2 t)) := by
  obtain ⟨n, hn⟩ := t
  cases n with
  | zero => exact rfl
  | succ n => exact (dif_pos h0).trans rfl

theorem outsAt2_C (c : Dev nD) (t : Fin cfg2.N) (h0 : ¬t.val % 2 = 0) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr (by (try dsimp only at h0 ⊢); omega)) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr (by (try dsimp only at h0 ⊢); omega)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant, point by point -/

abbrev restBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop(iprop((∃ d, owns (c : Thread nD τ) scM2_0 fullShare d)) ∗ restBut2 c) ∗ (∃ r, prngReg c r)) := by
  unfold Pipeline.ΦA; rw [scopedRest2_acc]

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 c) ∗ (∃ r, prngReg c r)) := by
  cases n with
  | zero => exact absurd rfl hz
  | succ n => rfl

/-! ## The pipeline's proof data -/

/-- The arrays as the region finds them; after the body at point `t` each input's buffer at its block and the
    output's at what `outsAt2` says; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the parity of the position says which case the
    point is in; the invariant hands the body the accumulator (at anything before the first point, otherwise at what
    the point before left) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 2 = 0
  · have hc0 : cond2_0 (grid2.coords t) := (hcond2_0 t).mpr h0
    have hc1 : ¬cond2_1 (grid2.coords t) := fun h => (fun h => by (try dsimp only at h); omega) ((hcond2_1 t).mp h)
    rw [Dat.leavesExact_idle (dat2 V c) 3 t (idleAt2_3_A t hc0 hc1) (noFlush2_3_A t hc0 hc1)]
    rw [outsAt2_A V c t h0]
    unfold sout2_A_0; (try dsimp only)
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond2_0 (grid2.coords t) := fun h => h0 ((hcond2_0 t).mp h)
    have hc1 : cond2_1 (grid2.coords t) := (hcond2_1 t).mpr (by (try dsimp only at h0 ⊢); omega)
    rw [show (dat2 V c).leavesExact 3 t = owns (c : Thread nD τ) (ms2_3 t) fullShare ((dat2 V c).after 3 t) from by
      unfold Dat.leavesExact; rw [liveAt2_3_C t hc0 hc1], after2_3]
    rw [outsAt2_C V c t h0]
    unfold out2_C_3 sout2_C_0; (try dsimp only)
    have hz : t.val ≠ 0 := fun e => h0 (by rw [e])
    rw [PhiS2_castSucc V c t, PhiS2_pos V c _ _ hz]
    iintro ⟨⟨⟨HS0, Hr⟩, Hg⟩, Ho, ⟨%d0, H0⟩, ⟨%d1, H1⟩, ⟨%d2, H2⟩, ⟨%d3, H3⟩⟩
    iapply ((kernelRun2_C c (grid2.coords t) _ _ _ _ _ _ _ _ _ _ hc0 hc1 (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover2_C_0 c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C_3 c _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the same back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 4 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hr⟩, Hg⟩
  isplitl [HS0 Hr]
  · isplitl [HS0]
    · iexists _; iexact HS0
    iexact Hr
  iexact Hg

end Cert.KernelIdeal.Fr

end
-- ==== Proof.IdealR3Base.lean ====
/-
  Region 3 of the program: one launch of the blocked linear kernel over the grid (output block n, contraction block k).
  Stated here, for any float instance and at any contents `V` of the buffers when the region is entered:
  the two branch conditions of the body as functions of the grid point (k = 0: the accumulator is zeroed first;
  k = 1: the output block is written), where the output window rests, and each window's block at a point read off
  its array.
-/
import proofs.«135243_j27986006901491_1_alg».proof.Proof.Gen.KernelIdeal.Launch
import proofs.«135243_j27986006901491_1_alg».proof.Proof.Gen.KernelIdeal.Skeleton
import proofs.«135243_j27986006901491_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (when it is not
    fetched its block index has not moved), for any proof data whose array is `V`'s and whose body leaves the block
    in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions -/

/-- The first branch (zero the accumulator) is taken when the contraction coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)

/-- The second branch (write the output block) is taken when the contraction coordinate is the last, 1. -/
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

/-! ## Where the windows rest -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At a point with k = 0 nothing is stored into the output window, and its block is not written back there. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- At a point with k = 1 the output window is stored. -/
theorem liveAt3_3_C : ∀ t : Fin cfg3.N, ¬cond3_0 (grid3.coords t) → cond3_1 (grid3.coords t) → cfg3.idle 3 (grid3.coords t) = false := by decide +kernel

/-! ## The staging memrefs and the accumulator -/

/-- One staging buffer of the output window, through which its contents are stated (which one does not matter). -/
abbrev VO3_3 : View sig .tc .vmem S44x2048 .f32 := (Memref.whole cc3_stg3_0 : Memref sig .tc .vmem S44x2048 .f32).view
abbrev ms3_0 (t : Fin cfg3.N) : Memref sig .tc .vmem S44x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S44x2048 .f32 := win3_3.stage (cfg3.slots t 3)
abbrev hs3_3 (t : Fin cfg3.N) : (ms3_3 t).IsWhole := hstage3_3 ((cfg3.slots t 3).cast nbuf3_3)
/-- The accumulator: a whole scoped buffer of the kernel's own, carried from point to point. -/
abbrev scM3_0 : Memref sig .tc .vmem S44x2048 .f32 := Memref.whole cc3_scratch0
abbrev VS3_0 : View sig .tc .vmem S44x2048 .f32 := scM3_0.view

/-- The scoped buffers no window stages, with the accumulator taken out as a memref owned at some contents. -/
theorem scopedRest3_acc (c : Dev nD) :
    (Pipeline.scopedRest (Ix := Unit) (Name := ℕ) (U := UR sig nD τ) (Lvl := ℕ) (Val := Elt F) spec3 c : sProp 𝕄)
      = iprop(iprop((∃ d, owns (c : Thread nD τ) scM3_0 fullShare d))
          ∗ Pipeline.scopedRestBut (Ix := Unit) (Name := ℕ) (U := UR sig nD τ) (Lvl := ℕ) (Val := Elt F) spec3 c [cc3_scratch0]) := by
  rw [scopedRest3_split]; simp only [scM3_0, owns_whole]; try rfl

end Cert.KernelIdeal.Fr

end
-- ==== Proof.IdealR3RunA.lean ====
/-
  Region 3, a grid point with contraction coordinate k = 0: the body zeroes the accumulator, adds this point's
  product of the activation block with the transposed weight block, and leaves the output window alone. Run once on
  arbitrary whole staging memrefs; what the accumulator ends with is found by the run as a list of stored pieces.
-/
import proofs.«135243_j27986006901491_1_alg».proof.Proof.IdealR3Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 0, from the inputs' buffers at their contents, the output's buffer at any contents
    (handed back untouched) and the accumulator at anything: it runs to the continuation with the inputs as they
    were and the accumulator holding its stored pieces. -/
noncomputable def kernelRun3_A (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond3_0 i) (hc1 : ¬cond3_1 i)
    (x0 : Vec F S44x2048 .bf16) (x1 : Vec F S2048x2048 .bf16) (x2 : Vec F S2048 .f32) :
    Σ' (L3 : List (View.Piece (Elt F) S44x2048 .f32)), { LS0 : List (View.Piece (Elt F) S44x2048 .f32) //
      ∀ (xi3 : Vec F S44x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__linear_kernel i arg2 harg2 arg3 harg3 arg4 harg4 arg5 harg5 arg6 harg6) K } := by
  refine ⟨[], ?_, fun xi3 E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.IdealR3RunC.lean ====
/-
  Region 3, a grid point with contraction coordinate k = 1 (the last): the body adds this point's product to the
  accumulator the point before left, then stores accumulator plus bias (through the activation, where the layer has
  one) into the output window. Run once on arbitrary whole staging memrefs; what the accumulator and the output
  window end with is found by the run as lists of stored pieces.
-/
import proofs.«135243_j27986006901491_1_alg».proof.Proof.IdealR3Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 1, from the inputs' buffers at their contents, the output's buffer at anything and
    the accumulator at what the point before left (`xs0`): it runs to the continuation with the inputs as they were,
    the output's buffer and the accumulator holding their stored pieces. -/
noncomputable def kernelRun3_C (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond3_0 i) (hc1 : cond3_1 i)
    (x0 : Vec F S44x2048 .bf16) (x1 : Vec F S2048x2048 .bf16) (x2 : Vec F S2048 .f32) (xs0 : Vec F S44x2048 .f32) :
    Σ' (L3 : List (View.Piece (Elt F) S44x2048 .f32)), { LS0 : List (View.Piece (Elt F) S44x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__linear_kernel i arg2 harg2 arg3 harg3 arg4 harg4 arg5 harg5 arg6 harg6) K } := by
  refine ⟨?_, ?_, fun E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.IdealR3Frame.lean ====
/-
  Region 3: what the body leaves at each grid point, the pipeline's proof data, and the body obligation.
  A point with k = 0 leaves in the accumulator its stored pieces over nothing (the output window rests); a point with
  k = 1 leaves in the accumulator and in the output window their stored pieces over what the point before left in the
  accumulator. The region's invariant before point n > 0 is the accumulator at what point n − 1 left, beside the
  scoped buffers no window stages and the generator register; before the first point the accumulator is at anything.
-/
import proofs.«135243_j27986006901491_1_alg».proof.Proof.IdealR3RunA
import proofs.«135243_j27986006901491_1_alg».proof.Proof.IdealR3RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A point with k = 0 stores nothing into the output window: a placeholder nothing consults. -/
def out3_A_3 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond3_0 i) (hc1 : ¬cond3_1 i)
    (x0 : Vec F S44x2048 .bf16) (x1 : Vec F S2048x2048 .bf16) (x2 : Vec F S2048 .f32) : Vec F S44x2048 .f32 :=
  VO3_3.read (Elt F) (VO3_3.writes (Elt F) VO3_3.junk (kernelRun3_A c i arg2 harg2 arg3 harg3 arg4 harg4 arg5 harg5 arg6 harg6 hc0 hc1 x0 x1 x2).1)

/-- The pieces a point with k = 0 stores into the accumulator cover it. -/
theorem scover3_A_0 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond3_0 i) (hc1 : ¬cond3_1 i)
    (x0 : Vec F S44x2048 .bf16) (x1 : Vec F S2048x2048 .bf16) (x2 : Vec F S2048 .f32) (y : S44x2048.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S44x2048.size (by sl_kernel_rfl) y

/-- What a point with k = 0 leaves in the accumulator. -/
def sout3_A_0 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond3_0 i) (hc1 : ¬cond3_1 i)
    (x0 : Vec F S44x2048 .bf16) (x1 : Vec F S2048x2048 .bf16) (x2 : Vec F S2048 .f32) : Vec F S44x2048 .f32 :=
  VS3_0.read (Elt F) (VS3_0.writes (Elt F) VS3_0.junk (kernelRun3_A c i arg2 harg2 arg3 harg3 arg4 harg4 arg5 harg5 arg6 harg6 hc0 hc1 x0 x1 x2).2.1)

/-- The pieces a point with k = 1 stores into the output window cover its block. -/
theorem cover3_C_3 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond3_0 i) (hc1 : cond3_1 i)
    (x0 : Vec F S44x2048 .bf16) (x1 : Vec F S2048x2048 .bf16) (x2 : Vec F S2048 .f32) (xs0 : Vec F S44x2048 .f32) (y : S44x2048.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S44x2048.size (by sl_kernel_rfl) y

/-- What a point with k = 1 leaves in the output window's staging buffer. -/
def out3_C_3 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond3_0 i) (hc1 : cond3_1 i)
    (x0 : Vec F S44x2048 .bf16) (x1 : Vec F S2048x2048 .bf16) (x2 : Vec F S2048 .f32) (xs0 : Vec F S44x2048 .f32) : Vec F S44x2048 .f32 :=
  VO3_3.read (Elt F) (VO3_3.writes (Elt F) VO3_3.junk (kernelRun3_C c i arg2 harg2 arg3 harg3 arg4 harg4 arg5 harg5 arg6 harg6 hc0 hc1 x0 x1 x2 xs0).1)

/-- The pieces a point with k = 1 stores into the accumulator cover it. -/
theorem scover3_C_0 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond3_0 i) (hc1 : cond3_1 i)
    (x0 : Vec F S44x2048 .bf16) (x1 : Vec F S2048x2048 .bf16) (x2 : Vec F S2048 .f32) (xs0 : Vec F S44x2048 .f32) (y : S44x2048.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S44x2048.size (by sl_kernel_rfl) y

/-- What a point with k = 1 leaves in the accumulator. -/
def sout3_C_0 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond3_0 i) (hc1 : cond3_1 i)
    (x0 : Vec F S44x2048 .bf16) (x1 : Vec F S2048x2048 .bf16) (x2 : Vec F S2048 .f32) (xs0 : Vec F S44x2048 .f32) : Vec F S44x2048 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output window and the accumulator hold after each point -/

/-- After the body at position `n`: (the output window's staging buffer, the accumulator). An even position has
    k = 0, an odd one k = 1 and reads the accumulator the position before left. -/
def outsAt3 (c : Dev nD) : (n : ℕ) → n < cfg3.N → Vec F S44x2048 .f32 × Vec F S44x2048 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 2 = 0 then
      (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => (fun h => by (try dsimp only at h); omega) ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => (fun h => by (try dsimp only at h); omega) ((hcond3_1 ⟨n + 1, hn⟩).mp h)) (iblk3 V c 0 ⟨n + 1, hn⟩) (iblk3 V c 1 ⟨n + 1, hn⟩) (iblk3 V c 2 ⟨n + 1, hn⟩))
    else
      (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr (by (try dsimp only at h0 ⊢); omega)) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr (by (try dsimp only at h0 ⊢); omega)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 2 = 0) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => (fun h => by (try dsimp only at h); omega) ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => (fun h => by (try dsimp only at h); omega) ((hcond3_1 t).mp h)) (iblk3 V c 0 t) (iblk3 V c 1 t) (iblk3 V c 2 t)) := by
  obtain ⟨n, hn⟩ := t
  cases n with
  | zero => exact rfl
  | succ n => exact (dif_pos h0).trans rfl

theorem outsAt3_C (c : Dev nD) (t : Fin cfg3.N) (h0 : ¬t.val % 2 = 0) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr (by (try dsimp only at h0 ⊢); omega)) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr (by (try dsimp only at h0 ⊢); omega)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant, point by point -/

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns (c : Thread nD τ) scM3_0 fullShare d)) ∗ restBut3 c) ∗ (∃ r, prngReg c r)) := by
  unfold Pipeline.ΦA; rw [scopedRest3_acc]

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ restBut3 c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ restBut3 c) ∗ (∃ r, prngReg c r)) := by
  cases n with
  | zero => exact absurd rfl hz
  | succ n => rfl

/-! ## The pipeline's proof data -/

/-- The arrays as the region finds them; after the body at point `t` each input's buffer at its block and the
    output's at what `outsAt3` says; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the parity of the position says which case the
    point is in; the invariant hands the body the accumulator (at anything before the first point, otherwise at what
    the point before left) and takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 2 = 0
  · have hc0 : cond3_0 (grid3.coords t) := (hcond3_0 t).mpr h0
    have hc1 : ¬cond3_1 (grid3.coords t) := fun h => (fun h => by (try dsimp only at h); omega) ((hcond3_1 t).mp h)
    rw [Dat.leavesExact_idle (dat3 V c) 3 t (idleAt3_3_A t hc0 hc1) (noFlush3_3_A t hc0 hc1)]
    rw [outsAt3_A V c t h0]
    unfold sout3_A_0; (try dsimp only)
    by_cases hz : t.val = 0
    · rw [PhiS3_castSucc V c t, PhiS3_zero V c _ _ hz, PhiA3_eq]
      iintro ⟨⟨⟨HS0, Hr⟩, Hg⟩, Ho, ⟨%d0, H0⟩, ⟨%d1, H1⟩, ⟨%d2, H2⟩, ⟨%d3, H3⟩⟩
      iapply ((kernelRun3_A c (grid3.coords t) _ _ _ _ _ _ _ _ _ _ hc0 hc1 (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩⟩
      iapply ((kernelRun3_A c (grid3.coords t) _ _ _ _ _ _ _ _ _ _ hc0 hc1 (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond3_0 (grid3.coords t) := fun h => h0 ((hcond3_0 t).mp h)
    have hc1 : cond3_1 (grid3.coords t) := (hcond3_1 t).mpr (by (try dsimp only at h0 ⊢); omega)
    rw [show (dat3 V c).leavesExact 3 t = owns (c : Thread nD τ) (ms3_3 t) fullShare ((dat3 V c).after 3 t) from by
      unfold Dat.leavesExact; rw [liveAt3_3_C t hc0 hc1], after3_3]
    rw [outsAt3_C V c t h0]
    unfold out3_C_3 sout3_C_0; (try dsimp only)
    have hz : t.val ≠ 0 := fun e => h0 (by rw [e])
    rw [PhiS3_castSucc V c t, PhiS3_pos V c _ _ hz]
    iintro ⟨⟨⟨HS0, Hr⟩, Hg⟩, Ho, ⟨%d0, H0⟩, ⟨%d1, H1⟩, ⟨%d2, H2⟩, ⟨%d3, H3⟩⟩
    iapply ((kernelRun3_C c (grid3.coords t) _ _ _ _ _ _ _ _ _ _ hc0 hc1 (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_C_0 c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_C_3 c _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the same back: the accumulator's contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 4 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, Hr⟩, Hg⟩
  isplitl [HS0 Hr]
  · isplitl [HS0]
    · iexists _; iexact HS0
    iexact Hr
  iexact Hg

end Cert.KernelIdeal.Fr

end
-- ==== Proof.IdealR4Base.lean ====
/-
  Region 4 of the program: one launch of the blocked linear kernel over the grid (output block n, contraction block k).
  Stated here, for any float instance and at any contents `V` of the buffers when the region is entered:
  the two branch conditions of the body as functions of the grid point (k = 0: the accumulator is zeroed first;
  k = 1: the output block is written), where the output window rests, and each window's block at a point read off
  its array.
-/
import proofs.«135243_j27986006901491_1_alg».proof.Proof.Gen.KernelIdeal.Launch
import proofs.«135243_j27986006901491_1_alg».proof.Proof.Gen.KernelIdeal.Skeleton
import proofs.«135243_j27986006901491_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (when it is not
    fetched its block index has not moved), for any proof data whose array is `V`'s and whose body leaves the block
    in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions -/

/-- The first branch (zero the accumulator) is taken when the contraction coordinate is 0. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 2 = 0 :=
  (by decide +kernel : ∀ t : Fin grid4.N, cond4_0 (grid4.coords t) ↔ t.val % 2 = 0)

/-- The second branch (write the output block) is taken when the contraction coordinate is the last, 1. -/
abbrev cond4_1 (i : grid4.Coords) : Prop := k4_cond2 i = 1#1
theorem hcond4_1 : ∀ t : Fin cfg4.N, cond4_1 (grid4.coords t) ↔ t.val % 2 = 1 :=
  (by decide +kernel : ∀ t : Fin grid4.N, cond4_1 (grid4.coords t) ↔ t.val % 2 = 1)

/-! ## Where the windows rest -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- At a point with k = 0 nothing is stored into the output window, and its block is not written back there. -/
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
/-- At a point with k = 1 the output window is stored. -/
theorem liveAt4_3_C : ∀ t : Fin cfg4.N, ¬cond4_0 (grid4.coords t) → cond4_1 (grid4.coords t) → cfg4.idle 3 (grid4.coords t) = false := by decide +kernel

/-! ## The staging memrefs and the accumulator -/

/-- One staging buffer of the output window, through which its contents are stated (which one does not matter). -/
abbrev VO4_3 : View sig .tc .vmem S44x2048 .f32 := (Memref.whole cc4_stg3_0 : Memref sig .tc .vmem S44x2048 .f32).view
abbrev ms4_0 (t : Fin cfg4.N) : Memref sig .tc .vmem S44x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x2048 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S44x2048 .f32 := win4_3.stage (cfg4.slots t 3)
abbrev hs4_3 (t : Fin cfg4.N) : (ms4_3 t).IsWhole := hstage4_3 ((cfg4.slots t 3).cast nbuf4_3)
/-- The accumulator: a whole scoped buffer of the kernel's own, carried from point to point. -/
abbrev scM4_0 : Memref sig .tc .vmem S44x2048 .f32 := Memref.whole cc4_scratch0
abbrev VS4_0 : View sig .tc .vmem S44x2048 .f32 := scM4_0.view

/-- The scoped buffers no window stages, with the accumulator taken out as a memref owned at some contents. -/
theorem scopedRest4_acc (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d))
          ∗ Pipeline.scopedRestBut (Ix := Unit) (Name := ℕ) (U := UR sig nD τ) (Lvl := ℕ) (Val := Elt F) spec4 c [cc4_scratch0]) := by
  rw [scopedRest4_split]; simp only [scM4_0, owns_whole]; try rfl

end Cert.KernelIdeal.Fr

end
-- ==== Proof.IdealR4RunA.lean ====
/-
  Region 4, a grid point with contraction coordinate k = 0: the body zeroes the accumulator, adds this point's
  product of the activation block with the transposed weight block, and leaves the output window alone. Run once on
  arbitrary whole staging memrefs; what the accumulator ends with is found by the run as a list of stored pieces.
-/
import proofs.«135243_j27986006901491_1_alg».proof.Proof.IdealR4Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 0, from the inputs' buffers at their contents, the output's buffer at any contents
    (handed back untouched) and the accumulator at anything: it runs to the continuation with the inputs as they
    were and the accumulator holding its stored pieces. -/
noncomputable def kernelRun4_A (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond4_0 i) (hc1 : ¬cond4_1 i)
    (x0 : Vec F S44x2048 .bf16) (x1 : Vec F S2048x2048 .bf16) (x2 : Vec F S2048 .f32) :
    Σ' (L3 : List (View.Piece (Elt F) S44x2048 .f32)), { LS0 : List (View.Piece (Elt F) S44x2048 .f32) //
      ∀ (xi3 : Vec F S44x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__linear_kernel i arg2 harg2 arg3 harg3 arg4 harg4 arg5 harg5 arg6 harg6) K } := by
  refine ⟨[], ?_, fun xi3 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.IdealR4RunC.lean ====
/-
  Region 4, a grid point with contraction coordinate k = 1 (the last): the body adds this point's product to the
  accumulator the point before left, then stores accumulator plus bias (through the activation, where the layer has
  one) into the output window. Run once on arbitrary whole staging memrefs; what the accumulator and the output
  window end with is found by the run as lists of stored pieces.
-/
import proofs.«135243_j27986006901491_1_alg».proof.Proof.IdealR4Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 1, from the inputs' buffers at their contents, the output's buffer at anything and
    the accumulator at what the point before left (`xs0`): it runs to the continuation with the inputs as they were,
    the output's buffer and the accumulator holding their stored pieces. -/
noncomputable def kernelRun4_C (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond4_0 i) (hc1 : cond4_1 i)
    (x0 : Vec F S44x2048 .bf16) (x1 : Vec F S2048x2048 .bf16) (x2 : Vec F S2048 .f32) (xs0 : Vec F S44x2048 .f32) :
    Σ' (L3 : List (View.Piece (Elt F) S44x2048 .f32)), { LS0 : List (View.Piece (Elt F) S44x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__linear_kernel i arg2 harg2 arg3 harg3 arg4 harg4 arg5 harg5 arg6 harg6) K } := by
  refine ⟨?_, ?_, fun E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.IdealR4Frame.lean ====
/-
  Region 4: what the body leaves at each grid point, the pipeline's proof data, and the body obligation.
  A point with k = 0 leaves in the accumulator its stored pieces over nothing (the output window rests); a point with
  k = 1 leaves in the accumulator and in the output window their stored pieces over what the point before left in the
  accumulator. The region's invariant before point n > 0 is the accumulator at what point n − 1 left, beside the
  scoped buffers no window stages and the generator register; before the first point the accumulator is at anything.
-/
import proofs.«135243_j27986006901491_1_alg».proof.Proof.IdealR4RunA
import proofs.«135243_j27986006901491_1_alg».proof.Proof.IdealR4RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A point with k = 0 stores nothing into the output window: a placeholder nothing consults. -/
def out4_A_3 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond4_0 i) (hc1 : ¬cond4_1 i)
    (x0 : Vec F S44x2048 .bf16) (x1 : Vec F S2048x2048 .bf16) (x2 : Vec F S2048 .f32) : Vec F S44x2048 .f32 :=
  VO4_3.read (Elt F) (VO4_3.writes (Elt F) VO4_3.junk (kernelRun4_A c i arg2 harg2 arg3 harg3 arg4 harg4 arg5 harg5 arg6 harg6 hc0 hc1 x0 x1 x2).1)

/-- The pieces a point with k = 0 stores into the accumulator cover it. -/
theorem scover4_A_0 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond4_0 i) (hc1 : ¬cond4_1 i)
    (x0 : Vec F S44x2048 .bf16) (x1 : Vec F S2048x2048 .bf16) (x2 : Vec F S2048 .f32) (y : S44x2048.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S44x2048.size (by sl_kernel_rfl) y

/-- What a point with k = 0 leaves in the accumulator. -/
def sout4_A_0 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond4_0 i) (hc1 : ¬cond4_1 i)
    (x0 : Vec F S44x2048 .bf16) (x1 : Vec F S2048x2048 .bf16) (x2 : Vec F S2048 .f32) : Vec F S44x2048 .f32 :=
  VS4_0.read (Elt F) (VS4_0.writes (Elt F) VS4_0.junk (kernelRun4_A c i arg2 harg2 arg3 harg3 arg4 harg4 arg5 harg5 arg6 harg6 hc0 hc1 x0 x1 x2).2.1)

/-- The pieces a point with k = 1 stores into the output window cover its block. -/
theorem cover4_C_3 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond4_0 i) (hc1 : cond4_1 i)
    (x0 : Vec F S44x2048 .bf16) (x1 : Vec F S2048x2048 .bf16) (x2 : Vec F S2048 .f32) (xs0 : Vec F S44x2048 .f32) (y : S44x2048.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S44x2048.size (by sl_kernel_rfl) y

/-- What a point with k = 1 leaves in the output window's staging buffer. -/
def out4_C_3 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond4_0 i) (hc1 : cond4_1 i)
    (x0 : Vec F S44x2048 .bf16) (x1 : Vec F S2048x2048 .bf16) (x2 : Vec F S2048 .f32) (xs0 : Vec F S44x2048 .f32) : Vec F S44x2048 .f32 :=
  VO4_3.read (Elt F) (VO4_3.writes (Elt F) VO4_3.junk (kernelRun4_C c i arg2 harg2 arg3 harg3 arg4 harg4 arg5 harg5 arg6 harg6 hc0 hc1 x0 x1 x2 xs0).1)

/-- The pieces a point with k = 1 stores into the accumulator cover it. -/
theorem scover4_C_0 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond4_0 i) (hc1 : cond4_1 i)
    (x0 : Vec F S44x2048 .bf16) (x1 : Vec F S2048x2048 .bf16) (x2 : Vec F S2048 .f32) (xs0 : Vec F S44x2048 .f32) (y : S44x2048.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S44x2048.size (by sl_kernel_rfl) y

/-- What a point with k = 1 leaves in the accumulator. -/
def sout4_C_0 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond4_0 i) (hc1 : cond4_1 i)
    (x0 : Vec F S44x2048 .bf16) (x1 : Vec F S2048x2048 .bf16) (x2 : Vec F S2048 .f32) (xs0 : Vec F S44x2048 .f32) : Vec F S44x2048 .f32 :=
  VS4_0.read (Elt F) (VS4_0.writes (Elt F) VS4_0.junk (kernelRun4_C c i arg2 harg2 arg3 harg3 arg4 harg4 arg5 harg5 arg6 harg6 hc0 hc1 x0 x1 x2 xs0).2.1)

/-! ## What the output window and the accumulator hold after each point -/

/-- After the body at position `n`: (the output window's staging buffer, the accumulator). An even position has
    k = 0, an odd one k = 1 and reads the accumulator the position before left. -/
def outsAt4 (c : Dev nD) : (n : ℕ) → n < cfg4.N → Vec F S44x2048 .f32 × Vec F S44x2048 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 2 = 0 then
      (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩) (iblk4 V c 2 ⟨n + 1, hn⟩))
    else
      (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr (by (try dsimp only at h0 ⊢); omega)) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr (by (try dsimp only at h0 ⊢); omega)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 2 = 0) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => (fun h => by (try dsimp only at h); omega) ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => (fun h => by (try dsimp only at h); omega) ((hcond4_1 t).mp h)) (iblk4 V c 0 t) (iblk4 V c 1 t) (iblk4 V c 2 t)) := by
  obtain ⟨n, hn⟩ := t
  cases n with
  | zero => exact rfl
  | succ n => exact (dif_pos h0).trans rfl

theorem outsAt4_C (c : Dev nD) (t : Fin cfg4.N) (h0 : ¬t.val % 2 = 0) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr (by (try dsimp only at h0 ⊢); omega)) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr (by (try dsimp only at h0 ⊢); omega)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant, point by point -/

abbrev restBut4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop(iprop((∃ d, owns (c : Thread nD τ) scM4_0 fullShare d)) ∗ restBut4 c) ∗ (∃ r, prngReg c r)) := by
  unfold Pipeline.ΦA; rw [scopedRest4_acc]

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ restBut4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ restBut4 c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ restBut4 c) ∗ (∃ r, prngReg c r)) := by
  cases n with
  | zero => exact absurd rfl hz
  | succ n => rfl

/-! ## The pipeline's proof data -/

/-- The arrays as the region finds them; after the body at point `t` each input's buffer at its block and the
    output's at what `outsAt4` says; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; the parity of the position says which case the
    point is in; the invariant hands the body the accumulator (at anything before the first point, otherwise at what
    the point before left) and takes it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 2 = 0
  · have hc0 : cond4_0 (grid4.coords t) := (hcond4_0 t).mpr h0
    have hc1 : ¬cond4_1 (grid4.coords t) := fun h => (fun h => by (try dsimp only at h); omega) ((hcond4_1 t).mp h)
    rw [Dat.leavesExact_idle (dat4 V c) 3 t (idleAt4_3_A t hc0 hc1) (noFlush4_3_A t hc0 hc1)]
    rw [outsAt4_A V c t h0]
    unfold sout4_A_0; (try dsimp only)
    by_cases hz : t.val = 0
    · rw [PhiS4_castSucc V c t, PhiS4_zero V c _ _ hz, PhiA4_eq]
      iintro ⟨⟨⟨HS0, Hr⟩, Hg⟩, Ho, ⟨%d0, H0⟩, ⟨%d1, H1⟩, ⟨%d2, H2⟩, ⟨%d3, H3⟩⟩
      iapply ((kernelRun4_A c (grid4.coords t) _ _ _ _ _ _ _ _ _ _ hc0 hc1 (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, Hr⟩, Hg⟩, Ho, ⟨%d0, H0⟩, ⟨%d1, H1⟩, ⟨%d2, H2⟩, ⟨%d3, H3⟩⟩
      iapply ((kernelRun4_A c (grid4.coords t) _ _ _ _ _ _ _ _ _ _ hc0 hc1 (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond4_0 (grid4.coords t) := fun h => h0 ((hcond4_0 t).mp h)
    have hc1 : cond4_1 (grid4.coords t) := (hcond4_1 t).mpr (by (try dsimp only at h0 ⊢); omega)
    rw [show (dat4 V c).leavesExact 3 t = owns (c : Thread nD τ) (ms4_3 t) fullShare ((dat4 V c).after 3 t) from by
      unfold Dat.leavesExact; rw [liveAt4_3_C t hc0 hc1], after4_3]
    rw [outsAt4_C V c t h0]
    unfold out4_C_3 sout4_C_0; (try dsimp only)
    have hz : t.val ≠ 0 := fun e => h0 (by rw [e])
    rw [PhiS4_castSucc V c t, PhiS4_pos V c _ _ hz]
    iintro ⟨⟨⟨HS0, Hr⟩, Hg⟩, Ho, ⟨%d0, H0⟩, ⟨%d1, H1⟩, ⟨%d2, H2⟩, ⟨%d3, H3⟩⟩
    iapply ((kernelRun4_C c (grid4.coords t) _ _ _ _ _ _ _ _ _ _ hc0 hc1 (iblk4 V c 0 t) (iblk4 V c 1 t) (iblk4 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover4_C_0 c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover4_C_3 c _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the same back: the accumulator's contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 4 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨HS0, Hr⟩, Hg⟩
  isplitl [HS0 Hr]
  · isplitl [HS0]
    · iexists _; iexact HS0
    iexact Hr
  iexact Hg

end Cert.KernelIdeal.Fr

end
-- ==== Proof.IdealR5Base.lean ====
/-
  Region 5 of the program: one launch of the blocked linear kernel over the grid (output block n, contraction block k).
  Stated here, for any float instance and at any contents `V` of the buffers when the region is entered:
  the two branch conditions of the body as functions of the grid point (k = 0: the accumulator is zeroed first;
  k = 1: the output block is written), where the output window rests, and each window's block at a point read off
  its array.
-/
import proofs.«135243_j27986006901491_1_alg».proof.Proof.Gen.KernelIdeal.Launch
import proofs.«135243_j27986006901491_1_alg».proof.Proof.Gen.KernelIdeal.Skeleton
import proofs.«135243_j27986006901491_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (when it is not
    fetched its block index has not moved), for any proof data whose array is `V`'s and whose body leaves the block
    in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's two branch conditions -/

/-- The first branch (zero the accumulator) is taken when the contraction coordinate is 0. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 2 = 0 :=
  (by decide +kernel : ∀ t : Fin grid5.N, cond5_0 (grid5.coords t) ↔ t.val % 2 = 0)

/-- The second branch (write the output block) is taken when the contraction coordinate is the last, 1. -/
abbrev cond5_1 (i : grid5.Coords) : Prop := k5_cond2 i = 1#1
theorem hcond5_1 : ∀ t : Fin cfg5.N, cond5_1 (grid5.coords t) ↔ t.val % 2 = 1 :=
  (by decide +kernel : ∀ t : Fin grid5.N, cond5_1 (grid5.coords t) ↔ t.val % 2 = 1)

/-! ## Where the windows rest -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- At a point with k = 0 nothing is stored into the output window, and its block is not written back there. -/
theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
/-- At a point with k = 1 the output window is stored. -/
theorem liveAt5_3_C : ∀ t : Fin cfg5.N, ¬cond5_0 (grid5.coords t) → cond5_1 (grid5.coords t) → cfg5.idle 3 (grid5.coords t) = false := by decide +kernel

/-! ## The staging memrefs and the accumulator -/

/-- One staging buffer of the output window, through which its contents are stated (which one does not matter). -/
abbrev VO5_3 : View sig .tc .vmem S44x1 .f32 := (Memref.whole cc5_stg3_0 : Memref sig .tc .vmem S44x1 .f32).view
abbrev ms5_0 (t : Fin cfg5.N) : Memref sig .tc .vmem S44x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x2048 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S44x1 .f32 := win5_3.stage (cfg5.slots t 3)
abbrev hs5_3 (t : Fin cfg5.N) : (ms5_3 t).IsWhole := hstage5_3 ((cfg5.slots t 3).cast nbuf5_3)
/-- The accumulator: a whole scoped buffer of the kernel's own, carried from point to point. -/
abbrev scM5_0 : Memref sig .tc .vmem S44x1 .f32 := Memref.whole cc5_scratch0
abbrev VS5_0 : View sig .tc .vmem S44x1 .f32 := scM5_0.view

/-- The scoped buffers no window stages, with the accumulator taken out as a memref owned at some contents. -/
theorem scopedRest5_acc (c : Dev nD) :
    (Pipeline.scopedRest (Ix := Unit) (Name := ℕ) (U := UR sig nD τ) (Lvl := ℕ) (Val := Elt F) spec5 c : sProp 𝕄)
      = iprop(iprop((∃ d, owns (c : Thread nD τ) scM5_0 fullShare d))
          ∗ Pipeline.scopedRestBut (Ix := Unit) (Name := ℕ) (U := UR sig nD τ) (Lvl := ℕ) (Val := Elt F) spec5 c [cc5_scratch0]) := by
  rw [scopedRest5_split]; simp only [scM5_0, owns_whole]; try rfl

end Cert.KernelIdeal.Fr

end
-- ==== Proof.IdealR5RunA.lean ====
/-
  Region 5, a grid point with contraction coordinate k = 0: the body zeroes the accumulator, adds this point's
  product of the activation block with the transposed weight block, and leaves the output window alone. Run once on
  arbitrary whole staging memrefs; what the accumulator ends with is found by the run as a list of stored pieces.
-/
import proofs.«135243_j27986006901491_1_alg».proof.Proof.IdealR5Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 0, from the inputs' buffers at their contents, the output's buffer at any contents
    (handed back untouched) and the accumulator at anything: it runs to the continuation with the inputs as they
    were and the accumulator holding its stored pieces. -/
noncomputable def kernelRun5_A (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : cond5_0 i) (hc1 : ¬cond5_1 i)
    (x0 : Vec F S44x2048 .bf16) (x1 : Vec F S1x2048 .bf16) (x2 : Vec F S1 .f32) :
    Σ' (L3 : List (View.Piece (Elt F) S44x1 .f32)), { LS0 : List (View.Piece (Elt F) S44x1 .f32) //
      ∀ (xi3 : Vec F S44x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__linear_kernel i arg2 harg2 arg3 harg3 arg4 harg4 arg5 harg5 arg6 harg6) K } := by
  refine ⟨[], ?_, fun xi3 E K => ?run⟩
  case run =>
    simp only [cc5__linear_kernel_eq_skeleton]; unfold cc5__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.IdealR5RunC.lean ====
/-
  Region 5, a grid point with contraction coordinate k = 1 (the last): the body adds this point's product to the
  accumulator the point before left, then stores accumulator plus bias (through the activation, where the layer has
  one) into the output window. Run once on arbitrary whole staging memrefs; what the accumulator and the output
  window end with is found by the run as lists of stored pieces.
-/
import proofs.«135243_j27986006901491_1_alg».proof.Proof.IdealR5Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k = 1, from the inputs' buffers at their contents, the output's buffer at anything and
    the accumulator at what the point before left (`xs0`): it runs to the continuation with the inputs as they were,
    the output's buffer and the accumulator holding their stored pieces. -/
noncomputable def kernelRun5_C (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : ¬cond5_0 i) (hc1 : cond5_1 i)
    (x0 : Vec F S44x2048 .bf16) (x1 : Vec F S1x2048 .bf16) (x2 : Vec F S1 .f32) (xs0 : Vec F S44x1 .f32) :
    Σ' (L3 : List (View.Piece (Elt F) S44x1 .f32)), { LS0 : List (View.Piece (Elt F) S44x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__linear_kernel i arg2 harg2 arg3 harg3 arg4 harg4 arg5 harg5 arg6 harg6) K } := by
  refine ⟨?_, ?_, fun E K => ?run⟩
  case run =>
    simp only [cc5__linear_kernel_eq_skeleton]; unfold cc5__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.IdealR5Frame.lean ====
/-
  Region 5: what the body leaves at each grid point, the pipeline's proof data, and the body obligation.
  A point with k = 0 leaves in the accumulator its stored pieces over nothing (the output window rests); a point with
  k = 1 leaves in the accumulator and in the output window their stored pieces over what the point before left in the
  accumulator. The region's invariant before point n > 0 is the accumulator at what point n − 1 left, beside the
  scoped buffers no window stages and the generator register; before the first point the accumulator is at anything.
-/
import proofs.«135243_j27986006901491_1_alg».proof.Proof.IdealR5RunA
import proofs.«135243_j27986006901491_1_alg».proof.Proof.IdealR5RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A point with k = 0 stores nothing into the output window: a placeholder nothing consults. -/
def out5_A_3 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : cond5_0 i) (hc1 : ¬cond5_1 i)
    (x0 : Vec F S44x2048 .bf16) (x1 : Vec F S1x2048 .bf16) (x2 : Vec F S1 .f32) : Vec F S44x1 .f32 :=
  VO5_3.read (Elt F) (VO5_3.writes (Elt F) VO5_3.junk (kernelRun5_A c i arg2 harg2 arg3 harg3 arg4 harg4 arg5 harg5 arg6 harg6 hc0 hc1 x0 x1 x2).1)

/-- The pieces a point with k = 0 stores into the accumulator cover it. -/
theorem scover5_A_0 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : cond5_0 i) (hc1 : ¬cond5_1 i)
    (x0 : Vec F S44x2048 .bf16) (x1 : Vec F S1x2048 .bf16) (x2 : Vec F S1 .f32) (y : S44x1.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S44x1.size (by sl_kernel_rfl) y

/-- What a point with k = 0 leaves in the accumulator. -/
def sout5_A_0 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : cond5_0 i) (hc1 : ¬cond5_1 i)
    (x0 : Vec F S44x2048 .bf16) (x1 : Vec F S1x2048 .bf16) (x2 : Vec F S1 .f32) : Vec F S44x1 .f32 :=
  VS5_0.read (Elt F) (VS5_0.writes (Elt F) VS5_0.junk (kernelRun5_A c i arg2 harg2 arg3 harg3 arg4 harg4 arg5 harg5 arg6 harg6 hc0 hc1 x0 x1 x2).2.1)

/-- The pieces a point with k = 1 stores into the output window cover its block. -/
theorem cover5_C_3 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : ¬cond5_0 i) (hc1 : cond5_1 i)
    (x0 : Vec F S44x2048 .bf16) (x1 : Vec F S1x2048 .bf16) (x2 : Vec F S1 .f32) (xs0 : Vec F S44x1 .f32) (y : S44x1.Idx) :
    ∃ pc ∈ (kernelRun5_C c i arg2 harg2 arg3 harg3 arg4 harg4 arg5 harg5 arg6 harg6 hc0 hc1 x0 x1 x2 xs0).1, y ∈ pc.1.set :=
  View.cover_of_tiledL (kernelRun5_C c i arg2 harg2 arg3 harg3 arg4 harg4 arg5 harg5 arg6 harg6 hc0 hc1 x0 x1 x2 xs0).1 S44x1.size (by sl_kernel_rfl) y

/-- What a point with k = 1 leaves in the output window's staging buffer. -/
def out5_C_3 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : ¬cond5_0 i) (hc1 : cond5_1 i)
    (x0 : Vec F S44x2048 .bf16) (x1 : Vec F S1x2048 .bf16) (x2 : Vec F S1 .f32) (xs0 : Vec F S44x1 .f32) : Vec F S44x1 .f32 :=
  VO5_3.read (Elt F) (VO5_3.writes (Elt F) VO5_3.junk (kernelRun5_C c i arg2 harg2 arg3 harg3 arg4 harg4 arg5 harg5 arg6 harg6 hc0 hc1 x0 x1 x2 xs0).1)

/-- The pieces a point with k = 1 stores into the accumulator cover it. -/
theorem scover5_C_0 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : ¬cond5_0 i) (hc1 : cond5_1 i)
    (x0 : Vec F S44x2048 .bf16) (x1 : Vec F S1x2048 .bf16) (x2 : Vec F S1 .f32) (xs0 : Vec F S44x1 .f32) (y : S44x1.Idx) :
    ∃ pc ∈ (kernelRun5_C c i arg2 harg2 arg3 harg3 arg4 harg4 arg5 harg5 arg6 harg6 hc0 hc1 x0 x1 x2 xs0).2.1, y ∈ pc.1.set :=
  View.cover_of_tiledL (kernelRun5_C c i arg2 harg2 arg3 harg3 arg4 harg4 arg5 harg5 arg6 harg6 hc0 hc1 x0 x1 x2 xs0).2.1 S44x1.size (by sl_kernel_rfl) y

/-- What a point with k = 1 leaves in the accumulator. -/
def sout5_C_0 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : ¬cond5_0 i) (hc1 : cond5_1 i)
    (x0 : Vec F S44x2048 .bf16) (x1 : Vec F S1x2048 .bf16) (x2 : Vec F S1 .f32) (xs0 : Vec F S44x1 .f32) : Vec F S44x1 .f32 :=
  VS5_0.read (Elt F) (VS5_0.writes (Elt F) VS5_0.junk (kernelRun5_C c i arg2 harg2 arg3 harg3 arg4 harg4 arg5 harg5 arg6 harg6 hc0 hc1 x0 x1 x2 xs0).2.1)

/-! ## What the output window and the accumulator hold after each point -/

/-- After the body at position `n`: (the output window's staging buffer, the accumulator). An even position has
    k = 0, an odd one k = 1 and reads the accumulator the position before left. -/
def outsAt5 (c : Dev nD) : (n : ℕ) → n < cfg5.N → Vec F S44x1 .f32 × Vec F S44x1 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 2 = 0 then
      (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => (fun h => by (try dsimp only at h); omega) ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => (fun h => by (try dsimp only at h); omega) ((hcond5_1 ⟨n + 1, hn⟩).mp h)) (iblk5 V c 0 ⟨n + 1, hn⟩) (iblk5 V c 1 ⟨n + 1, hn⟩) (iblk5 V c 2 ⟨n + 1, hn⟩))
    else
      (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr (by (try dsimp only at h0 ⊢); omega)) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr (by (try dsimp only at h0 ⊢); omega)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 2 = 0) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => (fun h => by (try dsimp only at h); omega) ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => (fun h => by (try dsimp only at h); omega) ((hcond5_1 t).mp h)) (iblk5 V c 0 t) (iblk5 V c 1 t) (iblk5 V c 2 t)) := by
  obtain ⟨n, hn⟩ := t
  cases n with
  | zero => exact rfl
  | succ n => exact (dif_pos h0).trans rfl

theorem outsAt5_C (c : Dev nD) (t : Fin cfg5.N) (h0 : ¬t.val % 2 = 0) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr (by (try dsimp only at h0 ⊢); omega)) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr (by (try dsimp only at h0 ⊢); omega)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant, point by point -/

abbrev restBut5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop(iprop((∃ d, owns (c : Thread nD τ) scM5_0 fullShare d)) ∗ restBut5 c) ∗ (∃ r, prngReg c r)) := by
  unfold Pipeline.ΦA; rw [scopedRest5_acc]

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ restBut5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ restBut5 c) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ restBut5 c) ∗ (∃ r, prngReg c r)) := by
  cases n with
  | zero => exact absurd rfl hz
  | succ n => rfl

/-! ## The pipeline's proof data -/

/-- The arrays as the region finds them; after the body at point `t` each input's buffer at its block and the
    output's at what `outsAt5` says; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks; the parity of the position says which case the
    point is in; the invariant hands the body the accumulator (at anything before the first point, otherwise at what
    the point before left) and takes it back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  by_cases h0 : t.val % 2 = 0
  · have hc0 : cond5_0 (grid5.coords t) := (hcond5_0 t).mpr h0
    have hc1 : ¬cond5_1 (grid5.coords t) := fun h => (fun h => by (try dsimp only at h); omega) ((hcond5_1 t).mp h)
    rw [Dat.leavesExact_idle (dat5 V c) 3 t (idleAt5_3_A t hc0 hc1) (noFlush5_3_A t hc0 hc1)]
    rw [outsAt5_A V c t h0]
    unfold sout5_A_0; (try dsimp only)
    by_cases hz : t.val = 0
    · rw [PhiS5_castSucc V c t, PhiS5_zero V c _ _ hz, PhiA5_eq]
      iintro ⟨⟨⟨HS0, Hr⟩, Hg⟩, Ho, ⟨%d0, H0⟩, ⟨%d1, H1⟩, ⟨%d2, H2⟩, ⟨%d3, H3⟩⟩
      iapply ((kernelRun5_A c (grid5.coords t) _ _ _ _ _ _ _ _ _ _ hc0 hc1 (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩⟩
      iapply ((kernelRun5_A c (grid5.coords t) _ _ _ _ _ _ _ _ _ _ hc0 hc1 (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond5_0 (grid5.coords t) := fun h => h0 ((hcond5_0 t).mp h)
    have hc1 : cond5_1 (grid5.coords t) := (hcond5_1 t).mpr (by (try dsimp only at h0 ⊢); omega)
    rw [show (dat5 V c).leavesExact 3 t = owns (c : Thread nD τ) (ms5_3 t) fullShare ((dat5 V c).after 3 t) from by
      unfold Dat.leavesExact; rw [liveAt5_3_C t hc0 hc1], after5_3]
    rw [outsAt5_C V c t h0]
    unfold out5_C_3 sout5_C_0; (try dsimp only)
    have hz : t.val ≠ 0 := fun e => h0 (by rw [e])
    rw [PhiS5_castSucc V c t, PhiS5_pos V c _ _ hz]
    iintro ⟨⟨⟨HS0, Hr⟩, Hg⟩, Ho, ⟨%d0, H0⟩, ⟨%d1, H1⟩, ⟨%d2, H2⟩, ⟨%d3, H3⟩⟩
    iapply ((kernelRun5_C c (grid5.coords t) _ _ _ _ _ _ _ _ _ _ hc0 hc1 (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover5_C_0 c _ _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_C_3 c _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the region is entered with is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the same back: the accumulator's contents are forgotten. -/
theorem hout5 (c : Dev nD) : (dat5 V c).Φ (Fin.last cfg5.N) ⊢ Pipeline.ΦA spec5 c := by
  have ht : (Fin.last cfg5.N).val ≠ 0 := by rw [Fin.val_last]; have : cfg5.N = 2 := N_5; omega
  rw [show (dat5 V c).Φ (Fin.last cfg5.N) = PhiS5 V c (Fin.last cfg5.N).val (Nat.le_of_lt_succ (Fin.last cfg5.N).isLt) from rfl, PhiS5_pos V c _ _ ht, PhiA5_eq]
  iintro ⟨⟨HS0, Hr⟩, Hg⟩
  isplitl [HS0 Hr]
  · isplitl [HS0]
    · iexists _; iexact HS0
    iexact Hr
  iexact Hg

end Cert.KernelIdeal.Fr

end
-- ==== Proof.IdealRun.lean ====
/-
  The whole program as a run of twelve segments: six stretches of host operations, each followed by one launch of
  the blocked linear kernel. The buffers' contents at every boundary are a fold from the launch memory: a host
  stretch applies its operations; a region leaves every buffer as it found it except its output array, which ends
  at what the pipeline's write-backs leave. Each region is entered with every unscoped buffer at the boundary's
  contents, the generator register at some state and nothing owed, and is left the same way at the next boundary's
  contents. The run ends with every unscoped buffer at the last boundary's contents.
-/
import proofs.«135243_j27986006901491_1_alg».proof.Proof.IdealR0Frame
import proofs.«135243_j27986006901491_1_alg».proof.Proof.IdealR1Frame
import proofs.«135243_j27986006901491_1_alg».proof.Proof.IdealR2Frame
import proofs.«135243_j27986006901491_1_alg».proof.Proof.IdealR3Frame
import proofs.«135243_j27986006901491_1_alg».proof.Proof.IdealR4Frame
import proofs.«135243_j27986006901491_1_alg».proof.Proof.IdealR5Frame
import proofs.«135243_j27986006901491_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Bd0 : Dev nD → Valuation τ sig (Elt F) := fun c b => m (c, b)

/-- After host stretch 0: region 0's entry. -/
abbrev Bd1 : Dev nD → Valuation τ sig (Elt F) := fun c => StableHlo.after hostOps0 (Bd0 m c)
abbrev En1 : (c : Dev nD) → (b : Ref sig .tc) → Buf (Elt F) ((c : Thread nD τ).loc b) := fun c b => Bd1 m c b
/-- At region 0's exit: its arrays at what the pipeline leaves, every other buffer as entered. -/
def Bd2 (c : Dev nD) : Valuation τ sig (Elt F) :=
  Pipeline.withArrays spec0 c (Bd1 m c) fun w => (dat0 (En1 m) c).arrAt w cfg0.N
theorem Bd2_arr (c : Dev nD) (w : Fin cfg0.W) :
    Bd2 m c (Proc.devRef .tc (Pipeline.arrRef spec0 w)) = (dat0 (En1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
abbrev Ex2 : (c : Dev nD) → (b : Ref sig .tc) → Buf (Elt F) ((c : Thread nD τ).loc b) := fun c b => Bd2 m c b
theorem hF0 (c : Dev nD) (w : Fin cfg0.W) : (dat0 (En1 m) c).arrAt w cfg0.N = Ex2 m c (Pipeline.arrRef spec0 w) :=
  (Bd2_arr m c w).symm
theorem hrest0 (c : Dev nD) : ∀ b, b ∉ Finset.univ.image (Pipeline.arrRef spec0) → Ex2 m c b = En1 m c b :=
  fun b hb => Bd2_of_ne m c b fun w e => hb (Finset.mem_image.mpr ⟨w, Finset.mem_univ _, e⟩)
/-- Region 0 changes no buffer but its output array: an input array is read only, any other buffer bypasses it. -/
theorem Bd2_keep (c : Dev nD) (b : Ref sig .tc) (hb : b ≠ main_v39) : Bd2 m c (Proc.devRef .tc b) = Bd1 m c (Proc.devRef .tc b) := by
  by_cases h : ∃ w, Pipeline.arrRef spec0 w = b
  · obtain ⟨w, rfl⟩ := h
    rw [Bd2_arr]
    have hin : (cfg0.win w).isOut = false := by
      fin_cases w
      · rfl
      · rfl
      · rfl
      · exact absurd rfl hb
    exact ((dat0 (En1 m) c).arrAt_in w hin _).trans (A_eq0 (En1 m) c w)
  · exact Bd2_of_ne m c b fun w e => h ⟨w, e⟩

/-- After host stretch 1: region 1's entry. -/
abbrev Bd3 : Dev nD → Valuation τ sig (Elt F) := fun c => StableHlo.after hostOps1 (Bd2 m c)
abbrev En3 : (c : Dev nD) → (b : Ref sig .tc) → Buf (Elt F) ((c : Thread nD τ).loc b) := fun c b => Bd3 m c b
/-- At region 1's exit: its arrays at what the pipeline leaves, every other buffer as entered. -/
def Bd4 (c : Dev nD) : Valuation τ sig (Elt F) :=
  Pipeline.withArrays spec1 c (Bd3 m c) fun w => (dat1 (En3 m) c).arrAt w cfg1.N
theorem Bd4_arr (c : Dev nD) (w : Fin cfg1.W) :
    Bd4 m c (Proc.devRef .tc (Pipeline.arrRef spec1 w)) = (dat1 (En3 m) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m c (Proc.devRef .tc b) = Bd3 m c (Proc.devRef .tc b) := by
  unfold Bd4; exact Pipeline.withArrays_of_ne spec1 c _ _ b hb
abbrev Ex4 : (c : Dev nD) → (b : Ref sig .tc) → Buf (Elt F) ((c : Thread nD τ).loc b) := fun c b => Bd4 m c b
theorem hF1 (c : Dev nD) (w : Fin cfg1.W) : (dat1 (En3 m) c).arrAt w cfg1.N = Ex4 m c (Pipeline.arrRef spec1 w) :=
  (Bd4_arr m c w).symm
theorem hrest1 (c : Dev nD) : ∀ b, b ∉ Finset.univ.image (Pipeline.arrRef spec1) → Ex4 m c b = En3 m c b :=
  fun b hb => Bd4_of_ne m c b fun w e => hb (Finset.mem_image.mpr ⟨w, Finset.mem_univ _, e⟩)
/-- Region 1 changes no buffer but its output array: an input array is read only, any other buffer bypasses it. -/
theorem Bd4_keep (c : Dev nD) (b : Ref sig .tc) (hb : b ≠ main_v79) : Bd4 m c (Proc.devRef .tc b) = Bd3 m c (Proc.devRef .tc b) := by
  by_cases h : ∃ w, Pipeline.arrRef spec1 w = b
  · obtain ⟨w, rfl⟩ := h
    rw [Bd4_arr]
    have hin : (cfg1.win w).isOut = false := by
      fin_cases w
      · rfl
      · rfl
      · rfl
      · exact absurd rfl hb
    exact ((dat1 (En3 m) c).arrAt_in w hin _).trans (A_eq1 (En3 m) c w)
  · exact Bd4_of_ne m c b fun w e => h ⟨w, e⟩

/-- After host stretch 2: region 2's entry. -/
abbrev Bd5 : Dev nD → Valuation τ sig (Elt F) := fun c => StableHlo.after hostOps2 (Bd4 m c)
abbrev En5 : (c : Dev nD) → (b : Ref sig .tc) → Buf (Elt F) ((c : Thread nD τ).loc b) := fun c b => Bd5 m c b
/-- At region 2's exit: its arrays at what the pipeline leaves, every other buffer as entered. -/
def Bd6 (c : Dev nD) : Valuation τ sig (Elt F) :=
  Pipeline.withArrays spec2 c (Bd5 m c) fun w => (dat2 (En5 m) c).arrAt w cfg2.N
theorem Bd6_arr (c : Dev nD) (w : Fin cfg2.W) :
    Bd6 m c (Proc.devRef .tc (Pipeline.arrRef spec2 w)) = (dat2 (En5 m) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m c (Proc.devRef .tc b) = Bd5 m c (Proc.devRef .tc b) := by
  unfold Bd6; exact Pipeline.withArrays_of_ne spec2 c _ _ b hb
abbrev Ex6 : (c : Dev nD) → (b : Ref sig .tc) → Buf (Elt F) ((c : Thread nD τ).loc b) := fun c b => Bd6 m c b
theorem hF2 (c : Dev nD) (w : Fin cfg2.W) : (dat2 (En5 m) c).arrAt w cfg2.N = Ex6 m c (Pipeline.arrRef spec2 w) :=
  (Bd6_arr m c w).symm
theorem hrest2 (c : Dev nD) : ∀ b, b ∉ Finset.univ.image (Pipeline.arrRef spec2) → Ex6 m c b = En5 m c b :=
  fun b hb => Bd6_of_ne m c b fun w e => hb (Finset.mem_image.mpr ⟨w, Finset.mem_univ _, e⟩)
/-- Region 2 changes no buffer but its output array: an input array is read only, any other buffer bypasses it. -/
theorem Bd6_keep (c : Dev nD) (b : Ref sig .tc) (hb : b ≠ main_v119) : Bd6 m c (Proc.devRef .tc b) = Bd5 m c (Proc.devRef .tc b) := by
  by_cases h : ∃ w, Pipeline.arrRef spec2 w = b
  · obtain ⟨w, rfl⟩ := h
    rw [Bd6_arr]
    have hin : (cfg2.win w).isOut = false := by
      fin_cases w
      · rfl
      · rfl
      · rfl
      · exact absurd rfl hb
    exact ((dat2 (En5 m) c).arrAt_in w hin _).trans (A_eq2 (En5 m) c w)
  · exact Bd6_of_ne m c b fun w e => h ⟨w, e⟩

/-- After host stretch 3: region 3's entry. -/
abbrev Bd7 : Dev nD → Valuation τ sig (Elt F) := fun c => StableHlo.after hostOps3 (Bd6 m c)
abbrev En7 : (c : Dev nD) → (b : Ref sig .tc) → Buf (Elt F) ((c : Thread nD τ).loc b) := fun c b => Bd7 m c b
/-- At region 3's exit: its arrays at what the pipeline leaves, every other buffer as entered. -/
def Bd8 (c : Dev nD) : Valuation τ sig (Elt F) :=
  Pipeline.withArrays spec3 c (Bd7 m c) fun w => (dat3 (En7 m) c).arrAt w cfg3.N
theorem Bd8_arr (c : Dev nD) (w : Fin cfg3.W) :
    Bd8 m c (Proc.devRef .tc (Pipeline.arrRef spec3 w)) = (dat3 (En7 m) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m c (Proc.devRef .tc b) = Bd7 m c (Proc.devRef .tc b) := by
  unfold Bd8; exact Pipeline.withArrays_of_ne spec3 c _ _ b hb
abbrev Ex8 : (c : Dev nD) → (b : Ref sig .tc) → Buf (Elt F) ((c : Thread nD τ).loc b) := fun c b => Bd8 m c b
theorem hF3 (c : Dev nD) (w : Fin cfg3.W) : (dat3 (En7 m) c).arrAt w cfg3.N = Ex8 m c (Pipeline.arrRef spec3 w) :=
  (Bd8_arr m c w).symm
theorem hrest3 (c : Dev nD) : ∀ b, b ∉ Finset.univ.image (Pipeline.arrRef spec3) → Ex8 m c b = En7 m c b :=
  fun b hb => Bd8_of_ne m c b fun w e => hb (Finset.mem_image.mpr ⟨w, Finset.mem_univ _, e⟩)
/-- Region 3 changes no buffer but its output array: an input array is read only, any other buffer bypasses it. -/
theorem Bd8_keep (c : Dev nD) (b : Ref sig .tc) (hb : b ≠ main_v159) : Bd8 m c (Proc.devRef .tc b) = Bd7 m c (Proc.devRef .tc b) := by
  by_cases h : ∃ w, Pipeline.arrRef spec3 w = b
  · obtain ⟨w, rfl⟩ := h
    rw [Bd8_arr]
    have hin : (cfg3.win w).isOut = false := by
      fin_cases w
      · rfl
      · rfl
      · rfl
      · exact absurd rfl hb
    exact ((dat3 (En7 m) c).arrAt_in w hin _).trans (A_eq3 (En7 m) c w)
  · exact Bd8_of_ne m c b fun w e => h ⟨w, e⟩

/-- After host stretch 4: region 4's entry. -/
abbrev Bd9 : Dev nD → Valuation τ sig (Elt F) := fun c => StableHlo.after hostOps4 (Bd8 m c)
abbrev En9 : (c : Dev nD) → (b : Ref sig .tc) → Buf (Elt F) ((c : Thread nD τ).loc b) := fun c b => Bd9 m c b
/-- At region 4's exit: its arrays at what the pipeline leaves, every other buffer as entered. -/
def Bd10 (c : Dev nD) : Valuation τ sig (Elt F) :=
  Pipeline.withArrays spec4 c (Bd9 m c) fun w => (dat4 (En9 m) c).arrAt w cfg4.N
theorem Bd10_arr (c : Dev nD) (w : Fin cfg4.W) :
    Bd10 m c (Proc.devRef .tc (Pipeline.arrRef spec4 w)) = (dat4 (En9 m) c).arrAt w cfg4.N := by
  unfold Bd10; exact Pipeline.withArrays_arr spec4 launch4.win.arr_inj c _ _ w
theorem Bd10_of_ne (c : Dev nD) (b : Ref sig .tc) (hb : ∀ w, Pipeline.arrRef spec4 w ≠ b) :
    Bd10 m c (Proc.devRef .tc b) = Bd9 m c (Proc.devRef .tc b) := by
  unfold Bd10; exact Pipeline.withArrays_of_ne spec4 c _ _ b hb
abbrev Ex10 : (c : Dev nD) → (b : Ref sig .tc) → Buf (Elt F) ((c : Thread nD τ).loc b) := fun c b => Bd10 m c b
theorem hF4 (c : Dev nD) (w : Fin cfg4.W) : (dat4 (En9 m) c).arrAt w cfg4.N = Ex10 m c (Pipeline.arrRef spec4 w) :=
  (Bd10_arr m c w).symm
theorem hrest4 (c : Dev nD) : ∀ b, b ∉ Finset.univ.image (Pipeline.arrRef spec4) → Ex10 m c b = En9 m c b :=
  fun b hb => Bd10_of_ne m c b fun w e => hb (Finset.mem_image.mpr ⟨w, Finset.mem_univ _, e⟩)
/-- Region 4 changes no buffer but its output array: an input array is read only, any other buffer bypasses it. -/
theorem Bd10_keep (c : Dev nD) (b : Ref sig .tc) (hb : b ≠ main_v199) : Bd10 m c (Proc.devRef .tc b) = Bd9 m c (Proc.devRef .tc b) := by
  by_cases h : ∃ w, Pipeline.arrRef spec4 w = b
  · obtain ⟨w, rfl⟩ := h
    rw [Bd10_arr]
    have hin : (cfg4.win w).isOut = false := by
      fin_cases w
      · rfl
      · rfl
      · rfl
      · exact absurd rfl hb
    exact ((dat4 (En9 m) c).arrAt_in w hin _).trans (A_eq4 (En9 m) c w)
  · exact Bd10_of_ne m c b fun w e => h ⟨w, e⟩

/-- After host stretch 5: region 5's entry. -/
abbrev Bd11 : Dev nD → Valuation τ sig (Elt F) := fun c => StableHlo.after hostOps5 (Bd10 m c)
abbrev En11 : (c : Dev nD) → (b : Ref sig .tc) → Buf (Elt F) ((c : Thread nD τ).loc b) := fun c b => Bd11 m c b
/-- At region 5's exit: its arrays at what the pipeline leaves, every other buffer as entered. -/
def Bd12 (c : Dev nD) : Valuation τ sig (Elt F) :=
  Pipeline.withArrays spec5 c (Bd11 m c) fun w => (dat5 (En11 m) c).arrAt w cfg5.N
theorem Bd12_arr (c : Dev nD) (w : Fin cfg5.W) :
    Bd12 m c (Proc.devRef .tc (Pipeline.arrRef spec5 w)) = (dat5 (En11 m) c).arrAt w cfg5.N := by
  unfold Bd12; exact Pipeline.withArrays_arr spec5 launch5.win.arr_inj c _ _ w
theorem Bd12_of_ne (c : Dev nD) (b : Ref sig .tc) (hb : ∀ w, Pipeline.arrRef spec5 w ≠ b) :
    Bd12 m c (Proc.devRef .tc b) = Bd11 m c (Proc.devRef .tc b) := by
  unfold Bd12; exact Pipeline.withArrays_of_ne spec5 c _ _ b hb
abbrev Ex12 : (c : Dev nD) → (b : Ref sig .tc) → Buf (Elt F) ((c : Thread nD τ).loc b) := fun c b => Bd12 m c b
theorem hF5 (c : Dev nD) (w : Fin cfg5.W) : (dat5 (En11 m) c).arrAt w cfg5.N = Ex12 m c (Pipeline.arrRef spec5 w) :=
  (Bd12_arr m c w).symm
theorem hrest5 (c : Dev nD) : ∀ b, b ∉ Finset.univ.image (Pipeline.arrRef spec5) → Ex12 m c b = En11 m c b :=
  fun b hb => Bd12_of_ne m c b fun w e => hb (Finset.mem_image.mpr ⟨w, Finset.mem_univ _, e⟩)
/-- Region 5 changes no buffer but its output array: an input array is read only, any other buffer bypasses it. -/
theorem Bd12_keep (c : Dev nD) (b : Ref sig .tc) (hb : b ≠ main_v239) : Bd12 m c (Proc.devRef .tc b) = Bd11 m c (Proc.devRef .tc b) := by
  by_cases h : ∃ w, Pipeline.arrRef spec5 w = b
  · obtain ⟨w, rfl⟩ := h
    rw [Bd12_arr]
    have hin : (cfg5.win w).isOut = false := by
      fin_cases w
      · rfl
      · rfl
      · rfl
      · exact absurd rfl hb
    exact ((dat5 (En11 m) c).arrAt_in w hin _).trans (A_eq5 (En11 m) c w)
  · exact Bd12_of_ne m c b fun w e => h ⟨w, e⟩

/-- A buffer no host operation writes and no region outputs ends as launched. -/
theorem Bd12_of (c : Dev nD) (b : Ref sig .tc)
    (h0 : b ∉ hostOps0_W) (o0 : b ≠ main_v39) (h1 : b ∉ hostOps1_W) (o1 : b ≠ main_v79) (h2 : b ∉ hostOps2_W) (o2 : b ≠ main_v119)
    (h3 : b ∉ hostOps3_W) (o3 : b ≠ main_v159) (h4 : b ∉ hostOps4_W) (o4 : b ≠ main_v199) (h5 : b ∉ hostOps5_W) (o5 : b ≠ main_v239) :
    Bd12 m c (Proc.devRef .tc b) = m ((c : Thread nD τ).loc b) :=
  (Bd12_keep m c b o5).trans <| (StableHlo.after_of_writes_sub hostOps5 _ hostOps5_writes h5).trans <|
  (Bd10_keep m c b o4).trans <| (StableHlo.after_of_writes_sub hostOps4 _ hostOps4_writes h4).trans <|
  (Bd8_keep m c b o3).trans <| (StableHlo.after_of_writes_sub hostOps3 _ hostOps3_writes h3).trans <|
  (Bd6_keep m c b o2).trans <| (StableHlo.after_of_writes_sub hostOps2 _ hostOps2_writes h2).trans <|
  (Bd4_keep m c b o1).trans <| (StableHlo.after_of_writes_sub hostOps1 _ hostOps1_writes h1).trans <|
  (Bd2_keep m c b o0).trans <| (StableHlo.after_of_writes_sub hostOps0 _ hostOps0_writes h0)

/-- The first result is region 2's output array: nothing after region 2 writes it. -/
theorem Bd12_v119 (c : Dev nD) : Bd12 m c (Proc.devRef .tc main_v119) = (dat2 (En5 m) c).arrAt 3 cfg2.N :=
  (Bd12_keep m c main_v119 (by decide)).trans <| (StableHlo.after_of_writes_sub hostOps5 _ hostOps5_writes (by decide)).trans <|
  (Bd10_keep m c main_v119 (by decide)).trans <| (StableHlo.after_of_writes_sub hostOps4 _ hostOps4_writes (by decide)).trans <|
  (Bd8_keep m c main_v119 (by decide)).trans <| (StableHlo.after_of_writes_sub hostOps3 _ hostOps3_writes (by decide)).trans <|
  Bd6_arr m c 3

/-- The second result is region 5's output array. -/
theorem Bd12_v239 (c : Dev nD) : Bd12 m c (Proc.devRef .tc main_v239) = (dat5 (En11 m) c).arrAt 3 cfg5.N :=
  Bd12_arr m c 3

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (En1 m) c
  | ⟨1, _⟩ => fun c => dat1 (En3 m) c
  | ⟨2, _⟩ => fun c => dat2 (En5 m) c
  | ⟨3, _⟩ => fun c => dat3 (En7 m) c
  | ⟨4, _⟩ => fun c => dat4 (En9 m) c
  | ⟨5, _⟩ => fun c => dat5 (En11 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Bd12 m c) ∗ ∃ r, prngReg c r)

/-! ## The regions as segments -/

set_option backward.isDefEq.respectTransparency.types false in
/-- Region 0 over the thread state: entered from every unscoped buffer at `Bd1`, left at `Bd2`. Its arrays
    split out of the unscoped buffers and are put back at the exit contents; the generator register and the scoped
    buffers go into the region's invariant and come back out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ L lv 0 fun _ _ => rfl
  pre c := iprop(StableHlo.held (c : Thread nD τ) (Pipeline.ucRefs τ sig) (Bd1 m c) ∗ R c)
  post c := iprop(StableHlo.held (c : Thread nD τ) (Pipeline.ucRefs τ sig) (Bd2 m c) ∗ R c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin0 (En1 m) c
    unfold Pipeline.ΦA at h0
    have h : _ ⊢ (pdats m 0 c).Φ 0 := h0
    iintro ⟨Hp, -, Hr⟩
    iapply h
    isplitl [Hr]; · iexact Hr
    iexact Hp
  hout c := by
    rw [Pipeline.ownSems0_none]
    have h0 := hout0 (En1 m) c
    unfold Pipeline.ΦA at h0
    have h : (pdats m 0 c).Φ (Fin.last _) ⊢ _ := h0
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En1 m c) (Ex2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Bd3`, left at `Bd4`. Its arrays
    split out of the unscoped buffers and are put back at the exit contents; the generator register and the scoped
    buffers go into the region's invariant and come back out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m) c).loose
  hwaits := Pipeline.hwaits_of_owed_zero _ _ _ _ L lv 1 fun _ _ => rfl
  pre c := iprop(StableHlo.held (c : Thread nD τ) (Pipeline.ucRefs τ sig) (Bd3 m c) ∗ R c)
  post c := iprop(StableHlo.held (c : Thread nD τ) (Pipeline.ucRefs τ sig) (Bd4 m c) ∗ R c)
  X c := iprop(∃ r, prngReg c r)
  Y c := iprop(∃ r, prngReg c r)
  Z c := Pipeline.unscopedRest (Ix := Unit) (Name := ℕ) (U := UR sig nD τ) (Lvl := ℕ) spec1 c (En3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin1 (En3 m) c
    unfold Pipeline.ΦA at h0
    have h : _ ⊢ (pdats m 1 c).Φ 0 := h0
    iintro ⟨Hp, -, Hr⟩
    iapply h
    isplitl [Hr]; · iexact Hr
    iexact Hp
  hout c := by
    rw [Pipeline.ownSems0_none]
    have h0 := hout1 (En3 m) c
    unfold Pipeline.ΦA at h0
    have h : (pdats m 1 c).Φ (Fin.last _) ⊢ _ := h0
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En3 m c) (Ex4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Bd5`, left at `Bd6`. Its arrays
    split out of the unscoped buffers and are put back at the exit contents; the generator register and the scoped
    buffers go into the region's invariant and come back out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m) c).loose
  hwaits := Pipeline.hwaits_of_owed_zero _ _ _ _ L lv 2 fun _ _ => rfl
  pre c := iprop(StableHlo.held (c : Thread nD τ) (Pipeline.ucRefs τ sig) (Bd5 m c) ∗ R c)
  post c := iprop(StableHlo.held (c : Thread nD τ) (Pipeline.ucRefs τ sig) (Bd6 m c) ∗ R c)
  X c := iprop(∃ r, prngReg c r)
  Y c := iprop(∃ r, prngReg c r)
  Z c := Pipeline.unscopedRest (Ix := Unit) (Name := ℕ) (U := UR sig nD τ) (Lvl := ℕ) spec2 c (En5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin2 (En5 m) c
    unfold Pipeline.ΦA at h0
    have h : _ ⊢ (pdats m 2 c).Φ 0 := h0
    iintro ⟨Hp, -, Hr⟩
    iapply h
    isplitl [Hr]; · iexact Hr
    iexact Hp
  hout c := by
    rw [Pipeline.ownSems0_none]
    have h0 := hout2 (En5 m) c
    unfold Pipeline.ΦA at h0
    have h : (pdats m 2 c).Φ (Fin.last _) ⊢ _ := h0
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En5 m c) (Ex6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `Bd7`, left at `Bd8`. Its arrays
    split out of the unscoped buffers and are put back at the exit contents; the generator register and the scoped
    buffers go into the region's invariant and come back out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En7 m) c).loose
  hwaits := Pipeline.hwaits_of_owed_zero _ _ _ _ L lv 3 fun _ _ => rfl
  pre c := iprop(StableHlo.held (c : Thread nD τ) (Pipeline.ucRefs τ sig) (Bd7 m c) ∗ R c)
  post c := iprop(StableHlo.held (c : Thread nD τ) (Pipeline.ucRefs τ sig) (Bd8 m c) ∗ R c)
  X c := iprop(∃ r, prngReg c r)
  Y c := iprop(∃ r, prngReg c r)
  Z c := Pipeline.unscopedRest (Ix := Unit) (Name := ℕ) (U := UR sig nD τ) (Lvl := ℕ) spec3 c (En7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin3 (En7 m) c
    unfold Pipeline.ΦA at h0
    have h : _ ⊢ (pdats m 3 c).Φ 0 := h0
    iintro ⟨Hp, -, Hr⟩
    iapply h
    isplitl [Hr]; · iexact Hr
    iexact Hp
  hout c := by
    rw [Pipeline.ownSems0_none]
    have h0 := hout3 (En7 m) c
    unfold Pipeline.ΦA at h0
    have h : (pdats m 3 c).Φ (Fin.last _) ⊢ _ := h0
    iintro HΦ
    ihave H := h $$ HΦ
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En7 m c) (Ex8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `Bd9`, left at `Bd10`. Its arrays
    split out of the unscoped buffers and are put back at the exit contents; the generator register and the scoped
    buffers go into the region's invariant and come back out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (En9 m) c).loose
  hwaits := Pipeline.hwaits_of_owed_zero _ _ _ _ L lv 4 fun _ _ => rfl
  pre c := iprop(StableHlo.held (c : Thread nD τ) (Pipeline.ucRefs τ sig) (Bd9 m c) ∗ R c)
  post c := iprop(StableHlo.held (c : Thread nD τ) (Pipeline.ucRefs τ sig) (Bd10 m c) ∗ R c)
  X c := iprop(∃ r, prngReg c r)
  Y c := iprop(∃ r, prngReg c r)
  Z c := Pipeline.unscopedRest (Ix := Unit) (Name := ℕ) (U := UR sig nD τ) (Lvl := ℕ) spec4 c (En9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (En9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin4 (En9 m) c
    unfold Pipeline.ΦA at h0
    have h : _ ⊢ (pdats m 4 c).Φ 0 := h0
    iintro ⟨Hp, -, Hr⟩
    iapply h
    isplitl [Hr]; · iexact Hr
    iexact Hp
  hout c := by
    rw [Pipeline.ownSems0_none]
    have h0 := hout4 (En9 m) c
    unfold Pipeline.ΦA at h0
    have h : (pdats m 4 c).Φ (Fin.last _) ⊢ _ := h0
    iintro HΦ
    ihave H := h $$ HΦ
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (En9 m c) (Ex10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `Bd11`, left at `Bd12`. Its arrays
    split out of the unscoped buffers and are put back at the exit contents; the generator register and the scoped
    buffers go into the region's invariant and come back out; nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (En11 m) c).loose
  hwaits := Pipeline.hwaits_of_owed_zero _ _ _ _ L lv 5 fun _ _ => rfl
  pre c := iprop(StableHlo.held (c : Thread nD τ) (Pipeline.ucRefs τ sig) (Bd11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (En11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (En11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin5 (En11 m) c
    unfold Pipeline.ΦA at h0
    have h : _ ⊢ (pdats m 5 c).Φ 0 := h0
    iintro ⟨Hp, -, Hr⟩
    iapply h
    isplitl [Hr]; · iexact Hr
    iexact Hp
  hout c := by
    rw [Pipeline.ownSems0_none]
    have h0 := hout5 (En11 m) c
    unfold Pipeline.ΦA at h0
    have h : (pdats m 5 c).Φ (Fin.last _) ⊢ _ := h0
    iintro HΦ
    ihave H := h $$ HΦ
    icases H with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (En11 m c) (Ex12 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (Bd0 m)), .region (reg0 m),
    .host (hseg hostOps1 hostOps1_sub hostOps1_fresh (Bd2 m)), .region (reg1 m),
    .host (hseg hostOps2 hostOps2_sub hostOps2_fresh (Bd4 m)), .region (reg2 m),
    .host (hseg hostOps3 hostOps3_sub hostOps3_fresh (Bd6 m)), .region (reg3 m),
    .host (hseg hostOps4 hostOps4_sub hostOps4_fresh (Bd8 m)), .region (reg4 m),
    .host (hseg hostOps5 hostOps5_sub hostOps5_fresh (Bd10 m)), .region (reg5 m) ]

set_option backward.isDefEq.respectTransparency.types false in
/-- From any memory with zero counters, every weakly fair execution of the program terminates, nothing faulting, and
    every final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Bd12 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()),
          StableHlo.seq hostOps3, Prog.lift (.customCall (Pipeline.entry 3) ()),
          StableHlo.seq hostOps4, Prog.lift (.customCall (Pipeline.entry 4) ()),
          StableHlo.seq hostOps5, Prog.lift (.customCall (Pipeline.entry 5) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd12 m c b)
    (hfin := fun c s' => by
      iintro ⟨⟨Hh, -⟩, HSI⟩
      unfold StableHlo.held
      imodintro
      iapply (pointsTo_read_all (Pipeline.ucRefs τ sig) (fun b => (((c : Thread nD τ)).1, b)) (Bd12 m c) s')
      isplitl [Hh] <;> iassumption)
    (hQ := fun s h c => h c)

/-- Every argument array ends holding its launch contents: no host operation writes it, and a region reads it at most
    through an input window. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (Bd12_of m c main_arg0 (by decide) (by decide) (by decide) (by decide) (by decide) (by decide) (by decide) (by decide) (by decide) (by decide) (by decide) (by decide)),
    (h c _ (mem_uc main_arg1 (by decide))).trans (Bd12_of m c main_arg1 (by decide) (by decide) (by decide) (by decide) (by decide) (by decide) (by decide) (by decide) (by decide) (by decide) (by decide) (by decide)),
    (h c _ (mem_uc main_arg2 (by decide))).trans (Bd12_of m c main_arg2 (by decide) (by decide) (by decide) (by decide) (by decide) (by decide) (by decide) (by decide) (by decide) (by decide) (by decide) (by decide)),
    (h c _ (mem_uc main_arg3 (by decide))).trans (Bd12_of m c main_arg3 (by decide) (by decide) (by decide) (by decide) (by decide) (by decide) (by decide) (by decide) (by decide) (by decide) (by decide) (by decide)),
    (h c _ (mem_uc main_arg4 (by decide))).trans (Bd12_of m c main_arg4 (by decide) (by decide) (by decide) (by decide) (by decide) (by decide) (by decide) (by decide) (by decide) (by decide) (by decide) (by decide)),
    (h c _ (mem_uc main_arg5 (by decide))).trans (Bd12_of m c main_arg5 (by decide) (by decide) (by decide) (by decide) (by decide) (by decide) (by decide) (by decide) (by decide) (by decide) (by decide) (by decide)),
    (h c _ (mem_uc main_arg6 (by decide))).trans (Bd12_of m c main_arg6 (by decide) (by decide) (by decide) (by decide) (by decide) (by decide) (by decide) (by decide) (by decide) (by decide) (by decide) (by decide)),
    (h c _ (mem_uc main_arg7 (by decide))).trans (Bd12_of m c main_arg7 (by decide) (by decide) (by decide) (by decide) (by decide) (by decide) (by decide) (by decide) (by decide) (by decide) (by decide) (by decide)),
    (h c _ (mem_uc main_arg8 (by decide))).trans (Bd12_of m c main_arg8 (by decide) (by decide) (by decide) (by decide) (by decide) (by decide) (by decide) (by decide) (by decide) (by decide) (by decide) (by decide)),
    (h c _ (mem_uc main_arg9 (by decide))).trans (Bd12_of m c main_arg9 (by decide) (by decide) (by decide) (by decide) (by decide) (by decide) (by decide) (by decide) (by decide) (by decide) (by decide) (by decide)),
    (h c _ (mem_uc main_arg10 (by decide))).trans (Bd12_of m c main_arg10 (by decide) (by decide) (by decide) (by decide) (by decide) (by decide) (by decide) (by decide) (by decide) (by decide) (by decide) (by decide)),
    (h c _ (mem_uc main_arg11 (by decide))).trans (Bd12_of m c main_arg11 (by decide) (by decide) (by decide) (by decide) (by decide) (by decide) (by decide) (by decide) (by decide) (by decide) (by decide) (by decide)),
    (h c _ (mem_uc main_arg12 (by decide))).trans (Bd12_of m c main_arg12 (by decide) (by decide) (by decide) (by decide) (by decide) (by decide) (by decide) (by decide) (by decide) (by decide) (by decide) (by decide)),
    (h c _ (mem_uc main_arg13 (by decide))).trans (Bd12_of m c main_arg13 (by decide) (by decide) (by decide) (by decide) (by decide) (by decide) (by decide) (by decide) (by decide) (by decide) (by decide) (by decide)),
    (h c _ (mem_uc main_arg14 (by decide))).trans (Bd12_of m c main_arg14 (by decide) (by decide) (by decide) (by decide) (by decide) (by decide) (by decide) (by decide) (by decide) (by decide) (by decide) (by decide))⟩) (run_all m ρ)

/-- The run with both results named: the first result is what region 2's write-backs leave in its output array,
    the second what region 5's leave; the arguments end as launched. -/
theorem run_results : θ_run defs (onTc (τ := τ) (main (F := F))) ⟨m, fun _ => 0, ρ⟩ (fun r => ∀ c : Dev nD,
      r.2.mem ((c.tc : Thread nD τ).loc main_v119) = (dat2 (En5 m) c).arrAt 3 cfg2.N
      ∧ r.2.mem ((c.tc : Thread nD τ).loc main_v239) = (dat5 (En11 m) c).arrAt 3 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_v119 (by decide))).trans (Bd12_v119 m c),
    (h c _ (mem_uc main_v239 (by decide))).trans (Bd12_v239 m c),
    (h c _ (mem_uc main_arg0 (by decide))).trans (Bd12_of m c main_arg0 (by decide) (by decide) (by decide) (by decide) (by decide) (by decide) (by decide) (by decide) (by decide) (by decide) (by decide) (by decide)),
    (h c _ (mem_uc main_arg1 (by decide))).trans (Bd12_of m c main_arg1 (by decide) (by decide) (by decide) (by decide) (by decide) (by decide) (by decide) (by decide) (by decide) (by decide) (by decide) (by decide)),
    (h c _ (mem_uc main_arg2 (by decide))).trans (Bd12_of m c main_arg2 (by decide) (by decide) (by decide) (by decide) (by decide) (by decide) (by decide) (by decide) (by decide) (by decide) (by decide) (by decide)),
    (h c _ (mem_uc main_arg3 (by decide))).trans (Bd12_of m c main_arg3 (by decide) (by decide) (by decide) (by decide) (by decide) (by decide) (by decide) (by decide) (by decide) (by decide) (by decide) (by decide)),
    (h c _ (mem_uc main_arg4 (by decide))).trans (Bd12_of m c main_arg4 (by decide) (by decide) (by decide) (by decide) (by decide) (by decide) (by decide) (by decide) (by decide) (by decide) (by decide) (by decide)),
    (h c _ (mem_uc main_arg5 (by decide))).trans (Bd12_of m c main_arg5 (by decide) (by decide) (by decide) (by decide) (by decide) (by decide) (by decide) (by decide) (by decide) (by decide) (by decide) (by decide)),
    (h c _ (mem_uc main_arg6 (by decide))).trans (Bd12_of m c main_arg6 (by decide) (by decide) (by decide) (by decide) (by decide) (by decide) (by decide) (by decide) (by decide) (by decide) (by decide) (by decide)),
    (h c _ (mem_uc main_arg7 (by decide))).trans (Bd12_of m c main_arg7 (by decide) (by decide) (by decide) (by decide) (by decide) (by decide) (by decide) (by decide) (by decide) (by decide) (by decide) (by decide)),
    (h c _ (mem_uc main_arg8 (by decide))).trans (Bd12_of m c main_arg8 (by decide) (by decide) (by decide) (by decide) (by decide) (by decide) (by decide) (by decide) (by decide) (by decide) (by decide) (by decide)),
    (h c _ (mem_uc main_arg9 (by decide))).trans (Bd12_of m c main_arg9 (by decide) (by decide) (by decide) (by decide) (by decide) (by decide) (by decide) (by decide) (by decide) (by decide) (by decide) (by decide)),
    (h c _ (mem_uc main_arg10 (by decide))).trans (Bd12_of m c main_arg10 (by decide) (by decide) (by decide) (by decide) (by decide) (by decide) (by decide) (by decide) (by decide) (by decide) (by decide) (by decide)),
    (h c _ (mem_uc main_arg11 (by decide))).trans (Bd12_of m c main_arg11 (by decide) (by decide) (by decide) (by decide) (by decide) (by decide) (by decide) (by decide) (by decide) (by decide) (by decide) (by decide)),
    (h c _ (mem_uc main_arg12 (by decide))).trans (Bd12_of m c main_arg12 (by decide) (by decide) (by decide) (by decide) (by decide) (by decide) (by decide) (by decide) (by decide) (by decide) (by decide) (by decide)),
    (h c _ (mem_uc main_arg13 (by decide))).trans (Bd12_of m c main_arg13 (by decide) (by decide) (by decide) (by decide) (by decide) (by decide) (by decide) (by decide) (by decide) (by decide) (by decide) (by decide)),
    (h c _ (mem_uc main_arg14 (by decide))).trans (Bd12_of m c main_arg14 (by decide) (by decide) (by decide) (by decide) (by decide) (by decide) (by decide) (by decide) (by decide) (by decide) (by decide) (by decide))⟩) (run_all m ρ)

end Cert.KernelIdeal.Fr

end
-- ==== Proof.Spec.lean ====
import proofs.«135243_j27986006901491_1_alg».proof.ReferenceIdeal
import Idealize.ShloMosaic.PureOps.Ideal

/-! The reference program's stages as whole-array functions over the extended reals.

One graph layer is `glue` (mean-aggregate the node features over incoming edges, read them back along
the edges, aggregate and read once more, and average the two endpoints' values) followed by an affine
map `lin` (`e · Wᵀ + b`) and, for the hidden layers, the leaky rectifier `act`. The two results are
three such layers each. Every function is spelled with the operations the reference program itself
uses, so the reference's composed value is one of these terms on the nose. -/

noncomputable section

namespace Cert.Spec

open Idealize.ShloMosaic Idealize.ShloMosaic.TcCoe Idealize.SL.Sem
open Cert.ReferenceIdeal

variable [Facts₀]
open Facts₀

/-- The edge-feature stage of one layer. With `deg` the number of edges arriving at each of the 14 nodes,
    `node = (Σ_{edges into n} h) / deg`, then `node2 = Σ_{edges into n} node[src]`, and the value of an
    edge is `(node2[src] + node2[dst]) · ½`; a negative node index counts from the end (`+ 14`). -/
def glue (h : (⟨S44x4096, .f32⟩ : BufTy).Contents (Elt Ideal)) (src dst : (⟨S44, .i32⟩ : BufTy).Contents (Elt Ideal)) :
    (⟨S44x4096, .f32⟩ : BufTy).Contents (Elt Ideal) :=
  (mulf (addf (Host.gather gather_S14x4096_S44x1_S44x4096_1_0_n_n_0_1_14096 (Host.scatterAdd (F := Ideal) scatter_S14x4096_S44x1_S44x4096_1_0_0_1 (broadcastInDim S14x4096 ![] bcast_S_S14x4096 (constant (F := Ideal) S_ .f32 0x00000000#32)) (broadcastInDim S44x1 ![0] bcast_S44_S44x1_0 dst) (Host.gather gather_S14x4096_S44x1_S44x4096_1_0_n_n_0_1_14096 (Host.divf (F := Ideal) (Host.scatterAdd (F := Ideal) scatter_S14x4096_S44x1_S44x4096_1_0_0_1 (broadcastInDim S14x4096 ![] bcast_S_S14x4096 (constant (F := Ideal) S_ .f32 0x00000000#32)) (broadcastInDim S44x1 ![0] bcast_S44_S44x1_0 dst) h) (broadcastInDim S14x4096 ![0, 1] bcast_S14x1_S14x4096_0_1 (broadcastInDim S14x1 ![0] bcast_S14_S14x1_0 (Host.scatterAdd (F := Ideal) scatter_S14_S44x1_S44_n_0_0_1 (broadcastInDim S14 ![] bcast_S_S14 (constant (F := Ideal) S_ .f32 0x00000000#32)) (broadcastInDim S44x1 ![0] bcast_S44_S44x1_0 dst) (broadcastInDim S44 ![] bcast_S_S44 (constant (F := Ideal) S_ .f32 0x3F800000#32)))))) (broadcastInDim S44x1 ![0] bcast_S44_S44x1_0 (select (cmpi .slt src (broadcastInDim S44 ![] bcast_S_S44 (constantI S_ 32 0#32))) (addi src (broadcastInDim S44 ![] bcast_S_S44 (constantI S_ 32 14#32))) src)))) (broadcastInDim S44x1 ![0] bcast_S44_S44x1_0 (select (cmpi .slt src (broadcastInDim S44 ![] bcast_S_S44 (constantI S_ 32 0#32))) (addi src (broadcastInDim S44 ![] bcast_S_S44 (constantI S_ 32 14#32))) src))) (Host.gather gather_S14x4096_S44x1_S44x4096_1_0_n_n_0_1_14096 (Host.scatterAdd (F := Ideal) scatter_S14x4096_S44x1_S44x4096_1_0_0_1 (broadcastInDim S14x4096 ![] bcast_S_S14x4096 (constant (F := Ideal) S_ .f32 0x00000000#32)) (broadcastInDim S44x1 ![0] bcast_S44_S44x1_0 dst) (Host.gather gather_S14x4096_S44x1_S44x4096_1_0_n_n_0_1_14096 (Host.divf (F := Ideal) (Host.scatterAdd (F := Ideal) scatter_S14x4096_S44x1_S44x4096_1_0_0_1 (broadcastInDim S14x4096 ![] bcast_S_S14x4096 (constant (F := Ideal) S_ .f32 0x00000000#32)) (broadcastInDim S44x1 ![0] bcast_S44_S44x1_0 dst) h) (broadcastInDim S14x4096 ![0, 1] bcast_S14x1_S14x4096_0_1 (broadcastInDim S14x1 ![0] bcast_S14_S14x1_0 (Host.scatterAdd (F := Ideal) scatter_S14_S44x1_S44_n_0_0_1 (broadcastInDim S14 ![] bcast_S_S14 (constant (F := Ideal) S_ .f32 0x00000000#32)) (broadcastInDim S44x1 ![0] bcast_S44_S44x1_0 dst) (broadcastInDim S44 ![] bcast_S_S44 (constant (F := Ideal) S_ .f32 0x3F800000#32)))))) (broadcastInDim S44x1 ![0] bcast_S44_S44x1_0 (select (cmpi .slt src (broadcastInDim S44 ![] bcast_S_S44 (constantI S_ 32 0#32))) (addi src (broadcastInDim S44 ![] bcast_S_S44 (constantI S_ 32 14#32))) src)))) (broadcastInDim S44x1 ![0] bcast_S44_S44x1_0 (select (cmpi .slt dst (broadcastInDim S44 ![] bcast_S_S44 (constantI S_ 32 0#32))) (addi dst (broadcastInDim S44 ![] bcast_S_S44 (constantI S_ 32 14#32))) dst)))) (broadcastInDim S44x4096 ![] bcast_S_S44x4096 (constant (F := Ideal) S_ .f32 0x3F000000#32)))

/-- The affine map of a hidden or output layer: `e · Wᵀ + b`, the bias broadcast along the rows. -/
def lin (e : (⟨S44x4096, .f32⟩ : BufTy).Contents (Elt Ideal)) (W : (⟨S4096x4096, .f32⟩ : BufTy).Contents (Elt Ideal)) (b : (⟨S4096, .f32⟩ : BufTy).Contents (Elt Ideal)) :
    (⟨S44x4096, .f32⟩ : BufTy).Contents (Elt Ideal) :=
  (addf (Host.dotGeneral (F := Ideal) (φ₁ := .f32) (φ₂ := .f32) dot_S44x4096_S4096x4096_S44x4096_1_0_0_1_n_n none e (transpose S4096x4096 [1, 0] W transposes_S4096x4096_S4096x4096_1_0 : (⟨S4096x4096, .f32⟩ : BufTy).Contents (Elt Ideal))) (broadcastInDim S44x4096 ![0, 1] bcast_S1x4096_S44x4096_0_1 (broadcastInDim S1x4096 ![1] bcast_S4096_S1x4096_1 b)))

/-- The affine map onto a single output column: `e · Wᵀ + b` with `W` one row of 4096 weights. -/
def lin1 (e : (⟨S44x4096, .f32⟩ : BufTy).Contents (Elt Ideal)) (W : (⟨S1x4096, .f32⟩ : BufTy).Contents (Elt Ideal)) (b : (⟨S1, .f32⟩ : BufTy).Contents (Elt Ideal)) :
    (⟨S44x1, .f32⟩ : BufTy).Contents (Elt Ideal) :=
  (addf (Host.dotGeneral (F := Ideal) (φ₁ := .f32) (φ₂ := .f32) dot_S44x4096_S4096x1_S44x1_1_0_0_1_n_n none e (transpose S4096x1 [1, 0] W transposes_S1x4096_S4096x1_1_0 : (⟨S4096x1, .f32⟩ : BufTy).Contents (Elt Ideal))) (broadcastInDim S44x1 ![0, 1] bcast_S1x1_S44x1_0_1 (broadcastInDim S1x1 ![1] bcast_S1_S1x1_1 b)))

/-- The leaky rectifier: `y` where `y ≥ 0`, else `0.01 · y` (the slope is the f32 nearest to 0.01). -/
def act (y : (⟨S44x4096, .f32⟩ : BufTy).Contents (Elt Ideal)) : (⟨S44x4096, .f32⟩ : BufTy).Contents (Elt Ideal) :=
  (select (cmpf .oge y (broadcastInDim S44x4096 ![] bcast_S_S44x4096 (constant (F := Ideal) S_ .f32 0x00000000#32))) y (mulf (broadcastInDim S44x4096 ![] bcast_S_S44x4096 (id (constant (F := Ideal) S_ .f32 0x3C23D70A#32))) y))

/-- The first result: three layers, the first two rectified. -/
def out0 (x : (⟨S44x4096, .f32⟩ : BufTy).Contents (Elt Ideal)) (src dst : (⟨S44, .i32⟩ : BufTy).Contents (Elt Ideal))
    (Wa1 : (⟨S4096x4096, .f32⟩ : BufTy).Contents (Elt Ideal)) (ba1 : (⟨S4096, .f32⟩ : BufTy).Contents (Elt Ideal))
    (Wa2 : (⟨S4096x4096, .f32⟩ : BufTy).Contents (Elt Ideal)) (ba2 : (⟨S4096, .f32⟩ : BufTy).Contents (Elt Ideal))
    (Wa5 : (⟨S4096x4096, .f32⟩ : BufTy).Contents (Elt Ideal)) (ba5 : (⟨S4096, .f32⟩ : BufTy).Contents (Elt Ideal)) :
    (⟨S44x4096, .f32⟩ : BufTy).Contents (Elt Ideal) :=
  lin (glue (act (lin (glue (act (lin (glue x src dst) Wa1 ba1)) src dst) Wa2 ba2)) src dst) Wa5 ba5

/-- The second result: three layers, the first two rectified, the last onto one column. -/
def out1 (x : (⟨S44x4096, .f32⟩ : BufTy).Contents (Elt Ideal)) (src dst : (⟨S44, .i32⟩ : BufTy).Contents (Elt Ideal))
    (Wv1 : (⟨S4096x4096, .f32⟩ : BufTy).Contents (Elt Ideal)) (bv1 : (⟨S4096, .f32⟩ : BufTy).Contents (Elt Ideal))
    (Wv2 : (⟨S4096x4096, .f32⟩ : BufTy).Contents (Elt Ideal)) (bv2 : (⟨S4096, .f32⟩ : BufTy).Contents (Elt Ideal))
    (Wv5 : (⟨S1x4096, .f32⟩ : BufTy).Contents (Elt Ideal)) (bv5 : (⟨S1, .f32⟩ : BufTy).Contents (Elt Ideal)) :
    (⟨S44x1, .f32⟩ : BufTy).Contents (Elt Ideal) :=
  lin1 (glue (act (lin (glue (act (lin (glue x src dst) Wv1 bv1)) src dst) Wv2 bv2)) src dst) Wv5 bv5

end Cert.Spec

end
-- ==== Proof.RefRunOps.lean ====
import proofs.«135243_j27986006901491_1_alg».proof.Proof.Gen.ReferenceIdeal
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Gen

/-! The reference program as one straight line of array operations.

The program's 326 statements, with the four calls of the rectifier replaced by the seven operations of its
body (the inner selection included), make 350 operations. They are listed here in eleven consecutive
stretches `c0 … c10`, cut both where the printed program is cut into windows and where one graph layer ends
and the next begins, so that a window is two stretches and a layer is one or two. -/

variable {F : FTy → Type} [FloatOps F]

/-- Operations 1 … 55 of the program, calls inlined. -/
abbrev c0 : List (HloOp τ sig (Elt F)) :=
  [ nullary main_cst (constant S_ .f32 0x3F800000#32),
    unary main_cst main_v0 (broadcastInDim S44 ![] bcast_S_S44 : (⟨S_, .f32⟩ : BufTy).Contents (Elt F) → (⟨S44, .f32⟩ : BufTy).Contents (Elt F)),
    nullary main_cst_0 (constant S_ .f32 0x00000000#32),
    unary main_cst_0 main_v1 (broadcastInDim S14 ![] bcast_S_S14 : (⟨S_, .f32⟩ : BufTy).Contents (Elt F) → (⟨S14, .f32⟩ : BufTy).Contents (Elt F)),
    unary main_arg2 main_v2 (broadcastInDim S44x1 ![0] bcast_S44_S44x1_0 : (⟨S44, .i32⟩ : BufTy).Contents (Elt F) → (⟨S44x1, .i32⟩ : BufTy).Contents (Elt F)),
    ternary main_v1 main_v2 main_v0 main_v3 ((fun x i u => Host.scatterAdd scatter_S14_S44x1_S44_n_0_0_1 x i u) : (⟨S14, .f32⟩ : BufTy).Contents (Elt F) → (⟨S44x1, .i32⟩ : BufTy).Contents (Elt F) → (⟨S44, .f32⟩ : BufTy).Contents (Elt F) → (⟨S14, .f32⟩ : BufTy).Contents (Elt F)),
    nullary main_cst_1 (constant S_ .f32 0x00000000#32),
    unary main_cst_1 main_v4 (broadcastInDim S14x4096 ![] bcast_S_S14x4096 : (⟨S_, .f32⟩ : BufTy).Contents (Elt F) → (⟨S14x4096, .f32⟩ : BufTy).Contents (Elt F)),
    unary main_arg2 main_v5 (broadcastInDim S44x1 ![0] bcast_S44_S44x1_0 : (⟨S44, .i32⟩ : BufTy).Contents (Elt F) → (⟨S44x1, .i32⟩ : BufTy).Contents (Elt F)),
    ternary main_v4 main_v5 main_arg0 main_v6 ((fun x i u => Host.scatterAdd scatter_S14x4096_S44x1_S44x4096_1_0_0_1 x i u) : (⟨S14x4096, .f32⟩ : BufTy).Contents (Elt F) → (⟨S44x1, .i32⟩ : BufTy).Contents (Elt F) → (⟨S44x4096, .f32⟩ : BufTy).Contents (Elt F) → (⟨S14x4096, .f32⟩ : BufTy).Contents (Elt F)),
    unary main_v3 main_v7 (broadcastInDim S14x1 ![0] bcast_S14_S14x1_0 : (⟨S14, .f32⟩ : BufTy).Contents (Elt F) → (⟨S14x1, .f32⟩ : BufTy).Contents (Elt F)),
    unary main_v7 main_v8 (broadcastInDim S14x4096 ![0, 1] bcast_S14x1_S14x4096_0_1 : (⟨S14x1, .f32⟩ : BufTy).Contents (Elt F) → (⟨S14x4096, .f32⟩ : BufTy).Contents (Elt F)),
    binary main_v6 main_v8 main_v9 (Host.divf : (⟨S14x4096, .f32⟩ : BufTy).Contents (Elt F) → (⟨S14x4096, .f32⟩ : BufTy).Contents (Elt F) → (⟨S14x4096, .f32⟩ : BufTy).Contents (Elt F)),
    nullary main_c (constantI S_ 32 0#32),
    unary main_c main_v10 (broadcastInDim S44 ![] bcast_S_S44 : (⟨S_, .i32⟩ : BufTy).Contents (Elt F) → (⟨S44, .i32⟩ : BufTy).Contents (Elt F)),
    binary main_arg1 main_v10 main_v11 (cmpi .slt : (⟨S44, .i32⟩ : BufTy).Contents (Elt F) → (⟨S44, .i32⟩ : BufTy).Contents (Elt F) → (⟨S44, .i1⟩ : BufTy).Contents (Elt F)),
    nullary main_c_2 (constantI S_ 32 14#32),
    unary main_c_2 main_v12 (broadcastInDim S44 ![] bcast_S_S44 : (⟨S_, .i32⟩ : BufTy).Contents (Elt F) → (⟨S44, .i32⟩ : BufTy).Contents (Elt F)),
    binary main_arg1 main_v12 main_v13 (addi : (⟨S44, .i32⟩ : BufTy).Contents (Elt F) → (⟨S44, .i32⟩ : BufTy).Contents (Elt F) → (⟨S44, .i32⟩ : BufTy).Contents (Elt F)),
    ternary main_v11 main_v13 main_arg1 main_v14 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v14 main_v15 (broadcastInDim S44x1 ![0] bcast_S44_S44x1_0 : (⟨S44, .i32⟩ : BufTy).Contents (Elt F) → (⟨S44x1, .i32⟩ : BufTy).Contents (Elt F)),
    binary main_v9 main_v15 main_v16 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    nullary main_cst_3 (constant S_ .f32 0x00000000#32),
    unary main_cst_3 main_v17 (broadcastInDim S14x4096 ![] bcast_S_S14x4096 : (⟨S_, .f32⟩ : BufTy).Contents (Elt F) → (⟨S14x4096, .f32⟩ : BufTy).Contents (Elt F)),
    unary main_arg2 main_v18 (broadcastInDim S44x1 ![0] bcast_S44_S44x1_0 : (⟨S44, .i32⟩ : BufTy).Contents (Elt F) → (⟨S44x1, .i32⟩ : BufTy).Contents (Elt F)),
    ternary main_v17 main_v18 main_v16 main_v19 ((fun x i u => Host.scatterAdd scatter_S14x4096_S44x1_S44x4096_1_0_0_1 x i u) : (⟨S14x4096, .f32⟩ : BufTy).Contents (Elt F) → (⟨S44x1, .i32⟩ : BufTy).Contents (Elt F) → (⟨S44x4096, .f32⟩ : BufTy).Contents (Elt F) → (⟨S14x4096, .f32⟩ : BufTy).Contents (Elt F)),
    nullary main_c_4 (constantI S_ 32 0#32),
    unary main_c_4 main_v20 (broadcastInDim S44 ![] bcast_S_S44 : (⟨S_, .i32⟩ : BufTy).Contents (Elt F) → (⟨S44, .i32⟩ : BufTy).Contents (Elt F)),
    binary main_arg1 main_v20 main_v21 (cmpi .slt : (⟨S44, .i32⟩ : BufTy).Contents (Elt F) → (⟨S44, .i32⟩ : BufTy).Contents (Elt F) → (⟨S44, .i1⟩ : BufTy).Contents (Elt F)),
    nullary main_c_5 (constantI S_ 32 14#32),
    unary main_c_5 main_v22 (broadcastInDim S44 ![] bcast_S_S44 : (⟨S_, .i32⟩ : BufTy).Contents (Elt F) → (⟨S44, .i32⟩ : BufTy).Contents (Elt F)),
    binary main_arg1 main_v22 main_v23 (addi : (⟨S44, .i32⟩ : BufTy).Contents (Elt F) → (⟨S44, .i32⟩ : BufTy).Contents (Elt F) → (⟨S44, .i32⟩ : BufTy).Contents (Elt F)),
    ternary main_v21 main_v23 main_arg1 main_v24 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v24 main_v25 (broadcastInDim S44x1 ![0] bcast_S44_S44x1_0 : (⟨S44, .i32⟩ : BufTy).Contents (Elt F) → (⟨S44x1, .i32⟩ : BufTy).Contents (Elt F)),
    binary main_v19 main_v25 main_v26 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    nullary main_c_6 (constantI S_ 32 0#32),
    unary main_c_6 main_v27 (broadcastInDim S44 ![] bcast_S_S44 : (⟨S_, .i32⟩ : BufTy).Contents (Elt F) → (⟨S44, .i32⟩ : BufTy).Contents (Elt F)),
    binary main_arg2 main_v27 main_v28 (cmpi .slt : (⟨S44, .i32⟩ : BufTy).Contents (Elt F) → (⟨S44, .i32⟩ : BufTy).Contents (Elt F) → (⟨S44, .i1⟩ : BufTy).Contents (Elt F)),
    nullary main_c_7 (constantI S_ 32 14#32),
    unary main_c_7 main_v29 (broadcastInDim S44 ![] bcast_S_S44 : (⟨S_, .i32⟩ : BufTy).Contents (Elt F) → (⟨S44, .i32⟩ : BufTy).Contents (Elt F)),
    binary main_arg2 main_v29 main_v30 (addi : (⟨S44, .i32⟩ : BufTy).Contents (Elt F) → (⟨S44, .i32⟩ : BufTy).Contents (Elt F) → (⟨S44, .i32⟩ : BufTy).Contents (Elt F)),
    ternary main_v28 main_v30 main_arg2 main_v31 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v31 main_v32 (broadcastInDim S44x1 ![0] bcast_S44_S44x1_0 : (⟨S44, .i32⟩ : BufTy).Contents (Elt F) → (⟨S44x1, .i32⟩ : BufTy).Contents (Elt F)),
    binary main_v19 main_v32 main_v33 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    binary main_v26 main_v33 main_v34 (addf : (⟨S44x4096, .f32⟩ : BufTy).Contents (Elt F) → (⟨S44x4096, .f32⟩ : BufTy).Contents (Elt F) → (⟨S44x4096, .f32⟩ : BufTy).Contents (Elt F)),
    nullary main_cst_8 (constant S_ .f32 0x3F000000#32),
    unary main_cst_8 main_v35 (broadcastInDim S44x4096 ![] bcast_S_S44x4096 : (⟨S_, .f32⟩ : BufTy).Contents (Elt F) → (⟨S44x4096, .f32⟩ : BufTy).Contents (Elt F)),
    binary main_v34 main_v35 main_v36 (mulf : (⟨S44x4096, .f32⟩ : BufTy).Contents (Elt F) → (⟨S44x4096, .f32⟩ : BufTy).Contents (Elt F) → (⟨S44x4096, .f32⟩ : BufTy).Contents (Elt F)),
    unary main_arg3 main_v37 ((transpose S4096x4096 [1, 0] · transposes_S4096x4096_S4096x4096_1_0) : (⟨S4096x4096, .f32⟩ : BufTy).Contents (Elt F) → (⟨S4096x4096, .f32⟩ : BufTy).Contents (Elt F)),
    binary main_v36 main_v37 main_v38 ((fun l r => Host.dotGeneral dot_S44x4096_S4096x4096_S44x4096_1_0_0_1_n_n none l r) : (⟨S44x4096, .f32⟩ : BufTy).Contents (Elt F) → (⟨S4096x4096, .f32⟩ : BufTy).Contents (Elt F) → (⟨S44x4096, .f32⟩ : BufTy).Contents (Elt F)),
    unary main_arg4 main_v39 (broadcastInDim S1x4096 ![1] bcast_S4096_S1x4096_1 : (⟨S4096, .f32⟩ : BufTy).Contents (Elt F) → (⟨S1x4096, .f32⟩ : BufTy).Contents (Elt F)),
    unary main_v39 main_v40 (broadcastInDim S44x4096 ![0, 1] bcast_S1x4096_S44x4096_0_1 : (⟨S1x4096, .f32⟩ : BufTy).Contents (Elt F) → (⟨S44x4096, .f32⟩ : BufTy).Contents (Elt F)),
    binary main_v38 main_v40 main_v41 (addf : (⟨S44x4096, .f32⟩ : BufTy).Contents (Elt F) → (⟨S44x4096, .f32⟩ : BufTy).Contents (Elt F) → (⟨S44x4096, .f32⟩ : BufTy).Contents (Elt F)),
    nullary main_cst_9 (constant S_ .f32 0x3C23D70A#32),
    TRef.nullary main_call0.cst (constant (F := F) S_ .f32 0x00000000#32),
    TRef.unary main_call0.cst main_call0.v0 (broadcastInDim S44x4096 ![] bcast_S_S44x4096),
    TRef.binary (.of main_v41 : TRef sig ⟨S44x4096, .f32⟩) main_call0.v0 main_call0.v1 (cmpf .oge),
    TRef.unary (.of main_cst_9 : TRef sig ⟨S_, .f32⟩) main_call0.v2 id,
    TRef.unary main_call0.v2 main_call0.v3 (broadcastInDim S44x4096 ![] bcast_S_S44x4096),
    TRef.binary main_call0.v3 (.of main_v41 : TRef sig ⟨S44x4096, .f32⟩) main_call0.v4 mulf,
    TRef.ternary main_call0.v1 (.of main_v41 : TRef sig ⟨S44x4096, .f32⟩) main_call0.v4 main_call0.call0.v0 select ]

/-- Operations 56 … 60 of the program, calls inlined. -/
abbrev c1 : List (HloOp τ sig (Elt F)) :=
  [ nullary main_cst_10 (constant S_ .f32 0x3F800000#32),
    unary main_cst_10 main_v43 (broadcastInDim S44 ![] bcast_S_S44 : (⟨S_, .f32⟩ : BufTy).Contents (Elt F) → (⟨S44, .f32⟩ : BufTy).Contents (Elt F)),
    nullary main_cst_11 (constant S_ .f32 0x00000000#32),
    unary main_cst_11 main_v44 (broadcastInDim S14 ![] bcast_S_S14 : (⟨S_, .f32⟩ : BufTy).Contents (Elt F) → (⟨S14, .f32⟩ : BufTy).Contents (Elt F)),
    unary main_arg2 main_v45 (broadcastInDim S44x1 ![0] bcast_S44_S44x1_0 : (⟨S44, .i32⟩ : BufTy).Contents (Elt F) → (⟨S44x1, .i32⟩ : BufTy).Contents (Elt F)) ]

/-- Operations 61 … 110 of the program, calls inlined. -/
abbrev c2 : List (HloOp τ sig (Elt F)) :=
  [ ternary main_v44 main_v45 main_v43 main_v46 ((fun x i u => Host.scatterAdd scatter_S14_S44x1_S44_n_0_0_1 x i u) : (⟨S14, .f32⟩ : BufTy).Contents (Elt F) → (⟨S44x1, .i32⟩ : BufTy).Contents (Elt F) → (⟨S44, .f32⟩ : BufTy).Contents (Elt F) → (⟨S14, .f32⟩ : BufTy).Contents (Elt F)),
    nullary main_cst_12 (constant S_ .f32 0x00000000#32),
    unary main_cst_12 main_v47 (broadcastInDim S14x4096 ![] bcast_S_S14x4096 : (⟨S_, .f32⟩ : BufTy).Contents (Elt F) → (⟨S14x4096, .f32⟩ : BufTy).Contents (Elt F)),
    unary main_arg2 main_v48 (broadcastInDim S44x1 ![0] bcast_S44_S44x1_0 : (⟨S44, .i32⟩ : BufTy).Contents (Elt F) → (⟨S44x1, .i32⟩ : BufTy).Contents (Elt F)),
    ternary main_v47 main_v48 main_v42 main_v49 ((fun x i u => Host.scatterAdd scatter_S14x4096_S44x1_S44x4096_1_0_0_1 x i u) : (⟨S14x4096, .f32⟩ : BufTy).Contents (Elt F) → (⟨S44x1, .i32⟩ : BufTy).Contents (Elt F) → (⟨S44x4096, .f32⟩ : BufTy).Contents (Elt F) → (⟨S14x4096, .f32⟩ : BufTy).Contents (Elt F)),
    unary main_v46 main_v50 (broadcastInDim S14x1 ![0] bcast_S14_S14x1_0 : (⟨S14, .f32⟩ : BufTy).Contents (Elt F) → (⟨S14x1, .f32⟩ : BufTy).Contents (Elt F)),
    unary main_v50 main_v51 (broadcastInDim S14x4096 ![0, 1] bcast_S14x1_S14x4096_0_1 : (⟨S14x1, .f32⟩ : BufTy).Contents (Elt F) → (⟨S14x4096, .f32⟩ : BufTy).Contents (Elt F)),
    binary main_v49 main_v51 main_v52 (Host.divf : (⟨S14x4096, .f32⟩ : BufTy).Contents (Elt F) → (⟨S14x4096, .f32⟩ : BufTy).Contents (Elt F) → (⟨S14x4096, .f32⟩ : BufTy).Contents (Elt F)),
    nullary main_c_13 (constantI S_ 32 0#32),
    unary main_c_13 main_v53 (broadcastInDim S44 ![] bcast_S_S44 : (⟨S_, .i32⟩ : BufTy).Contents (Elt F) → (⟨S44, .i32⟩ : BufTy).Contents (Elt F)),
    binary main_arg1 main_v53 main_v54 (cmpi .slt : (⟨S44, .i32⟩ : BufTy).Contents (Elt F) → (⟨S44, .i32⟩ : BufTy).Contents (Elt F) → (⟨S44, .i1⟩ : BufTy).Contents (Elt F)),
    nullary main_c_14 (constantI S_ 32 14#32),
    unary main_c_14 main_v55 (broadcastInDim S44 ![] bcast_S_S44 : (⟨S_, .i32⟩ : BufTy).Contents (Elt F) → (⟨S44, .i32⟩ : BufTy).Contents (Elt F)),
    binary main_arg1 main_v55 main_v56 (addi : (⟨S44, .i32⟩ : BufTy).Contents (Elt F) → (⟨S44, .i32⟩ : BufTy).Contents (Elt F) → (⟨S44, .i32⟩ : BufTy).Contents (Elt F)),
    ternary main_v54 main_v56 main_arg1 main_v57 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v57 main_v58 (broadcastInDim S44x1 ![0] bcast_S44_S44x1_0 : (⟨S44, .i32⟩ : BufTy).Contents (Elt F) → (⟨S44x1, .i32⟩ : BufTy).Contents (Elt F)),
    binary main_v52 main_v58 main_v59 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    nullary main_cst_15 (constant S_ .f32 0x00000000#32),
    unary main_cst_15 main_v60 (broadcastInDim S14x4096 ![] bcast_S_S14x4096 : (⟨S_, .f32⟩ : BufTy).Contents (Elt F) → (⟨S14x4096, .f32⟩ : BufTy).Contents (Elt F)),
    unary main_arg2 main_v61 (broadcastInDim S44x1 ![0] bcast_S44_S44x1_0 : (⟨S44, .i32⟩ : BufTy).Contents (Elt F) → (⟨S44x1, .i32⟩ : BufTy).Contents (Elt F)),
    ternary main_v60 main_v61 main_v59 main_v62 ((fun x i u => Host.scatterAdd scatter_S14x4096_S44x1_S44x4096_1_0_0_1 x i u) : (⟨S14x4096, .f32⟩ : BufTy).Contents (Elt F) → (⟨S44x1, .i32⟩ : BufTy).Contents (Elt F) → (⟨S44x4096, .f32⟩ : BufTy).Contents (Elt F) → (⟨S14x4096, .f32⟩ : BufTy).Contents (Elt F)),
    nullary main_c_16 (constantI S_ 32 0#32),
    unary main_c_16 main_v63 (broadcastInDim S44 ![] bcast_S_S44 : (⟨S_, .i32⟩ : BufTy).Contents (Elt F) → (⟨S44, .i32⟩ : BufTy).Contents (Elt F)),
    binary main_arg1 main_v63 main_v64 (cmpi .slt : (⟨S44, .i32⟩ : BufTy).Contents (Elt F) → (⟨S44, .i32⟩ : BufTy).Contents (Elt F) → (⟨S44, .i1⟩ : BufTy).Contents (Elt F)),
    nullary main_c_17 (constantI S_ 32 14#32),
    unary main_c_17 main_v65 (broadcastInDim S44 ![] bcast_S_S44 : (⟨S_, .i32⟩ : BufTy).Contents (Elt F) → (⟨S44, .i32⟩ : BufTy).Contents (Elt F)),
    binary main_arg1 main_v65 main_v66 (addi : (⟨S44, .i32⟩ : BufTy).Contents (Elt F) → (⟨S44, .i32⟩ : BufTy).Contents (Elt F) → (⟨S44, .i32⟩ : BufTy).Contents (Elt F)),
    ternary main_v64 main_v66 main_arg1 main_v67 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v67 main_v68 (broadcastInDim S44x1 ![0] bcast_S44_S44x1_0 : (⟨S44, .i32⟩ : BufTy).Contents (Elt F) → (⟨S44x1, .i32⟩ : BufTy).Contents (Elt F)),
    binary main_v62 main_v68 main_v69 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    nullary main_c_18 (constantI S_ 32 0#32),
    unary main_c_18 main_v70 (broadcastInDim S44 ![] bcast_S_S44 : (⟨S_, .i32⟩ : BufTy).Contents (Elt F) → (⟨S44, .i32⟩ : BufTy).Contents (Elt F)),
    binary main_arg2 main_v70 main_v71 (cmpi .slt : (⟨S44, .i32⟩ : BufTy).Contents (Elt F) → (⟨S44, .i32⟩ : BufTy).Contents (Elt F) → (⟨S44, .i1⟩ : BufTy).Contents (Elt F)),
    nullary main_c_19 (constantI S_ 32 14#32),
    unary main_c_19 main_v72 (broadcastInDim S44 ![] bcast_S_S44 : (⟨S_, .i32⟩ : BufTy).Contents (Elt F) → (⟨S44, .i32⟩ : BufTy).Contents (Elt F)),
    binary main_arg2 main_v72 main_v73 (addi : (⟨S44, .i32⟩ : BufTy).Contents (Elt F) → (⟨S44, .i32⟩ : BufTy).Contents (Elt F) → (⟨S44, .i32⟩ : BufTy).Contents (Elt F)),
    ternary main_v71 main_v73 main_arg2 main_v74 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v74 main_v75 (broadcastInDim S44x1 ![0] bcast_S44_S44x1_0 : (⟨S44, .i32⟩ : BufTy).Contents (Elt F) → (⟨S44x1, .i32⟩ : BufTy).Contents (Elt F)),
    binary main_v62 main_v75 main_v76 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    binary main_v69 main_v76 main_v77 (addf : (⟨S44x4096, .f32⟩ : BufTy).Contents (Elt F) → (⟨S44x4096, .f32⟩ : BufTy).Contents (Elt F) → (⟨S44x4096, .f32⟩ : BufTy).Contents (Elt F)),
    nullary main_cst_20 (constant S_ .f32 0x3F000000#32),
    unary main_cst_20 main_v78 (broadcastInDim S44x4096 ![] bcast_S_S44x4096 : (⟨S_, .f32⟩ : BufTy).Contents (Elt F) → (⟨S44x4096, .f32⟩ : BufTy).Contents (Elt F)),
    binary main_v77 main_v78 main_v79 (mulf : (⟨S44x4096, .f32⟩ : BufTy).Contents (Elt F) → (⟨S44x4096, .f32⟩ : BufTy).Contents (Elt F) → (⟨S44x4096, .f32⟩ : BufTy).Contents (Elt F)),
    unary main_arg5 main_v80 ((transpose S4096x4096 [1, 0] · transposes_S4096x4096_S4096x4096_1_0) : (⟨S4096x4096, .f32⟩ : BufTy).Contents (Elt F) → (⟨S4096x4096, .f32⟩ : BufTy).Contents (Elt F)),
    binary main_v79 main_v80 main_v81 ((fun l r => Host.dotGeneral dot_S44x4096_S4096x4096_S44x4096_1_0_0_1_n_n none l r) : (⟨S44x4096, .f32⟩ : BufTy).Contents (Elt F) → (⟨S4096x4096, .f32⟩ : BufTy).Contents (Elt F) → (⟨S44x4096, .f32⟩ : BufTy).Contents (Elt F)),
    unary main_arg6 main_v82 (broadcastInDim S1x4096 ![1] bcast_S4096_S1x4096_1 : (⟨S4096, .f32⟩ : BufTy).Contents (Elt F) → (⟨S1x4096, .f32⟩ : BufTy).Contents (Elt F)),
    unary main_v82 main_v83 (broadcastInDim S44x4096 ![0, 1] bcast_S1x4096_S44x4096_0_1 : (⟨S1x4096, .f32⟩ : BufTy).Contents (Elt F) → (⟨S44x4096, .f32⟩ : BufTy).Contents (Elt F)),
    binary main_v81 main_v83 main_v84 (addf : (⟨S44x4096, .f32⟩ : BufTy).Contents (Elt F) → (⟨S44x4096, .f32⟩ : BufTy).Contents (Elt F) → (⟨S44x4096, .f32⟩ : BufTy).Contents (Elt F)),
    nullary main_cst_21 (constant S_ .f32 0x3C23D70A#32),
    TRef.nullary main_call1.cst (constant (F := F) S_ .f32 0x00000000#32),
    TRef.unary main_call1.cst main_call1.v0 (broadcastInDim S44x4096 ![] bcast_S_S44x4096),
    TRef.binary (.of main_v84 : TRef sig ⟨S44x4096, .f32⟩) main_call1.v0 main_call1.v1 (cmpf .oge),
    TRef.unary (.of main_cst_21 : TRef sig ⟨S_, .f32⟩) main_call1.v2 id,
    TRef.unary main_call1.v2 main_call1.v3 (broadcastInDim S44x4096 ![] bcast_S_S44x4096),
    TRef.binary main_call1.v3 (.of main_v84 : TRef sig ⟨S44x4096, .f32⟩) main_call1.v4 mulf,
    TRef.ternary main_call1.v1 (.of main_v84 : TRef sig ⟨S44x4096, .f32⟩) main_call1.v4 main_call1.call0.v0 select ]

/-- Operations 111 … 120 of the program, calls inlined. -/
abbrev c3 : List (HloOp τ sig (Elt F)) :=
  [ nullary main_cst_22 (constant S_ .f32 0x3F800000#32),
    unary main_cst_22 main_v86 (broadcastInDim S44 ![] bcast_S_S44 : (⟨S_, .f32⟩ : BufTy).Contents (Elt F) → (⟨S44, .f32⟩ : BufTy).Contents (Elt F)),
    nullary main_cst_23 (constant S_ .f32 0x00000000#32),
    unary main_cst_23 main_v87 (broadcastInDim S14 ![] bcast_S_S14 : (⟨S_, .f32⟩ : BufTy).Contents (Elt F) → (⟨S14, .f32⟩ : BufTy).Contents (Elt F)),
    unary main_arg2 main_v88 (broadcastInDim S44x1 ![0] bcast_S44_S44x1_0 : (⟨S44, .i32⟩ : BufTy).Contents (Elt F) → (⟨S44x1, .i32⟩ : BufTy).Contents (Elt F)),
    ternary main_v87 main_v88 main_v86 main_v89 ((fun x i u => Host.scatterAdd scatter_S14_S44x1_S44_n_0_0_1 x i u) : (⟨S14, .f32⟩ : BufTy).Contents (Elt F) → (⟨S44x1, .i32⟩ : BufTy).Contents (Elt F) → (⟨S44, .f32⟩ : BufTy).Contents (Elt F) → (⟨S14, .f32⟩ : BufTy).Contents (Elt F)),
    nullary main_cst_24 (constant S_ .f32 0x00000000#32),
    unary main_cst_24 main_v90 (broadcastInDim S14x4096 ![] bcast_S_S14x4096 : (⟨S_, .f32⟩ : BufTy).Contents (Elt F) → (⟨S14x4096, .f32⟩ : BufTy).Contents (Elt F)),
    unary main_arg2 main_v91 (broadcastInDim S44x1 ![0] bcast_S44_S44x1_0 : (⟨S44, .i32⟩ : BufTy).Contents (Elt F) → (⟨S44x1, .i32⟩ : BufTy).Contents (Elt F)),
    ternary main_v90 main_v91 main_v85 main_v92 ((fun x i u => Host.scatterAdd scatter_S14x4096_S44x1_S44x4096_1_0_0_1 x i u) : (⟨S14x4096, .f32⟩ : BufTy).Contents (Elt F) → (⟨S44x1, .i32⟩ : BufTy).Contents (Elt F) → (⟨S44x4096, .f32⟩ : BufTy).Contents (Elt F) → (⟨S14x4096, .f32⟩ : BufTy).Contents (Elt F)) ]

/-- Operations 121 … 163 of the program, calls inlined. -/
abbrev c4 : List (HloOp τ sig (Elt F)) :=
  [ unary main_v89 main_v93 (broadcastInDim S14x1 ![0] bcast_S14_S14x1_0 : (⟨S14, .f32⟩ : BufTy).Contents (Elt F) → (⟨S14x1, .f32⟩ : BufTy).Contents (Elt F)),
    unary main_v93 main_v94 (broadcastInDim S14x4096 ![0, 1] bcast_S14x1_S14x4096_0_1 : (⟨S14x1, .f32⟩ : BufTy).Contents (Elt F) → (⟨S14x4096, .f32⟩ : BufTy).Contents (Elt F)),
    binary main_v92 main_v94 main_v95 (Host.divf : (⟨S14x4096, .f32⟩ : BufTy).Contents (Elt F) → (⟨S14x4096, .f32⟩ : BufTy).Contents (Elt F) → (⟨S14x4096, .f32⟩ : BufTy).Contents (Elt F)),
    nullary main_c_25 (constantI S_ 32 0#32),
    unary main_c_25 main_v96 (broadcastInDim S44 ![] bcast_S_S44 : (⟨S_, .i32⟩ : BufTy).Contents (Elt F) → (⟨S44, .i32⟩ : BufTy).Contents (Elt F)),
    binary main_arg1 main_v96 main_v97 (cmpi .slt : (⟨S44, .i32⟩ : BufTy).Contents (Elt F) → (⟨S44, .i32⟩ : BufTy).Contents (Elt F) → (⟨S44, .i1⟩ : BufTy).Contents (Elt F)),
    nullary main_c_26 (constantI S_ 32 14#32),
    unary main_c_26 main_v98 (broadcastInDim S44 ![] bcast_S_S44 : (⟨S_, .i32⟩ : BufTy).Contents (Elt F) → (⟨S44, .i32⟩ : BufTy).Contents (Elt F)),
    binary main_arg1 main_v98 main_v99 (addi : (⟨S44, .i32⟩ : BufTy).Contents (Elt F) → (⟨S44, .i32⟩ : BufTy).Contents (Elt F) → (⟨S44, .i32⟩ : BufTy).Contents (Elt F)),
    ternary main_v97 main_v99 main_arg1 main_v100 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v100 main_v101 (broadcastInDim S44x1 ![0] bcast_S44_S44x1_0 : (⟨S44, .i32⟩ : BufTy).Contents (Elt F) → (⟨S44x1, .i32⟩ : BufTy).Contents (Elt F)),
    binary main_v95 main_v101 main_v102 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    nullary main_cst_27 (constant S_ .f32 0x00000000#32),
    unary main_cst_27 main_v103 (broadcastInDim S14x4096 ![] bcast_S_S14x4096 : (⟨S_, .f32⟩ : BufTy).Contents (Elt F) → (⟨S14x4096, .f32⟩ : BufTy).Contents (Elt F)),
    unary main_arg2 main_v104 (broadcastInDim S44x1 ![0] bcast_S44_S44x1_0 : (⟨S44, .i32⟩ : BufTy).Contents (Elt F) → (⟨S44x1, .i32⟩ : BufTy).Contents (Elt F)),
    ternary main_v103 main_v104 main_v102 main_v105 ((fun x i u => Host.scatterAdd scatter_S14x4096_S44x1_S44x4096_1_0_0_1 x i u) : (⟨S14x4096, .f32⟩ : BufTy).Contents (Elt F) → (⟨S44x1, .i32⟩ : BufTy).Contents (Elt F) → (⟨S44x4096, .f32⟩ : BufTy).Contents (Elt F) → (⟨S14x4096, .f32⟩ : BufTy).Contents (Elt F)),
    nullary main_c_28 (constantI S_ 32 0#32),
    unary main_c_28 main_v106 (broadcastInDim S44 ![] bcast_S_S44 : (⟨S_, .i32⟩ : BufTy).Contents (Elt F) → (⟨S44, .i32⟩ : BufTy).Contents (Elt F)),
    binary main_arg1 main_v106 main_v107 (cmpi .slt : (⟨S44, .i32⟩ : BufTy).Contents (Elt F) → (⟨S44, .i32⟩ : BufTy).Contents (Elt F) → (⟨S44, .i1⟩ : BufTy).Contents (Elt F)),
    nullary main_c_29 (constantI S_ 32 14#32),
    unary main_c_29 main_v108 (broadcastInDim S44 ![] bcast_S_S44 : (⟨S_, .i32⟩ : BufTy).Contents (Elt F) → (⟨S44, .i32⟩ : BufTy).Contents (Elt F)),
    binary main_arg1 main_v108 main_v109 (addi : (⟨S44, .i32⟩ : BufTy).Contents (Elt F) → (⟨S44, .i32⟩ : BufTy).Contents (Elt F) → (⟨S44, .i32⟩ : BufTy).Contents (Elt F)),
    ternary main_v107 main_v109 main_arg1 main_v110 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v110 main_v111 (broadcastInDim S44x1 ![0] bcast_S44_S44x1_0 : (⟨S44, .i32⟩ : BufTy).Contents (Elt F) → (⟨S44x1, .i32⟩ : BufTy).Contents (Elt F)),
    binary main_v105 main_v111 main_v112 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    nullary main_c_30 (constantI S_ 32 0#32),
    unary main_c_30 main_v113 (broadcastInDim S44 ![] bcast_S_S44 : (⟨S_, .i32⟩ : BufTy).Contents (Elt F) → (⟨S44, .i32⟩ : BufTy).Contents (Elt F)),
    binary main_arg2 main_v113 main_v114 (cmpi .slt : (⟨S44, .i32⟩ : BufTy).Contents (Elt F) → (⟨S44, .i32⟩ : BufTy).Contents (Elt F) → (⟨S44, .i1⟩ : BufTy).Contents (Elt F)),
    nullary main_c_31 (constantI S_ 32 14#32),
    unary main_c_31 main_v115 (broadcastInDim S44 ![] bcast_S_S44 : (⟨S_, .i32⟩ : BufTy).Contents (Elt F) → (⟨S44, .i32⟩ : BufTy).Contents (Elt F)),
    binary main_arg2 main_v115 main_v116 (addi : (⟨S44, .i32⟩ : BufTy).Contents (Elt F) → (⟨S44, .i32⟩ : BufTy).Contents (Elt F) → (⟨S44, .i32⟩ : BufTy).Contents (Elt F)),
    ternary main_v114 main_v116 main_arg2 main_v117 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v117 main_v118 (broadcastInDim S44x1 ![0] bcast_S44_S44x1_0 : (⟨S44, .i32⟩ : BufTy).Contents (Elt F) → (⟨S44x1, .i32⟩ : BufTy).Contents (Elt F)),
    binary main_v105 main_v118 main_v119 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    binary main_v112 main_v119 main_v120 (addf : (⟨S44x4096, .f32⟩ : BufTy).Contents (Elt F) → (⟨S44x4096, .f32⟩ : BufTy).Contents (Elt F) → (⟨S44x4096, .f32⟩ : BufTy).Contents (Elt F)),
    nullary main_cst_32 (constant S_ .f32 0x3F000000#32),
    unary main_cst_32 main_v121 (broadcastInDim S44x4096 ![] bcast_S_S44x4096 : (⟨S_, .f32⟩ : BufTy).Contents (Elt F) → (⟨S44x4096, .f32⟩ : BufTy).Contents (Elt F)),
    binary main_v120 main_v121 main_v122 (mulf : (⟨S44x4096, .f32⟩ : BufTy).Contents (Elt F) → (⟨S44x4096, .f32⟩ : BufTy).Contents (Elt F) → (⟨S44x4096, .f32⟩ : BufTy).Contents (Elt F)),
    unary main_arg7 main_v123 ((transpose S4096x4096 [1, 0] · transposes_S4096x4096_S4096x4096_1_0) : (⟨S4096x4096, .f32⟩ : BufTy).Contents (Elt F) → (⟨S4096x4096, .f32⟩ : BufTy).Contents (Elt F)),
    binary main_v122 main_v123 main_v124 ((fun l r => Host.dotGeneral dot_S44x4096_S4096x4096_S44x4096_1_0_0_1_n_n none l r) : (⟨S44x4096, .f32⟩ : BufTy).Contents (Elt F) → (⟨S4096x4096, .f32⟩ : BufTy).Contents (Elt F) → (⟨S44x4096, .f32⟩ : BufTy).Contents (Elt F)),
    unary main_arg8 main_v125 (broadcastInDim S1x4096 ![1] bcast_S4096_S1x4096_1 : (⟨S4096, .f32⟩ : BufTy).Contents (Elt F) → (⟨S1x4096, .f32⟩ : BufTy).Contents (Elt F)),
    unary main_v125 main_v126 (broadcastInDim S44x4096 ![0, 1] bcast_S1x4096_S44x4096_0_1 : (⟨S1x4096, .f32⟩ : BufTy).Contents (Elt F) → (⟨S44x4096, .f32⟩ : BufTy).Contents (Elt F)),
    binary main_v124 main_v126 main_v127 (addf : (⟨S44x4096, .f32⟩ : BufTy).Contents (Elt F) → (⟨S44x4096, .f32⟩ : BufTy).Contents (Elt F) → (⟨S44x4096, .f32⟩ : BufTy).Contents (Elt F)) ]

/-- Operations 164 … 180 of the program, calls inlined. -/
abbrev c5 : List (HloOp τ sig (Elt F)) :=
  [ nullary main_cst_33 (constant S_ .f32 0x3F800000#32),
    unary main_cst_33 main_v128 (broadcastInDim S44 ![] bcast_S_S44 : (⟨S_, .f32⟩ : BufTy).Contents (Elt F) → (⟨S44, .f32⟩ : BufTy).Contents (Elt F)),
    nullary main_cst_34 (constant S_ .f32 0x00000000#32),
    unary main_cst_34 main_v129 (broadcastInDim S14 ![] bcast_S_S14 : (⟨S_, .f32⟩ : BufTy).Contents (Elt F) → (⟨S14, .f32⟩ : BufTy).Contents (Elt F)),
    unary main_arg2 main_v130 (broadcastInDim S44x1 ![0] bcast_S44_S44x1_0 : (⟨S44, .i32⟩ : BufTy).Contents (Elt F) → (⟨S44x1, .i32⟩ : BufTy).Contents (Elt F)),
    ternary main_v129 main_v130 main_v128 main_v131 ((fun x i u => Host.scatterAdd scatter_S14_S44x1_S44_n_0_0_1 x i u) : (⟨S14, .f32⟩ : BufTy).Contents (Elt F) → (⟨S44x1, .i32⟩ : BufTy).Contents (Elt F) → (⟨S44, .f32⟩ : BufTy).Contents (Elt F) → (⟨S14, .f32⟩ : BufTy).Contents (Elt F)),
    nullary main_cst_35 (constant S_ .f32 0x00000000#32),
    unary main_cst_35 main_v132 (broadcastInDim S14x4096 ![] bcast_S_S14x4096 : (⟨S_, .f32⟩ : BufTy).Contents (Elt F) → (⟨S14x4096, .f32⟩ : BufTy).Contents (Elt F)),
    unary main_arg2 main_v133 (broadcastInDim S44x1 ![0] bcast_S44_S44x1_0 : (⟨S44, .i32⟩ : BufTy).Contents (Elt F) → (⟨S44x1, .i32⟩ : BufTy).Contents (Elt F)),
    ternary main_v132 main_v133 main_arg0 main_v134 ((fun x i u => Host.scatterAdd scatter_S14x4096_S44x1_S44x4096_1_0_0_1 x i u) : (⟨S14x4096, .f32⟩ : BufTy).Contents (Elt F) → (⟨S44x1, .i32⟩ : BufTy).Contents (Elt F) → (⟨S44x4096, .f32⟩ : BufTy).Contents (Elt F) → (⟨S14x4096, .f32⟩ : BufTy).Contents (Elt F)),
    unary main_v131 main_v135 (broadcastInDim S14x1 ![0] bcast_S14_S14x1_0 : (⟨S14, .f32⟩ : BufTy).Contents (Elt F) → (⟨S14x1, .f32⟩ : BufTy).Contents (Elt F)),
    unary main_v135 main_v136 (broadcastInDim S14x4096 ![0, 1] bcast_S14x1_S14x4096_0_1 : (⟨S14x1, .f32⟩ : BufTy).Contents (Elt F) → (⟨S14x4096, .f32⟩ : BufTy).Contents (Elt F)),
    binary main_v134 main_v136 main_v137 (Host.divf : (⟨S14x4096, .f32⟩ : BufTy).Contents (Elt F) → (⟨S14x4096, .f32⟩ : BufTy).Contents (Elt F) → (⟨S14x4096, .f32⟩ : BufTy).Contents (Elt F)),
    nullary main_c_36 (constantI S_ 32 0#32),
    unary main_c_36 main_v138 (broadcastInDim S44 ![] bcast_S_S44 : (⟨S_, .i32⟩ : BufTy).Contents (Elt F) → (⟨S44, .i32⟩ : BufTy).Contents (Elt F)),
    binary main_arg1 main_v138 main_v139 (cmpi .slt : (⟨S44, .i32⟩ : BufTy).Contents (Elt F) → (⟨S44, .i32⟩ : BufTy).Contents (Elt F) → (⟨S44, .i1⟩ : BufTy).Contents (Elt F)),
    nullary main_c_37 (constantI S_ 32 14#32) ]

/-- Operations 181 … 218 of the program, calls inlined. -/
abbrev c6 : List (HloOp τ sig (Elt F)) :=
  [ unary main_c_37 main_v140 (broadcastInDim S44 ![] bcast_S_S44 : (⟨S_, .i32⟩ : BufTy).Contents (Elt F) → (⟨S44, .i32⟩ : BufTy).Contents (Elt F)),
    binary main_arg1 main_v140 main_v141 (addi : (⟨S44, .i32⟩ : BufTy).Contents (Elt F) → (⟨S44, .i32⟩ : BufTy).Contents (Elt F) → (⟨S44, .i32⟩ : BufTy).Contents (Elt F)),
    ternary main_v139 main_v141 main_arg1 main_v142 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v142 main_v143 (broadcastInDim S44x1 ![0] bcast_S44_S44x1_0 : (⟨S44, .i32⟩ : BufTy).Contents (Elt F) → (⟨S44x1, .i32⟩ : BufTy).Contents (Elt F)),
    binary main_v137 main_v143 main_v144 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    nullary main_cst_38 (constant S_ .f32 0x00000000#32),
    unary main_cst_38 main_v145 (broadcastInDim S14x4096 ![] bcast_S_S14x4096 : (⟨S_, .f32⟩ : BufTy).Contents (Elt F) → (⟨S14x4096, .f32⟩ : BufTy).Contents (Elt F)),
    unary main_arg2 main_v146 (broadcastInDim S44x1 ![0] bcast_S44_S44x1_0 : (⟨S44, .i32⟩ : BufTy).Contents (Elt F) → (⟨S44x1, .i32⟩ : BufTy).Contents (Elt F)),
    ternary main_v145 main_v146 main_v144 main_v147 ((fun x i u => Host.scatterAdd scatter_S14x4096_S44x1_S44x4096_1_0_0_1 x i u) : (⟨S14x4096, .f32⟩ : BufTy).Contents (Elt F) → (⟨S44x1, .i32⟩ : BufTy).Contents (Elt F) → (⟨S44x4096, .f32⟩ : BufTy).Contents (Elt F) → (⟨S14x4096, .f32⟩ : BufTy).Contents (Elt F)),
    nullary main_c_39 (constantI S_ 32 0#32),
    unary main_c_39 main_v148 (broadcastInDim S44 ![] bcast_S_S44 : (⟨S_, .i32⟩ : BufTy).Contents (Elt F) → (⟨S44, .i32⟩ : BufTy).Contents (Elt F)),
    binary main_arg1 main_v148 main_v149 (cmpi .slt : (⟨S44, .i32⟩ : BufTy).Contents (Elt F) → (⟨S44, .i32⟩ : BufTy).Contents (Elt F) → (⟨S44, .i1⟩ : BufTy).Contents (Elt F)),
    nullary main_c_40 (constantI S_ 32 14#32),
    unary main_c_40 main_v150 (broadcastInDim S44 ![] bcast_S_S44 : (⟨S_, .i32⟩ : BufTy).Contents (Elt F) → (⟨S44, .i32⟩ : BufTy).Contents (Elt F)),
    binary main_arg1 main_v150 main_v151 (addi : (⟨S44, .i32⟩ : BufTy).Contents (Elt F) → (⟨S44, .i32⟩ : BufTy).Contents (Elt F) → (⟨S44, .i32⟩ : BufTy).Contents (Elt F)),
    ternary main_v149 main_v151 main_arg1 main_v152 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v152 main_v153 (broadcastInDim S44x1 ![0] bcast_S44_S44x1_0 : (⟨S44, .i32⟩ : BufTy).Contents (Elt F) → (⟨S44x1, .i32⟩ : BufTy).Contents (Elt F)),
    binary main_v147 main_v153 main_v154 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    nullary main_c_41 (constantI S_ 32 0#32),
    unary main_c_41 main_v155 (broadcastInDim S44 ![] bcast_S_S44 : (⟨S_, .i32⟩ : BufTy).Contents (Elt F) → (⟨S44, .i32⟩ : BufTy).Contents (Elt F)),
    binary main_arg2 main_v155 main_v156 (cmpi .slt : (⟨S44, .i32⟩ : BufTy).Contents (Elt F) → (⟨S44, .i32⟩ : BufTy).Contents (Elt F) → (⟨S44, .i1⟩ : BufTy).Contents (Elt F)),
    nullary main_c_42 (constantI S_ 32 14#32),
    unary main_c_42 main_v157 (broadcastInDim S44 ![] bcast_S_S44 : (⟨S_, .i32⟩ : BufTy).Contents (Elt F) → (⟨S44, .i32⟩ : BufTy).Contents (Elt F)),
    binary main_arg2 main_v157 main_v158 (addi : (⟨S44, .i32⟩ : BufTy).Contents (Elt F) → (⟨S44, .i32⟩ : BufTy).Contents (Elt F) → (⟨S44, .i32⟩ : BufTy).Contents (Elt F)),
    ternary main_v156 main_v158 main_arg2 main_v159 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v159 main_v160 (broadcastInDim S44x1 ![0] bcast_S44_S44x1_0 : (⟨S44, .i32⟩ : BufTy).Contents (Elt F) → (⟨S44x1, .i32⟩ : BufTy).Contents (Elt F)),
    binary main_v147 main_v160 main_v161 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    binary main_v154 main_v161 main_v162 (addf : (⟨S44x4096, .f32⟩ : BufTy).Contents (Elt F) → (⟨S44x4096, .f32⟩ : BufTy).Contents (Elt F) → (⟨S44x4096, .f32⟩ : BufTy).Contents (Elt F)),
    nullary main_cst_43 (constant S_ .f32 0x3F000000#32),
    unary main_cst_43 main_v163 (broadcastInDim S44x4096 ![] bcast_S_S44x4096 : (⟨S_, .f32⟩ : BufTy).Contents (Elt F) → (⟨S44x4096, .f32⟩ : BufTy).Contents (Elt F)),
    binary main_v162 main_v163 main_v164 (mulf : (⟨S44x4096, .f32⟩ : BufTy).Contents (Elt F) → (⟨S44x4096, .f32⟩ : BufTy).Contents (Elt F) → (⟨S44x4096, .f32⟩ : BufTy).Contents (Elt F)),
    unary main_arg9 main_v165 ((transpose S4096x4096 [1, 0] · transposes_S4096x4096_S4096x4096_1_0) : (⟨S4096x4096, .f32⟩ : BufTy).Contents (Elt F) → (⟨S4096x4096, .f32⟩ : BufTy).Contents (Elt F)),
    binary main_v164 main_v165 main_v166 ((fun l r => Host.dotGeneral dot_S44x4096_S4096x4096_S44x4096_1_0_0_1_n_n none l r) : (⟨S44x4096, .f32⟩ : BufTy).Contents (Elt F) → (⟨S4096x4096, .f32⟩ : BufTy).Contents (Elt F) → (⟨S44x4096, .f32⟩ : BufTy).Contents (Elt F)),
    unary main_arg10 main_v167 (broadcastInDim S1x4096 ![1] bcast_S4096_S1x4096_1 : (⟨S4096, .f32⟩ : BufTy).Contents (Elt F) → (⟨S1x4096, .f32⟩ : BufTy).Contents (Elt F)),
    unary main_v167 main_v168 (broadcastInDim S44x4096 ![0, 1] bcast_S1x4096_S44x4096_0_1 : (⟨S1x4096, .f32⟩ : BufTy).Contents (Elt F) → (⟨S44x4096, .f32⟩ : BufTy).Contents (Elt F)),
    binary main_v166 main_v168 main_v169 (addf : (⟨S44x4096, .f32⟩ : BufTy).Contents (Elt F) → (⟨S44x4096, .f32⟩ : BufTy).Contents (Elt F) → (⟨S44x4096, .f32⟩ : BufTy).Contents (Elt F)),
    nullary main_cst_44 (constant S_ .f32 0x3C23D70A#32),
    TRef.nullary main_call2.cst (constant (F := F) S_ .f32 0x00000000#32),
    TRef.unary main_call2.cst main_call2.v0 (broadcastInDim S44x4096 ![] bcast_S_S44x4096),
    TRef.binary (.of main_v169 : TRef sig ⟨S44x4096, .f32⟩) main_call2.v0 main_call2.v1 (cmpf .oge),
    TRef.unary (.of main_cst_44 : TRef sig ⟨S_, .f32⟩) main_call2.v2 id,
    TRef.unary main_call2.v2 main_call2.v3 (broadcastInDim S44x4096 ![] bcast_S_S44x4096),
    TRef.binary main_call2.v3 (.of main_v169 : TRef sig ⟨S44x4096, .f32⟩) main_call2.v4 mulf,
    TRef.ternary main_call2.v1 (.of main_v169 : TRef sig ⟨S44x4096, .f32⟩) main_call2.v4 main_call2.call0.v0 select ]

/-- Operations 219 … 240 of the program, calls inlined. -/
abbrev c7 : List (HloOp τ sig (Elt F)) :=
  [ nullary main_cst_45 (constant S_ .f32 0x3F800000#32),
    unary main_cst_45 main_v171 (broadcastInDim S44 ![] bcast_S_S44 : (⟨S_, .f32⟩ : BufTy).Contents (Elt F) → (⟨S44, .f32⟩ : BufTy).Contents (Elt F)),
    nullary main_cst_46 (constant S_ .f32 0x00000000#32),
    unary main_cst_46 main_v172 (broadcastInDim S14 ![] bcast_S_S14 : (⟨S_, .f32⟩ : BufTy).Contents (Elt F) → (⟨S14, .f32⟩ : BufTy).Contents (Elt F)),
    unary main_arg2 main_v173 (broadcastInDim S44x1 ![0] bcast_S44_S44x1_0 : (⟨S44, .i32⟩ : BufTy).Contents (Elt F) → (⟨S44x1, .i32⟩ : BufTy).Contents (Elt F)),
    ternary main_v172 main_v173 main_v171 main_v174 ((fun x i u => Host.scatterAdd scatter_S14_S44x1_S44_n_0_0_1 x i u) : (⟨S14, .f32⟩ : BufTy).Contents (Elt F) → (⟨S44x1, .i32⟩ : BufTy).Contents (Elt F) → (⟨S44, .f32⟩ : BufTy).Contents (Elt F) → (⟨S14, .f32⟩ : BufTy).Contents (Elt F)),
    nullary main_cst_47 (constant S_ .f32 0x00000000#32),
    unary main_cst_47 main_v175 (broadcastInDim S14x4096 ![] bcast_S_S14x4096 : (⟨S_, .f32⟩ : BufTy).Contents (Elt F) → (⟨S14x4096, .f32⟩ : BufTy).Contents (Elt F)),
    unary main_arg2 main_v176 (broadcastInDim S44x1 ![0] bcast_S44_S44x1_0 : (⟨S44, .i32⟩ : BufTy).Contents (Elt F) → (⟨S44x1, .i32⟩ : BufTy).Contents (Elt F)),
    ternary main_v175 main_v176 main_v170 main_v177 ((fun x i u => Host.scatterAdd scatter_S14x4096_S44x1_S44x4096_1_0_0_1 x i u) : (⟨S14x4096, .f32⟩ : BufTy).Contents (Elt F) → (⟨S44x1, .i32⟩ : BufTy).Contents (Elt F) → (⟨S44x4096, .f32⟩ : BufTy).Contents (Elt F) → (⟨S14x4096, .f32⟩ : BufTy).Contents (Elt F)),
    unary main_v174 main_v178 (broadcastInDim S14x1 ![0] bcast_S14_S14x1_0 : (⟨S14, .f32⟩ : BufTy).Contents (Elt F) → (⟨S14x1, .f32⟩ : BufTy).Contents (Elt F)),
    unary main_v178 main_v179 (broadcastInDim S14x4096 ![0, 1] bcast_S14x1_S14x4096_0_1 : (⟨S14x1, .f32⟩ : BufTy).Contents (Elt F) → (⟨S14x4096, .f32⟩ : BufTy).Contents (Elt F)),
    binary main_v177 main_v179 main_v180 (Host.divf : (⟨S14x4096, .f32⟩ : BufTy).Contents (Elt F) → (⟨S14x4096, .f32⟩ : BufTy).Contents (Elt F) → (⟨S14x4096, .f32⟩ : BufTy).Contents (Elt F)),
    nullary main_c_48 (constantI S_ 32 0#32),
    unary main_c_48 main_v181 (broadcastInDim S44 ![] bcast_S_S44 : (⟨S_, .i32⟩ : BufTy).Contents (Elt F) → (⟨S44, .i32⟩ : BufTy).Contents (Elt F)),
    binary main_arg1 main_v181 main_v182 (cmpi .slt : (⟨S44, .i32⟩ : BufTy).Contents (Elt F) → (⟨S44, .i32⟩ : BufTy).Contents (Elt F) → (⟨S44, .i1⟩ : BufTy).Contents (Elt F)),
    nullary main_c_49 (constantI S_ 32 14#32),
    unary main_c_49 main_v183 (broadcastInDim S44 ![] bcast_S_S44 : (⟨S_, .i32⟩ : BufTy).Contents (Elt F) → (⟨S44, .i32⟩ : BufTy).Contents (Elt F)),
    binary main_arg1 main_v183 main_v184 (addi : (⟨S44, .i32⟩ : BufTy).Contents (Elt F) → (⟨S44, .i32⟩ : BufTy).Contents (Elt F) → (⟨S44, .i32⟩ : BufTy).Contents (Elt F)),
    ternary main_v182 main_v184 main_arg1 main_v185 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v185 main_v186 (broadcastInDim S44x1 ![0] bcast_S44_S44x1_0 : (⟨S44, .i32⟩ : BufTy).Contents (Elt F) → (⟨S44x1, .i32⟩ : BufTy).Contents (Elt F)),
    binary main_v180 main_v186 main_v187 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)) ]

/-- Operations 241 … 273 of the program, calls inlined. -/
abbrev c8 : List (HloOp τ sig (Elt F)) :=
  [ nullary main_cst_50 (constant S_ .f32 0x00000000#32),
    unary main_cst_50 main_v188 (broadcastInDim S14x4096 ![] bcast_S_S14x4096 : (⟨S_, .f32⟩ : BufTy).Contents (Elt F) → (⟨S14x4096, .f32⟩ : BufTy).Contents (Elt F)),
    unary main_arg2 main_v189 (broadcastInDim S44x1 ![0] bcast_S44_S44x1_0 : (⟨S44, .i32⟩ : BufTy).Contents (Elt F) → (⟨S44x1, .i32⟩ : BufTy).Contents (Elt F)),
    ternary main_v188 main_v189 main_v187 main_v190 ((fun x i u => Host.scatterAdd scatter_S14x4096_S44x1_S44x4096_1_0_0_1 x i u) : (⟨S14x4096, .f32⟩ : BufTy).Contents (Elt F) → (⟨S44x1, .i32⟩ : BufTy).Contents (Elt F) → (⟨S44x4096, .f32⟩ : BufTy).Contents (Elt F) → (⟨S14x4096, .f32⟩ : BufTy).Contents (Elt F)),
    nullary main_c_51 (constantI S_ 32 0#32),
    unary main_c_51 main_v191 (broadcastInDim S44 ![] bcast_S_S44 : (⟨S_, .i32⟩ : BufTy).Contents (Elt F) → (⟨S44, .i32⟩ : BufTy).Contents (Elt F)),
    binary main_arg1 main_v191 main_v192 (cmpi .slt : (⟨S44, .i32⟩ : BufTy).Contents (Elt F) → (⟨S44, .i32⟩ : BufTy).Contents (Elt F) → (⟨S44, .i1⟩ : BufTy).Contents (Elt F)),
    nullary main_c_52 (constantI S_ 32 14#32),
    unary main_c_52 main_v193 (broadcastInDim S44 ![] bcast_S_S44 : (⟨S_, .i32⟩ : BufTy).Contents (Elt F) → (⟨S44, .i32⟩ : BufTy).Contents (Elt F)),
    binary main_arg1 main_v193 main_v194 (addi : (⟨S44, .i32⟩ : BufTy).Contents (Elt F) → (⟨S44, .i32⟩ : BufTy).Contents (Elt F) → (⟨S44, .i32⟩ : BufTy).Contents (Elt F)),
    ternary main_v192 main_v194 main_arg1 main_v195 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v195 main_v196 (broadcastInDim S44x1 ![0] bcast_S44_S44x1_0 : (⟨S44, .i32⟩ : BufTy).Contents (Elt F) → (⟨S44x1, .i32⟩ : BufTy).Contents (Elt F)),
    binary main_v190 main_v196 main_v197 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    nullary main_c_53 (constantI S_ 32 0#32),
    unary main_c_53 main_v198 (broadcastInDim S44 ![] bcast_S_S44 : (⟨S_, .i32⟩ : BufTy).Contents (Elt F) → (⟨S44, .i32⟩ : BufTy).Contents (Elt F)),
    binary main_arg2 main_v198 main_v199 (cmpi .slt : (⟨S44, .i32⟩ : BufTy).Contents (Elt F) → (⟨S44, .i32⟩ : BufTy).Contents (Elt F) → (⟨S44, .i1⟩ : BufTy).Contents (Elt F)),
    nullary main_c_54 (constantI S_ 32 14#32),
    unary main_c_54 main_v200 (broadcastInDim S44 ![] bcast_S_S44 : (⟨S_, .i32⟩ : BufTy).Contents (Elt F) → (⟨S44, .i32⟩ : BufTy).Contents (Elt F)),
    binary main_arg2 main_v200 main_v201 (addi : (⟨S44, .i32⟩ : BufTy).Contents (Elt F) → (⟨S44, .i32⟩ : BufTy).Contents (Elt F) → (⟨S44, .i32⟩ : BufTy).Contents (Elt F)),
    ternary main_v199 main_v201 main_arg2 main_v202 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v202 main_v203 (broadcastInDim S44x1 ![0] bcast_S44_S44x1_0 : (⟨S44, .i32⟩ : BufTy).Contents (Elt F) → (⟨S44x1, .i32⟩ : BufTy).Contents (Elt F)),
    binary main_v190 main_v203 main_v204 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    binary main_v197 main_v204 main_v205 (addf : (⟨S44x4096, .f32⟩ : BufTy).Contents (Elt F) → (⟨S44x4096, .f32⟩ : BufTy).Contents (Elt F) → (⟨S44x4096, .f32⟩ : BufTy).Contents (Elt F)),
    nullary main_cst_55 (constant S_ .f32 0x3F000000#32),
    unary main_cst_55 main_v206 (broadcastInDim S44x4096 ![] bcast_S_S44x4096 : (⟨S_, .f32⟩ : BufTy).Contents (Elt F) → (⟨S44x4096, .f32⟩ : BufTy).Contents (Elt F)),
    binary main_v205 main_v206 main_v207 (mulf : (⟨S44x4096, .f32⟩ : BufTy).Contents (Elt F) → (⟨S44x4096, .f32⟩ : BufTy).Contents (Elt F) → (⟨S44x4096, .f32⟩ : BufTy).Contents (Elt F)),
    unary main_arg11 main_v208 ((transpose S4096x4096 [1, 0] · transposes_S4096x4096_S4096x4096_1_0) : (⟨S4096x4096, .f32⟩ : BufTy).Contents (Elt F) → (⟨S4096x4096, .f32⟩ : BufTy).Contents (Elt F)),
    binary main_v207 main_v208 main_v209 ((fun l r => Host.dotGeneral dot_S44x4096_S4096x4096_S44x4096_1_0_0_1_n_n none l r) : (⟨S44x4096, .f32⟩ : BufTy).Contents (Elt F) → (⟨S4096x4096, .f32⟩ : BufTy).Contents (Elt F) → (⟨S44x4096, .f32⟩ : BufTy).Contents (Elt F)),
    unary main_arg12 main_v210 (broadcastInDim S1x4096 ![1] bcast_S4096_S1x4096_1 : (⟨S4096, .f32⟩ : BufTy).Contents (Elt F) → (⟨S1x4096, .f32⟩ : BufTy).Contents (Elt F)),
    unary main_v210 main_v211 (broadcastInDim S44x4096 ![0, 1] bcast_S1x4096_S44x4096_0_1 : (⟨S1x4096, .f32⟩ : BufTy).Contents (Elt F) → (⟨S44x4096, .f32⟩ : BufTy).Contents (Elt F)),
    binary main_v209 main_v211 main_v212 (addf : (⟨S44x4096, .f32⟩ : BufTy).Contents (Elt F) → (⟨S44x4096, .f32⟩ : BufTy).Contents (Elt F) → (⟨S44x4096, .f32⟩ : BufTy).Contents (Elt F)),
    nullary main_cst_56 (constant S_ .f32 0x3C23D70A#32),
    TRef.nullary main_call3.cst (constant (F := F) S_ .f32 0x00000000#32),
    TRef.unary main_call3.cst main_call3.v0 (broadcastInDim S44x4096 ![] bcast_S_S44x4096),
    TRef.binary (.of main_v212 : TRef sig ⟨S44x4096, .f32⟩) main_call3.v0 main_call3.v1 (cmpf .oge),
    TRef.unary (.of main_cst_56 : TRef sig ⟨S_, .f32⟩) main_call3.v2 id,
    TRef.unary main_call3.v2 main_call3.v3 (broadcastInDim S44x4096 ![] bcast_S_S44x4096),
    TRef.binary main_call3.v3 (.of main_v212 : TRef sig ⟨S44x4096, .f32⟩) main_call3.v4 mulf,
    TRef.ternary main_call3.v1 (.of main_v212 : TRef sig ⟨S44x4096, .f32⟩) main_call3.v4 main_call3.call0.v0 select ]

/-- Operations 274 … 300 of the program, calls inlined. -/
abbrev c9 : List (HloOp τ sig (Elt F)) :=
  [ nullary main_cst_57 (constant S_ .f32 0x3F800000#32),
    unary main_cst_57 main_v214 (broadcastInDim S44 ![] bcast_S_S44 : (⟨S_, .f32⟩ : BufTy).Contents (Elt F) → (⟨S44, .f32⟩ : BufTy).Contents (Elt F)),
    nullary main_cst_58 (constant S_ .f32 0x00000000#32),
    unary main_cst_58 main_v215 (broadcastInDim S14 ![] bcast_S_S14 : (⟨S_, .f32⟩ : BufTy).Contents (Elt F) → (⟨S14, .f32⟩ : BufTy).Contents (Elt F)),
    unary main_arg2 main_v216 (broadcastInDim S44x1 ![0] bcast_S44_S44x1_0 : (⟨S44, .i32⟩ : BufTy).Contents (Elt F) → (⟨S44x1, .i32⟩ : BufTy).Contents (Elt F)),
    ternary main_v215 main_v216 main_v214 main_v217 ((fun x i u => Host.scatterAdd scatter_S14_S44x1_S44_n_0_0_1 x i u) : (⟨S14, .f32⟩ : BufTy).Contents (Elt F) → (⟨S44x1, .i32⟩ : BufTy).Contents (Elt F) → (⟨S44, .f32⟩ : BufTy).Contents (Elt F) → (⟨S14, .f32⟩ : BufTy).Contents (Elt F)),
    nullary main_cst_59 (constant S_ .f32 0x00000000#32),
    unary main_cst_59 main_v218 (broadcastInDim S14x4096 ![] bcast_S_S14x4096 : (⟨S_, .f32⟩ : BufTy).Contents (Elt F) → (⟨S14x4096, .f32⟩ : BufTy).Contents (Elt F)),
    unary main_arg2 main_v219 (broadcastInDim S44x1 ![0] bcast_S44_S44x1_0 : (⟨S44, .i32⟩ : BufTy).Contents (Elt F) → (⟨S44x1, .i32⟩ : BufTy).Contents (Elt F)),
    ternary main_v218 main_v219 main_v213 main_v220 ((fun x i u => Host.scatterAdd scatter_S14x4096_S44x1_S44x4096_1_0_0_1 x i u) : (⟨S14x4096, .f32⟩ : BufTy).Contents (Elt F) → (⟨S44x1, .i32⟩ : BufTy).Contents (Elt F) → (⟨S44x4096, .f32⟩ : BufTy).Contents (Elt F) → (⟨S14x4096, .f32⟩ : BufTy).Contents (Elt F)),
    unary main_v217 main_v221 (broadcastInDim S14x1 ![0] bcast_S14_S14x1_0 : (⟨S14, .f32⟩ : BufTy).Contents (Elt F) → (⟨S14x1, .f32⟩ : BufTy).Contents (Elt F)),
    unary main_v221 main_v222 (broadcastInDim S14x4096 ![0, 1] bcast_S14x1_S14x4096_0_1 : (⟨S14x1, .f32⟩ : BufTy).Contents (Elt F) → (⟨S14x4096, .f32⟩ : BufTy).Contents (Elt F)),
    binary main_v220 main_v222 main_v223 (Host.divf : (⟨S14x4096, .f32⟩ : BufTy).Contents (Elt F) → (⟨S14x4096, .f32⟩ : BufTy).Contents (Elt F) → (⟨S14x4096, .f32⟩ : BufTy).Contents (Elt F)),
    nullary main_c_60 (constantI S_ 32 0#32),
    unary main_c_60 main_v224 (broadcastInDim S44 ![] bcast_S_S44 : (⟨S_, .i32⟩ : BufTy).Contents (Elt F) → (⟨S44, .i32⟩ : BufTy).Contents (Elt F)),
    binary main_arg1 main_v224 main_v225 (cmpi .slt : (⟨S44, .i32⟩ : BufTy).Contents (Elt F) → (⟨S44, .i32⟩ : BufTy).Contents (Elt F) → (⟨S44, .i1⟩ : BufTy).Contents (Elt F)),
    nullary main_c_61 (constantI S_ 32 14#32),
    unary main_c_61 main_v226 (broadcastInDim S44 ![] bcast_S_S44 : (⟨S_, .i32⟩ : BufTy).Contents (Elt F) → (⟨S44, .i32⟩ : BufTy).Contents (Elt F)),
    binary main_arg1 main_v226 main_v227 (addi : (⟨S44, .i32⟩ : BufTy).Contents (Elt F) → (⟨S44, .i32⟩ : BufTy).Contents (Elt F) → (⟨S44, .i32⟩ : BufTy).Contents (Elt F)),
    ternary main_v225 main_v227 main_arg1 main_v228 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v228 main_v229 (broadcastInDim S44x1 ![0] bcast_S44_S44x1_0 : (⟨S44, .i32⟩ : BufTy).Contents (Elt F) → (⟨S44x1, .i32⟩ : BufTy).Contents (Elt F)),
    binary main_v223 main_v229 main_v230 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    nullary main_cst_62 (constant S_ .f32 0x00000000#32),
    unary main_cst_62 main_v231 (broadcastInDim S14x4096 ![] bcast_S_S14x4096 : (⟨S_, .f32⟩ : BufTy).Contents (Elt F) → (⟨S14x4096, .f32⟩ : BufTy).Contents (Elt F)),
    unary main_arg2 main_v232 (broadcastInDim S44x1 ![0] bcast_S44_S44x1_0 : (⟨S44, .i32⟩ : BufTy).Contents (Elt F) → (⟨S44x1, .i32⟩ : BufTy).Contents (Elt F)),
    ternary main_v231 main_v232 main_v230 main_v233 ((fun x i u => Host.scatterAdd scatter_S14x4096_S44x1_S44x4096_1_0_0_1 x i u) : (⟨S14x4096, .f32⟩ : BufTy).Contents (Elt F) → (⟨S44x1, .i32⟩ : BufTy).Contents (Elt F) → (⟨S44x4096, .f32⟩ : BufTy).Contents (Elt F) → (⟨S14x4096, .f32⟩ : BufTy).Contents (Elt F)),
    nullary main_c_63 (constantI S_ 32 0#32) ]

/-- Operations 301 … 326 of the program, calls inlined. -/
abbrev c10 : List (HloOp τ sig (Elt F)) :=
  [ unary main_c_63 main_v234 (broadcastInDim S44 ![] bcast_S_S44 : (⟨S_, .i32⟩ : BufTy).Contents (Elt F) → (⟨S44, .i32⟩ : BufTy).Contents (Elt F)),
    binary main_arg1 main_v234 main_v235 (cmpi .slt : (⟨S44, .i32⟩ : BufTy).Contents (Elt F) → (⟨S44, .i32⟩ : BufTy).Contents (Elt F) → (⟨S44, .i1⟩ : BufTy).Contents (Elt F)),
    nullary main_c_64 (constantI S_ 32 14#32),
    unary main_c_64 main_v236 (broadcastInDim S44 ![] bcast_S_S44 : (⟨S_, .i32⟩ : BufTy).Contents (Elt F) → (⟨S44, .i32⟩ : BufTy).Contents (Elt F)),
    binary main_arg1 main_v236 main_v237 (addi : (⟨S44, .i32⟩ : BufTy).Contents (Elt F) → (⟨S44, .i32⟩ : BufTy).Contents (Elt F) → (⟨S44, .i32⟩ : BufTy).Contents (Elt F)),
    ternary main_v235 main_v237 main_arg1 main_v238 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v238 main_v239 (broadcastInDim S44x1 ![0] bcast_S44_S44x1_0 : (⟨S44, .i32⟩ : BufTy).Contents (Elt F) → (⟨S44x1, .i32⟩ : BufTy).Contents (Elt F)),
    binary main_v233 main_v239 main_v240 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    nullary main_c_65 (constantI S_ 32 0#32),
    unary main_c_65 main_v241 (broadcastInDim S44 ![] bcast_S_S44 : (⟨S_, .i32⟩ : BufTy).Contents (Elt F) → (⟨S44, .i32⟩ : BufTy).Contents (Elt F)),
    binary main_arg2 main_v241 main_v242 (cmpi .slt : (⟨S44, .i32⟩ : BufTy).Contents (Elt F) → (⟨S44, .i32⟩ : BufTy).Contents (Elt F) → (⟨S44, .i1⟩ : BufTy).Contents (Elt F)),
    nullary main_c_66 (constantI S_ 32 14#32),
    unary main_c_66 main_v243 (broadcastInDim S44 ![] bcast_S_S44 : (⟨S_, .i32⟩ : BufTy).Contents (Elt F) → (⟨S44, .i32⟩ : BufTy).Contents (Elt F)),
    binary main_arg2 main_v243 main_v244 (addi : (⟨S44, .i32⟩ : BufTy).Contents (Elt F) → (⟨S44, .i32⟩ : BufTy).Contents (Elt F) → (⟨S44, .i32⟩ : BufTy).Contents (Elt F)),
    ternary main_v242 main_v244 main_arg2 main_v245 (select : (⟨S44, .i1⟩ : BufTy).Contents (Elt F) → (⟨S44, .i32⟩ : BufTy).Contents (Elt F) → (⟨S44, .i32⟩ : BufTy).Contents (Elt F) → (⟨S44, .i32⟩ : BufTy).Contents (Elt F)),
    unary main_v245 main_v246 (broadcastInDim S44x1 ![0] bcast_S44_S44x1_0 : (⟨S44, .i32⟩ : BufTy).Contents (Elt F) → (⟨S44x1, .i32⟩ : BufTy).Contents (Elt F)),
    binary main_v233 main_v246 main_v247 ((fun x i => Host.gather gather_S14x4096_S44x1_S44x4096_1_0_n_n_0_1_14096 x i) : (⟨S14x4096, .f32⟩ : BufTy).Contents (Elt F) → (⟨S44x1, .i32⟩ : BufTy).Contents (Elt F) → (⟨S44x4096, .f32⟩ : BufTy).Contents (Elt F)),
    binary main_v240 main_v247 main_v248 (addf : (⟨S44x4096, .f32⟩ : BufTy).Contents (Elt F) → (⟨S44x4096, .f32⟩ : BufTy).Contents (Elt F) → (⟨S44x4096, .f32⟩ : BufTy).Contents (Elt F)),
    nullary main_cst_67 (constant S_ .f32 0x3F000000#32),
    unary main_cst_67 main_v249 (broadcastInDim S44x4096 ![] bcast_S_S44x4096 : (⟨S_, .f32⟩ : BufTy).Contents (Elt F) → (⟨S44x4096, .f32⟩ : BufTy).Contents (Elt F)),
    binary main_v248 main_v249 main_v250 (mulf : (⟨S44x4096, .f32⟩ : BufTy).Contents (Elt F) → (⟨S44x4096, .f32⟩ : BufTy).Contents (Elt F) → (⟨S44x4096, .f32⟩ : BufTy).Contents (Elt F)),
    unary main_arg13 main_v251 ((transpose S4096x1 [1, 0] · transposes_S1x4096_S4096x1_1_0) : (⟨S1x4096, .f32⟩ : BufTy).Contents (Elt F) → (⟨S4096x1, .f32⟩ : BufTy).Contents (Elt F)),
    binary main_v250 main_v251 main_v252 ((fun l r => Host.dotGeneral dot_S44x4096_S4096x1_S44x1_1_0_0_1_n_n none l r) : (⟨S44x4096, .f32⟩ : BufTy).Contents (Elt F) → (⟨S4096x1, .f32⟩ : BufTy).Contents (Elt F) → (⟨S44x1, .f32⟩ : BufTy).Contents (Elt F)),
    unary main_arg14 main_v253 (broadcastInDim S1x1 ![1] bcast_S1_S1x1_1 : (⟨S1, .f32⟩ : BufTy).Contents (Elt F) → (⟨S1x1, .f32⟩ : BufTy).Contents (Elt F)),
    unary main_v253 main_v254 (broadcastInDim S44x1 ![0, 1] bcast_S1x1_S44x1_0_1 : (⟨S1x1, .f32⟩ : BufTy).Contents (Elt F) → (⟨S44x1, .f32⟩ : BufTy).Contents (Elt F)),
    binary main_v252 main_v254 main_v255 (addf : (⟨S44x1, .f32⟩ : BufTy).Contents (Elt F) → (⟨S44x1, .f32⟩ : BufTy).Contents (Elt F) → (⟨S44x1, .f32⟩ : BufTy).Contents (Elt F)) ]

/-- The whole program: the eleven stretches in order. -/
abbrev ops : List (HloOp τ sig (Elt F)) :=
  c0 ++ (c1 ++ (c2 ++ (c3 ++ (c4 ++ (c5 ++ (c6 ++ (c7 ++ (c8 ++ (c9 ++ c10)))))))))

/-! ## The printed program is that line -/

set_option maxRecDepth 8192 in
theorem part0_eq (c : Dev nD) : main_part0 (F := F) c = seq (c0 ++ c1) := by
  simp only [main_part0, fn_leaky_relu.body, fn_where.body, bind_assoc, pure_bind]
  rfl

set_option maxRecDepth 8192 in
theorem part1_eq (c : Dev nD) : main_part1 (F := F) c = seq (c2 ++ c3) := by
  simp only [main_part1, fn_leaky_relu.body, fn_where.body, bind_assoc, pure_bind]
  rfl

set_option maxRecDepth 8192 in
theorem part2_eq (c : Dev nD) : main_part2 (F := F) c = seq (c4 ++ c5) := by
  simp only [main_part2, fn_leaky_relu.body, fn_where.body, bind_assoc, pure_bind]
  rfl

set_option maxRecDepth 8192 in
theorem part3_eq (c : Dev nD) : main_part3 (F := F) c = seq (c6 ++ c7) := by
  simp only [main_part3, fn_leaky_relu.body, fn_where.body, bind_assoc, pure_bind]
  rfl

set_option maxRecDepth 8192 in
theorem part4_eq (c : Dev nD) : main_part4 (F := F) c = seq (c8 ++ c9) := by
  simp only [main_part4, fn_leaky_relu.body, fn_where.body, bind_assoc, pure_bind]
  rfl

set_option maxRecDepth 8192 in
theorem part5_eq (c : Dev nD) : main_part5 (F := F) c = seq c10 := rfl

theorem main_eq (c : Dev nD) : main (F := F) c = seq ops := by
  simp only [main, part0_eq, part1_eq, part2_eq, part3_eq, part4_eq, part5_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and allocates nothing -/

set_option maxRecDepth 8192 in
theorem c0_sub : (c0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
set_option maxRecDepth 8192 in
theorem c0_fresh : (c0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem c1_sub : (c1 : List (HloOp τ sig (Elt F))).Forall fun op => op.bufs ⊆ tcRefs τ sig :=
  ⟨nullary_bufs_sub .., unary_bufs_sub .., nullary_bufs_sub .., unary_bufs_sub .., unary_bufs_sub ..⟩
set_option maxRecDepth 8192 in
theorem c1_fresh : (c1 : List (HloOp τ sig (Elt F))).Forall fun op => op.fresh = ∅ :=
  ⟨rfl, rfl, rfl, rfl, rfl⟩

set_option maxRecDepth 8192 in
theorem c2_sub : (c2 : List (HloOp τ sig (Elt F))).Forall fun op => op.bufs ⊆ tcRefs τ sig :=
  ⟨ternary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
set_option maxRecDepth 8192 in
theorem c2_fresh : (c2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem c3_sub : (c3 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub ..⟩
set_option maxRecDepth 8192 in
theorem c3_fresh : (c3 : List (HloOp τ sig (Elt F))).Forall fun op => op.fresh = ∅ :=
  ⟨rfl, rfl, rfl, rfl, rfl, rfl, rfl, rfl, rfl, rfl⟩

set_option maxRecDepth 8192 in
theorem c4_sub : (c4 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub ..⟩
set_option maxRecDepth 8192 in
theorem c4_fresh : (c4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem c5_sub : (c5 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub ..⟩
set_option maxRecDepth 8192 in
theorem c5_fresh : (c5 : List (HloOp τ sig (Elt F))).Forall fun op => op.fresh = ∅ :=
  ⟨rfl, rfl, rfl, rfl, rfl, rfl, rfl, rfl, rfl, rfl, rfl, rfl, rfl, rfl, rfl, rfl, rfl⟩

set_option maxRecDepth 8192 in
theorem c6_sub : (c6 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
set_option maxRecDepth 8192 in
theorem c6_fresh : (c6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem c7_sub : (c7 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem c7_fresh : (c7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 8192 in
theorem c8_sub : (c8 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
set_option maxRecDepth 8192 in
theorem c8_fresh : (c8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem c9_sub : (c9 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub ..⟩
set_option maxRecDepth 8192 in
theorem c9_fresh : (c9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem c10_sub : (c10 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub ..⟩
set_option maxRecDepth 8192 in
theorem c10_fresh : (c10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp c0_sub op h, List.forall_iff_forall_mem.mp c1_sub op h, List.forall_iff_forall_mem.mp c2_sub op h, List.forall_iff_forall_mem.mp c3_sub op h, List.forall_iff_forall_mem.mp c4_sub op h, List.forall_iff_forall_mem.mp c5_sub op h, List.forall_iff_forall_mem.mp c6_sub op h, List.forall_iff_forall_mem.mp c7_sub op h, List.forall_iff_forall_mem.mp c8_sub op h, List.forall_iff_forall_mem.mp c9_sub op h, List.forall_iff_forall_mem.mp c10_sub op h]

theorem ops_fresh : ∀ op ∈ (ops : List (HloOp τ sig (Elt F))), op.fresh = ∅ := fun op h => by
    simp only [ops, List.mem_append] at h
    rcases h with h | h | h | h | h | h | h | h | h | h | h
    exacts [List.forall_iff_forall_mem.mp c0_fresh op h, List.forall_iff_forall_mem.mp c1_fresh op h, List.forall_iff_forall_mem.mp c2_fresh op h, List.forall_iff_forall_mem.mp c3_fresh op h, List.forall_iff_forall_mem.mp c4_fresh op h, List.forall_iff_forall_mem.mp c5_fresh op h, List.forall_iff_forall_mem.mp c6_fresh op h, List.forall_iff_forall_mem.mp c7_fresh op h, List.forall_iff_forall_mem.mp c8_fresh op h, List.forall_iff_forall_mem.mp c9_fresh op h, List.forall_iff_forall_mem.mp c10_fresh op h]

/-! ## What each stretch writes, and that it leaves every other buffer alone -/

/-- Running two lines one after the other folds the second over the first's result. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The buffers the stretch `c0` writes. -/
abbrev c0_W : List (Ref sig .tc) := [main_cst, main_v0, main_cst_0, main_v1, main_v2, main_v3, main_cst_1, main_v4, main_v5, main_v6, main_v7, main_v8, main_v9, main_c, main_v10, main_v11, main_c_2, main_v12, main_v13, main_v14, main_v15, main_v16, main_cst_3, main_v17, main_v18, main_v19, main_c_4, main_v20, main_v21, main_c_5, main_v22, main_v23, main_v24, main_v25, main_v26, main_c_6, main_v27, main_v28, main_c_7, main_v29, main_v30, main_v31, main_v32, main_v33, main_v34, main_cst_8, main_v35, main_v36, main_v37, main_v38, main_v39, main_v40, main_v41, main_cst_9, main_call0_cst, main_call0_v0, main_call0_v1, main_call0_v2, main_call0_v3, main_call0_v4, main_v42]
set_option maxRecDepth 8192 in
theorem c0_writes : (c0 : List (HloOp τ sig (Elt F))).Forall fun op => op.writes ⊆ (c0_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch `c0` does not write keeps its contents through it. -/
theorem c0_keep (V : Valuation τ sig (Elt F)) (r : Ref sig .tc) (h : r ∉ c0_W) :
    after c0 V (Proc.devRef .tc r) = V (Proc.devRef .tc r) :=
  after_of_writes_sub c0 V c0_writes h

/-- The buffers the stretch `c1` writes. -/
abbrev c1_W : List (Ref sig .tc) := [main_cst_10, main_v43, main_cst_11, main_v44, main_v45]
set_option maxRecDepth 8192 in
theorem c1_writes : (c1 : List (HloOp τ sig (Elt F))).Forall fun op => op.writes ⊆ (c1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch `c1` does not write keeps its contents through it. -/
theorem c1_keep (V : Valuation τ sig (Elt F)) (r : Ref sig .tc) (h : r ∉ c1_W) :
    after c1 V (Proc.devRef .tc r) = V (Proc.devRef .tc r) :=
  after_of_writes_sub c1 V c1_writes h

/-- The buffers the stretch `c2` writes. -/
abbrev c2_W : List (Ref sig .tc) := [main_v46, main_cst_12, main_v47, main_v48, main_v49, main_v50, main_v51, main_v52, main_c_13, main_v53, main_v54, main_c_14, main_v55, main_v56, main_v57, main_v58, main_v59, main_cst_15, main_v60, main_v61, main_v62, main_c_16, main_v63, main_v64, main_c_17, main_v65, main_v66, main_v67, main_v68, main_v69, main_c_18, main_v70, main_v71, main_c_19, main_v72, main_v73, main_v74, main_v75, main_v76, main_v77, main_cst_20, main_v78, main_v79, main_v80, main_v81, main_v82, main_v83, main_v84, main_cst_21, main_call1_cst, main_call1_v0, main_call1_v1, main_call1_v2, main_call1_v3, main_call1_v4, main_v85]
set_option maxRecDepth 8192 in
theorem c2_writes : (c2 : List (HloOp τ sig (Elt F))).Forall fun op => op.writes ⊆ (c2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch `c2` does not write keeps its contents through it. -/
theorem c2_keep (V : Valuation τ sig (Elt F)) (r : Ref sig .tc) (h : r ∉ c2_W) :
    after c2 V (Proc.devRef .tc r) = V (Proc.devRef .tc r) :=
  after_of_writes_sub c2 V c2_writes h

/-- The buffers the stretch `c3` writes. -/
abbrev c3_W : List (Ref sig .tc) := [main_cst_22, main_v86, main_cst_23, main_v87, main_v88, main_v89, main_cst_24, main_v90, main_v91, main_v92]
set_option maxRecDepth 8192 in
theorem c3_writes : (c3 : List (HloOp τ sig (Elt F))).Forall fun op => op.writes ⊆ (c3_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch `c3` does not write keeps its contents through it. -/
theorem c3_keep (V : Valuation τ sig (Elt F)) (r : Ref sig .tc) (h : r ∉ c3_W) :
    after c3 V (Proc.devRef .tc r) = V (Proc.devRef .tc r) :=
  after_of_writes_sub c3 V c3_writes h

/-- The buffers the stretch `c4` writes. -/
abbrev c4_W : List (Ref sig .tc) := [main_v93, main_v94, main_v95, main_c_25, main_v96, main_v97, main_c_26, main_v98, main_v99, main_v100, main_v101, main_v102, main_cst_27, main_v103, main_v104, main_v105, main_c_28, main_v106, main_v107, main_c_29, main_v108, main_v109, main_v110, main_v111, main_v112, main_c_30, main_v113, main_v114, main_c_31, main_v115, main_v116, main_v117, main_v118, main_v119, main_v120, main_cst_32, main_v121, main_v122, main_v123, main_v124, main_v125, main_v126, main_v127]
set_option maxRecDepth 8192 in
theorem c4_writes : (c4 : List (HloOp τ sig (Elt F))).Forall fun op => op.writes ⊆ (c4_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch `c4` does not write keeps its contents through it. -/
theorem c4_keep (V : Valuation τ sig (Elt F)) (r : Ref sig .tc) (h : r ∉ c4_W) :
    after c4 V (Proc.devRef .tc r) = V (Proc.devRef .tc r) :=
  after_of_writes_sub c4 V c4_writes h

/-- The buffers the stretch `c5` writes. -/
abbrev c5_W : List (Ref sig .tc) := [main_cst_33, main_v128, main_cst_34, main_v129, main_v130, main_v131, main_cst_35, main_v132, main_v133, main_v134, main_v135, main_v136, main_v137, main_c_36, main_v138, main_v139, main_c_37]
set_option maxRecDepth 8192 in
theorem c5_writes : (c5 : List (HloOp τ sig (Elt F))).Forall fun op => op.writes ⊆ (c5_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch `c5` does not write keeps its contents through it. -/
theorem c5_keep (V : Valuation τ sig (Elt F)) (r : Ref sig .tc) (h : r ∉ c5_W) :
    after c5 V (Proc.devRef .tc r) = V (Proc.devRef .tc r) :=
  after_of_writes_sub c5 V c5_writes h

/-- The buffers the stretch `c6` writes. -/
abbrev c6_W : List (Ref sig .tc) := [main_v140, main_v141, main_v142, main_v143, main_v144, main_cst_38, main_v145, main_v146, main_v147, main_c_39, main_v148, main_v149, main_c_40, main_v150, main_v151, main_v152, main_v153, main_v154, main_c_41, main_v155, main_v156, main_c_42, main_v157, main_v158, main_v159, main_v160, main_v161, main_v162, main_cst_43, main_v163, main_v164, main_v165, main_v166, main_v167, main_v168, main_v169, main_cst_44, main_call2_cst, main_call2_v0, main_call2_v1, main_call2_v2, main_call2_v3, main_call2_v4, main_v170]
set_option maxRecDepth 8192 in
theorem c6_writes : (c6 : List (HloOp τ sig (Elt F))).Forall fun op => op.writes ⊆ (c6_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch `c6` does not write keeps its contents through it. -/
theorem c6_keep (V : Valuation τ sig (Elt F)) (r : Ref sig .tc) (h : r ∉ c6_W) :
    after c6 V (Proc.devRef .tc r) = V (Proc.devRef .tc r) :=
  after_of_writes_sub c6 V c6_writes h

/-- The buffers the stretch `c7` writes. -/
abbrev c7_W : List (Ref sig .tc) := [main_cst_45, main_v171, main_cst_46, main_v172, main_v173, main_v174, main_cst_47, main_v175, main_v176, main_v177, main_v178, main_v179, main_v180, main_c_48, main_v181, main_v182, main_c_49, main_v183, main_v184, main_v185, main_v186, main_v187]
set_option maxRecDepth 8192 in
theorem c7_writes : (c7 : List (HloOp τ sig (Elt F))).Forall fun op => op.writes ⊆ (c7_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch `c7` does not write keeps its contents through it. -/
theorem c7_keep (V : Valuation τ sig (Elt F)) (r : Ref sig .tc) (h : r ∉ c7_W) :
    after c7 V (Proc.devRef .tc r) = V (Proc.devRef .tc r) :=
  after_of_writes_sub c7 V c7_writes h

/-- The buffers the stretch `c8` writes. -/
abbrev c8_W : List (Ref sig .tc) := [main_cst_50, main_v188, main_v189, main_v190, main_c_51, main_v191, main_v192, main_c_52, main_v193, main_v194, main_v195, main_v196, main_v197, main_c_53, main_v198, main_v199, main_c_54, main_v200, main_v201, main_v202, main_v203, main_v204, main_v205, main_cst_55, main_v206, main_v207, main_v208, main_v209, main_v210, main_v211, main_v212, main_cst_56, main_call3_cst, main_call3_v0, main_call3_v1, main_call3_v2, main_call3_v3, main_call3_v4, main_v213]
set_option maxRecDepth 8192 in
theorem c8_writes : (c8 : List (HloOp τ sig (Elt F))).Forall fun op => op.writes ⊆ (c8_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch `c8` does not write keeps its contents through it. -/
theorem c8_keep (V : Valuation τ sig (Elt F)) (r : Ref sig .tc) (h : r ∉ c8_W) :
    after c8 V (Proc.devRef .tc r) = V (Proc.devRef .tc r) :=
  after_of_writes_sub c8 V c8_writes h

/-- The buffers the stretch `c9` writes. -/
abbrev c9_W : List (Ref sig .tc) := [main_cst_57, main_v214, main_cst_58, main_v215, main_v216, main_v217, main_cst_59, main_v218, main_v219, main_v220, main_v221, main_v222, main_v223, main_c_60, main_v224, main_v225, main_c_61, main_v226, main_v227, main_v228, main_v229, main_v230, main_cst_62, main_v231, main_v232, main_v233, main_c_63]
set_option maxRecDepth 8192 in
theorem c9_writes : (c9 : List (HloOp τ sig (Elt F))).Forall fun op => op.writes ⊆ (c9_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch `c9` does not write keeps its contents through it. -/
theorem c9_keep (V : Valuation τ sig (Elt F)) (r : Ref sig .tc) (h : r ∉ c9_W) :
    after c9 V (Proc.devRef .tc r) = V (Proc.devRef .tc r) :=
  after_of_writes_sub c9 V c9_writes h

/-- The buffers the stretch `c10` writes. -/
abbrev c10_W : List (Ref sig .tc) := [main_v234, main_v235, main_c_64, main_v236, main_v237, main_v238, main_v239, main_v240, main_c_65, main_v241, main_v242, main_c_66, main_v243, main_v244, main_v245, main_v246, main_v247, main_v248, main_cst_67, main_v249, main_v250, main_v251, main_v252, main_v253, main_v254, main_v255]
set_option maxRecDepth 8192 in
theorem c10_writes : (c10 : List (HloOp τ sig (Elt F))).Forall fun op => op.writes ⊆ (c10_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch `c10` does not write keeps its contents through it. -/
theorem c10_keep (V : Valuation τ sig (Elt F)) (r : Ref sig .tc) (h : r ∉ c10_W) :
    after c10 V (Proc.devRef .tc r) = V (Proc.devRef .tc r) :=
  after_of_writes_sub c10 V c10_writes h

end Cert.ReferenceIdeal.RefRun

end
-- ==== Proof.RefRunLayers.lean ====
import proofs.«135243_j27986006901491_1_alg».proof.Proof.Spec
import proofs.«135243_j27986006901491_1_alg».proof.Proof.RefRunOps

noncomputable section

namespace Cert.ReferenceIdeal.RefRun

open Idealize.ShloMosaic Idealize.ShloMosaic.TcCoe Idealize.SL.Sem Idealize.ShloMosaic.StableHlo
open Cert.ReferenceIdeal Cert.ReferenceIdeal.Gen

/-! One graph layer of the reference program, read off its stretch of operations.

From any contents `V` of the buffers, the layer's operations leave in its output buffer the layer's
stages — the edge-feature stage, the affine map and (for a hidden layer) the rectifier — applied to what
`V` holds in the layer's input, the two index vectors, the weight and the bias. Each statement is the fold
of the operations' results computed at the output buffer; what remains is the stages' definitions unfolded. -/

set_option maxRecDepth 8192 in
set_option maxHeartbeats 4000000 in
theorem L0_out (V : Valuation τ sig (Elt Ideal)) :
    after (c0 (F := Ideal)) V (Proc.devRef .tc main_v42 : DevRef τ sig)
      = Cert.Spec.act (Cert.Spec.lin (Cert.Spec.glue (V (Proc.devRef .tc main_arg0 : DevRef τ sig)) (V (Proc.devRef .tc main_arg1 : DevRef τ sig)) (V (Proc.devRef .tc main_arg2 : DevRef τ sig))) (V (Proc.devRef .tc main_arg3 : DevRef τ sig)) (V (Proc.devRef .tc main_arg4 : DevRef τ sig))) := by
  simp only [c0]
  after_results_simp
  rfl

set_option maxRecDepth 8192 in
set_option maxHeartbeats 4000000 in
theorem L1_out (V : Valuation τ sig (Elt Ideal)) :
    after (c2 (F := Ideal)) (after (c1 (F := Ideal)) V) (Proc.devRef .tc main_v85 : DevRef τ sig)
      = Cert.Spec.act (Cert.Spec.lin (Cert.Spec.glue (V (Proc.devRef .tc main_v42 : DevRef τ sig)) (V (Proc.devRef .tc main_arg1 : DevRef τ sig)) (V (Proc.devRef .tc main_arg2 : DevRef τ sig))) (V (Proc.devRef .tc main_arg5 : DevRef τ sig)) (V (Proc.devRef .tc main_arg6 : DevRef τ sig))) := by
  simp only [c1, c2]
  after_results_simp
  rfl

set_option maxRecDepth 8192 in
set_option maxHeartbeats 4000000 in
theorem L2_out (V : Valuation τ sig (Elt Ideal)) :
    after (c4 (F := Ideal)) (after (c3 (F := Ideal)) V) (Proc.devRef .tc main_v127 : DevRef τ sig)
      = Cert.Spec.lin (Cert.Spec.glue (V (Proc.devRef .tc main_v85 : DevRef τ sig)) (V (Proc.devRef .tc main_arg1 : DevRef τ sig)) (V (Proc.devRef .tc main_arg2 : DevRef τ sig))) (V (Proc.devRef .tc main_arg7 : DevRef τ sig)) (V (Proc.devRef .tc main_arg8 : DevRef τ sig)) := by
  simp only [c3, c4]
  after_results_simp
  rfl

set_option maxRecDepth 8192 in
set_option maxHeartbeats 4000000 in
theorem L3_out (V : Valuation τ sig (Elt Ideal)) :
    after (c6 (F := Ideal)) (after (c5 (F := Ideal)) V) (Proc.devRef .tc main_v170 : DevRef τ sig)
      = Cert.Spec.act (Cert.Spec.lin (Cert.Spec.glue (V (Proc.devRef .tc main_arg0 : DevRef τ sig)) (V (Proc.devRef .tc main_arg1 : DevRef τ sig)) (V (Proc.devRef .tc main_arg2 : DevRef τ sig))) (V (Proc.devRef .tc main_arg9 : DevRef τ sig)) (V (Proc.devRef .tc main_arg10 : DevRef τ sig))) := by
  simp only [c5, c6]
  after_results_simp
  rfl

set_option maxRecDepth 8192 in
set_option maxHeartbeats 4000000 in
theorem L4_out (V : Valuation τ sig (Elt Ideal)) :
    after (c8 (F := Ideal)) (after (c7 (F := Ideal)) V) (Proc.devRef .tc main_v213 : DevRef τ sig)
      = Cert.Spec.act (Cert.Spec.lin (Cert.Spec.glue (V (Proc.devRef .tc main_v170 : DevRef τ sig)) (V (Proc.devRef .tc main_arg1 : DevRef τ sig)) (V (Proc.devRef .tc main_arg2 : DevRef τ sig))) (V (Proc.devRef .tc main_arg11 : DevRef τ sig)) (V (Proc.devRef .tc main_arg12 : DevRef τ sig))) := by
  simp only [c7, c8]
  after_results_simp
  rfl

set_option maxRecDepth 8192 in
set_option maxHeartbeats 4000000 in
theorem L5_out (V : Valuation τ sig (Elt Ideal)) :
    after (c10 (F := Ideal)) (after (c9 (F := Ideal)) V) (Proc.devRef .tc main_v255 : DevRef τ sig)
      = Cert.Spec.lin1 (Cert.Spec.glue (V (Proc.devRef .tc main_v213 : DevRef τ sig)) (V (Proc.devRef .tc main_arg1 : DevRef τ sig)) (V (Proc.devRef .tc main_arg2 : DevRef τ sig))) (V (Proc.devRef .tc main_arg13 : DevRef τ sig)) (V (Proc.devRef .tc main_arg14 : DevRef τ sig)) := by
  simp only [c9, c10]
  after_results_simp
  rfl

end Cert.ReferenceIdeal.RefRun

end
-- ==== Proof.RefRun.lean ====
import proofs.«135243_j27986006901491_1_alg».proof.Proof.RefRunLayers

noncomputable section

namespace Cert.ReferenceIdeal.RefRun

open Idealize.ShloMosaic Idealize.ShloMosaic.TcCoe Idealize.SL.Sem Idealize.ShloMosaic.StableHlo
open Cert.ReferenceIdeal Cert.ReferenceIdeal.Gen

/-! The reference program's run: its two results are the three-layer compositions `Cert.Spec.out0` and
`Cert.Spec.out1` of the launch contents of its arguments, and the arguments are left unchanged.

The buffers' contents are followed layer by layer (`val1 … val6`). A layer rewrites only its own
intermediate buffers, so every argument and every earlier layer's output is carried through unchanged, and its
output buffer is the layer's stages applied to what the previous contents hold. -/

/-- The buffers' contents after the first 1 layer. -/
def val1 (V : Valuation τ sig (Elt Ideal)) : Valuation τ sig (Elt Ideal) := after (c0 (F := Ideal)) V

/-- The buffers' contents after the first 2 layers. -/
def val2 (V : Valuation τ sig (Elt Ideal)) : Valuation τ sig (Elt Ideal) := after (c2 (F := Ideal)) (after (c1 (F := Ideal)) (val1 V))

/-- The buffers' contents after the first 3 layers. -/
def val3 (V : Valuation τ sig (Elt Ideal)) : Valuation τ sig (Elt Ideal) := after (c4 (F := Ideal)) (after (c3 (F := Ideal)) (val2 V))

/-- The buffers' contents after the first 4 layers. -/
def val4 (V : Valuation τ sig (Elt Ideal)) : Valuation τ sig (Elt Ideal) := after (c6 (F := Ideal)) (after (c5 (F := Ideal)) (val3 V))

/-- The buffers' contents after the first 5 layers. -/
def val5 (V : Valuation τ sig (Elt Ideal)) : Valuation τ sig (Elt Ideal) := after (c8 (F := Ideal)) (after (c7 (F := Ideal)) (val4 V))

/-- The buffers' contents after the first 6 layers. -/
def val6 (V : Valuation τ sig (Elt Ideal)) : Valuation τ sig (Elt Ideal) := after (c10 (F := Ideal)) (after (c9 (F := Ideal)) (val5 V))

/-! ### The arguments are never written -/

theorem val1_a0 (V : Valuation τ sig (Elt Ideal)) : val1 V (Proc.devRef .tc main_arg0 : DevRef τ sig) = V (Proc.devRef .tc main_arg0 : DevRef τ sig) :=
  c0_keep _ main_arg0 (by decide)
theorem val1_a1 (V : Valuation τ sig (Elt Ideal)) : val1 V (Proc.devRef .tc main_arg1 : DevRef τ sig) = V (Proc.devRef .tc main_arg1 : DevRef τ sig) :=
  c0_keep _ main_arg1 (by decide)
theorem val1_a2 (V : Valuation τ sig (Elt Ideal)) : val1 V (Proc.devRef .tc main_arg2 : DevRef τ sig) = V (Proc.devRef .tc main_arg2 : DevRef τ sig) :=
  c0_keep _ main_arg2 (by decide)
theorem val1_a3 (V : Valuation τ sig (Elt Ideal)) : val1 V (Proc.devRef .tc main_arg3 : DevRef τ sig) = V (Proc.devRef .tc main_arg3 : DevRef τ sig) :=
  c0_keep _ main_arg3 (by decide)
theorem val1_a4 (V : Valuation τ sig (Elt Ideal)) : val1 V (Proc.devRef .tc main_arg4 : DevRef τ sig) = V (Proc.devRef .tc main_arg4 : DevRef τ sig) :=
  c0_keep _ main_arg4 (by decide)
theorem val1_a5 (V : Valuation τ sig (Elt Ideal)) : val1 V (Proc.devRef .tc main_arg5 : DevRef τ sig) = V (Proc.devRef .tc main_arg5 : DevRef τ sig) :=
  c0_keep _ main_arg5 (by decide)
theorem val1_a6 (V : Valuation τ sig (Elt Ideal)) : val1 V (Proc.devRef .tc main_arg6 : DevRef τ sig) = V (Proc.devRef .tc main_arg6 : DevRef τ sig) :=
  c0_keep _ main_arg6 (by decide)
theorem val1_a7 (V : Valuation τ sig (Elt Ideal)) : val1 V (Proc.devRef .tc main_arg7 : DevRef τ sig) = V (Proc.devRef .tc main_arg7 : DevRef τ sig) :=
  c0_keep _ main_arg7 (by decide)
theorem val1_a8 (V : Valuation τ sig (Elt Ideal)) : val1 V (Proc.devRef .tc main_arg8 : DevRef τ sig) = V (Proc.devRef .tc main_arg8 : DevRef τ sig) :=
  c0_keep _ main_arg8 (by decide)
theorem val1_a9 (V : Valuation τ sig (Elt Ideal)) : val1 V (Proc.devRef .tc main_arg9 : DevRef τ sig) = V (Proc.devRef .tc main_arg9 : DevRef τ sig) :=
  c0_keep _ main_arg9 (by decide)
theorem val1_a10 (V : Valuation τ sig (Elt Ideal)) : val1 V (Proc.devRef .tc main_arg10 : DevRef τ sig) = V (Proc.devRef .tc main_arg10 : DevRef τ sig) :=
  c0_keep _ main_arg10 (by decide)
theorem val1_a11 (V : Valuation τ sig (Elt Ideal)) : val1 V (Proc.devRef .tc main_arg11 : DevRef τ sig) = V (Proc.devRef .tc main_arg11 : DevRef τ sig) :=
  c0_keep _ main_arg11 (by decide)
theorem val1_a12 (V : Valuation τ sig (Elt Ideal)) : val1 V (Proc.devRef .tc main_arg12 : DevRef τ sig) = V (Proc.devRef .tc main_arg12 : DevRef τ sig) :=
  c0_keep _ main_arg12 (by decide)
theorem val1_a13 (V : Valuation τ sig (Elt Ideal)) : val1 V (Proc.devRef .tc main_arg13 : DevRef τ sig) = V (Proc.devRef .tc main_arg13 : DevRef τ sig) :=
  c0_keep _ main_arg13 (by decide)
theorem val1_a14 (V : Valuation τ sig (Elt Ideal)) : val1 V (Proc.devRef .tc main_arg14 : DevRef τ sig) = V (Proc.devRef .tc main_arg14 : DevRef τ sig) :=
  c0_keep _ main_arg14 (by decide)

theorem val2_a0 (V : Valuation τ sig (Elt Ideal)) : val2 V (Proc.devRef .tc main_arg0 : DevRef τ sig) = V (Proc.devRef .tc main_arg0 : DevRef τ sig) :=
  ((c2_keep _ main_arg0 (by decide)).trans (c1_keep _ main_arg0 (by decide))).trans (val1_a0 V)
theorem val2_a1 (V : Valuation τ sig (Elt Ideal)) : val2 V (Proc.devRef .tc main_arg1 : DevRef τ sig) = V (Proc.devRef .tc main_arg1 : DevRef τ sig) :=
  ((c2_keep _ main_arg1 (by decide)).trans (c1_keep _ main_arg1 (by decide))).trans (val1_a1 V)
theorem val2_a2 (V : Valuation τ sig (Elt Ideal)) : val2 V (Proc.devRef .tc main_arg2 : DevRef τ sig) = V (Proc.devRef .tc main_arg2 : DevRef τ sig) :=
  ((c2_keep _ main_arg2 (by decide)).trans (c1_keep _ main_arg2 (by decide))).trans (val1_a2 V)
theorem val2_a3 (V : Valuation τ sig (Elt Ideal)) : val2 V (Proc.devRef .tc main_arg3 : DevRef τ sig) = V (Proc.devRef .tc main_arg3 : DevRef τ sig) :=
  ((c2_keep _ main_arg3 (by decide)).trans (c1_keep _ main_arg3 (by decide))).trans (val1_a3 V)
theorem val2_a4 (V : Valuation τ sig (Elt Ideal)) : val2 V (Proc.devRef .tc main_arg4 : DevRef τ sig) = V (Proc.devRef .tc main_arg4 : DevRef τ sig) :=
  ((c2_keep _ main_arg4 (by decide)).trans (c1_keep _ main_arg4 (by decide))).trans (val1_a4 V)
theorem val2_a5 (V : Valuation τ sig (Elt Ideal)) : val2 V (Proc.devRef .tc main_arg5 : DevRef τ sig) = V (Proc.devRef .tc main_arg5 : DevRef τ sig) :=
  ((c2_keep _ main_arg5 (by decide)).trans (c1_keep _ main_arg5 (by decide))).trans (val1_a5 V)
theorem val2_a6 (V : Valuation τ sig (Elt Ideal)) : val2 V (Proc.devRef .tc main_arg6 : DevRef τ sig) = V (Proc.devRef .tc main_arg6 : DevRef τ sig) :=
  ((c2_keep _ main_arg6 (by decide)).trans (c1_keep _ main_arg6 (by decide))).trans (val1_a6 V)
theorem val2_a7 (V : Valuation τ sig (Elt Ideal)) : val2 V (Proc.devRef .tc main_arg7 : DevRef τ sig) = V (Proc.devRef .tc main_arg7 : DevRef τ sig) :=
  ((c2_keep _ main_arg7 (by decide)).trans (c1_keep _ main_arg7 (by decide))).trans (val1_a7 V)
theorem val2_a8 (V : Valuation τ sig (Elt Ideal)) : val2 V (Proc.devRef .tc main_arg8 : DevRef τ sig) = V (Proc.devRef .tc main_arg8 : DevRef τ sig) :=
  ((c2_keep _ main_arg8 (by decide)).trans (c1_keep _ main_arg8 (by decide))).trans (val1_a8 V)
theorem val2_a9 (V : Valuation τ sig (Elt Ideal)) : val2 V (Proc.devRef .tc main_arg9 : DevRef τ sig) = V (Proc.devRef .tc main_arg9 : DevRef τ sig) :=
  ((c2_keep _ main_arg9 (by decide)).trans (c1_keep _ main_arg9 (by decide))).trans (val1_a9 V)
theorem val2_a10 (V : Valuation τ sig (Elt Ideal)) : val2 V (Proc.devRef .tc main_arg10 : DevRef τ sig) = V (Proc.devRef .tc main_arg10 : DevRef τ sig) :=
  ((c2_keep _ main_arg10 (by decide)).trans (c1_keep _ main_arg10 (by decide))).trans (val1_a10 V)
theorem val2_a11 (V : Valuation τ sig (Elt Ideal)) : val2 V (Proc.devRef .tc main_arg11 : DevRef τ sig) = V (Proc.devRef .tc main_arg11 : DevRef τ sig) :=
  ((c2_keep _ main_arg11 (by decide)).trans (c1_keep _ main_arg11 (by decide))).trans (val1_a11 V)
theorem val2_a12 (V : Valuation τ sig (Elt Ideal)) : val2 V (Proc.devRef .tc main_arg12 : DevRef τ sig) = V (Proc.devRef .tc main_arg12 : DevRef τ sig) :=
  ((c2_keep _ main_arg12 (by decide)).trans (c1_keep _ main_arg12 (by decide))).trans (val1_a12 V)
theorem val2_a13 (V : Valuation τ sig (Elt Ideal)) : val2 V (Proc.devRef .tc main_arg13 : DevRef τ sig) = V (Proc.devRef .tc main_arg13 : DevRef τ sig) :=
  ((c2_keep _ main_arg13 (by decide)).trans (c1_keep _ main_arg13 (by decide))).trans (val1_a13 V)
theorem val2_a14 (V : Valuation τ sig (Elt Ideal)) : val2 V (Proc.devRef .tc main_arg14 : DevRef τ sig) = V (Proc.devRef .tc main_arg14 : DevRef τ sig) :=
  ((c2_keep _ main_arg14 (by decide)).trans (c1_keep _ main_arg14 (by decide))).trans (val1_a14 V)

theorem val3_a0 (V : Valuation τ sig (Elt Ideal)) : val3 V (Proc.devRef .tc main_arg0 : DevRef τ sig) = V (Proc.devRef .tc main_arg0 : DevRef τ sig) :=
  ((c4_keep _ main_arg0 (by decide)).trans (c3_keep _ main_arg0 (by decide))).trans (val2_a0 V)
theorem val3_a1 (V : Valuation τ sig (Elt Ideal)) : val3 V (Proc.devRef .tc main_arg1 : DevRef τ sig) = V (Proc.devRef .tc main_arg1 : DevRef τ sig) :=
  ((c4_keep _ main_arg1 (by decide)).trans (c3_keep _ main_arg1 (by decide))).trans (val2_a1 V)
theorem val3_a2 (V : Valuation τ sig (Elt Ideal)) : val3 V (Proc.devRef .tc main_arg2 : DevRef τ sig) = V (Proc.devRef .tc main_arg2 : DevRef τ sig) :=
  ((c4_keep _ main_arg2 (by decide)).trans (c3_keep _ main_arg2 (by decide))).trans (val2_a2 V)
theorem val3_a3 (V : Valuation τ sig (Elt Ideal)) : val3 V (Proc.devRef .tc main_arg3 : DevRef τ sig) = V (Proc.devRef .tc main_arg3 : DevRef τ sig) :=
  ((c4_keep _ main_arg3 (by decide)).trans (c3_keep _ main_arg3 (by decide))).trans (val2_a3 V)
theorem val3_a4 (V : Valuation τ sig (Elt Ideal)) : val3 V (Proc.devRef .tc main_arg4 : DevRef τ sig) = V (Proc.devRef .tc main_arg4 : DevRef τ sig) :=
  ((c4_keep _ main_arg4 (by decide)).trans (c3_keep _ main_arg4 (by decide))).trans (val2_a4 V)
theorem val3_a5 (V : Valuation τ sig (Elt Ideal)) : val3 V (Proc.devRef .tc main_arg5 : DevRef τ sig) = V (Proc.devRef .tc main_arg5 : DevRef τ sig) :=
  ((c4_keep _ main_arg5 (by decide)).trans (c3_keep _ main_arg5 (by decide))).trans (val2_a5 V)
theorem val3_a6 (V : Valuation τ sig (Elt Ideal)) : val3 V (Proc.devRef .tc main_arg6 : DevRef τ sig) = V (Proc.devRef .tc main_arg6 : DevRef τ sig) :=
  ((c4_keep _ main_arg6 (by decide)).trans (c3_keep _ main_arg6 (by decide))).trans (val2_a6 V)
theorem val3_a7 (V : Valuation τ sig (Elt Ideal)) : val3 V (Proc.devRef .tc main_arg7 : DevRef τ sig) = V (Proc.devRef .tc main_arg7 : DevRef τ sig) :=
  ((c4_keep _ main_arg7 (by decide)).trans (c3_keep _ main_arg7 (by decide))).trans (val2_a7 V)
theorem val3_a8 (V : Valuation τ sig (Elt Ideal)) : val3 V (Proc.devRef .tc main_arg8 : DevRef τ sig) = V (Proc.devRef .tc main_arg8 : DevRef τ sig) :=
  ((c4_keep _ main_arg8 (by decide)).trans (c3_keep _ main_arg8 (by decide))).trans (val2_a8 V)
theorem val3_a9 (V : Valuation τ sig (Elt Ideal)) : val3 V (Proc.devRef .tc main_arg9 : DevRef τ sig) = V (Proc.devRef .tc main_arg9 : DevRef τ sig) :=
  ((c4_keep _ main_arg9 (by decide)).trans (c3_keep _ main_arg9 (by decide))).trans (val2_a9 V)
theorem val3_a10 (V : Valuation τ sig (Elt Ideal)) : val3 V (Proc.devRef .tc main_arg10 : DevRef τ sig) = V (Proc.devRef .tc main_arg10 : DevRef τ sig) :=
  ((c4_keep _ main_arg10 (by decide)).trans (c3_keep _ main_arg10 (by decide))).trans (val2_a10 V)
theorem val3_a11 (V : Valuation τ sig (Elt Ideal)) : val3 V (Proc.devRef .tc main_arg11 : DevRef τ sig) = V (Proc.devRef .tc main_arg11 : DevRef τ sig) :=
  ((c4_keep _ main_arg11 (by decide)).trans (c3_keep _ main_arg11 (by decide))).trans (val2_a11 V)
theorem val3_a12 (V : Valuation τ sig (Elt Ideal)) : val3 V (Proc.devRef .tc main_arg12 : DevRef τ sig) = V (Proc.devRef .tc main_arg12 : DevRef τ sig) :=
  ((c4_keep _ main_arg12 (by decide)).trans (c3_keep _ main_arg12 (by decide))).trans (val2_a12 V)
theorem val3_a13 (V : Valuation τ sig (Elt Ideal)) : val3 V (Proc.devRef .tc main_arg13 : DevRef τ sig) = V (Proc.devRef .tc main_arg13 : DevRef τ sig) :=
  ((c4_keep _ main_arg13 (by decide)).trans (c3_keep _ main_arg13 (by decide))).trans (val2_a13 V)
theorem val3_a14 (V : Valuation τ sig (Elt Ideal)) : val3 V (Proc.devRef .tc main_arg14 : DevRef τ sig) = V (Proc.devRef .tc main_arg14 : DevRef τ sig) :=
  ((c4_keep _ main_arg14 (by decide)).trans (c3_keep _ main_arg14 (by decide))).trans (val2_a14 V)

theorem val4_a0 (V : Valuation τ sig (Elt Ideal)) : val4 V (Proc.devRef .tc main_arg0 : DevRef τ sig) = V (Proc.devRef .tc main_arg0 : DevRef τ sig) :=
  ((c6_keep _ main_arg0 (by decide)).trans (c5_keep _ main_arg0 (by decide))).trans (val3_a0 V)
theorem val4_a1 (V : Valuation τ sig (Elt Ideal)) : val4 V (Proc.devRef .tc main_arg1 : DevRef τ sig) = V (Proc.devRef .tc main_arg1 : DevRef τ sig) :=
  ((c6_keep _ main_arg1 (by decide)).trans (c5_keep _ main_arg1 (by decide))).trans (val3_a1 V)
theorem val4_a2 (V : Valuation τ sig (Elt Ideal)) : val4 V (Proc.devRef .tc main_arg2 : DevRef τ sig) = V (Proc.devRef .tc main_arg2 : DevRef τ sig) :=
  ((c6_keep _ main_arg2 (by decide)).trans (c5_keep _ main_arg2 (by decide))).trans (val3_a2 V)
theorem val4_a3 (V : Valuation τ sig (Elt Ideal)) : val4 V (Proc.devRef .tc main_arg3 : DevRef τ sig) = V (Proc.devRef .tc main_arg3 : DevRef τ sig) :=
  ((c6_keep _ main_arg3 (by decide)).trans (c5_keep _ main_arg3 (by decide))).trans (val3_a3 V)
theorem val4_a4 (V : Valuation τ sig (Elt Ideal)) : val4 V (Proc.devRef .tc main_arg4 : DevRef τ sig) = V (Proc.devRef .tc main_arg4 : DevRef τ sig) :=
  ((c6_keep _ main_arg4 (by decide)).trans (c5_keep _ main_arg4 (by decide))).trans (val3_a4 V)
theorem val4_a5 (V : Valuation τ sig (Elt Ideal)) : val4 V (Proc.devRef .tc main_arg5 : DevRef τ sig) = V (Proc.devRef .tc main_arg5 : DevRef τ sig) :=
  ((c6_keep _ main_arg5 (by decide)).trans (c5_keep _ main_arg5 (by decide))).trans (val3_a5 V)
theorem val4_a6 (V : Valuation τ sig (Elt Ideal)) : val4 V (Proc.devRef .tc main_arg6 : DevRef τ sig) = V (Proc.devRef .tc main_arg6 : DevRef τ sig) :=
  ((c6_keep _ main_arg6 (by decide)).trans (c5_keep _ main_arg6 (by decide))).trans (val3_a6 V)
theorem val4_a7 (V : Valuation τ sig (Elt Ideal)) : val4 V (Proc.devRef .tc main_arg7 : DevRef τ sig) = V (Proc.devRef .tc main_arg7 : DevRef τ sig) :=
  ((c6_keep _ main_arg7 (by decide)).trans (c5_keep _ main_arg7 (by decide))).trans (val3_a7 V)
theorem val4_a8 (V : Valuation τ sig (Elt Ideal)) : val4 V (Proc.devRef .tc main_arg8 : DevRef τ sig) = V (Proc.devRef .tc main_arg8 : DevRef τ sig) :=
  ((c6_keep _ main_arg8 (by decide)).trans (c5_keep _ main_arg8 (by decide))).trans (val3_a8 V)
theorem val4_a9 (V : Valuation τ sig (Elt Ideal)) : val4 V (Proc.devRef .tc main_arg9 : DevRef τ sig) = V (Proc.devRef .tc main_arg9 : DevRef τ sig) :=
  ((c6_keep _ main_arg9 (by decide)).trans (c5_keep _ main_arg9 (by decide))).trans (val3_a9 V)
theorem val4_a10 (V : Valuation τ sig (Elt Ideal)) : val4 V (Proc.devRef .tc main_arg10 : DevRef τ sig) = V (Proc.devRef .tc main_arg10 : DevRef τ sig) :=
  ((c6_keep _ main_arg10 (by decide)).trans (c5_keep _ main_arg10 (by decide))).trans (val3_a10 V)
theorem val4_a11 (V : Valuation τ sig (Elt Ideal)) : val4 V (Proc.devRef .tc main_arg11 : DevRef τ sig) = V (Proc.devRef .tc main_arg11 : DevRef τ sig) :=
  ((c6_keep _ main_arg11 (by decide)).trans (c5_keep _ main_arg11 (by decide))).trans (val3_a11 V)
theorem val4_a12 (V : Valuation τ sig (Elt Ideal)) : val4 V (Proc.devRef .tc main_arg12 : DevRef τ sig) = V (Proc.devRef .tc main_arg12 : DevRef τ sig) :=
  ((c6_keep _ main_arg12 (by decide)).trans (c5_keep _ main_arg12 (by decide))).trans (val3_a12 V)
theorem val4_a13 (V : Valuation τ sig (Elt Ideal)) : val4 V (Proc.devRef .tc main_arg13 : DevRef τ sig) = V (Proc.devRef .tc main_arg13 : DevRef τ sig) :=
  ((c6_keep _ main_arg13 (by decide)).trans (c5_keep _ main_arg13 (by decide))).trans (val3_a13 V)
theorem val4_a14 (V : Valuation τ sig (Elt Ideal)) : val4 V (Proc.devRef .tc main_arg14 : DevRef τ sig) = V (Proc.devRef .tc main_arg14 : DevRef τ sig) :=
  ((c6_keep _ main_arg14 (by decide)).trans (c5_keep _ main_arg14 (by decide))).trans (val3_a14 V)

theorem val5_a0 (V : Valuation τ sig (Elt Ideal)) : val5 V (Proc.devRef .tc main_arg0 : DevRef τ sig) = V (Proc.devRef .tc main_arg0 : DevRef τ sig) :=
  ((c8_keep _ main_arg0 (by decide)).trans (c7_keep _ main_arg0 (by decide))).trans (val4_a0 V)
theorem val5_a1 (V : Valuation τ sig (Elt Ideal)) : val5 V (Proc.devRef .tc main_arg1 : DevRef τ sig) = V (Proc.devRef .tc main_arg1 : DevRef τ sig) :=
  ((c8_keep _ main_arg1 (by decide)).trans (c7_keep _ main_arg1 (by decide))).trans (val4_a1 V)
theorem val5_a2 (V : Valuation τ sig (Elt Ideal)) : val5 V (Proc.devRef .tc main_arg2 : DevRef τ sig) = V (Proc.devRef .tc main_arg2 : DevRef τ sig) :=
  ((c8_keep _ main_arg2 (by decide)).trans (c7_keep _ main_arg2 (by decide))).trans (val4_a2 V)
theorem val5_a3 (V : Valuation τ sig (Elt Ideal)) : val5 V (Proc.devRef .tc main_arg3 : DevRef τ sig) = V (Proc.devRef .tc main_arg3 : DevRef τ sig) :=
  ((c8_keep _ main_arg3 (by decide)).trans (c7_keep _ main_arg3 (by decide))).trans (val4_a3 V)
theorem val5_a4 (V : Valuation τ sig (Elt Ideal)) : val5 V (Proc.devRef .tc main_arg4 : DevRef τ sig) = V (Proc.devRef .tc main_arg4 : DevRef τ sig) :=
  ((c8_keep _ main_arg4 (by decide)).trans (c7_keep _ main_arg4 (by decide))).trans (val4_a4 V)
theorem val5_a5 (V : Valuation τ sig (Elt Ideal)) : val5 V (Proc.devRef .tc main_arg5 : DevRef τ sig) = V (Proc.devRef .tc main_arg5 : DevRef τ sig) :=
  ((c8_keep _ main_arg5 (by decide)).trans (c7_keep _ main_arg5 (by decide))).trans (val4_a5 V)
theorem val5_a6 (V : Valuation τ sig (Elt Ideal)) : val5 V (Proc.devRef .tc main_arg6 : DevRef τ sig) = V (Proc.devRef .tc main_arg6 : DevRef τ sig) :=
  ((c8_keep _ main_arg6 (by decide)).trans (c7_keep _ main_arg6 (by decide))).trans (val4_a6 V)
theorem val5_a7 (V : Valuation τ sig (Elt Ideal)) : val5 V (Proc.devRef .tc main_arg7 : DevRef τ sig) = V (Proc.devRef .tc main_arg7 : DevRef τ sig) :=
  ((c8_keep _ main_arg7 (by decide)).trans (c7_keep _ main_arg7 (by decide))).trans (val4_a7 V)
theorem val5_a8 (V : Valuation τ sig (Elt Ideal)) : val5 V (Proc.devRef .tc main_arg8 : DevRef τ sig) = V (Proc.devRef .tc main_arg8 : DevRef τ sig) :=
  ((c8_keep _ main_arg8 (by decide)).trans (c7_keep _ main_arg8 (by decide))).trans (val4_a8 V)
theorem val5_a9 (V : Valuation τ sig (Elt Ideal)) : val5 V (Proc.devRef .tc main_arg9 : DevRef τ sig) = V (Proc.devRef .tc main_arg9 : DevRef τ sig) :=
  ((c8_keep _ main_arg9 (by decide)).trans (c7_keep _ main_arg9 (by decide))).trans (val4_a9 V)
theorem val5_a10 (V : Valuation τ sig (Elt Ideal)) : val5 V (Proc.devRef .tc main_arg10 : DevRef τ sig) = V (Proc.devRef .tc main_arg10 : DevRef τ sig) :=
  ((c8_keep _ main_arg10 (by decide)).trans (c7_keep _ main_arg10 (by decide))).trans (val4_a10 V)
theorem val5_a11 (V : Valuation τ sig (Elt Ideal)) : val5 V (Proc.devRef .tc main_arg11 : DevRef τ sig) = V (Proc.devRef .tc main_arg11 : DevRef τ sig) :=
  ((c8_keep _ main_arg11 (by decide)).trans (c7_keep _ main_arg11 (by decide))).trans (val4_a11 V)
theorem val5_a12 (V : Valuation τ sig (Elt Ideal)) : val5 V (Proc.devRef .tc main_arg12 : DevRef τ sig) = V (Proc.devRef .tc main_arg12 : DevRef τ sig) :=
  ((c8_keep _ main_arg12 (by decide)).trans (c7_keep _ main_arg12 (by decide))).trans (val4_a12 V)
theorem val5_a13 (V : Valuation τ sig (Elt Ideal)) : val5 V (Proc.devRef .tc main_arg13 : DevRef τ sig) = V (Proc.devRef .tc main_arg13 : DevRef τ sig) :=
  ((c8_keep _ main_arg13 (by decide)).trans (c7_keep _ main_arg13 (by decide))).trans (val4_a13 V)
theorem val5_a14 (V : Valuation τ sig (Elt Ideal)) : val5 V (Proc.devRef .tc main_arg14 : DevRef τ sig) = V (Proc.devRef .tc main_arg14 : DevRef τ sig) :=
  ((c8_keep _ main_arg14 (by decide)).trans (c7_keep _ main_arg14 (by decide))).trans (val4_a14 V)

theorem val6_a0 (V : Valuation τ sig (Elt Ideal)) : val6 V (Proc.devRef .tc main_arg0 : DevRef τ sig) = V (Proc.devRef .tc main_arg0 : DevRef τ sig) :=
  ((c10_keep _ main_arg0 (by decide)).trans (c9_keep _ main_arg0 (by decide))).trans (val5_a0 V)
theorem val6_a1 (V : Valuation τ sig (Elt Ideal)) : val6 V (Proc.devRef .tc main_arg1 : DevRef τ sig) = V (Proc.devRef .tc main_arg1 : DevRef τ sig) :=
  ((c10_keep _ main_arg1 (by decide)).trans (c9_keep _ main_arg1 (by decide))).trans (val5_a1 V)
theorem val6_a2 (V : Valuation τ sig (Elt Ideal)) : val6 V (Proc.devRef .tc main_arg2 : DevRef τ sig) = V (Proc.devRef .tc main_arg2 : DevRef τ sig) :=
  ((c10_keep _ main_arg2 (by decide)).trans (c9_keep _ main_arg2 (by decide))).trans (val5_a2 V)
theorem val6_a3 (V : Valuation τ sig (Elt Ideal)) : val6 V (Proc.devRef .tc main_arg3 : DevRef τ sig) = V (Proc.devRef .tc main_arg3 : DevRef τ sig) :=
  ((c10_keep _ main_arg3 (by decide)).trans (c9_keep _ main_arg3 (by decide))).trans (val5_a3 V)
theorem val6_a4 (V : Valuation τ sig (Elt Ideal)) : val6 V (Proc.devRef .tc main_arg4 : DevRef τ sig) = V (Proc.devRef .tc main_arg4 : DevRef τ sig) :=
  ((c10_keep _ main_arg4 (by decide)).trans (c9_keep _ main_arg4 (by decide))).trans (val5_a4 V)
theorem val6_a5 (V : Valuation τ sig (Elt Ideal)) : val6 V (Proc.devRef .tc main_arg5 : DevRef τ sig) = V (Proc.devRef .tc main_arg5 : DevRef τ sig) :=
  ((c10_keep _ main_arg5 (by decide)).trans (c9_keep _ main_arg5 (by decide))).trans (val5_a5 V)
theorem val6_a6 (V : Valuation τ sig (Elt Ideal)) : val6 V (Proc.devRef .tc main_arg6 : DevRef τ sig) = V (Proc.devRef .tc main_arg6 : DevRef τ sig) :=
  ((c10_keep _ main_arg6 (by decide)).trans (c9_keep _ main_arg6 (by decide))).trans (val5_a6 V)
theorem val6_a7 (V : Valuation τ sig (Elt Ideal)) : val6 V (Proc.devRef .tc main_arg7 : DevRef τ sig) = V (Proc.devRef .tc main_arg7 : DevRef τ sig) :=
  ((c10_keep _ main_arg7 (by decide)).trans (c9_keep _ main_arg7 (by decide))).trans (val5_a7 V)
theorem val6_a8 (V : Valuation τ sig (Elt Ideal)) : val6 V (Proc.devRef .tc main_arg8 : DevRef τ sig) = V (Proc.devRef .tc main_arg8 : DevRef τ sig) :=
  ((c10_keep _ main_arg8 (by decide)).trans (c9_keep _ main_arg8 (by decide))).trans (val5_a8 V)
theorem val6_a9 (V : Valuation τ sig (Elt Ideal)) : val6 V (Proc.devRef .tc main_arg9 : DevRef τ sig) = V (Proc.devRef .tc main_arg9 : DevRef τ sig) :=
  ((c10_keep _ main_arg9 (by decide)).trans (c9_keep _ main_arg9 (by decide))).trans (val5_a9 V)
theorem val6_a10 (V : Valuation τ sig (Elt Ideal)) : val6 V (Proc.devRef .tc main_arg10 : DevRef τ sig) = V (Proc.devRef .tc main_arg10 : DevRef τ sig) :=
  ((c10_keep _ main_arg10 (by decide)).trans (c9_keep _ main_arg10 (by decide))).trans (val5_a10 V)
theorem val6_a11 (V : Valuation τ sig (Elt Ideal)) : val6 V (Proc.devRef .tc main_arg11 : DevRef τ sig) = V (Proc.devRef .tc main_arg11 : DevRef τ sig) :=
  ((c10_keep _ main_arg11 (by decide)).trans (c9_keep _ main_arg11 (by decide))).trans (val5_a11 V)
theorem val6_a12 (V : Valuation τ sig (Elt Ideal)) : val6 V (Proc.devRef .tc main_arg12 : DevRef τ sig) = V (Proc.devRef .tc main_arg12 : DevRef τ sig) :=
  ((c10_keep _ main_arg12 (by decide)).trans (c9_keep _ main_arg12 (by decide))).trans (val5_a12 V)
theorem val6_a13 (V : Valuation τ sig (Elt Ideal)) : val6 V (Proc.devRef .tc main_arg13 : DevRef τ sig) = V (Proc.devRef .tc main_arg13 : DevRef τ sig) :=
  ((c10_keep _ main_arg13 (by decide)).trans (c9_keep _ main_arg13 (by decide))).trans (val5_a13 V)
theorem val6_a14 (V : Valuation τ sig (Elt Ideal)) : val6 V (Proc.devRef .tc main_arg14 : DevRef τ sig) = V (Proc.devRef .tc main_arg14 : DevRef τ sig) :=
  ((c10_keep _ main_arg14 (by decide)).trans (c9_keep _ main_arg14 (by decide))).trans (val5_a14 V)

/-! ### The layers' outputs -/

theorem val1_v42 (V : Valuation τ sig (Elt Ideal)) : val1 V (Proc.devRef .tc main_v42 : DevRef τ sig) = Cert.Spec.act (Cert.Spec.lin (Cert.Spec.glue (V (Proc.devRef .tc main_arg0 : DevRef τ sig)) (V (Proc.devRef .tc main_arg1 : DevRef τ sig)) (V (Proc.devRef .tc main_arg2 : DevRef τ sig))) (V (Proc.devRef .tc main_arg3 : DevRef τ sig)) (V (Proc.devRef .tc main_arg4 : DevRef τ sig))) := L0_out V

theorem val2_v85 (V : Valuation τ sig (Elt Ideal)) : val2 V (Proc.devRef .tc main_v85 : DevRef τ sig) = Cert.Spec.act (Cert.Spec.lin (Cert.Spec.glue (Cert.Spec.act (Cert.Spec.lin (Cert.Spec.glue (V (Proc.devRef .tc main_arg0 : DevRef τ sig)) (V (Proc.devRef .tc main_arg1 : DevRef τ sig)) (V (Proc.devRef .tc main_arg2 : DevRef τ sig))) (V (Proc.devRef .tc main_arg3 : DevRef τ sig)) (V (Proc.devRef .tc main_arg4 : DevRef τ sig)))) (V (Proc.devRef .tc main_arg1 : DevRef τ sig)) (V (Proc.devRef .tc main_arg2 : DevRef τ sig))) (V (Proc.devRef .tc main_arg5 : DevRef τ sig)) (V (Proc.devRef .tc main_arg6 : DevRef τ sig))) :=
  (L1_out (val1 V)).trans (by rw [val1_v42, val1_a1, val1_a2, val1_a5, val1_a6])

theorem val3_v127 (V : Valuation τ sig (Elt Ideal)) : val3 V (Proc.devRef .tc main_v127 : DevRef τ sig) = Cert.Spec.lin (Cert.Spec.glue (Cert.Spec.act (Cert.Spec.lin (Cert.Spec.glue (Cert.Spec.act (Cert.Spec.lin (Cert.Spec.glue (V (Proc.devRef .tc main_arg0 : DevRef τ sig)) (V (Proc.devRef .tc main_arg1 : DevRef τ sig)) (V (Proc.devRef .tc main_arg2 : DevRef τ sig))) (V (Proc.devRef .tc main_arg3 : DevRef τ sig)) (V (Proc.devRef .tc main_arg4 : DevRef τ sig)))) (V (Proc.devRef .tc main_arg1 : DevRef τ sig)) (V (Proc.devRef .tc main_arg2 : DevRef τ sig))) (V (Proc.devRef .tc main_arg5 : DevRef τ sig)) (V (Proc.devRef .tc main_arg6 : DevRef τ sig)))) (V (Proc.devRef .tc main_arg1 : DevRef τ sig)) (V (Proc.devRef .tc main_arg2 : DevRef τ sig))) (V (Proc.devRef .tc main_arg7 : DevRef τ sig)) (V (Proc.devRef .tc main_arg8 : DevRef τ sig)) :=
  (L2_out (val2 V)).trans (by rw [val2_v85, val2_a1, val2_a2, val2_a7, val2_a8])

theorem val4_v170 (V : Valuation τ sig (Elt Ideal)) : val4 V (Proc.devRef .tc main_v170 : DevRef τ sig) = Cert.Spec.act (Cert.Spec.lin (Cert.Spec.glue (V (Proc.devRef .tc main_arg0 : DevRef τ sig)) (V (Proc.devRef .tc main_arg1 : DevRef τ sig)) (V (Proc.devRef .tc main_arg2 : DevRef τ sig))) (V (Proc.devRef .tc main_arg9 : DevRef τ sig)) (V (Proc.devRef .tc main_arg10 : DevRef τ sig))) :=
  (L3_out (val3 V)).trans (by rw [val3_a0, val3_a1, val3_a2, val3_a9, val3_a10])

theorem val4_v127 (V : Valuation τ sig (Elt Ideal)) : val4 V (Proc.devRef .tc main_v127 : DevRef τ sig) = Cert.Spec.lin (Cert.Spec.glue (Cert.Spec.act (Cert.Spec.lin (Cert.Spec.glue (Cert.Spec.act (Cert.Spec.lin (Cert.Spec.glue (V (Proc.devRef .tc main_arg0 : DevRef τ sig)) (V (Proc.devRef .tc main_arg1 : DevRef τ sig)) (V (Proc.devRef .tc main_arg2 : DevRef τ sig))) (V (Proc.devRef .tc main_arg3 : DevRef τ sig)) (V (Proc.devRef .tc main_arg4 : DevRef τ sig)))) (V (Proc.devRef .tc main_arg1 : DevRef τ sig)) (V (Proc.devRef .tc main_arg2 : DevRef τ sig))) (V (Proc.devRef .tc main_arg5 : DevRef τ sig)) (V (Proc.devRef .tc main_arg6 : DevRef τ sig)))) (V (Proc.devRef .tc main_arg1 : DevRef τ sig)) (V (Proc.devRef .tc main_arg2 : DevRef τ sig))) (V (Proc.devRef .tc main_arg7 : DevRef τ sig)) (V (Proc.devRef .tc main_arg8 : DevRef τ sig)) :=
  ((c6_keep _ main_v127 (by decide)).trans (c5_keep _ main_v127 (by decide))).trans (val3_v127 V)

theorem val5_v213 (V : Valuation τ sig (Elt Ideal)) : val5 V (Proc.devRef .tc main_v213 : DevRef τ sig) = Cert.Spec.act (Cert.Spec.lin (Cert.Spec.glue (Cert.Spec.act (Cert.Spec.lin (Cert.Spec.glue (V (Proc.devRef .tc main_arg0 : DevRef τ sig)) (V (Proc.devRef .tc main_arg1 : DevRef τ sig)) (V (Proc.devRef .tc main_arg2 : DevRef τ sig))) (V (Proc.devRef .tc main_arg9 : DevRef τ sig)) (V (Proc.devRef .tc main_arg10 : DevRef τ sig)))) (V (Proc.devRef .tc main_arg1 : DevRef τ sig)) (V (Proc.devRef .tc main_arg2 : DevRef τ sig))) (V (Proc.devRef .tc main_arg11 : DevRef τ sig)) (V (Proc.devRef .tc main_arg12 : DevRef τ sig))) :=
  (L4_out (val4 V)).trans (by rw [val4_v170, val4_a1, val4_a2, val4_a11, val4_a12])

theorem val5_v127 (V : Valuation τ sig (Elt Ideal)) : val5 V (Proc.devRef .tc main_v127 : DevRef τ sig) = Cert.Spec.lin (Cert.Spec.glue (Cert.Spec.act (Cert.Spec.lin (Cert.Spec.glue (Cert.Spec.act (Cert.Spec.lin (Cert.Spec.glue (V (Proc.devRef .tc main_arg0 : DevRef τ sig)) (V (Proc.devRef .tc main_arg1 : DevRef τ sig)) (V (Proc.devRef .tc main_arg2 : DevRef τ sig))) (V (Proc.devRef .tc main_arg3 : DevRef τ sig)) (V (Proc.devRef .tc main_arg4 : DevRef τ sig)))) (V (Proc.devRef .tc main_arg1 : DevRef τ sig)) (V (Proc.devRef .tc main_arg2 : DevRef τ sig))) (V (Proc.devRef .tc main_arg5 : DevRef τ sig)) (V (Proc.devRef .tc main_arg6 : DevRef τ sig)))) (V (Proc.devRef .tc main_arg1 : DevRef τ sig)) (V (Proc.devRef .tc main_arg2 : DevRef τ sig))) (V (Proc.devRef .tc main_arg7 : DevRef τ sig)) (V (Proc.devRef .tc main_arg8 : DevRef τ sig)) :=
  ((c8_keep _ main_v127 (by decide)).trans (c7_keep _ main_v127 (by decide))).trans (val4_v127 V)

theorem val6_v255 (V : Valuation τ sig (Elt Ideal)) : val6 V (Proc.devRef .tc main_v255 : DevRef τ sig) = Cert.Spec.lin1 (Cert.Spec.glue (Cert.Spec.act (Cert.Spec.lin (Cert.Spec.glue (Cert.Spec.act (Cert.Spec.lin (Cert.Spec.glue (V (Proc.devRef .tc main_arg0 : DevRef τ sig)) (V (Proc.devRef .tc main_arg1 : DevRef τ sig)) (V (Proc.devRef .tc main_arg2 : DevRef τ sig))) (V (Proc.devRef .tc main_arg9 : DevRef τ sig)) (V (Proc.devRef .tc main_arg10 : DevRef τ sig)))) (V (Proc.devRef .tc main_arg1 : DevRef τ sig)) (V (Proc.devRef .tc main_arg2 : DevRef τ sig))) (V (Proc.devRef .tc main_arg11 : DevRef τ sig)) (V (Proc.devRef .tc main_arg12 : DevRef τ sig)))) (V (Proc.devRef .tc main_arg1 : DevRef τ sig)) (V (Proc.devRef .tc main_arg2 : DevRef τ sig))) (V (Proc.devRef .tc main_arg13 : DevRef τ sig)) (V (Proc.devRef .tc main_arg14 : DevRef τ sig)) :=
  (L5_out (val5 V)).trans (by rw [val5_v213, val5_a1, val5_a2, val5_a13, val5_a14])

theorem val6_v127 (V : Valuation τ sig (Elt Ideal)) : val6 V (Proc.devRef .tc main_v127 : DevRef τ sig) = Cert.Spec.lin (Cert.Spec.glue (Cert.Spec.act (Cert.Spec.lin (Cert.Spec.glue (Cert.Spec.act (Cert.Spec.lin (Cert.Spec.glue (V (Proc.devRef .tc main_arg0 : DevRef τ sig)) (V (Proc.devRef .tc main_arg1 : DevRef τ sig)) (V (Proc.devRef .tc main_arg2 : DevRef τ sig))) (V (Proc.devRef .tc main_arg3 : DevRef τ sig)) (V (Proc.devRef .tc main_arg4 : DevRef τ sig)))) (V (Proc.devRef .tc main_arg1 : DevRef τ sig)) (V (Proc.devRef .tc main_arg2 : DevRef τ sig))) (V (Proc.devRef .tc main_arg5 : DevRef τ sig)) (V (Proc.devRef .tc main_arg6 : DevRef τ sig)))) (V (Proc.devRef .tc main_arg1 : DevRef τ sig)) (V (Proc.devRef .tc main_arg2 : DevRef τ sig))) (V (Proc.devRef .tc main_arg7 : DevRef τ sig)) (V (Proc.devRef .tc main_arg8 : DevRef τ sig)) :=
  ((c10_keep _ main_v127 (by decide)).trans (c9_keep _ main_v127 (by decide))).trans (val5_v127 V)

/-- The whole line's fold is the sixth contents. -/
theorem after_ops (V : Valuation τ sig (Elt Ideal)) : after (ops (F := Ideal)) V = val6 V := by
  simp only [ops, after_append]
  rfl

/-- On every device, from any memory with zero counters: every weakly fair execution of the reference program
    terminates with its first result the three-layer composition `Cert.Spec.out0`, its second `Cert.Spec.out1`,
    of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v127) = Cert.Spec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v255) = Cert.Spec.out1 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v127).trans ((congrFun (after_ops _) _).trans (val6_v127 _)),
      (h c main_v255).trans ((congrFun (after_ops _) _).trans (val6_v255 _)),
      (h c main_arg0).trans ((congrFun (after_ops _) _).trans (val6_a0 _)),
      (h c main_arg1).trans ((congrFun (after_ops _) _).trans (val6_a1 _)),
      (h c main_arg2).trans ((congrFun (after_ops _) _).trans (val6_a2 _)),
      (h c main_arg3).trans ((congrFun (after_ops _) _).trans (val6_a3 _)),
      (h c main_arg4).trans ((congrFun (after_ops _) _).trans (val6_a4 _)),
      (h c main_arg5).trans ((congrFun (after_ops _) _).trans (val6_a5 _)),
      (h c main_arg6).trans ((congrFun (after_ops _) _).trans (val6_a6 _)),
      (h c main_arg7).trans ((congrFun (after_ops _) _).trans (val6_a7 _)),
      (h c main_arg8).trans ((congrFun (after_ops _) _).trans (val6_a8 _)),
      (h c main_arg9).trans ((congrFun (after_ops _) _).trans (val6_a9 _)),
      (h c main_arg10).trans ((congrFun (after_ops _) _).trans (val6_a10 _)),
      (h c main_arg11).trans ((congrFun (after_ops _) _).trans (val6_a11 _)),
      (h c main_arg12).trans ((congrFun (after_ops _) _).trans (val6_a12 _)),
      (h c main_arg13).trans ((congrFun (after_ops _) _).trans (val6_a13 _)),
      (h c main_arg14).trans ((congrFun (after_ops _) _).trans (val6_a14 _))⟩)
    (run_seq scopedRefs_eq scopedSems_eq defs main (fun _ => ops) main_eq (fun _ => ops_sub) m ρ (fun _ => ops_fresh))

end Cert.ReferenceIdeal.RefRun

end
-- ==== Proof.IdealEntries.lean ====
import proofs.«135243_j27986006901491_1_alg».proof.Proof.Gen.KernelIdeal.Regions
import proofs.«135243_j27986006901491_1_alg».proof.Proof.Spec
import proofs.«135243_j27986006901491_1_alg».proof.Proof.Gen.ReferenceIdeal
import Idealize.ShloMosaic.Lib.StableHlo.Run

/-! What each host stretch of the kernel program hands to the kernel launch that follows it.

A host stretch is one layer's edge-feature stage followed by two changes of format (to the 16-bit format the
kernel multiplies in), which at the extended reals are the identity. So from any contents `W` of the buffers
the stretch leaves: in the kernel's activation array the edge-feature stage `Cert.Spec.glue` of what `W` holds
in the layer's input and the two index vectors; in the kernel's weight array what `W` holds in the layer's
weight argument; and the bias argument untouched. The kernel program's and the reference program's shape and
index records are separate constants with the same fields, equal by unfolding. -/

noncomputable section

namespace Cert.KernelIdeal.Fr

open Cert.KernelIdeal Cert.KernelIdeal.Gen
open Idealize.ShloMosaic Idealize.ShloMosaic.TcCoe Idealize.SL.Sem Idealize.ShloMosaic.StableHlo

set_option maxRecDepth 8192 in
set_option maxHeartbeats 4000000 in
/-- Host stretch 0 leaves in the kernel's activation array the edge-feature stage of what it read. -/
theorem entry0_act (W : Valuation τ sig (Elt Ideal)) :
    StableHlo.after (hostOps0 (F := Ideal)) W (Proc.devRef .tc main_v37 : DevRef τ sig)
      = Cert.Spec.glue (W (Proc.devRef .tc main_arg0 : DevRef τ sig)) (W (Proc.devRef .tc main_arg1 : DevRef τ sig)) (W (Proc.devRef .tc main_arg2 : DevRef τ sig)) := by
  simp only [hostOps0]
  after_results_simp
  rfl

set_option maxRecDepth 8192 in
set_option maxHeartbeats 4000000 in
/-- Host stretch 0 leaves in the kernel's weight array the weight argument: the change of format is the identity. -/
theorem entry0_w (W : Valuation τ sig (Elt Ideal)) :
    StableHlo.after (hostOps0 (F := Ideal)) W (Proc.devRef .tc main_v38 : DevRef τ sig) = W (Proc.devRef .tc main_arg3 : DevRef τ sig) := by
  simp only [hostOps0]
  after_results_simp
  rfl

/-- Host stretch 0 does not write the bias argument. -/
theorem entry0_b (W : Valuation τ sig (Elt Ideal)) :
    StableHlo.after (hostOps0 (F := Ideal)) W (Proc.devRef .tc main_arg4 : DevRef τ sig) = W (Proc.devRef .tc main_arg4 : DevRef τ sig) :=
  StableHlo.after_of_writes_sub hostOps0 W hostOps0_writes (by decide)

set_option maxRecDepth 8192 in
set_option maxHeartbeats 4000000 in
/-- Host stretch 1 leaves in the kernel's activation array the edge-feature stage of what it read. -/
theorem entry1_act (W : Valuation τ sig (Elt Ideal)) :
    StableHlo.after (hostOps1 (F := Ideal)) W (Proc.devRef .tc main_v77 : DevRef τ sig)
      = Cert.Spec.glue (W (Proc.devRef .tc main_v39 : DevRef τ sig)) (W (Proc.devRef .tc main_arg1 : DevRef τ sig)) (W (Proc.devRef .tc main_arg2 : DevRef τ sig)) := by
  simp only [hostOps1]
  after_results_simp
  rfl

set_option maxRecDepth 8192 in
set_option maxHeartbeats 4000000 in
/-- Host stretch 1 leaves in the kernel's weight array the weight argument: the change of format is the identity. -/
theorem entry1_w (W : Valuation τ sig (Elt Ideal)) :
    StableHlo.after (hostOps1 (F := Ideal)) W (Proc.devRef .tc main_v78 : DevRef τ sig) = W (Proc.devRef .tc main_arg5 : DevRef τ sig) := by
  simp only [hostOps1]
  after_results_simp
  rfl

/-- Host stretch 1 does not write the bias argument. -/
theorem entry1_b (W : Valuation τ sig (Elt Ideal)) :
    StableHlo.after (hostOps1 (F := Ideal)) W (Proc.devRef .tc main_arg6 : DevRef τ sig) = W (Proc.devRef .tc main_arg6 : DevRef τ sig) :=
  StableHlo.after_of_writes_sub hostOps1 W hostOps1_writes (by decide)

set_option maxRecDepth 8192 in
set_option maxHeartbeats 4000000 in
/-- Host stretch 2 leaves in the kernel's activation array the edge-feature stage of what it read. -/
theorem entry2_act (W : Valuation τ sig (Elt Ideal)) :
    StableHlo.after (hostOps2 (F := Ideal)) W (Proc.devRef .tc main_v117 : DevRef τ sig)
      = Cert.Spec.glue (W (Proc.devRef .tc main_v79 : DevRef τ sig)) (W (Proc.devRef .tc main_arg1 : DevRef τ sig)) (W (Proc.devRef .tc main_arg2 : DevRef τ sig)) := by
  simp only [hostOps2]
  after_results_simp
  rfl

set_option maxRecDepth 8192 in
set_option maxHeartbeats 4000000 in
/-- Host stretch 2 leaves in the kernel's weight array the weight argument: the change of format is the identity. -/
theorem entry2_w (W : Valuation τ sig (Elt Ideal)) :
    StableHlo.after (hostOps2 (F := Ideal)) W (Proc.devRef .tc main_v118 : DevRef τ sig) = W (Proc.devRef .tc main_arg7 : DevRef τ sig) := by
  simp only [hostOps2]
  after_results_simp
  rfl

/-- Host stretch 2 does not write the bias argument. -/
theorem entry2_b (W : Valuation τ sig (Elt Ideal)) :
    StableHlo.after (hostOps2 (F := Ideal)) W (Proc.devRef .tc main_arg8 : DevRef τ sig) = W (Proc.devRef .tc main_arg8 : DevRef τ sig) :=
  StableHlo.after_of_writes_sub hostOps2 W hostOps2_writes (by decide)

set_option maxRecDepth 8192 in
set_option maxHeartbeats 4000000 in
/-- Host stretch 3 leaves in the kernel's activation array the edge-feature stage of what it read. -/
theorem entry3_act (W : Valuation τ sig (Elt Ideal)) :
    StableHlo.after (hostOps3 (F := Ideal)) W (Proc.devRef .tc main_v157 : DevRef τ sig)
      = Cert.Spec.glue (W (Proc.devRef .tc main_arg0 : DevRef τ sig)) (W (Proc.devRef .tc main_arg1 : DevRef τ sig)) (W (Proc.devRef .tc main_arg2 : DevRef τ sig)) := by
  simp only [hostOps3]
  after_results_simp
  rfl

set_option maxRecDepth 8192 in
set_option maxHeartbeats 4000000 in
/-- Host stretch 3 leaves in the kernel's weight array the weight argument: the change of format is the identity. -/
theorem entry3_w (W : Valuation τ sig (Elt Ideal)) :
    StableHlo.after (hostOps3 (F := Ideal)) W (Proc.devRef .tc main_v158 : DevRef τ sig) = W (Proc.devRef .tc main_arg9 : DevRef τ sig) := by
  simp only [hostOps3]
  after_results_simp
  rfl

/-- Host stretch 3 does not write the bias argument. -/
theorem entry3_b (W : Valuation τ sig (Elt Ideal)) :
    StableHlo.after (hostOps3 (F := Ideal)) W (Proc.devRef .tc main_arg10 : DevRef τ sig) = W (Proc.devRef .tc main_arg10 : DevRef τ sig) :=
  StableHlo.after_of_writes_sub hostOps3 W hostOps3_writes (by decide)

set_option maxRecDepth 8192 in
set_option maxHeartbeats 4000000 in
/-- Host stretch 4 leaves in the kernel's activation array the edge-feature stage of what it read. -/
theorem entry4_act (W : Valuation τ sig (Elt Ideal)) :
    StableHlo.after (hostOps4 (F := Ideal)) W (Proc.devRef .tc main_v197 : DevRef τ sig)
      = Cert.Spec.glue (W (Proc.devRef .tc main_v159 : DevRef τ sig)) (W (Proc.devRef .tc main_arg1 : DevRef τ sig)) (W (Proc.devRef .tc main_arg2 : DevRef τ sig)) := by
  simp only [hostOps4]
  after_results_simp
  rfl

set_option maxRecDepth 8192 in
set_option maxHeartbeats 4000000 in
/-- Host stretch 4 leaves in the kernel's weight array the weight argument: the change of format is the identity. -/
theorem entry4_w (W : Valuation τ sig (Elt Ideal)) :
    StableHlo.after (hostOps4 (F := Ideal)) W (Proc.devRef .tc main_v198 : DevRef τ sig) = W (Proc.devRef .tc main_arg11 : DevRef τ sig) := by
  simp only [hostOps4]
  after_results_simp
  rfl

/-- Host stretch 4 does not write the bias argument. -/
theorem entry4_b (W : Valuation τ sig (Elt Ideal)) :
    StableHlo.after (hostOps4 (F := Ideal)) W (Proc.devRef .tc main_arg12 : DevRef τ sig) = W (Proc.devRef .tc main_arg12 : DevRef τ sig) :=
  StableHlo.after_of_writes_sub hostOps4 W hostOps4_writes (by decide)

set_option maxRecDepth 8192 in
set_option maxHeartbeats 4000000 in
/-- Host stretch 5 leaves in the kernel's activation array the edge-feature stage of what it read. -/
theorem entry5_act (W : Valuation τ sig (Elt Ideal)) :
    StableHlo.after (hostOps5 (F := Ideal)) W (Proc.devRef .tc main_v237 : DevRef τ sig)
      = Cert.Spec.glue (W (Proc.devRef .tc main_v199 : DevRef τ sig)) (W (Proc.devRef .tc main_arg1 : DevRef τ sig)) (W (Proc.devRef .tc main_arg2 : DevRef τ sig)) := by
  simp only [hostOps5]
  after_results_simp
  rfl

set_option maxRecDepth 8192 in
set_option maxHeartbeats 4000000 in
/-- Host stretch 5 leaves in the kernel's weight array the weight argument: the change of format is the identity. -/
theorem entry5_w (W : Valuation τ sig (Elt Ideal)) :
    StableHlo.after (hostOps5 (F := Ideal)) W (Proc.devRef .tc main_v238 : DevRef τ sig) = W (Proc.devRef .tc main_arg13 : DevRef τ sig) := by
  simp only [hostOps5]
  after_results_simp
  rfl

/-- Host stretch 5 does not write the bias argument. -/
theorem entry5_b (W : Valuation τ sig (Elt Ideal)) :
    StableHlo.after (hostOps5 (F := Ideal)) W (Proc.devRef .tc main_arg14 : DevRef τ sig) = W (Proc.devRef .tc main_arg14 : DevRef τ sig) :=
  StableHlo.after_of_writes_sub hostOps5 W hostOps5_writes (by decide)

end Cert.KernelIdeal.Fr

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LayerMath.lean ====
/-
  The kernel's arithmetic, read one entry at a time at the ideal instance (every entry an extended real).

  One layer's kernel visits its contraction axis in two halves of 2048.  The accumulator starts as the zero block; each
  visit adds to it the product of the input block with the TRANSPOSED weight block, so entry (p, q) gains
  ∑ k, a (p, k) * w (q, k); the last visit adds the bias row and, in four of the six layers, applies the leaky
  activation entrywise.  This module states each of those three steps at an index (p, q), for each of the six kernel
  functions, and the two laws of sums that put the two halves back together: a sum over 4096 is the sum of its two
  halves, and starting the accumulation from zero changes nothing.
-/
import proofs.«135243_j27986006901491_1_alg».proof.Proof.Gen.KernelIdeal.Skeleton
import proofs.«135243_j27986006901491_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem

namespace Cert.KernelIdeal.Layer

open Cert.KernelIdeal Cert.KernelIdeal.Gen Idealize.ShloMosaic.ValueIdx

/-- One entry of the leaky activation: `y` where `0 ≤ y`, otherwise the slope constant times `y`.  The slope is the
    extended real the 32-bit pattern denotes; it is never evaluated, both programs carry the same pattern. -/
def actE (y : EReal) : EReal :=
  Scalar.select (FloatOps.cmpf (F := Ideal) (φ := .f32) .oge y 0) y (Ideal.ofBits .f32 0x3C23D70A#32 * y)

/-! ## The three steps at generic extents -/

/-- The zero block reads zero everywhere. -/
theorem zero_block {s : Shape} (h : s.ShapeCasts s) (i : s.Idx) :
    shapeCast s (broadcast s (Scalar.ofBits (F := Ideal) .f32 0x00000000#32)) h i = 0 := by
  rw [shapeCast_self, broadcast_apply]
  exact Ideal.ofBits_zero_f32

/-- The accumulate step: entry (p, q) gains the sum over the contracted axis of the input at (p, k) times the weight
    block at (q, k) — the weight block is transposed before the product. -/
theorem acc_step {P K Q : Nat} (d : DotDims ⟨2, ![P, K]⟩ ⟨2, ![K, Q]⟩ ⟨2, ![P, Q]⟩) (hd : PlainDot.IsPlain d)
    (hA : (⟨2, ![P, K]⟩ : Shape).ShapeCasts ⟨2, ![P, K]⟩) (hW : (⟨2, ![Q, K]⟩ : Shape).ShapeCasts ⟨2, ![Q, K]⟩)
    (hT : (⟨2, ![Q, K]⟩ : Shape).Transposes [1, 0] ⟨2, ![K, Q]⟩)
    (hO : (⟨2, ![P, Q]⟩ : Shape).ShapeCasts ⟨2, ![P, Q]⟩)
    (acc : FVec Ideal ⟨2, ![P, Q]⟩ .f32) (a : FVec Ideal ⟨2, ![P, K]⟩ .bf16) (w : FVec Ideal ⟨2, ![Q, K]⟩ .bf16)
    (p : Fin P) (q : Fin Q) :
    shapeCast ⟨2, ![P, Q]⟩ (addf acc (matmul d none (shapeCast ⟨2, ![P, K]⟩ a hA)
        (transpose ⟨2, ![K, Q]⟩ [1, 0] (shapeCast ⟨2, ![Q, K]⟩ w hW) hT) (constant ⟨2, ![P, Q]⟩ .f32 0x00000000#32))) hO
      (ix2 p q) = acc (ix2 p q) + ∑ k : Fin K, a (ix2 p k) * w (ix2 q k) := by
  rw [shapeCast_self, shapeCast_self, shapeCast_self, addf_apply]
  refine congrArg (acc (ix2 p q) + ·) ?_
  refine (PlainDot.matmul_zero_apply hd a _ p q).trans ?_
  refine Finset.sum_congr rfl fun k _ => ?_
  rw [transpose_ix2_apply]

/-- The bias step: the bias vector, viewed as one row and repeated over the rows, is added entrywise. -/
theorem bias_step {P Q : Nat} (hS : (⟨1, ![Q]⟩ : Shape).ShapeCasts ⟨2, ![1, Q]⟩)
    (hB : (⟨2, ![1, Q]⟩ : Shape).Broadcasts ⟨2, ![P, Q]⟩)
    (acc : FVec Ideal ⟨2, ![P, Q]⟩ .f32) (bias : FVec Ideal ⟨1, ![Q]⟩ .f32) (p : Fin P) (q : Fin Q) :
    addf acc (broadcastTo ⟨2, ![P, Q]⟩ (shapeCast ⟨2, ![1, Q]⟩ bias hS) hB) (ix2 p q)
      = acc (ix2 p q) + bias (ix1 q) := by
  rw [addf_apply, broadcastTo_1b_ab_apply]
  refine congrArg (acc (ix2 p q) + ·) ?_
  refine (shapeCast_addUnit_apply (n := 1) ![Q] bias hS (ix2 (0 : Fin 1) q)).trans ?_
  exact congrArg bias (funext fun a => match a with | ⟨0, _⟩ => rfl)

/-- The leaky activation in the kernel's spelling, at an index. -/
theorem leaky_apply {s : Shape} (y : FVec Ideal s .f32) (i : s.Idx) :
    select (cmpf .oge y (broadcast s (Scalar.ofBits .f32 0x00000000#32))) y
        (mulf (broadcast s (Scalar.ofBits .f32 0x3C23D70A#32)) y) i = actE (y i) := by
  rw [select_apply, cmpf_apply, mulf_apply, broadcast_apply, broadcast_apply]
  show Scalar.select (FloatOps.cmpf (F := Ideal) (φ := .f32) .oge (y i) (Ideal.ofBits .f32 0x00000000#32)) (y i)
      (Ideal.ofBits .f32 0x3C23D70A#32 * y i) = _
  rw [Ideal.ofBits_zero_f32]
  rfl

theorem isPlain_big : PlainDot.IsPlain dot_S44x2048_S2048x2048_S44x2048_1_0_0_1_n_n := ⟨rfl, rfl, rfl, rfl, rfl, rfl⟩
theorem isPlain_small : PlainDot.IsPlain dot_S44x2048_S2048x1_S44x1_1_0_0_1_n_n := ⟨rfl, rfl, rfl, rfl, rfl, rfl⟩

/-! ## The zero block of each kernel function -/

theorem pay1_apply_0 (p : Fin 44) (q : Fin 2048) : Gen.k0_pay1 (F := Ideal) (ix2 p q) = 0 := zero_block _ _
theorem pay1_apply_1 (p : Fin 44) (q : Fin 2048) : Gen.k1_pay1 (F := Ideal) (ix2 p q) = 0 := zero_block _ _
theorem pay1_apply_2 (p : Fin 44) (q : Fin 2048) : Gen.k2_pay1 (F := Ideal) (ix2 p q) = 0 := zero_block _ _
theorem pay1_apply_3 (p : Fin 44) (q : Fin 2048) : Gen.k3_pay1 (F := Ideal) (ix2 p q) = 0 := zero_block _ _
theorem pay1_apply_4 (p : Fin 44) (q : Fin 2048) : Gen.k4_pay1 (F := Ideal) (ix2 p q) = 0 := zero_block _ _
theorem pay1_apply_5 (p : Fin 44) : Gen.k5_pay1 (F := Ideal) (ix2 p (0 : Fin 1)) = 0 := zero_block _ _

/-! ## The accumulate step of each kernel function -/

theorem pay2_apply_0 (acc : Vec Ideal S44x2048 .f32) (a : Vec Ideal S44x2048 .bf16) (w : Vec Ideal S2048x2048 .bf16)
    (p : Fin 44) (q : Fin 2048) :
    Gen.k0_pay2 acc a w (ix2 p q) = acc (ix2 p q) + ∑ k : Fin 2048, a (ix2 p k) * w (ix2 q k) :=
  acc_step _ isPlain_big _ _ _ _ acc a w p q
theorem pay2_apply_1 (acc : Vec Ideal S44x2048 .f32) (a : Vec Ideal S44x2048 .bf16) (w : Vec Ideal S2048x2048 .bf16)
    (p : Fin 44) (q : Fin 2048) :
    Gen.k1_pay2 acc a w (ix2 p q) = acc (ix2 p q) + ∑ k : Fin 2048, a (ix2 p k) * w (ix2 q k) :=
  acc_step _ isPlain_big _ _ _ _ acc a w p q
theorem pay2_apply_2 (acc : Vec Ideal S44x2048 .f32) (a : Vec Ideal S44x2048 .bf16) (w : Vec Ideal S2048x2048 .bf16)
    (p : Fin 44) (q : Fin 2048) :
    Gen.k2_pay2 acc a w (ix2 p q) = acc (ix2 p q) + ∑ k : Fin 2048, a (ix2 p k) * w (ix2 q k) :=
  acc_step _ isPlain_big _ _ _ _ acc a w p q
theorem pay2_apply_3 (acc : Vec Ideal S44x2048 .f32) (a : Vec Ideal S44x2048 .bf16) (w : Vec Ideal S2048x2048 .bf16)
    (p : Fin 44) (q : Fin 2048) :
    Gen.k3_pay2 acc a w (ix2 p q) = acc (ix2 p q) + ∑ k : Fin 2048, a (ix2 p k) * w (ix2 q k) :=
  acc_step _ isPlain_big _ _ _ _ acc a w p q
theorem pay2_apply_4 (acc : Vec Ideal S44x2048 .f32) (a : Vec Ideal S44x2048 .bf16) (w : Vec Ideal S2048x2048 .bf16)
    (p : Fin 44) (q : Fin 2048) :
    Gen.k4_pay2 acc a w (ix2 p q) = acc (ix2 p q) + ∑ k : Fin 2048, a (ix2 p k) * w (ix2 q k) :=
  acc_step _ isPlain_big _ _ _ _ acc a w p q
/-- The last layer's weight block is a single row: entry (p, 0) gains ∑ k, a (p, k) * w (0, k). -/
theorem pay2_apply_5 (acc : Vec Ideal S44x1 .f32) (a : Vec Ideal S44x2048 .bf16) (w : Vec Ideal S1x2048 .bf16)
    (p : Fin 44) :
    Gen.k5_pay2 acc a w (ix2 p (0 : Fin 1))
      = acc (ix2 p (0 : Fin 1)) + ∑ k : Fin 2048, a (ix2 p k) * w (ix2 (0 : Fin 1) k) :=
  acc_step _ isPlain_small _ _ _ _ acc a w p 0

/-! ## The bias (and activation) step of each kernel function -/

theorem pay3_apply_0 (acc : Vec Ideal S44x2048 .f32) (bias : Vec Ideal S2048 .f32) (p : Fin 44) (q : Fin 2048) :
    Gen.k0_pay3 acc bias (ix2 p q) = actE (acc (ix2 p q) + bias (ix1 q)) :=
  (leaky_apply _ _).trans (congrArg actE (bias_step _ _ acc bias p q))
theorem pay3_apply_1 (acc : Vec Ideal S44x2048 .f32) (bias : Vec Ideal S2048 .f32) (p : Fin 44) (q : Fin 2048) :
    Gen.k1_pay3 acc bias (ix2 p q) = actE (acc (ix2 p q) + bias (ix1 q)) :=
  (leaky_apply _ _).trans (congrArg actE (bias_step _ _ acc bias p q))
/-- The third layer has no activation. -/
theorem pay3_apply_2 (acc : Vec Ideal S44x2048 .f32) (bias : Vec Ideal S2048 .f32) (p : Fin 44) (q : Fin 2048) :
    Gen.k2_pay3 acc bias (ix2 p q) = acc (ix2 p q) + bias (ix1 q) :=
  bias_step _ _ acc bias p q
theorem pay3_apply_3 (acc : Vec Ideal S44x2048 .f32) (bias : Vec Ideal S2048 .f32) (p : Fin 44) (q : Fin 2048) :
    Gen.k3_pay3 acc bias (ix2 p q) = actE (acc (ix2 p q) + bias (ix1 q)) :=
  (leaky_apply _ _).trans (congrArg actE (bias_step _ _ acc bias p q))
theorem pay3_apply_4 (acc : Vec Ideal S44x2048 .f32) (bias : Vec Ideal S2048 .f32) (p : Fin 44) (q : Fin 2048) :
    Gen.k4_pay3 acc bias (ix2 p q) = actE (acc (ix2 p q) + bias (ix1 q)) :=
  (leaky_apply _ _).trans (congrArg actE (bias_step _ _ acc bias p q))
/-- The last layer has one output column, one bias entry and no activation. -/
theorem pay3_apply_5 (acc : Vec Ideal S44x1 .f32) (bias : Vec Ideal S1 .f32) (p : Fin 44) :
    Gen.k5_pay3 acc bias (ix2 p (0 : Fin 1)) = acc (ix2 p (0 : Fin 1)) + bias (ix1 (0 : Fin 1)) :=
  bias_step _ _ acc bias p 0

/-! ## Putting the two halves of the contraction together -/

/-- A sum over 4096 terms is the sum of its first 2048 terms plus the sum of its last 2048 terms. -/
theorem sum_halves (f : Fin 4096 → EReal) :
    ∑ k : Fin 4096, f k
      = (∑ k : Fin 2048, f ⟨k.val, by omega⟩) + ∑ k : Fin 2048, f ⟨2048 + k.val, by omega⟩ :=
  Fin.sum_univ_add (a := 2048) (b := 2048) f

/-- Accumulating two partial sums from zero and then adding the bias is adding the bias to their sum. -/
theorem two_points (A1 A2 b : EReal) : (0 + A1) + A2 + b = (A1 + A2) + b := by
  rw [zero_add]

end Cert.KernelIdeal.Layer

end
-- ==== Proof.SpecMath.lean ====
/-
  The reference's stages read one entry at a time (every entry an extended real).

  The affine map `e · Wᵀ + b` at (p, n) is the sum over the 4096 contracted positions of `e (p, k) * W (n, k)` — the
  weight matrix is transposed before the product, so its entry (n, k) is read — plus the bias entry `b n`, the bias
  being laid along every row.  The leaky rectifier acts entrywise, and one entry of it is the same function of that
  entry as in the kernel.
-/
import proofs.«135243_j27986006901491_1_alg».proof.Proof.Spec
import proofs.«135243_j27986006901491_1_alg».proof.Proof.LayerMath
import proofs.«135243_j27986006901491_1_alg».proof.Proof.LibPlainDot
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open Idealize.ShloMosaic Idealize.ShloMosaic.TcCoe Idealize.SL.Sem

namespace Cert.Spec

open Cert.ReferenceIdeal Idealize.ShloMosaic.ValueIdx

variable [Facts₀]
open Facts₀

/-! ## The affine map at generic extents -/

/-- A vector laid along axis 1 of a one-row matrix, that row then laid along every row: entry (p, n) is the vector's
    entry n. -/
theorem bias_rows_apply {P Q : Nat} (h1 : (⟨1, ![Q]⟩ : Shape).BroadcastsInDim ⟨2, ![1, Q]⟩ ![1])
    (h2 : (⟨2, ![1, Q]⟩ : Shape).BroadcastsInDim ⟨2, ![P, Q]⟩ ![0, 1]) {α : Type} (b : (⟨1, ![Q]⟩ : Shape).Idx → α)
    (p : Fin P) (n : Fin Q) :
    broadcastInDim ⟨2, ![P, Q]⟩ ![0, 1] h2 (broadcastInDim ⟨2, ![1, Q]⟩ ![1] h1 b) (ix2 p n) = b (ix1 n) := by
  have hn : ∀ m : Fin Q, (m.val = if Q = 1 then 0 else m.val) := fun m => by
    split
    · have := m.isLt; omega
    · rfl
  refine (broadcastInDim_apply ![0, 1] h2 _ (ix2 p n) (ix2 (0 : Fin 1) n) fun a => ?_).trans ?_
  · match a with
    | ⟨0, _⟩ => rfl
    | ⟨1, _⟩ => exact hn n
  · refine broadcastInDim_apply ![1] h1 b (ix2 (0 : Fin 1) n) (ix1 n) fun a => ?_
    match a with
    | ⟨0, _⟩ => exact hn n

/-- `e · Wᵀ + b` at (p, n), for any extents. -/
theorem lin_gen {P K Q : Nat} (d : DotDims ⟨2, ![P, K]⟩ ⟨2, ![K, Q]⟩ ⟨2, ![P, Q]⟩) (hd : PlainDot.IsPlain d)
    (hT : (⟨2, ![Q, K]⟩ : Shape).Transposes [1, 0] ⟨2, ![K, Q]⟩)
    (h1 : (⟨1, ![Q]⟩ : Shape).BroadcastsInDim ⟨2, ![1, Q]⟩ ![1])
    (h2 : (⟨2, ![1, Q]⟩ : Shape).BroadcastsInDim ⟨2, ![P, Q]⟩ ![0, 1])
    (e : FVec Ideal ⟨2, ![P, K]⟩ .f32) (W : FVec Ideal ⟨2, ![Q, K]⟩ .f32) (b : FVec Ideal ⟨1, ![Q]⟩ .f32)
    (p : Fin P) (n : Fin Q) :
    addf (Host.dotGeneral (F := Ideal) (φ₁ := .f32) (φ₂ := .f32) d none e (transpose ⟨2, ![K, Q]⟩ [1, 0] W hT))
        (broadcastInDim ⟨2, ![P, Q]⟩ ![0, 1] h2 (broadcastInDim ⟨2, ![1, Q]⟩ ![1] h1 b)) (ix2 p n)
      = (∑ k : Fin K, e (ix2 p k) * W (ix2 n k)) + b (ix1 n) := by
  rw [addf_apply, bias_rows_apply]
  refine congrArg (· + b (ix1 n)) ?_
  refine (PlainDot.dotGeneral_apply hd .single e _ p n).trans ?_
  refine Finset.sum_congr rfl fun k _ => ?_
  rw [transpose_ix2_apply]

theorem isPlain_big : PlainDot.IsPlain dot_S44x4096_S4096x4096_S44x4096_1_0_0_1_n_n := ⟨rfl, rfl, rfl, rfl, rfl, rfl⟩
theorem isPlain_col : PlainDot.IsPlain dot_S44x4096_S4096x1_S44x1_1_0_0_1_n_n := ⟨rfl, rfl, rfl, rfl, rfl, rfl⟩

/-! ## The reference's stages at an index -/

/-- The affine map of a hidden or output layer at (p, n). -/
theorem lin_apply (e : (⟨S44x4096, .f32⟩ : BufTy).Contents (Elt Ideal)) (W : (⟨S4096x4096, .f32⟩ : BufTy).Contents (Elt Ideal))
    (b : (⟨S4096, .f32⟩ : BufTy).Contents (Elt Ideal)) (p : Fin 44) (n : Fin 4096) :
    Cert.Spec.lin e W b (ix2 p n) = (∑ k : Fin 4096, e (ix2 p k) * W (ix2 n k)) + b (ix1 n) :=
  lin_gen _ isPlain_big _ _ _ e W b p n

/-- The affine map onto the single output column at (p, 0). -/
theorem lin1_apply (e : (⟨S44x4096, .f32⟩ : BufTy).Contents (Elt Ideal)) (W : (⟨S1x4096, .f32⟩ : BufTy).Contents (Elt Ideal))
    (b : (⟨S1, .f32⟩ : BufTy).Contents (Elt Ideal)) (p : Fin 44) :
    Cert.Spec.lin1 e W b (ix2 p (0 : Fin 1))
      = (∑ k : Fin 4096, e (ix2 p k) * W (ix2 (0 : Fin 1) k)) + b (ix1 (0 : Fin 1)) :=
  lin_gen _ isPlain_col _ _ _ e W b p 0

/-- The leaky rectifier acts entrywise, by the same function of one entry as in the kernel. -/
theorem act_apply (y : (⟨S44x4096, .f32⟩ : BufTy).Contents (Elt Ideal)) (j : S44x4096.Idx) :
    Cert.Spec.act y j = Cert.KernelIdeal.Layer.actE (y j) := by
  unfold Cert.Spec.act
  rw [select_apply, cmpf_apply, mulf_apply, broadcastInDim_scalar_apply, broadcastInDim_scalar_apply]
  show Scalar.select (FloatOps.cmpf (F := Ideal) (φ := .f32) .oge (y j) (Ideal.ofBits .f32 0x00000000#32)) (y j)
      (Ideal.ofBits .f32 0x3C23D70A#32 * y j) = _
  rw [Ideal.ofBits_zero_f32]
  rfl

end Cert.Spec

end
-- ==== Proof.IdealLayerDef.lean ====
/-
  One layer of the kernel as a whole-array function of its three arrays at the ideal instance, and the algebra that
  joins the two halves of the contraction.

  The layer's value at (p, n) is the sum over all 4096 contracted positions of `a (p, k) * w (n, k)`, plus the bias
  entry `b n`, then (for the hidden layers) the leaky activation of that. The kernel reaches it in two visits of 2048
  positions each, starting from zero: `((0 + ∑ first half) + ∑ second half) + b n`.
-/
import proofs.«135243_j27986006901491_1_alg».proof.Proof.LayerMath

noncomputable section

open Idealize.ShloMosaic Idealize.ShloMosaic.TcCoe Idealize.SL.Sem

namespace Cert.KernelIdeal.Fr

open Cert.KernelIdeal Idealize.ShloMosaic.ValueIdx

/-- The affine map `a · wᵀ + b` at every index. -/
def layerLin (a : Vec Ideal S44x4096 .bf16) (w : Vec Ideal S4096x4096 .bf16) (b : Vec Ideal S4096 .f32) :
    Vec Ideal S44x4096 .f32 :=
  fun j => (∑ k : Fin 4096, a (ix2 (j 0 : Fin 44) k) * w (ix2 (j 1 : Fin 4096) k)) + b (ix1 (j 1 : Fin 4096))

/-- The affine map followed by the leaky activation at every index. -/
def layerAct (a : Vec Ideal S44x4096 .bf16) (w : Vec Ideal S4096x4096 .bf16) (b : Vec Ideal S4096 .f32) :
    Vec Ideal S44x4096 .f32 :=
  fun j => Layer.actE (layerLin a w b j)

/-- The affine map onto a single output column. -/
def layerCol (a : Vec Ideal S44x4096 .bf16) (w : Vec Ideal S1x4096 .bf16) (b : Vec Ideal S1 .f32) :
    Vec Ideal S44x1 .f32 :=
  fun j => (∑ k : Fin 4096, a (ix2 (j 0 : Fin 44) k) * w (ix2 (0 : Fin 1) k)) + b (ix1 (0 : Fin 1))

theorem layerLin_apply (a : Vec Ideal S44x4096 .bf16) (w : Vec Ideal S4096x4096 .bf16) (b : Vec Ideal S4096 .f32)
    (p : Fin 44) (n : Fin 4096) :
    layerLin a w b (ix2 p n) = (∑ k : Fin 4096, a (ix2 p k) * w (ix2 n k)) + b (ix1 n) := rfl

theorem layerAct_apply (a : Vec Ideal S44x4096 .bf16) (w : Vec Ideal S4096x4096 .bf16) (b : Vec Ideal S4096 .f32)
    (p : Fin 44) (n : Fin 4096) :
    layerAct a w b (ix2 p n) = Layer.actE ((∑ k : Fin 4096, a (ix2 p k) * w (ix2 n k)) + b (ix1 n)) := rfl

theorem layerCol_apply (a : Vec Ideal S44x4096 .bf16) (w : Vec Ideal S1x4096 .bf16) (b : Vec Ideal S1 .f32)
    (p : Fin 44) :
    layerCol a w b (ix2 p (0 : Fin 1))
      = (∑ k : Fin 4096, a (ix2 p k) * w (ix2 (0 : Fin 1) k)) + b (ix1 (0 : Fin 1)) := rfl

/-- Two visits from zero, then the bias: the whole sum plus the bias. -/
theorem join_halves (f : Fin 4096 → EReal) (b : EReal) :
    ((0 + ∑ k : Fin 2048, f ⟨k.val, by omega⟩) + ∑ k : Fin 2048, f ⟨2048 + k.val, by omega⟩) + b
      = (∑ k : Fin 4096, f k) + b :=
  (Layer.two_points _ _ _).trans (congrArg (· + b) (Layer.sum_halves f).symm)

/-- The two visits of one output block, entry by entry. The first visit reads columns [0, 2048) of `A` and of rows
    [2048 n, 2048 n + 2048) of `W`; the second reads columns [2048, 4096) of both; the bias block is entries
    [2048 n, 2048 n + 2048) of `B`. Together they are the layer's entry (p, 2048 n + q) before the activation. -/
theorem block_entry (A : Vec Ideal S44x4096 .bf16) (W : Vec Ideal S4096x4096 .bf16) (B : Vec Ideal S4096 .f32)
    (a0 a1 : Vec Ideal S44x2048 .bf16) (w0 w1 : Vec Ideal S2048x2048 .bf16) (b : Vec Ideal S2048 .f32)
    (n : ℕ) (hn : n < 2)
    (ha0 : ∀ (p : Fin 44) (k : Fin 2048), a0 (ix2 p k) = A (ix2 p (⟨k.val, by omega⟩ : Fin 4096)))
    (ha1 : ∀ (p : Fin 44) (k : Fin 2048), a1 (ix2 p k) = A (ix2 p (⟨2048 + k.val, by omega⟩ : Fin 4096)))
    (hw0 : ∀ (q k : Fin 2048), w0 (ix2 q k)
      = W (ix2 (⟨2048 * n + q.val, by omega⟩ : Fin 4096) (⟨k.val, by omega⟩ : Fin 4096)))
    (hw1 : ∀ (q k : Fin 2048), w1 (ix2 q k)
      = W (ix2 (⟨2048 * n + q.val, by omega⟩ : Fin 4096) (⟨2048 + k.val, by omega⟩ : Fin 4096)))
    (hb : ∀ q : Fin 2048, b (ix1 q) = B (ix1 (⟨2048 * n + q.val, by omega⟩ : Fin 4096)))
    (p : Fin 44) (q : Fin 2048) :
    ((0 + ∑ k : Fin 2048, a0 (ix2 p k) * w0 (ix2 q k)) + ∑ k : Fin 2048, a1 (ix2 p k) * w1 (ix2 q k)) + b (ix1 q)
      = layerLin A W B (ix2 p (⟨2048 * n + q.val, by omega⟩ : Fin 4096)) := by
  rw [layerLin_apply]
  simp only [ha0, ha1, hw0, hw1, hb]
  exact join_halves (fun k => A (ix2 p k) * W (ix2 (⟨2048 * n + q.val, by omega⟩ : Fin 4096) k)) _

/-- The same for the single output column: one weight row, one bias entry, and the output block is the whole column. -/
theorem block_entry_col (A : Vec Ideal S44x4096 .bf16) (W : Vec Ideal S1x4096 .bf16) (B : Vec Ideal S1 .f32)
    (a0 a1 : Vec Ideal S44x2048 .bf16) (w0 w1 : Vec Ideal S1x2048 .bf16) (b : Vec Ideal S1 .f32)
    (ha0 : ∀ (p : Fin 44) (k : Fin 2048), a0 (ix2 p k) = A (ix2 p (⟨k.val, by omega⟩ : Fin 4096)))
    (ha1 : ∀ (p : Fin 44) (k : Fin 2048), a1 (ix2 p k) = A (ix2 p (⟨2048 + k.val, by omega⟩ : Fin 4096)))
    (hw0 : ∀ k : Fin 2048, w0 (ix2 (0 : Fin 1) k) = W (ix2 (0 : Fin 1) (⟨k.val, by omega⟩ : Fin 4096)))
    (hw1 : ∀ k : Fin 2048, w1 (ix2 (0 : Fin 1) k) = W (ix2 (0 : Fin 1) (⟨2048 + k.val, by omega⟩ : Fin 4096)))
    (hb : b (ix1 (0 : Fin 1)) = B (ix1 (0 : Fin 1)))
    (p : Fin 44) :
    ((0 + ∑ k : Fin 2048, a0 (ix2 p k) * w0 (ix2 (0 : Fin 1) k))
        + ∑ k : Fin 2048, a1 (ix2 p k) * w1 (ix2 (0 : Fin 1) k)) + b (ix1 (0 : Fin 1))
      = layerCol A W B (ix2 p (0 : Fin 1)) := by
  rw [layerCol_apply]
  simp only [ha0, ha1, hw0, hw1, hb]
  exact join_halves (fun k => A (ix2 p k) * W (ix2 (0 : Fin 1) k)) _

end Cert.KernelIdeal.Fr

end
-- ==== Proof.IdealR0Pieces.lean ====
/-
  Region 0: the pieces each case of the body stores, read back as values. A point with k = 0 leaves in the
  accumulator the accumulate step applied to the zero block; a point with k = 1 leaves there the accumulate step applied
  to what the accumulator held, and in the output window the bias (and activation) step of that.
-/
import proofs.«135243_j27986006901491_1_alg».proof.Proof.IdealR0Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz0 : (![0, 0] : Fin 2 → Nat) = fun _ => 0 := funext fun a => by fin_cases a <;> rfl
theorem hz0' : (![0] : Fin 1 → Nat) = fun _ => 0 := funext fun a => by fin_cases a; rfl

theorem soutA_eq0 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond0_0 i) (hc1 : ¬cond0_1 i)
    (x0 : Vec F S44x2048 .bf16) (x1 : Vec F S2048x2048 .bf16) (x2 : Vec F S2048 .f32) :
    sout0_A_0 c i arg2 harg2 arg3 harg3 arg4 harg4 arg5 harg5 arg6 harg6 hc0 hc1 x0 x1 x2 = Gen.k0_pay2 (Gen.k0_pay1) x0 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S44x2048) hz0, View.readCov_unit_zero (S := S44x2048) _ hz0]
  simp only [View.readAt_eq_ld, harg2.read_unread, harg3.read_unread, View.ld_unit_zero (S := S44x2048) hz0, View.ld_unit_zero (S := S2048x2048) hz0]

theorem soutC_eq0 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond0_0 i) (hc1 : cond0_1 i)
    (x0 : Vec F S44x2048 .bf16) (x1 : Vec F S2048x2048 .bf16) (x2 : Vec F S2048 .f32) (xs0 : Vec F S44x2048 .f32) :
    sout0_C_0 c i arg2 harg2 arg3 harg3 arg4 harg4 arg5 harg5 arg6 harg6 hc0 hc1 x0 x1 x2 xs0 = Gen.k0_pay2 xs0 x0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S44x2048) hz0]
  simp only [View.readAt_eq_ld, harg2.read_unread, harg3.read_unread, harg6.read_unread, View.ld_unit_zero (S := S44x2048) hz0, View.ld_unit_zero (S := S2048x2048) hz0]

theorem outC_eq0 (c : Dev nD) (i : grid0.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond0_0 i) (hc1 : cond0_1 i)
    (x0 : Vec F S44x2048 .bf16) (x1 : Vec F S2048x2048 .bf16) (x2 : Vec F S2048 .f32) (xs0 : Vec F S44x2048 .f32) :
    out0_C_3 c i arg2 harg2 arg3 harg3 arg4 harg4 arg5 harg5 arg6 harg6 hc0 hc1 x0 x1 x2 xs0 = Gen.k0_pay3 (Gen.k0_pay2 xs0 x0 x1) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S44x2048) hz0, View.readCov_unit_zero (S := S44x2048) _ hz0]
  simp only [View.readAt_eq_ld, harg2.read_unread, harg3.read_unread, harg4.read_unread, harg6.read_unread, View.ld_unit_zero (S := S44x2048) hz0, View.ld_unit_zero (S := S2048x2048) hz0, View.ld_unit_zero (S := S2048) hz0']

variable (V : (c : Dev nD) → (b : Ref sig .tc) → Buf (Elt F) ((c : Thread nD τ).loc b))

/-- The point before. -/
abbrev prev0 (t : Fin cfg0.N) : Fin cfg0.N := ⟨t.val - 1, Nat.lt_of_le_of_lt (Nat.sub_le _ _) t.isLt⟩

/-- After a point with k = 0 the accumulator holds the accumulate step applied to the zero block. -/
theorem accA0 (c : Dev nD) (t : Fin cfg0.N) (hp : t.val % 2 = 0) :
    (outsAt0 V c t.val t.isLt).2 = Gen.k0_pay2 Gen.k0_pay1 (iblk0 V c 0 t) (iblk0 V c 1 t) := by
  have hne : ¬t.val % 2 = 1 := by omega
  have hc0' : cond0_0 (grid0.coords t) := (hcond0_0 t).mpr hp
  have hc1' : ¬cond0_1 (grid0.coords t) := fun h => hne ((hcond0_1 t).mp h)
  rw [outsAt0_A V c t hp]
  dsimp only
  exact soutA_eq0 c (grid0.coords t) (ms0_0 t) (hs0_0 t) (ms0_1 t) (hs0_1 t) (ms0_2 t) (hs0_2 t) (ms0_3 t) (hs0_3 t) scM0_0 (Memref.isWhole_whole _) hc0' hc1' (iblk0 V c 0 t) (iblk0 V c 1 t) (iblk0 V c 2 t)

/-- After a point with k = 1 the output window holds the bias (and activation) step of the two accumulate steps, the
    first from the zero block over the blocks of the point before, the second over this point's blocks. -/
theorem after3_odd0 (c : Dev nD) (t : Fin cfg0.N) (h1 : t.val % 2 = 1) :
    (outsAt0 V c t.val t.isLt).1
      = Gen.k0_pay3 (Gen.k0_pay2 (Gen.k0_pay2 Gen.k0_pay1 (iblk0 V c 0 (prev0 t)) (iblk0 V c 1 (prev0 t))) (iblk0 V c 0 t) (iblk0 V c 1 t)) (iblk0 V c 2 t) := by
  have h0 : ¬t.val % 2 = 0 := by omega
  have hp : (prev0 t).val % 2 = 0 := by show (t.val - 1) % 2 = 0; omega
  have hc0 : ¬cond0_0 (grid0.coords t) := fun h => h0 ((hcond0_0 t).mp h)
  have hc1 : cond0_1 (grid0.coords t) := (hcond0_1 t).mpr h1
  rw [outsAt0_C V c t h0]
  dsimp only
  rw [outC_eq0 c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t) (outsAt0 V c (t.val - 1) (Nat.lt_of_le_of_lt (Nat.sub_le _ _) t.isLt)).2]
  rw [show (outsAt0 V c (t.val - 1) (Nat.lt_of_le_of_lt (Nat.sub_le _ _) t.isLt)).2 = Gen.k0_pay2 Gen.k0_pay1 (iblk0 V c 0 (prev0 t)) (iblk0 V c 1 (prev0 t)) from accA0 V c (prev0 t) hp]

end Cert.KernelIdeal.Fr

end
-- ==== Proof.IdealR0Value.lean ====
/-
  Region 0: what its output array holds after the run, at the ideal instance — the layer's whole-array function of
  the three arrays the region reads.

  The grid visits each output block of 2048 columns twice, the contraction coordinate running 0 then 1. Only the
  second visit writes the block back; what it writes is the bias (and activation) step of the two accumulate steps
  from the zero block. Each window's block at a point is a rectangle of its array — block index times block size plus
  the coordinate inside the block on every axis —, so, entry by entry, the two visits' sums over 2048 positions are
  the two halves of the sum over all 4096, and the written blocks tile the array.
-/
import proofs.«135243_j27986006901491_1_alg».proof.Proof.IdealR0Pieces
import proofs.«135243_j27986006901491_1_alg».proof.Proof.IdealLayerDef
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The printed index maps, decided over the grid: with n = t / 2 the output block and k = t % 2 the contraction
    block, the input block is (0, k), the weight block (n, k), the bias block n, the output block (0, n). -/
theorem idx_facts0 : ∀ t : Fin cfg0.N,
    win0_0.index t (0 : Fin 2) = 0 ∧ win0_0.index t (1 : Fin 2) = t.val % 2
    ∧ win0_1.index t (0 : Fin 2) = t.val / 2 ∧ win0_1.index t (1 : Fin 2) = t.val % 2
    ∧ win0_2.index t (0 : Fin 1) = t.val / 2
    ∧ win0_3.index t (0 : Fin 2) = 0 ∧ win0_3.index t (1 : Fin 2) = t.val / 2 :=
  (by decide +kernel : ∀ t : Fin grid0.N, _)

/-- The input block at a point: columns [2048 k, 2048 k + 2048) of the input array. -/
theorem iblk0_0_apply (c : Dev nD) (t : Fin cfg0.N) (p : Fin 44) (k : Fin 2048) (K : Fin 4096)
    (hK : K.val = 2048 * (t.val % 2) + k.val) :
    (iblk0 V c 0 t : Vec Ideal S44x2048 .bf16) (ix2 p k) = (V c main_v37 : Vec Ideal S44x4096 .bf16) (ix2 p K) := by
  obtain ⟨e0, e1, -⟩ := idx_facts0 t
  unfold iblk0
  rw [View.read_apply]
  show V c main_v37 _ = V c main_v37 _
  congr 1
  funext a
  apply Fin.ext
  match a with
  | ⟨0, _⟩ => show win0_0.index t 0 * 44 + 1 * p.val = p.val; rw [e0]; omega
  | ⟨1, _⟩ => show win0_0.index t 1 * 2048 + 1 * k.val = K.val; rw [e1, hK]; omega

/-- The weight block at a point: rows [2048 n, 2048 n + 2048) and columns [2048 k, 2048 k + 2048) of the weights. -/
theorem iblk0_1_apply (c : Dev nD) (t : Fin cfg0.N) (q : Fin 2048) (k : Fin 2048) (Q K : Fin 4096)
    (hQ : Q.val = 2048 * (t.val / 2) + q.val) (hK : K.val = 2048 * (t.val % 2) + k.val) :
    (iblk0 V c 1 t : Vec Ideal S2048x2048 .bf16) (ix2 q k) = (V c main_v38 : Vec Ideal S4096x4096 .bf16) (ix2 Q K) := by
  obtain ⟨-, -, e2, e3, -⟩ := idx_facts0 t
  unfold iblk0
  rw [View.read_apply]
  show V c main_v38 _ = V c main_v38 _
  congr 1
  funext a
  apply Fin.ext
  match a with
  | ⟨0, _⟩ => show win0_1.index t 0 * 2048 + 1 * q.val = Q.val; rw [e2, hQ]; omega
  | ⟨1, _⟩ => show win0_1.index t 1 * 2048 + 1 * k.val = K.val; rw [e3, hK]; omega

/-- The bias block at a point: entries [2048 n, 2048 n + 2048) of the bias. -/
theorem iblk0_2_apply (c : Dev nD) (t : Fin cfg0.N) (q : Fin 2048) (Q : Fin 4096)
    (hQ : Q.val = 2048 * (t.val / 2) + q.val) :
    (iblk0 V c 2 t : Vec Ideal S2048 .f32) (ix1 q) = (V c main_arg4 : Vec Ideal S4096 .f32) (ix1 Q) := by
  obtain ⟨-, -, -, -, e4, -⟩ := idx_facts0 t
  unfold iblk0
  rw [View.read_apply]
  show V c main_arg4 _ = V c main_arg4 _
  congr 1
  funext a
  apply Fin.ext
  match a with
  | ⟨0, _⟩ => show win0_2.index t 0 * 2048 + 1 * q.val = Q.val; rw [e4, hQ]; omega

/-- One written block, entry by entry, over variables of the blocks' own types: the bias and activation step of the
    two accumulate steps from the zero block is the layer at (p, 2048 n + q). -/
theorem point_entry0 (A : Vec Ideal S44x4096 .bf16) (W : Vec Ideal S4096x4096 .bf16) (B : Vec Ideal S4096 .f32)
    (a0 a1 : Vec Ideal S44x2048 .bf16) (w0 w1 : Vec Ideal S2048x2048 .bf16) (b : Vec Ideal S2048 .f32)
    (n : ℕ) (hn : n < 2)
    (ha0 : ∀ (p : Fin 44) (k : Fin 2048), a0 (ix2 p k) = A (ix2 p (⟨k.val, by omega⟩ : Fin 4096)))
    (ha1 : ∀ (p : Fin 44) (k : Fin 2048), a1 (ix2 p k) = A (ix2 p (⟨2048 + k.val, by omega⟩ : Fin 4096)))
    (hw0 : ∀ (q k : Fin 2048), w0 (ix2 q k)
      = W (ix2 (⟨2048 * n + q.val, by omega⟩ : Fin 4096) (⟨k.val, by omega⟩ : Fin 4096)))
    (hw1 : ∀ (q k : Fin 2048), w1 (ix2 q k)
      = W (ix2 (⟨2048 * n + q.val, by omega⟩ : Fin 4096) (⟨2048 + k.val, by omega⟩ : Fin 4096)))
    (hb : ∀ q : Fin 2048, b (ix1 q) = B (ix1 (⟨2048 * n + q.val, by omega⟩ : Fin 4096)))
    (p : Fin 44) (q : Fin 2048) :
    Gen.k0_pay3 (Gen.k0_pay2 (Gen.k0_pay2 Gen.k0_pay1 a0 w0) a1 w1) b (ix2 p q)
      = layerAct A W B (ix2 p (⟨2048 * n + q.val, by omega⟩ : Fin 4096)) := by
  rw [Layer.pay3_apply_0, Layer.pay2_apply_0, Layer.pay2_apply_0, Layer.pay1_apply_0]
  exact congrArg Layer.actE (block_entry A W B a0 a1 w0 w1 b n hn ha0 ha1 hw0 hw1 hb p q)

/-- What a point with k = 1 writes back is its block of the layer's whole-array function. -/
theorem flushed_eq0 (c : Dev nD) (t : Fin cfg0.N) (hf : (cfg0.win 3).flush t = true) :
    (dat0 V c).flushed 3 t
      = ((cfg0.win 3).blk t).view.read (Elt Ideal) (layerAct (V c main_v37) (V c main_v38) (V c main_arg4)) := by
  have h1 : t.val % 2 = 1 := (flush0_3 t).mp hf
  have hN : cfg0.N = 4 := N_0
  have hlt : t.val < 4 := hN ▸ t.isLt
  have hp0 : (prev0 t).val % 2 = 0 := by show (t.val - 1) % 2 = 0; omega
  have hp1 : (prev0 t).val / 2 = t.val / 2 := by show (t.val - 1) / 2 = t.val / 2; omega
  obtain ⟨-, -, -, -, -, e5, e6⟩ := idx_facts0 t
  show (cfg0.win 3).cut (grid0.coords t) ((dat0 V c).after 3 t) = _
  rw [after0_3, after3_odd0 V c t h1]
  funext j
  obtain ⟨p, q, rfl⟩ : ∃ (p : Fin 44) (q : Fin 2048), j = ix2 p q := ⟨j 0, j 1, eq_ix2 j⟩
  rw [View.read_apply]
  have hemb : ((cfg0.win 3).blk t).view.emb (ix2 p q)
      = (ix2 p (⟨2048 * (t.val / 2) + q.val, by omega⟩ : Fin 4096) : S44x4096.Idx) := by
    funext a
    apply Fin.ext
    match a with
    | ⟨0, _⟩ => show win0_3.index t 0 * 44 + 1 * p.val = p.val; rw [e5]; omega
    | ⟨1, _⟩ => show win0_3.index t 1 * 2048 + 1 * q.val = 2048 * (t.val / 2) + q.val; rw [e6]; omega
  rw [hemb]
  have hx : (cfg0.win 3).xinj (grid0.coords t) (ix2 p q) = (ix2 p q : S44x2048.Idx) :=
    funext fun a => match a with | ⟨0, _⟩ => rfl | ⟨1, _⟩ => rfl
  show Gen.k0_pay3 _ _ ((cfg0.win 3).xinj (grid0.coords t) (ix2 p q)) = _
  rw [hx]
  exact point_entry0 (V c main_v37) (V c main_v38) (V c main_arg4)
    (iblk0 V c 0 (prev0 t)) (iblk0 V c 0 t) (iblk0 V c 1 (prev0 t)) (iblk0 V c 1 t) (iblk0 V c 2 t) (t.val / 2) (by omega)
    (fun p k => iblk0_0_apply V c (prev0 t) p k _ (by rw [hp0]; exact (by omega : k.val = 2048 * 0 + k.val)))
    (fun p k => iblk0_0_apply V c t p k _ (by rw [h1]))
    (fun q k => iblk0_1_apply V c (prev0 t) q k _ _ (by rw [hp1]) (by rw [hp0]; exact (by omega : k.val = 2048 * 0 + k.val)))
    (fun q k => iblk0_1_apply V c t q k _ _ rfl (by rw [h1]))
    (fun q => iblk0_2_apply V c t q _ rfl) p q

/-- Every index of the output array is in the block some point with k = 1 writes back: the point 2 (col / 2048) + 1. -/
theorem cover0 (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 4 := N_0
  have hi0 : (i 0 : ℕ) < 44 := (i 0).isLt
  have hi1 : (i 1 : ℕ) < 4096 := (i 1).isLt
  have ht : 2 * ((i 1 : ℕ) / 2048) + 1 < cfg0.N := by omega
  obtain ⟨-, -, -, -, -, e5, e6⟩ := idx_facts0 ⟨2 * ((i 1 : ℕ) / 2048) + 1, ht⟩
  refine ⟨⟨2 * ((i 1 : ℕ) / 2048) + 1, ht⟩, (flush0_3 _).mpr (by show (2 * ((i 1 : ℕ) / 2048) + 1) % 2 = 1; omega), ?_⟩
  show i ∈ ((View.whole main_v39).slice (win0_3.rect ⟨2 * ((i 1 : ℕ) / 2048) + 1, ht⟩)).set
  rw [View.set_slice_whole, Rect.mem_set_unit]
  intro a
  match a with
  | ⟨0, _⟩ =>
    show win0_3.index ⟨2 * ((i 1 : ℕ) / 2048) + 1, ht⟩ 0 * 44 ≤ (i 0 : ℕ)
      ∧ (i 0 : ℕ) < win0_3.index ⟨2 * ((i 1 : ℕ) / 2048) + 1, ht⟩ 0 * 44 + 44
    rw [e5]; omega
  | ⟨1, _⟩ =>
    show win0_3.index ⟨2 * ((i 1 : ℕ) / 2048) + 1, ht⟩ 1 * 2048 ≤ (i 1 : ℕ)
      ∧ (i 1 : ℕ) < win0_3.index ⟨2 * ((i 1 : ℕ) / 2048) + 1, ht⟩ 1 * 2048 + 2048
    rw [e6]; show (2 * ((i 1 : ℕ) / 2048) + 1) / 2 * 2048 ≤ (i 1 : ℕ) ∧ (i 1 : ℕ) < (2 * ((i 1 : ℕ) / 2048) + 1) / 2 * 2048 + 2048; omega

/-- The region's output array after the run is the layer of the three arrays as the region finds them. -/
theorem final0 (c : Dev nD) :
    (dat0 (F := Ideal) V c).arrAt 3 cfg0.N = layerAct (V c main_v37) (V c main_v38) (V c main_arg4) :=
  (dat0 V c).arrAt_eq_of_cover 3 (layerAct (V c main_v37) (V c main_v38) (V c main_arg4))
    (fun t hf => flushed_eq0 V c t hf) (cover0 c)

end Cert.KernelIdeal.Fr

end
-- ==== Proof.IdealR1Pieces.lean ====
/-
  Region 0: the pieces each case of the body stores, read back as values. A point with k = 0 leaves in the
  accumulator the accumulate step applied to the zero block; a point with k = 1 leaves there the accumulate step applied
  to what the accumulator held, and in the output window the bias (and activation) step of that.
-/
import proofs.«135243_j27986006901491_1_alg».proof.Proof.IdealR1Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz1 : (![0, 0] : Fin 2 → Nat) = fun _ => 0 := funext fun a => by fin_cases a <;> rfl
theorem hz1' : (![0] : Fin 1 → Nat) = fun _ => 0 := funext fun a => by fin_cases a; rfl

theorem soutA_eq1 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond1_0 i) (hc1 : ¬cond1_1 i)
    (x0 : Vec F S44x2048 .bf16) (x1 : Vec F S2048x2048 .bf16) (x2 : Vec F S2048 .f32) :
    sout1_A_0 c i arg2 harg2 arg3 harg3 arg4 harg4 arg5 harg5 arg6 harg6 hc0 hc1 x0 x1 x2 = Gen.k1_pay2 (Gen.k1_pay1) x0 x1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S44x2048) hz1, View.readCov_unit_zero (S := S44x2048) _ hz1]
  simp only [View.readAt_eq_ld, harg2.read_unread, harg3.read_unread, View.ld_unit_zero (S := S44x2048) hz1, View.ld_unit_zero (S := S2048x2048) hz1]

theorem soutC_eq1 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond1_0 i) (hc1 : cond1_1 i)
    (x0 : Vec F S44x2048 .bf16) (x1 : Vec F S2048x2048 .bf16) (x2 : Vec F S2048 .f32) (xs0 : Vec F S44x2048 .f32) :
    sout1_C_0 c i arg2 harg2 arg3 harg3 arg4 harg4 arg5 harg5 arg6 harg6 hc0 hc1 x0 x1 x2 xs0 = Gen.k1_pay2 xs0 x0 x1 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero (S := S44x2048) hz1]
  simp only [View.readAt_eq_ld, harg2.read_unread, harg3.read_unread, harg6.read_unread, View.ld_unit_zero (S := S44x2048) hz1, View.ld_unit_zero (S := S2048x2048) hz1]

theorem outC_eq1 (c : Dev nD) (i : grid1.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond1_0 i) (hc1 : cond1_1 i)
    (x0 : Vec F S44x2048 .bf16) (x1 : Vec F S2048x2048 .bf16) (x2 : Vec F S2048 .f32) (xs0 : Vec F S44x2048 .f32) :
    out1_C_3 c i arg2 harg2 arg3 harg3 arg4 harg4 arg5 harg5 arg6 harg6 hc0 hc1 x0 x1 x2 xs0 = Gen.k1_pay3 (Gen.k1_pay2 xs0 x0 x1) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S44x2048) hz1, View.readCov_unit_zero (S := S44x2048) _ hz1]
  simp only [View.readAt_eq_ld, harg2.read_unread, harg3.read_unread, harg4.read_unread, harg6.read_unread, View.ld_unit_zero (S := S44x2048) hz1, View.ld_unit_zero (S := S2048x2048) hz1, View.ld_unit_zero (S := S2048) hz1']

variable (V : (c : Dev nD) → (b : Ref sig .tc) → Buf (Elt F) ((c : Thread nD τ).loc b))

/-- The point before. -/
abbrev prev1 (t : Fin cfg1.N) : Fin cfg1.N := ⟨t.val - 1, Nat.lt_of_le_of_lt (Nat.sub_le _ _) t.isLt⟩

/-- After a point with k = 0 the accumulator holds the accumulate step applied to the zero block. -/
theorem accA1 (c : Dev nD) (t : Fin cfg1.N) (hp : t.val % 2 = 0) :
    (outsAt1 V c t.val t.isLt).2 = Gen.k1_pay2 Gen.k1_pay1 (iblk1 V c 0 t) (iblk1 V c 1 t) := by
  have hne : ¬t.val % 2 = 1 := by omega
  have hc0' : cond1_0 (grid1.coords t) := (hcond1_0 t).mpr hp
  have hc1' : ¬cond1_1 (grid1.coords t) := fun h => hne ((hcond1_1 t).mp h)
  rw [outsAt1_A V c t hp]
  dsimp only
  exact soutA_eq1 c (grid1.coords t) (ms1_0 t) (hs1_0 t) (ms1_1 t) (hs1_1 t) (ms1_2 t) (hs1_2 t) (ms1_3 t) (hs1_3 t) scM1_0 (Memref.isWhole_whole _) hc0' hc1' (iblk1 V c 0 t) (iblk1 V c 1 t) (iblk1 V c 2 t)

/-- After a point with k = 1 the output window holds the bias (and activation) step of the two accumulate steps, the
    first from the zero block over the blocks of the point before, the second over this point's blocks. -/
theorem after3_odd1 (c : Dev nD) (t : Fin cfg1.N) (h1 : t.val % 2 = 1) :
    (outsAt1 V c t.val t.isLt).1
      = Gen.k1_pay3 (Gen.k1_pay2 (Gen.k1_pay2 Gen.k1_pay1 (iblk1 V c 0 (prev1 t)) (iblk1 V c 1 (prev1 t))) (iblk1 V c 0 t) (iblk1 V c 1 t)) (iblk1 V c 2 t) := by
  have h0 : ¬t.val % 2 = 0 := by omega
  have hp : (prev1 t).val % 2 = 0 := by show (t.val - 1) % 2 = 0; omega
  have hc0 : ¬cond1_0 (grid1.coords t) := fun h => h0 ((hcond1_0 t).mp h)
  have hc1 : cond1_1 (grid1.coords t) := (hcond1_1 t).mpr h1
  rw [outsAt1_C V c t h0]
  dsimp only
  rw [outC_eq1 c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (outsAt1 V c (t.val - 1) (Nat.lt_of_le_of_lt (Nat.sub_le _ _) t.isLt)).2]
  rw [show (outsAt1 V c (t.val - 1) (Nat.lt_of_le_of_lt (Nat.sub_le _ _) t.isLt)).2 = Gen.k1_pay2 Gen.k1_pay1 (iblk1 V c 0 (prev1 t)) (iblk1 V c 1 (prev1 t)) from accA1 V c (prev1 t) hp]

end Cert.KernelIdeal.Fr

end
-- ==== Proof.IdealR1Value.lean ====
/-
  Region 0: what its output array holds after the run, at the ideal instance — the layer's whole-array function of
  the three arrays the region reads.

  The grid visits each output block of 2048 columns twice, the contraction coordinate running 0 then 1. Only the
  second visit writes the block back; what it writes is the bias (and activation) step of the two accumulate steps
  from the zero block. Each window's block at a point is a rectangle of its array — block index times block size plus
  the coordinate inside the block on every axis —, so, entry by entry, the two visits' sums over 2048 positions are
  the two halves of the sum over all 4096, and the written blocks tile the array.
-/
import proofs.«135243_j27986006901491_1_alg».proof.Proof.IdealR1Pieces
import proofs.«135243_j27986006901491_1_alg».proof.Proof.IdealLayerDef
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The printed index maps, decided over the grid: with n = t / 2 the output block and k = t % 2 the contraction
    block, the input block is (0, k), the weight block (n, k), the bias block n, the output block (0, n). -/
theorem idx_facts1 : ∀ t : Fin cfg1.N,
    win1_0.index t (0 : Fin 2) = 0 ∧ win1_0.index t (1 : Fin 2) = t.val % 2
    ∧ win1_1.index t (0 : Fin 2) = t.val / 2 ∧ win1_1.index t (1 : Fin 2) = t.val % 2
    ∧ win1_2.index t (0 : Fin 1) = t.val / 2
    ∧ win1_3.index t (0 : Fin 2) = 0 ∧ win1_3.index t (1 : Fin 2) = t.val / 2 :=
  (by decide +kernel : ∀ t : Fin grid1.N, _)

/-- The input block at a point: columns [2048 k, 2048 k + 2048) of the input array. -/
theorem iblk1_0_apply (c : Dev nD) (t : Fin cfg1.N) (p : Fin 44) (k : Fin 2048) (K : Fin 4096)
    (hK : K.val = 2048 * (t.val % 2) + k.val) :
    (iblk1 V c 0 t : Vec Ideal S44x2048 .bf16) (ix2 p k) = (V c main_v77 : Vec Ideal S44x4096 .bf16) (ix2 p K) := by
  obtain ⟨e0, e1, -⟩ := idx_facts1 t
  unfold iblk1
  rw [View.read_apply]
  show V c main_v77 _ = V c main_v77 _
  congr 1
  funext a
  apply Fin.ext
  match a with
  | ⟨0, _⟩ => show win1_0.index t 0 * 44 + 1 * p.val = p.val; rw [e0]; omega
  | ⟨1, _⟩ => show win1_0.index t 1 * 2048 + 1 * k.val = K.val; rw [e1, hK]; omega

/-- The weight block at a point: rows [2048 n, 2048 n + 2048) and columns [2048 k, 2048 k + 2048) of the weights. -/
theorem iblk1_1_apply (c : Dev nD) (t : Fin cfg1.N) (q : Fin 2048) (k : Fin 2048) (Q K : Fin 4096)
    (hQ : Q.val = 2048 * (t.val / 2) + q.val) (hK : K.val = 2048 * (t.val % 2) + k.val) :
    (iblk1 V c 1 t : Vec Ideal S2048x2048 .bf16) (ix2 q k) = (V c main_v78 : Vec Ideal S4096x4096 .bf16) (ix2 Q K) := by
  obtain ⟨-, -, e2, e3, -⟩ := idx_facts1 t
  unfold iblk1
  rw [View.read_apply]
  show V c main_v78 _ = V c main_v78 _
  congr 1
  funext a
  apply Fin.ext
  match a with
  | ⟨0, _⟩ => show win1_1.index t 0 * 2048 + 1 * q.val = Q.val; rw [e2, hQ]; omega
  | ⟨1, _⟩ => show win1_1.index t 1 * 2048 + 1 * k.val = K.val; rw [e3, hK]; omega

/-- The bias block at a point: entries [2048 n, 2048 n + 2048) of the bias. -/
theorem iblk1_2_apply (c : Dev nD) (t : Fin cfg1.N) (q : Fin 2048) (Q : Fin 4096)
    (hQ : Q.val = 2048 * (t.val / 2) + q.val) :
    (iblk1 V c 2 t : Vec Ideal S2048 .f32) (ix1 q) = (V c main_arg6 : Vec Ideal S4096 .f32) (ix1 Q) := by
  obtain ⟨-, -, -, -, e4, -⟩ := idx_facts1 t
  unfold iblk1
  rw [View.read_apply]
  show V c main_arg6 _ = V c main_arg6 _
  congr 1
  funext a
  apply Fin.ext
  match a with
  | ⟨0, _⟩ => show win1_2.index t 0 * 2048 + 1 * q.val = Q.val; rw [e4, hQ]; omega

/-- One written block, entry by entry, over variables of the blocks' own types: the bias and activation step of the
    two accumulate steps from the zero block is the layer at (p, 2048 n + q). -/
theorem point_entry1 (A : Vec Ideal S44x4096 .bf16) (W : Vec Ideal S4096x4096 .bf16) (B : Vec Ideal S4096 .f32)
    (a0 a1 : Vec Ideal S44x2048 .bf16) (w0 w1 : Vec Ideal S2048x2048 .bf16) (b : Vec Ideal S2048 .f32)
    (n : ℕ) (hn : n < 2)
    (ha0 : ∀ (p : Fin 44) (k : Fin 2048), a0 (ix2 p k) = A (ix2 p (⟨k.val, by omega⟩ : Fin 4096)))
    (ha1 : ∀ (p : Fin 44) (k : Fin 2048), a1 (ix2 p k) = A (ix2 p (⟨2048 + k.val, by omega⟩ : Fin 4096)))
    (hw0 : ∀ (q k : Fin 2048), w0 (ix2 q k)
      = W (ix2 (⟨2048 * n + q.val, by omega⟩ : Fin 4096) (⟨k.val, by omega⟩ : Fin 4096)))
    (hw1 : ∀ (q k : Fin 2048), w1 (ix2 q k)
      = W (ix2 (⟨2048 * n + q.val, by omega⟩ : Fin 4096) (⟨2048 + k.val, by omega⟩ : Fin 4096)))
    (hb : ∀ q : Fin 2048, b (ix1 q) = B (ix1 (⟨2048 * n + q.val, by omega⟩ : Fin 4096)))
    (p : Fin 44) (q : Fin 2048) :
    Gen.k1_pay3 (Gen.k1_pay2 (Gen.k1_pay2 Gen.k1_pay1 a0 w0) a1 w1) b (ix2 p q)
      = layerAct A W B (ix2 p (⟨2048 * n + q.val, by omega⟩ : Fin 4096)) := by
  rw [Layer.pay3_apply_1, Layer.pay2_apply_1, Layer.pay2_apply_1, Layer.pay1_apply_1]
  exact congrArg Layer.actE (block_entry A W B a0 a1 w0 w1 b n hn ha0 ha1 hw0 hw1 hb p q)

/-- What a point with k = 1 writes back is its block of the layer's whole-array function. -/
theorem flushed_eq1 (c : Dev nD) (t : Fin cfg1.N) (hf : (cfg1.win 3).flush t = true) :
    (dat1 V c).flushed 3 t
      = ((cfg1.win 3).blk t).view.read (Elt Ideal) (layerAct (V c main_v77) (V c main_v78) (V c main_arg6)) := by
  have h1 : t.val % 2 = 1 := (flush1_3 t).mp hf
  have hN : cfg1.N = 4 := N_1
  have hlt : t.val < 4 := hN ▸ t.isLt
  have hp0 : (prev1 t).val % 2 = 0 := by show (t.val - 1) % 2 = 0; omega
  have hp1 : (prev1 t).val / 2 = t.val / 2 := by show (t.val - 1) / 2 = t.val / 2; omega
  obtain ⟨-, -, -, -, -, e5, e6⟩ := idx_facts1 t
  show (cfg1.win 3).cut (grid1.coords t) ((dat1 V c).after 3 t) = _
  rw [after1_3, after3_odd1 V c t h1]
  funext j
  obtain ⟨p, q, rfl⟩ : ∃ (p : Fin 44) (q : Fin 2048), j = ix2 p q := ⟨j 0, j 1, eq_ix2 j⟩
  rw [View.read_apply]
  have hemb : ((cfg1.win 3).blk t).view.emb (ix2 p q)
      = (ix2 p (⟨2048 * (t.val / 2) + q.val, by omega⟩ : Fin 4096) : S44x4096.Idx) := by
    funext a
    apply Fin.ext
    match a with
    | ⟨0, _⟩ => show win1_3.index t 0 * 44 + 1 * p.val = p.val; rw [e5]; omega
    | ⟨1, _⟩ => show win1_3.index t 1 * 2048 + 1 * q.val = 2048 * (t.val / 2) + q.val; rw [e6]; omega
  rw [hemb]
  have hx : (cfg1.win 3).xinj (grid1.coords t) (ix2 p q) = (ix2 p q : S44x2048.Idx) :=
    funext fun a => match a with | ⟨0, _⟩ => rfl | ⟨1, _⟩ => rfl
  show Gen.k1_pay3 _ _ ((cfg1.win 3).xinj (grid1.coords t) (ix2 p q)) = _
  rw [hx]
  exact point_entry1 (V c main_v77) (V c main_v78) (V c main_arg6)
    (iblk1 V c 0 (prev1 t)) (iblk1 V c 0 t) (iblk1 V c 1 (prev1 t)) (iblk1 V c 1 t) (iblk1 V c 2 t) (t.val / 2) (by omega)
    (fun p k => iblk1_0_apply V c (prev1 t) p k _ (by rw [hp0]; exact (by omega : k.val = 2048 * 0 + k.val)))
    (fun p k => iblk1_0_apply V c t p k _ (by rw [h1]))
    (fun q k => iblk1_1_apply V c (prev1 t) q k _ _ (by rw [hp1]) (by rw [hp0]; exact (by omega : k.val = 2048 * 0 + k.val)))
    (fun q k => iblk1_1_apply V c t q k _ _ rfl (by rw [h1]))
    (fun q => iblk1_2_apply V c t q _ rfl) p q

/-- Every index of the output array is in the block some point with k = 1 writes back: the point 2 (col / 2048) + 1. -/
theorem cover1 (c : Dev nD) (i : ((cfg1.win 3).arr.view.loc (c.tc : Thread nD τ)).2.ty.Idx) :
    ∃ t : Fin cfg1.N, (cfg1.win 3).flush t = true ∧ i ∈ ((cfg1.win 3).blk t).view.set := by
  have hN : cfg1.N = 4 := N_1
  have hi0 : (i 0 : ℕ) < 44 := (i 0).isLt
  have hi1 : (i 1 : ℕ) < 4096 := (i 1).isLt
  have ht : 2 * ((i 1 : ℕ) / 2048) + 1 < cfg1.N := by omega
  obtain ⟨-, -, -, -, -, e5, e6⟩ := idx_facts1 ⟨2 * ((i 1 : ℕ) / 2048) + 1, ht⟩
  refine ⟨⟨2 * ((i 1 : ℕ) / 2048) + 1, ht⟩, (flush1_3 _).mpr (by show (2 * ((i 1 : ℕ) / 2048) + 1) % 2 = 1; omega), ?_⟩
  show i ∈ ((View.whole main_v79).slice (win1_3.rect ⟨2 * ((i 1 : ℕ) / 2048) + 1, ht⟩)).set
  rw [View.set_slice_whole, Rect.mem_set_unit]
  intro a
  match a with
  | ⟨0, _⟩ =>
    show win1_3.index ⟨2 * ((i 1 : ℕ) / 2048) + 1, ht⟩ 0 * 44 ≤ (i 0 : ℕ)
      ∧ (i 0 : ℕ) < win1_3.index ⟨2 * ((i 1 : ℕ) / 2048) + 1, ht⟩ 0 * 44 + 44
    rw [e5]; omega
  | ⟨1, _⟩ =>
    show win1_3.index ⟨2 * ((i 1 : ℕ) / 2048) + 1, ht⟩ 1 * 2048 ≤ (i 1 : ℕ)
      ∧ (i 1 : ℕ) < win1_3.index ⟨2 * ((i 1 : ℕ) / 2048) + 1, ht⟩ 1 * 2048 + 2048
    rw [e6]; show (2 * ((i 1 : ℕ) / 2048) + 1) / 2 * 2048 ≤ (i 1 : ℕ) ∧ (i 1 : ℕ) < (2 * ((i 1 : ℕ) / 2048) + 1) / 2 * 2048 + 2048; omega

/-- The region's output array after the run is the layer of the three arrays as the region finds them. -/
theorem final1 (c : Dev nD) :
    (dat1 (F := Ideal) V c).arrAt 3 cfg1.N = layerAct (V c main_v77) (V c main_v78) (V c main_arg6) :=
  (dat1 V c).arrAt_eq_of_cover 3 (layerAct (V c main_v77) (V c main_v78) (V c main_arg6))
    (fun t hf => flushed_eq1 V c t hf) (cover1 c)

end Cert.KernelIdeal.Fr

end
-- ==== Proof.IdealR2Pieces.lean ====
/-
  Region 2: the pieces each case of the body stores, read back as values. A point with k = 0 leaves in the
  accumulator the accumulate step applied to the zero block; a point with k = 1 leaves there the accumulate step applied
  to what the accumulator held, and in the output window the bias step of that.
-/
import proofs.«135243_j27986006901491_1_alg».proof.Proof.IdealR2Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz2' : (![0] : Fin 1 → Nat) = fun _ => 0 := funext fun a => by fin_cases a; rfl

theorem soutA_eq2 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond2_0 i) (hc1 : ¬cond2_1 i)
    (x0 : Vec F S44x2048 .bf16) (x1 : Vec F S2048x2048 .bf16) (x2 : Vec F S2048 .f32) :
    sout2_A_0 c i arg2 harg2 arg3 harg3 arg4 harg4 arg5 harg5 arg6 harg6 hc0 hc1 x0 x1 x2 = Gen.k2_pay2 (Gen.k2_pay1) x0 x1 := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_words
  rw [View.canon_cons_unit_zero (S := S44x2048) hz2, View.readCov_unit_zero (S := S44x2048) _ hz2]
  simp only [View.readAt_eq_ld, harg2.read_unread, harg3.read_unread, View.ld_unit_zero (S := S44x2048) hz2, View.ld_unit_zero (S := S2048x2048) hz2]

theorem soutC_eq2 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond2_0 i) (hc1 : cond2_1 i)
    (x0 : Vec F S44x2048 .bf16) (x1 : Vec F S2048x2048 .bf16) (x2 : Vec F S2048 .f32) (xs0 : Vec F S44x2048 .f32) :
    sout2_C_0 c i arg2 harg2 arg3 harg3 arg4 harg4 arg5 harg5 arg6 harg6 hc0 hc1 x0 x1 x2 xs0 = Gen.k2_pay2 xs0 x0 x1 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_words
  rw [View.canon_unit_zero (S := S44x2048) hz2]
  simp only [View.readAt_eq_ld, harg2.read_unread, harg3.read_unread, harg6.read_unread, View.ld_unit_zero (S := S44x2048) hz2, View.ld_unit_zero (S := S2048x2048) hz2]

theorem outC_eq2 (c : Dev nD) (i : grid2.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond2_0 i) (hc1 : cond2_1 i)
    (x0 : Vec F S44x2048 .bf16) (x1 : Vec F S2048x2048 .bf16) (x2 : Vec F S2048 .f32) (xs0 : Vec F S44x2048 .f32) :
    out2_C_3 c i arg2 harg2 arg3 harg3 arg4 harg4 arg5 harg5 arg6 harg6 hc0 hc1 x0 x1 x2 xs0 = Gen.k2_pay3 (Gen.k2_pay2 xs0 x0 x1) x2 := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_words
  rw [View.canon_unit_zero (S := S44x2048) hz2, View.readCov_unit_zero (S := S44x2048) _ hz2]
  simp only [View.readAt_eq_ld, harg2.read_unread, harg3.read_unread, harg4.read_unread, harg6.read_unread, View.ld_unit_zero (S := S44x2048) hz2, View.ld_unit_zero (S := S2048x2048) hz2, View.ld_unit_zero (S := S2048) hz2']

variable (V : (c : Dev nD) → (b : Ref sig .tc) → Buf (Elt F) ((c : Thread nD τ).loc b))

/-- The point before. -/
abbrev prev2 (t : Fin cfg2.N) : Fin cfg2.N := ⟨t.val - 1, Nat.lt_of_le_of_lt (Nat.sub_le _ _) t.isLt⟩

/-- After a point with k = 0 the accumulator holds the accumulate step applied to the zero block. -/
theorem accA2 (c : Dev nD) (t : Fin cfg2.N) (hp : t.val % 2 = 0) :
    (outsAt2 V c t.val t.isLt).2 = Gen.k2_pay2 Gen.k2_pay1 (iblk2 V c 0 t) (iblk2 V c 1 t) := by
  have hne : ¬t.val % 2 = 1 := by omega
  have hc0' : cond2_0 (grid2.coords t) := (hcond2_0 t).mpr hp
  have hc1' : ¬cond2_1 (grid2.coords t) := fun h => hne ((hcond2_1 t).mp h)
  rw [outsAt2_A V c t hp]
  dsimp only
  exact soutA_eq2 c (grid2.coords t) (ms2_0 t) (hs2_0 t) (ms2_1 t) (hs2_1 t) (ms2_2 t) (hs2_2 t) (ms2_3 t) (hs2_3 t) scM2_0 (Memref.isWhole_whole _) hc0' hc1' (iblk2 V c 0 t) (iblk2 V c 1 t) (iblk2 V c 2 t)

/-- After a point with k = 1 the output window holds the bias step of the two accumulate steps, the
    first from the zero block over the blocks of the point before, the second over this point's blocks. -/
theorem after3_odd2 (c : Dev nD) (t : Fin cfg2.N) (h1 : t.val % 2 = 1) :
    (outsAt2 V c t.val t.isLt).1
      = Gen.k2_pay3 (Gen.k2_pay2 (Gen.k2_pay2 Gen.k2_pay1 (iblk2 V c 0 (prev2 t)) (iblk2 V c 1 (prev2 t))) (iblk2 V c 0 t) (iblk2 V c 1 t)) (iblk2 V c 2 t) := by
  have h0 : ¬t.val % 2 = 0 := by omega
  have hp : (prev2 t).val % 2 = 0 := by show (t.val - 1) % 2 = 0; omega
  have hc0 : ¬cond2_0 (grid2.coords t) := fun h => h0 ((hcond2_0 t).mp h)
  have hc1 : cond2_1 (grid2.coords t) := (hcond2_1 t).mpr h1
  rw [outsAt2_C V c t h0]
  dsimp only
  rw [outC_eq2 c (grid2.coords t) (ms2_0 t) (hs2_0 t) (ms2_1 t) (hs2_1 t) (ms2_2 t) (hs2_2 t) (ms2_3 t) (hs2_3 t) scM2_0 (Memref.isWhole_whole _) hc0 hc1 (iblk2 V c 0 t) (iblk2 V c 1 t) (iblk2 V c 2 t) (outsAt2 V c (t.val - 1) (Nat.lt_of_le_of_lt (Nat.sub_le _ _) t.isLt)).2]
  rw [show (outsAt2 V c (t.val - 1) (Nat.lt_of_le_of_lt (Nat.sub_le _ _) t.isLt)).2 = Gen.k2_pay2 Gen.k2_pay1 (iblk2 V c 0 (prev2 t)) (iblk2 V c 1 (prev2 t)) from accA2 V c (prev2 t) hp]

end Cert.KernelIdeal.Fr

end
-- ==== Proof.IdealR2Value.lean ====
/-
  Region 2: what its output array holds after the run, at the ideal instance — the layer's whole-array function of
  the three arrays the region reads.

  The grid visits each output block of 2048 columns twice, the contraction coordinate running 0 then 1. Only the
  second visit writes the block back; what it writes is the bias step of the two accumulate steps
  from the zero block. Each window's block at a point is a rectangle of its array — block index times block size plus
  the coordinate inside the block on every axis —, so, entry by entry, the two visits' sums over 2048 positions are
  the two halves of the sum over all 4096, and the written blocks tile the array.
-/
import proofs.«135243_j27986006901491_1_alg».proof.Proof.IdealR2Pieces
import proofs.«135243_j27986006901491_1_alg».proof.Proof.IdealLayerDef
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The printed index maps, decided over the grid: with n = t / 2 the output block and k = t % 2 the contraction
    block, the input block is (0, k), the weight block (n, k), the bias block n, the output block (0, n). -/
theorem idx_facts2 : ∀ t : Fin cfg2.N,
    win2_0.index t (0 : Fin 2) = 0 ∧ win2_0.index t (1 : Fin 2) = t.val % 2
    ∧ win2_1.index t (0 : Fin 2) = t.val / 2 ∧ win2_1.index t (1 : Fin 2) = t.val % 2
    ∧ win2_2.index t (0 : Fin 1) = t.val / 2
    ∧ win2_3.index t (0 : Fin 2) = 0 ∧ win2_3.index t (1 : Fin 2) = t.val / 2 :=
  (by decide +kernel : ∀ t : Fin grid2.N, _)

/-- The input block at a point: columns [2048 k, 2048 k + 2048) of the input array. -/
theorem iblk2_0_apply (c : Dev nD) (t : Fin cfg2.N) (p : Fin 44) (k : Fin 2048) (K : Fin 4096)
    (hK : K.val = 2048 * (t.val % 2) + k.val) :
    (iblk2 V c 0 t : Vec Ideal S44x2048 .bf16) (ix2 p k) = (V c main_v117 : Vec Ideal S44x4096 .bf16) (ix2 p K) := by
  obtain ⟨e0, e1, -⟩ := idx_facts2 t
  unfold iblk2
  rw [View.read_apply]
  show V c main_v117 _ = V c main_v117 _
  congr 1
  funext a
  apply Fin.ext
  match a with
  | ⟨0, _⟩ => show win2_0.index t 0 * 44 + 1 * p.val = p.val; rw [e0]; omega
  | ⟨1, _⟩ => show win2_0.index t 1 * 2048 + 1 * k.val = K.val; rw [e1, hK]; omega

/-- The weight block at a point: rows [2048 n, 2048 n + 2048) and columns [2048 k, 2048 k + 2048) of the weights. -/
theorem iblk2_1_apply (c : Dev nD) (t : Fin cfg2.N) (q : Fin 2048) (k : Fin 2048) (Q K : Fin 4096)
    (hQ : Q.val = 2048 * (t.val / 2) + q.val) (hK : K.val = 2048 * (t.val % 2) + k.val) :
    (iblk2 V c 1 t : Vec Ideal S2048x2048 .bf16) (ix2 q k) = (V c main_v118 : Vec Ideal S4096x4096 .bf16) (ix2 Q K) := by
  obtain ⟨-, -, e2, e3, -⟩ := idx_facts2 t
  unfold iblk2
  rw [View.read_apply]
  show V c main_v118 _ = V c main_v118 _
  congr 1
  funext a
  apply Fin.ext
  match a with
  | ⟨0, _⟩ => show win2_1.index t 0 * 2048 + 1 * q.val = Q.val; rw [e2, hQ]; omega
  | ⟨1, _⟩ => show win2_1.index t 1 * 2048 + 1 * k.val = K.val; rw [e3, hK]; omega

/-- The bias block at a point: entries [2048 n, 2048 n + 2048) of the bias. -/
theorem iblk2_2_apply (c : Dev nD) (t : Fin cfg2.N) (q : Fin 2048) (Q : Fin 4096)
    (hQ : Q.val = 2048 * (t.val / 2) + q.val) :
    (iblk2 V c 2 t : Vec Ideal S2048 .f32) (ix1 q) = (V c main_arg8 : Vec Ideal S4096 .f32) (ix1 Q) := by
  obtain ⟨-, -, -, -, e4, -⟩ := idx_facts2 t
  unfold iblk2
  rw [View.read_apply]
  show V c main_arg8 _ = V c main_arg8 _
  congr 1
  funext a
  apply Fin.ext
  match a with
  | ⟨0, _⟩ => show win2_2.index t 0 * 2048 + 1 * q.val = Q.val; rw [e4, hQ]; omega

/-- One written block, entry by entry, over variables of the blocks' own types: the bias step of the
    two accumulate steps from the zero block is the layer at (p, 2048 n + q). -/
theorem point_entry2 (A : Vec Ideal S44x4096 .bf16) (W : Vec Ideal S4096x4096 .bf16) (B : Vec Ideal S4096 .f32)
    (a0 a1 : Vec Ideal S44x2048 .bf16) (w0 w1 : Vec Ideal S2048x2048 .bf16) (b : Vec Ideal S2048 .f32)
    (n : ℕ) (hn : n < 2)
    (ha0 : ∀ (p : Fin 44) (k : Fin 2048), a0 (ix2 p k) = A (ix2 p (⟨k.val, by omega⟩ : Fin 4096)))
    (ha1 : ∀ (p : Fin 44) (k : Fin 2048), a1 (ix2 p k) = A (ix2 p (⟨2048 + k.val, by omega⟩ : Fin 4096)))
    (hw0 : ∀ (q k : Fin 2048), w0 (ix2 q k)
      = W (ix2 (⟨2048 * n + q.val, by omega⟩ : Fin 4096) (⟨k.val, by omega⟩ : Fin 4096)))
    (hw1 : ∀ (q k : Fin 2048), w1 (ix2 q k)
      = W (ix2 (⟨2048 * n + q.val, by omega⟩ : Fin 4096) (⟨2048 + k.val, by omega⟩ : Fin 4096)))
    (hb : ∀ q : Fin 2048, b (ix1 q) = B (ix1 (⟨2048 * n + q.val, by omega⟩ : Fin 4096)))
    (p : Fin 44) (q : Fin 2048) :
    Gen.k2_pay3 (Gen.k2_pay2 (Gen.k2_pay2 Gen.k2_pay1 a0 w0) a1 w1) b (ix2 p q)
      = layerLin A W B (ix2 p (⟨2048 * n + q.val, by omega⟩ : Fin 4096)) := by
  rw [Layer.pay3_apply_2, Layer.pay2_apply_2, Layer.pay2_apply_2, Layer.pay1_apply_2]
  exact (block_entry A W B a0 a1 w0 w1 b n hn ha0 ha1 hw0 hw1 hb p q)

/-- What a point with k = 1 writes back is its block of the layer's whole-array function. -/
theorem flushed_eq2 (c : Dev nD) (t : Fin cfg2.N) (hf : (cfg2.win 3).flush t = true) :
    (dat2 V c).flushed 3 t
      = ((cfg2.win 3).blk t).view.read (Elt Ideal) (layerLin (V c main_v117) (V c main_v118) (V c main_arg8)) := by
  have h1 : t.val % 2 = 1 := (flush2_3 t).mp hf
  have hN : cfg2.N = 4 := N_2
  have hlt : t.val < 4 := hN ▸ t.isLt
  have hp0 : (prev2 t).val % 2 = 0 := by show (t.val - 1) % 2 = 0; omega
  have hp1 : (prev2 t).val / 2 = t.val / 2 := by show (t.val - 1) / 2 = t.val / 2; omega
  obtain ⟨-, -, -, -, -, e5, e6⟩ := idx_facts2 t
  show (cfg2.win 3).cut (grid2.coords t) ((dat2 V c).after 3 t) = _
  rw [after2_3, after3_odd2 V c t h1]
  funext j
  obtain ⟨p, q, rfl⟩ : ∃ (p : Fin 44) (q : Fin 2048), j = ix2 p q := ⟨j 0, j 1, eq_ix2 j⟩
  rw [View.read_apply]
  have hemb : ((cfg2.win 3).blk t).view.emb (ix2 p q)
      = (ix2 p (⟨2048 * (t.val / 2) + q.val, by omega⟩ : Fin 4096) : S44x4096.Idx) := by
    funext a
    apply Fin.ext
    match a with
    | ⟨0, _⟩ => show win2_3.index t 0 * 44 + 1 * p.val = p.val; rw [e5]; omega
    | ⟨1, _⟩ => show win2_3.index t 1 * 2048 + 1 * q.val = 2048 * (t.val / 2) + q.val; rw [e6]; omega
  rw [hemb]
  have hx : (cfg2.win 3).xinj (grid2.coords t) (ix2 p q) = (ix2 p q : S44x2048.Idx) :=
    funext fun a => match a with | ⟨0, _⟩ => rfl | ⟨1, _⟩ => rfl
  show Gen.k2_pay3 _ _ ((cfg2.win 3).xinj (grid2.coords t) (ix2 p q)) = _
  rw [hx]
  exact point_entry2 (V c main_v117) (V c main_v118) (V c main_arg8)
    (iblk2 V c 0 (prev2 t)) (iblk2 V c 0 t) (iblk2 V c 1 (prev2 t)) (iblk2 V c 1 t) (iblk2 V c 2 t) (t.val / 2) (by omega)
    (fun p k => iblk2_0_apply V c (prev2 t) p k _ (by rw [hp0]; exact (by omega : k.val = 2048 * 0 + k.val)))
    (fun p k => iblk2_0_apply V c t p k _ (by rw [h1]))
    (fun q k => iblk2_1_apply V c (prev2 t) q k _ _ (by rw [hp1]) (by rw [hp0]; exact (by omega : k.val = 2048 * 0 + k.val)))
    (fun q k => iblk2_1_apply V c t q k _ _ rfl (by rw [h1]))
    (fun q => iblk2_2_apply V c t q _ rfl) p q

/-- Every index of the output array is in the block some point with k = 1 writes back: the point 2 (col / 2048) + 1. -/
theorem cover2 (c : Dev nD) (i : ((cfg2.win 3).arr.view.loc (c.tc : Thread nD τ)).2.ty.Idx) :
    ∃ t : Fin cfg2.N, (cfg2.win 3).flush t = true ∧ i ∈ ((cfg2.win 3).blk t).view.set := by
  have hN : cfg2.N = 4 := N_2
  have hi0 : (i 0 : ℕ) < 44 := (i 0).isLt
  have hi1 : (i 1 : ℕ) < 4096 := (i 1).isLt
  have ht : 2 * ((i 1 : ℕ) / 2048) + 1 < cfg2.N := by omega
  obtain ⟨-, -, -, -, -, e5, e6⟩ := idx_facts2 ⟨2 * ((i 1 : ℕ) / 2048) + 1, ht⟩
  refine ⟨⟨2 * ((i 1 : ℕ) / 2048) + 1, ht⟩, (flush2_3 _).mpr (by show (2 * ((i 1 : ℕ) / 2048) + 1) % 2 = 1; omega), ?_⟩
  show i ∈ ((View.whole main_v119).slice (win2_3.rect ⟨2 * ((i 1 : ℕ) / 2048) + 1, ht⟩)).set
  rw [View.set_slice_whole, Rect.mem_set_unit]
  intro a
  match a with
  | ⟨0, _⟩ =>
    show win2_3.index ⟨2 * ((i 1 : ℕ) / 2048) + 1, ht⟩ 0 * 44 ≤ (i 0 : ℕ)
      ∧ (i 0 : ℕ) < win2_3.index ⟨2 * ((i 1 : ℕ) / 2048) + 1, ht⟩ 0 * 44 + 44
    rw [e5]; omega
  | ⟨1, _⟩ =>
    show win2_3.index ⟨2 * ((i 1 : ℕ) / 2048) + 1, ht⟩ 1 * 2048 ≤ (i 1 : ℕ)
      ∧ (i 1 : ℕ) < win2_3.index ⟨2 * ((i 1 : ℕ) / 2048) + 1, ht⟩ 1 * 2048 + 2048
    rw [e6]; show (2 * ((i 1 : ℕ) / 2048) + 1) / 2 * 2048 ≤ (i 1 : ℕ) ∧ (i 1 : ℕ) < (2 * ((i 1 : ℕ) / 2048) + 1) / 2 * 2048 + 2048; omega

/-- The region's output array after the run is the layer of the three arrays as the region finds them. -/
theorem final2 (c : Dev nD) :
    (dat2 (F := Ideal) V c).arrAt 3 cfg2.N = layerLin (V c main_v117) (V c main_v118) (V c main_arg8) :=
  (dat2 V c).arrAt_eq_of_cover 3 (layerLin (V c main_v117) (V c main_v118) (V c main_arg8))
    (fun t hf => flushed_eq2 V c t hf) (cover2 c)

end Cert.KernelIdeal.Fr

end
-- ==== Proof.IdealR3Pieces.lean ====
/-
  Region 0: the pieces each case of the body stores, read back as values. A point with k = 0 leaves in the
  accumulator the accumulate step applied to the zero block; a point with k = 1 leaves there the accumulate step applied
  to what the accumulator held, and in the output window the bias (and activation) step of that.
-/
import proofs.«135243_j27986006901491_1_alg».proof.Proof.IdealR3Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0] : Fin 2 → Nat) = fun _ => 0 := funext fun a => by fin_cases a <;> rfl
theorem hz3' : (![0] : Fin 1 → Nat) = fun _ => 0 := funext fun a => by fin_cases a; rfl

theorem soutA_eq3 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond3_0 i) (hc1 : ¬cond3_1 i)
    (x0 : Vec F S44x2048 .bf16) (x1 : Vec F S2048x2048 .bf16) (x2 : Vec F S2048 .f32) :
    sout3_A_0 c i arg2 harg2 arg3 harg3 arg4 harg4 arg5 harg5 arg6 harg6 hc0 hc1 x0 x1 x2 = Gen.k3_pay2 (Gen.k3_pay1) x0 x1 := by
  unfold sout3_A_0
  rw [View.read_writes_eq_canon _ _ _ (scover3_A_0 c i arg2 harg2 arg3 harg3 arg4 harg4 arg5 harg5 arg6 harg6 hc0 hc1 x0 x1 x2)]
  unfold kernelRun3_A
  dsimp only
  sl_unfold_words
  rw [View.canon_cons_unit_zero (S := S44x2048) hz3, View.readCov_unit_zero (S := S44x2048) _ hz3]
  simp only [View.readAt_eq_ld, harg2.read_unread, harg3.read_unread, View.ld_unit_zero (S := S44x2048) hz3, View.ld_unit_zero (S := S2048x2048) hz3]

theorem soutC_eq3 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond3_0 i) (hc1 : cond3_1 i)
    (x0 : Vec F S44x2048 .bf16) (x1 : Vec F S2048x2048 .bf16) (x2 : Vec F S2048 .f32) (xs0 : Vec F S44x2048 .f32) :
    sout3_C_0 c i arg2 harg2 arg3 harg3 arg4 harg4 arg5 harg5 arg6 harg6 hc0 hc1 x0 x1 x2 xs0 = Gen.k3_pay2 xs0 x0 x1 := by
  unfold sout3_C_0
  rw [View.read_writes_eq_canon _ _ _ (scover3_C_0 c i arg2 harg2 arg3 harg3 arg4 harg4 arg5 harg5 arg6 harg6 hc0 hc1 x0 x1 x2 xs0)]
  unfold kernelRun3_C
  dsimp only
  sl_unfold_words
  rw [View.canon_unit_zero (S := S44x2048) hz3]
  simp only [View.readAt_eq_ld, harg2.read_unread, harg3.read_unread, harg6.read_unread, View.ld_unit_zero (S := S44x2048) hz3, View.ld_unit_zero (S := S2048x2048) hz3]

theorem outC_eq3 (c : Dev nD) (i : grid3.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond3_0 i) (hc1 : cond3_1 i)
    (x0 : Vec F S44x2048 .bf16) (x1 : Vec F S2048x2048 .bf16) (x2 : Vec F S2048 .f32) (xs0 : Vec F S44x2048 .f32) :
    out3_C_3 c i arg2 harg2 arg3 harg3 arg4 harg4 arg5 harg5 arg6 harg6 hc0 hc1 x0 x1 x2 xs0 = Gen.k3_pay3 (Gen.k3_pay2 xs0 x0 x1) x2 := by
  unfold out3_C_3
  rw [View.read_writes_eq_canon _ _ _ (cover3_C_3 c i arg2 harg2 arg3 harg3 arg4 harg4 arg5 harg5 arg6 harg6 hc0 hc1 x0 x1 x2 xs0)]
  unfold kernelRun3_C
  dsimp only
  sl_unfold_words
  rw [View.canon_unit_zero (S := S44x2048) hz3, View.readCov_unit_zero (S := S44x2048) _ hz3]
  simp only [View.readAt_eq_ld, harg2.read_unread, harg3.read_unread, harg4.read_unread, harg6.read_unread, View.ld_unit_zero (S := S44x2048) hz3, View.ld_unit_zero (S := S2048x2048) hz3, View.ld_unit_zero (S := S2048) hz3']

variable (V : (c : Dev nD) → (b : Ref sig .tc) → Buf (Elt F) ((c : Thread nD τ).loc b))

/-- The point before. -/
abbrev prev3 (t : Fin cfg3.N) : Fin cfg3.N := ⟨t.val - 1, Nat.lt_of_le_of_lt (Nat.sub_le _ _) t.isLt⟩

/-- After a point with k = 0 the accumulator holds the accumulate step applied to the zero block. -/
theorem accA3 (c : Dev nD) (t : Fin cfg3.N) (hp : t.val % 2 = 0) :
    (outsAt3 V c t.val t.isLt).2 = Gen.k3_pay2 Gen.k3_pay1 (iblk3 V c 0 t) (iblk3 V c 1 t) := by
  have hne : ¬t.val % 2 = 1 := by omega
  have hc0' : cond3_0 (grid3.coords t) := (hcond3_0 t).mpr hp
  have hc1' : ¬cond3_1 (grid3.coords t) := fun h => hne ((hcond3_1 t).mp h)
  rw [outsAt3_A V c t hp]
  dsimp only
  exact soutA_eq3 c (grid3.coords t) (ms3_0 t) (hs3_0 t) (ms3_1 t) (hs3_1 t) (ms3_2 t) (hs3_2 t) (ms3_3 t) (hs3_3 t) scM3_0 (Memref.isWhole_whole _) hc0' hc1' (iblk3 V c 0 t) (iblk3 V c 1 t) (iblk3 V c 2 t)

/-- After a point with k = 1 the output window holds the bias (and activation) step of the two accumulate steps, the
    first from the zero block over the blocks of the point before, the second over this point's blocks. -/
theorem after3_odd3 (c : Dev nD) (t : Fin cfg3.N) (h1 : t.val % 2 = 1) :
    (outsAt3 V c t.val t.isLt).1
      = Gen.k3_pay3 (Gen.k3_pay2 (Gen.k3_pay2 Gen.k3_pay1 (iblk3 V c 0 (prev3 t)) (iblk3 V c 1 (prev3 t))) (iblk3 V c 0 t) (iblk3 V c 1 t)) (iblk3 V c 2 t) := by
  have h0 : ¬t.val % 2 = 0 := by omega
  have hp : (prev3 t).val % 2 = 0 := by show (t.val - 1) % 2 = 0; omega
  have hc0 : ¬cond3_0 (grid3.coords t) := fun h => h0 ((hcond3_0 t).mp h)
  have hc1 : cond3_1 (grid3.coords t) := (hcond3_1 t).mpr h1
  rw [outsAt3_C V c t h0]
  dsimp only
  rw [outC_eq3 c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) (outsAt3 V c (t.val - 1) (Nat.lt_of_le_of_lt (Nat.sub_le _ _) t.isLt)).2]
  rw [show (outsAt3 V c (t.val - 1) (Nat.lt_of_le_of_lt (Nat.sub_le _ _) t.isLt)).2 = Gen.k3_pay2 Gen.k3_pay1 (iblk3 V c 0 (prev3 t)) (iblk3 V c 1 (prev3 t)) from accA3 V c (prev3 t) hp]

end Cert.KernelIdeal.Fr

end
-- ==== Proof.IdealR3Value.lean ====
/-
  Region 0: what its output array holds after the run, at the ideal instance — the layer's whole-array function of
  the three arrays the region reads.

  The grid visits each output block of 2048 columns twice, the contraction coordinate running 0 then 1. Only the
  second visit writes the block back; what it writes is the bias (and activation) step of the two accumulate steps
  from the zero block. Each window's block at a point is a rectangle of its array — block index times block size plus
  the coordinate inside the block on every axis —, so, entry by entry, the two visits' sums over 2048 positions are
  the two halves of the sum over all 4096, and the written blocks tile the array.
-/
import proofs.«135243_j27986006901491_1_alg».proof.Proof.IdealR3Pieces
import proofs.«135243_j27986006901491_1_alg».proof.Proof.IdealLayerDef
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The printed index maps, decided over the grid: with n = t / 2 the output block and k = t % 2 the contraction
    block, the input block is (0, k), the weight block (n, k), the bias block n, the output block (0, n). -/
theorem idx_facts3 : ∀ t : Fin cfg3.N,
    win3_0.index t (0 : Fin 2) = 0 ∧ win3_0.index t (1 : Fin 2) = t.val % 2
    ∧ win3_1.index t (0 : Fin 2) = t.val / 2 ∧ win3_1.index t (1 : Fin 2) = t.val % 2
    ∧ win3_2.index t (0 : Fin 1) = t.val / 2
    ∧ win3_3.index t (0 : Fin 2) = 0 ∧ win3_3.index t (1 : Fin 2) = t.val / 2 :=
  (by decide +kernel : ∀ t : Fin grid3.N, _)

/-- The input block at a point: columns [2048 k, 2048 k + 2048) of the input array. -/
theorem iblk3_0_apply (c : Dev nD) (t : Fin cfg3.N) (p : Fin 44) (k : Fin 2048) (K : Fin 4096)
    (hK : K.val = 2048 * (t.val % 2) + k.val) :
    (iblk3 V c 0 t : Vec Ideal S44x2048 .bf16) (ix2 p k) = (V c main_v157 : Vec Ideal S44x4096 .bf16) (ix2 p K) := by
  obtain ⟨e0, e1, -⟩ := idx_facts3 t
  unfold iblk3
  rw [View.read_apply]
  show V c main_v157 _ = V c main_v157 _
  congr 1
  funext a
  apply Fin.ext
  match a with
  | ⟨0, _⟩ => show win3_0.index t 0 * 44 + 1 * p.val = p.val; rw [e0]; omega
  | ⟨1, _⟩ => show win3_0.index t 1 * 2048 + 1 * k.val = K.val; rw [e1, hK]; omega

/-- The weight block at a point: rows [2048 n, 2048 n + 2048) and columns [2048 k, 2048 k + 2048) of the weights. -/
theorem iblk3_1_apply (c : Dev nD) (t : Fin cfg3.N) (q : Fin 2048) (k : Fin 2048) (Q K : Fin 4096)
    (hQ : Q.val = 2048 * (t.val / 2) + q.val) (hK : K.val = 2048 * (t.val % 2) + k.val) :
    (iblk3 V c 1 t : Vec Ideal S2048x2048 .bf16) (ix2 q k) = (V c main_v158 : Vec Ideal S4096x4096 .bf16) (ix2 Q K) := by
  obtain ⟨-, -, e2, e3, -⟩ := idx_facts3 t
  unfold iblk3
  rw [View.read_apply]
  show V c main_v158 _ = V c main_v158 _
  congr 1
  funext a
  apply Fin.ext
  match a with
  | ⟨0, _⟩ => show win3_1.index t 0 * 2048 + 1 * q.val = Q.val; rw [e2, hQ]; omega
  | ⟨1, _⟩ => show win3_1.index t 1 * 2048 + 1 * k.val = K.val; rw [e3, hK]; omega

/-- The bias block at a point: entries [2048 n, 2048 n + 2048) of the bias. -/
theorem iblk3_2_apply (c : Dev nD) (t : Fin cfg3.N) (q : Fin 2048) (Q : Fin 4096)
    (hQ : Q.val = 2048 * (t.val / 2) + q.val) :
    (iblk3 V c 2 t : Vec Ideal S2048 .f32) (ix1 q) = (V c main_arg10 : Vec Ideal S4096 .f32) (ix1 Q) := by
  obtain ⟨-, -, -, -, e4, -⟩ := idx_facts3 t
  unfold iblk3
  rw [View.read_apply]
  show V c main_arg10 _ = V c main_arg10 _
  congr 1
  funext a
  apply Fin.ext
  match a with
  | ⟨0, _⟩ => show win3_2.index t 0 * 2048 + 1 * q.val = Q.val; rw [e4, hQ]; omega

/-- One written block, entry by entry, over variables of the blocks' own types: the bias and activation step of the
    two accumulate steps from the zero block is the layer at (p, 2048 n + q). -/
theorem point_entry3 (A : Vec Ideal S44x4096 .bf16) (W : Vec Ideal S4096x4096 .bf16) (B : Vec Ideal S4096 .f32)
    (a0 a1 : Vec Ideal S44x2048 .bf16) (w0 w1 : Vec Ideal S2048x2048 .bf16) (b : Vec Ideal S2048 .f32)
    (n : ℕ) (hn : n < 2)
    (ha0 : ∀ (p : Fin 44) (k : Fin 2048), a0 (ix2 p k) = A (ix2 p (⟨k.val, by omega⟩ : Fin 4096)))
    (ha1 : ∀ (p : Fin 44) (k : Fin 2048), a1 (ix2 p k) = A (ix2 p (⟨2048 + k.val, by omega⟩ : Fin 4096)))
    (hw0 : ∀ (q k : Fin 2048), w0 (ix2 q k)
      = W (ix2 (⟨2048 * n + q.val, by omega⟩ : Fin 4096) (⟨k.val, by omega⟩ : Fin 4096)))
    (hw1 : ∀ (q k : Fin 2048), w1 (ix2 q k)
      = W (ix2 (⟨2048 * n + q.val, by omega⟩ : Fin 4096) (⟨2048 + k.val, by omega⟩ : Fin 4096)))
    (hb : ∀ q : Fin 2048, b (ix1 q) = B (ix1 (⟨2048 * n + q.val, by omega⟩ : Fin 4096)))
    (p : Fin 44) (q : Fin 2048) :
    Gen.k3_pay3 (Gen.k3_pay2 (Gen.k3_pay2 Gen.k3_pay1 a0 w0) a1 w1) b (ix2 p q)
      = layerAct A W B (ix2 p (⟨2048 * n + q.val, by omega⟩ : Fin 4096)) := by
  rw [Layer.pay3_apply_3, Layer.pay2_apply_3, Layer.pay2_apply_3, Layer.pay1_apply_3]
  exact congrArg Layer.actE (block_entry A W B a0 a1 w0 w1 b n hn ha0 ha1 hw0 hw1 hb p q)

/-- What a point with k = 1 writes back is its block of the layer's whole-array function. -/
theorem flushed_eq3 (c : Dev nD) (t : Fin cfg3.N) (hf : (cfg3.win 3).flush t = true) :
    (dat3 V c).flushed 3 t
      = ((cfg3.win 3).blk t).view.read (Elt Ideal) (layerAct (V c main_v157) (V c main_v158) (V c main_arg10)) := by
  have h1 : t.val % 2 = 1 := (flush3_3 t).mp hf
  have hN : cfg3.N = 4 := N_3
  have hlt : t.val < 4 := hN ▸ t.isLt
  have hp0 : (prev3 t).val % 2 = 0 := by show (t.val - 1) % 2 = 0; omega
  have hp1 : (prev3 t).val / 2 = t.val / 2 := by show (t.val - 1) / 2 = t.val / 2; omega
  obtain ⟨-, -, -, -, -, e5, e6⟩ := idx_facts3 t
  show (cfg3.win 3).cut (grid3.coords t) ((dat3 V c).after 3 t) = _
  rw [after3_3, after3_odd3 V c t h1]
  funext j
  obtain ⟨p, q, rfl⟩ : ∃ (p : Fin 44) (q : Fin 2048), j = ix2 p q := ⟨j 0, j 1, eq_ix2 j⟩
  rw [View.read_apply]
  have hemb : ((cfg3.win 3).blk t).view.emb (ix2 p q)
      = (ix2 p (⟨2048 * (t.val / 2) + q.val, by omega⟩ : Fin 4096) : S44x4096.Idx) := by
    funext a
    apply Fin.ext
    match a with
    | ⟨0, _⟩ => show win3_3.index t 0 * 44 + 1 * p.val = p.val; rw [e5]; omega
    | ⟨1, _⟩ => show win3_3.index t 1 * 2048 + 1 * q.val = 2048 * (t.val / 2) + q.val; rw [e6]; omega
  rw [hemb]
  have hx : (cfg3.win 3).xinj (grid3.coords t) (ix2 p q) = (ix2 p q : S44x2048.Idx) :=
    funext fun a => match a with | ⟨0, _⟩ => rfl | ⟨1, _⟩ => rfl
  show Gen.k3_pay3 _ _ ((cfg3.win 3).xinj (grid3.coords t) (ix2 p q)) = _
  rw [hx]
  exact point_entry3 (V c main_v157) (V c main_v158) (V c main_arg10)
    (iblk3 V c 0 (prev3 t)) (iblk3 V c 0 t) (iblk3 V c 1 (prev3 t)) (iblk3 V c 1 t) (iblk3 V c 2 t) (t.val / 2) (by omega)
    (fun p k => iblk3_0_apply V c (prev3 t) p k _ (by rw [hp0]; exact (by omega : k.val = 2048 * 0 + k.val)))
    (fun p k => iblk3_0_apply V c t p k _ (by rw [h1]))
    (fun q k => iblk3_1_apply V c (prev3 t) q k _ _ (by rw [hp1]) (by rw [hp0]; exact (by omega : k.val = 2048 * 0 + k.val)))
    (fun q k => iblk3_1_apply V c t q k _ _ rfl (by rw [h1]))
    (fun q => iblk3_2_apply V c t q _ rfl) p q

/-- Every index of the output array is in the block some point with k = 1 writes back: the point 2 (col / 2048) + 1. -/
theorem cover3 (c : Dev nD) (i : ((cfg3.win 3).arr.view.loc (c.tc : Thread nD τ)).2.ty.Idx) :
    ∃ t : Fin cfg3.N, (cfg3.win 3).flush t = true ∧ i ∈ ((cfg3.win 3).blk t).view.set := by
  have hN : cfg3.N = 4 := N_3
  have hi0 : (i 0 : ℕ) < 44 := (i 0).isLt
  have hi1 : (i 1 : ℕ) < 4096 := (i 1).isLt
  have ht : 2 * ((i 1 : ℕ) / 2048) + 1 < cfg3.N := by omega
  obtain ⟨-, -, -, -, -, e5, e6⟩ := idx_facts3 ⟨2 * ((i 1 : ℕ) / 2048) + 1, ht⟩
  refine ⟨⟨2 * ((i 1 : ℕ) / 2048) + 1, ht⟩, (flush3_3 _).mpr (by show (2 * ((i 1 : ℕ) / 2048) + 1) % 2 = 1; omega), ?_⟩
  show i ∈ ((View.whole main_v159).slice (win3_3.rect ⟨2 * ((i 1 : ℕ) / 2048) + 1, ht⟩)).set
  rw [View.set_slice_whole, Rect.mem_set_unit]
  intro a
  match a with
  | ⟨0, _⟩ =>
    show win3_3.index ⟨2 * ((i 1 : ℕ) / 2048) + 1, ht⟩ 0 * 44 ≤ (i 0 : ℕ)
      ∧ (i 0 : ℕ) < win3_3.index ⟨2 * ((i 1 : ℕ) / 2048) + 1, ht⟩ 0 * 44 + 44
    rw [e5]; omega
  | ⟨1, _⟩ =>
    show win3_3.index ⟨2 * ((i 1 : ℕ) / 2048) + 1, ht⟩ 1 * 2048 ≤ (i 1 : ℕ)
      ∧ (i 1 : ℕ) < win3_3.index ⟨2 * ((i 1 : ℕ) / 2048) + 1, ht⟩ 1 * 2048 + 2048
    rw [e6]; show (2 * ((i 1 : ℕ) / 2048) + 1) / 2 * 2048 ≤ (i 1 : ℕ) ∧ (i 1 : ℕ) < (2 * ((i 1 : ℕ) / 2048) + 1) / 2 * 2048 + 2048; omega

/-- The region's output array after the run is the layer of the three arrays as the region finds them. -/
theorem final3 (c : Dev nD) :
    (dat3 (F := Ideal) V c).arrAt 3 cfg3.N = layerAct (V c main_v157) (V c main_v158) (V c main_arg10) :=
  (dat3 V c).arrAt_eq_of_cover 3 (layerAct (V c main_v157) (V c main_v158) (V c main_arg10))
    (fun t hf => flushed_eq3 V c t hf) (cover3 c)

end Cert.KernelIdeal.Fr

end
-- ==== Proof.IdealR4Pieces.lean ====
/-
  Region 0: the pieces each case of the body stores, read back as values. A point with k = 0 leaves in the
  accumulator the accumulate step applied to the zero block; a point with k = 1 leaves there the accumulate step applied
  to what the accumulator held, and in the output window the bias (and activation) step of that.
-/
import proofs.«135243_j27986006901491_1_alg».proof.Proof.IdealR4Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz4 : (![0, 0] : Fin 2 → Nat) = fun _ => 0 := funext fun a => by fin_cases a <;> rfl
theorem hz4' : (![0] : Fin 1 → Nat) = fun _ => 0 := funext fun a => by fin_cases a; rfl

theorem soutA_eq4 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : cond4_0 i) (hc1 : ¬cond4_1 i)
    (x0 : Vec F S44x2048 .bf16) (x1 : Vec F S2048x2048 .bf16) (x2 : Vec F S2048 .f32) :
    sout4_A_0 c i arg2 harg2 arg3 harg3 arg4 harg4 arg5 harg5 arg6 harg6 hc0 hc1 x0 x1 x2 = Gen.k4_pay2 (Gen.k4_pay1) x0 x1 := by
  unfold sout4_A_0
  rw [View.read_writes_eq_canon _ _ _ (scover4_A_0 c i arg2 harg2 arg3 harg3 arg4 harg4 arg5 harg5 arg6 harg6 hc0 hc1 x0 x1 x2)]
  unfold kernelRun4_A
  dsimp only
  sl_unfold_words
  rw [View.canon_cons_unit_zero (S := S44x2048) hz4, View.readCov_unit_zero (S := S44x2048) _ hz4]
  simp only [View.readAt_eq_ld, harg2.read_unread, harg3.read_unread, View.ld_unit_zero (S := S44x2048) hz4, View.ld_unit_zero (S := S2048x2048) hz4]

theorem soutC_eq4 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond4_0 i) (hc1 : cond4_1 i)
    (x0 : Vec F S44x2048 .bf16) (x1 : Vec F S2048x2048 .bf16) (x2 : Vec F S2048 .f32) (xs0 : Vec F S44x2048 .f32) :
    sout4_C_0 c i arg2 harg2 arg3 harg3 arg4 harg4 arg5 harg5 arg6 harg6 hc0 hc1 x0 x1 x2 xs0 = Gen.k4_pay2 xs0 x0 x1 := by
  unfold sout4_C_0
  rw [View.read_writes_eq_canon _ _ _ (scover4_C_0 c i arg2 harg2 arg3 harg3 arg4 harg4 arg5 harg5 arg6 harg6 hc0 hc1 x0 x1 x2 xs0)]
  unfold kernelRun4_C
  dsimp only
  sl_unfold_words
  rw [View.canon_unit_zero (S := S44x2048) hz4]
  simp only [View.readAt_eq_ld, harg2.read_unread, harg3.read_unread, harg6.read_unread, View.ld_unit_zero (S := S44x2048) hz4, View.ld_unit_zero (S := S2048x2048) hz4]

theorem outC_eq4 (c : Dev nD) (i : grid4.Coords) (arg2 : Memref sig .tc .vmem S44x2048 .bf16) (harg2 : arg2.IsWhole) (arg3 : Memref sig .tc .vmem S2048x2048 .bf16) (harg3 : arg3.IsWhole) (arg4 : Memref sig .tc .vmem S2048 .f32) (harg4 : arg4.IsWhole) (arg5 : Memref sig .tc .vmem S44x2048 .f32) (harg5 : arg5.IsWhole) (arg6 : Memref sig .tc .vmem S44x2048 .f32) (harg6 : arg6.IsWhole) (hc0 : ¬cond4_0 i) (hc1 : cond4_1 i)
    (x0 : Vec F S44x2048 .bf16) (x1 : Vec F S2048x2048 .bf16) (x2 : Vec F S2048 .f32) (xs0 : Vec F S44x2048 .f32) :
    out4_C_3 c i arg2 harg2 arg3 harg3 arg4 harg4 arg5 harg5 arg6 harg6 hc0 hc1 x0 x1 x2 xs0 = Gen.k4_pay3 (Gen.k4_pay2 xs0 x0 x1) x2 := by
  unfold out4_C_3
  rw [View.read_writes_eq_canon _ _ _ (cover4_C_3 c i arg2 harg2 arg3 harg3 arg4 harg4 arg5 harg5 arg6 harg6 hc0 hc1 x0 x1 x2 xs0)]
  unfold kernelRun4_C
  dsimp only
  sl_unfold_words
  rw [View.canon_unit_zero (S := S44x2048) hz4, View.readCov_unit_zero (S := S44x2048) _ hz4]
  simp only [View.readAt_eq_ld, harg2.read_unread, harg3.read_unread, harg4.read_unread, harg6.read_unread, View.ld_unit_zero (S := S44x2048) hz4, View.ld_unit_zero (S := S2048x2048) hz4, View.ld_unit_zero (S := S2048) hz4']

variable (V : (c : Dev nD) → (b : Ref sig .tc) → Buf (Elt F) ((c : Thread nD τ).loc b))

/-- The point before. -/
abbrev prev4 (t : Fin cfg4.N) : Fin cfg4.N := ⟨t.val - 1, Nat.lt_of_le_of_lt (Nat.sub_le _ _) t.isLt⟩

/-- After a point with k = 0 the accumulator holds the accumulate step applied to the zero block. -/
theorem accA4 (c : Dev nD) (t : Fin cfg4.N) (hp : t.val % 2 = 0) :
    (outsAt4 V c t.val t.isLt).2 = Gen.k4_pay2 Gen.k4_pay1 (iblk4 V c 0 t) (iblk4 V c 1 t) := by
  have hne : ¬t.val % 2 = 1 := by omega
  have hc0' : cond4_0 (grid4.coords t) := (hcond4_0 t).mpr hp
  have hc1' : ¬cond4_1 (grid4.coords t) := fun h => hne ((hcond4_1 t).mp h)
  rw [outsAt4_A V c t hp]
  dsimp only
  exact soutA_eq4 c (grid4.coords t) (ms4_0 t) (hs4_0 t) (ms4_1 t) (hs4_1 t) (ms4_2 t) (hs4_2 t) (ms4_3 t) (hs4_3 t) scM4_0 (Memref.isWhole_whole _) hc0' hc1' (iblk4 V c 0 t) (iblk4 V c 1 t) (iblk4 V c 2 t)

/-- After a point with k = 1 the output window holds the bias (and activation) step of the two accumulate steps, the
    first from the zero block over the blocks of the point before, the second over this point's blocks. -/
theorem after3_odd4 (c : Dev nD) (t : Fin cfg4.N) (h1 : t.val % 2 = 1) :
    (outsAt4 V c t.val t.isLt).1
      = Gen.k4_pay3 (Gen.k4_pay2 (Gen.k4_pay2 Gen.k4_pay1 (iblk4 V c 0 (prev4 t)) (iblk4 V c 1 (prev4 t))) (iblk4 V c 0 t) (iblk4 V c 1 t)) (iblk4 V c 2 t) := by
  have h0 : ¬t.val % 2 = 0 := by omega
  have hp : (prev4 t).val % 2 = 0 := by show (t.val - 1) % 2 = 0; omega
  have hc0 : ¬cond4_0 (grid4.coords t) := fun h => h0 ((hcond4_0 t).mp h)
  have hc1 : cond4_1 (grid4.coords t) := (hcond4_1 t).mpr h1
  rw [outsAt4_C V c t h0]
  dsimp only
  rw [outC_eq4 c (grid4.coords t) (ms4_0 t) (hs4_0 t) (ms4_1 t) (hs4_1 t) (ms4_2 t) (hs4_2 t) (ms4_3 t) (hs4_3 t) scM4_0 (Memref.isWhole_whole _) hc0 hc1 (iblk4 V c 0 t) (iblk4 V c 1 t) (iblk4 V c 2 t) (outsAt4 V c (t.val - 1) (Nat.lt_of_le_of_lt (Nat.sub_le _ _) t.isLt)).2]
  rw [show (outsAt4 V c (t.val - 1) (Nat.lt_of_le_of_lt (Nat.sub_le _ _) t.isLt)).2 = Gen.k4_pay2 Gen.k4_pay1 (iblk4 V c 0 (prev4 t)) (iblk4 V c 1 (prev4 t)) from accA4 V c (prev4 t) hp]

end Cert.KernelIdeal.Fr

end
-- ==== Proof.IdealR4Value.lean ====
/-
  Region 0: what its output array holds after the run, at the ideal instance — the layer's whole-array function of
  the three arrays the region reads.

  The grid visits each output block of 2048 columns twice, the contraction coordinate running 0 then 1. Only the
  second visit writes the block back; what it writes is the bias (and activation) step of the two accumulate steps
  from the zero block. Each window's block at a point is a rectangle of its array — block index times block size plus
  the coordinate inside the block on every axis —, so, entry by entry, the two visits' sums over 2048 positions are
  the two halves of the sum over all 4096, and the written blocks tile the array.
-/
import proofs.«135243_j27986006901491_1_alg».proof.Proof.IdealR4Pieces
import proofs.«135243_j27986006901491_1_alg».proof.Proof.IdealLayerDef
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The printed index maps, decided over the grid: with n = t / 2 the output block and k = t % 2 the contraction
    block, the input block is (0, k), the weight block (n, k), the bias block n, the output block (0, n). -/
theorem idx_facts4 : ∀ t : Fin cfg4.N,
    win4_0.index t (0 : Fin 2) = 0 ∧ win4_0.index t (1 : Fin 2) = t.val % 2
    ∧ win4_1.index t (0 : Fin 2) = t.val / 2 ∧ win4_1.index t (1 : Fin 2) = t.val % 2
    ∧ win4_2.index t (0 : Fin 1) = t.val / 2
    ∧ win4_3.index t (0 : Fin 2) = 0 ∧ win4_3.index t (1 : Fin 2) = t.val / 2 :=
  (by decide +kernel : ∀ t : Fin grid4.N, _)

/-- The input block at a point: columns [2048 k, 2048 k + 2048) of the input array. -/
theorem iblk4_0_apply (c : Dev nD) (t : Fin cfg4.N) (p : Fin 44) (k : Fin 2048) (K : Fin 4096)
    (hK : K.val = 2048 * (t.val % 2) + k.val) :
    (iblk4 V c 0 t : Vec Ideal S44x2048 .bf16) (ix2 p k) = (V c main_v197 : Vec Ideal S44x4096 .bf16) (ix2 p K) := by
  obtain ⟨e0, e1, -⟩ := idx_facts4 t
  unfold iblk4
  rw [View.read_apply]
  show V c main_v197 _ = V c main_v197 _
  congr 1
  funext a
  apply Fin.ext
  match a with
  | ⟨0, _⟩ => show win4_0.index t 0 * 44 + 1 * p.val = p.val; rw [e0]; omega
  | ⟨1, _⟩ => show win4_0.index t 1 * 2048 + 1 * k.val = K.val; rw [e1, hK]; omega

/-- The weight block at a point: rows [2048 n, 2048 n + 2048) and columns [2048 k, 2048 k + 2048) of the weights. -/
theorem iblk4_1_apply (c : Dev nD) (t : Fin cfg4.N) (q : Fin 2048) (k : Fin 2048) (Q K : Fin 4096)
    (hQ : Q.val = 2048 * (t.val / 2) + q.val) (hK : K.val = 2048 * (t.val % 2) + k.val) :
    (iblk4 V c 1 t : Vec Ideal S2048x2048 .bf16) (ix2 q k) = (V c main_v198 : Vec Ideal S4096x4096 .bf16) (ix2 Q K) := by
  obtain ⟨-, -, e2, e3, -⟩ := idx_facts4 t
  unfold iblk4
  rw [View.read_apply]
  show V c main_v198 _ = V c main_v198 _
  congr 1
  funext a
  apply Fin.ext
  match a with
  | ⟨0, _⟩ => show win4_1.index t 0 * 2048 + 1 * q.val = Q.val; rw [e2, hQ]; omega
  | ⟨1, _⟩ => show win4_1.index t 1 * 2048 + 1 * k.val = K.val; rw [e3, hK]; omega

/-- The bias block at a point: entries [2048 n, 2048 n + 2048) of the bias. -/
theorem iblk4_2_apply (c : Dev nD) (t : Fin cfg4.N) (q : Fin 2048) (Q : Fin 4096)
    (hQ : Q.val = 2048 * (t.val / 2) + q.val) :
    (iblk4 V c 2 t : Vec Ideal S2048 .f32) (ix1 q) = (V c main_arg12 : Vec Ideal S4096 .f32) (ix1 Q) := by
  obtain ⟨-, -, -, -, e4, -⟩ := idx_facts4 t
  unfold iblk4
  rw [View.read_apply]
  show V c main_arg12 _ = V c main_arg12 _
  congr 1
  funext a
  apply Fin.ext
  match a with
  | ⟨0, _⟩ => show win4_2.index t 0 * 2048 + 1 * q.val = Q.val; rw [e4, hQ]; omega

/-- One written block, entry by entry, over variables of the blocks' own types: the bias and activation step of the
    two accumulate steps from the zero block is the layer at (p, 2048 n + q). -/
theorem point_entry4 (A : Vec Ideal S44x4096 .bf16) (W : Vec Ideal S4096x4096 .bf16) (B : Vec Ideal S4096 .f32)
    (a0 a1 : Vec Ideal S44x2048 .bf16) (w0 w1 : Vec Ideal S2048x2048 .bf16) (b : Vec Ideal S2048 .f32)
    (n : ℕ) (hn : n < 2)
    (ha0 : ∀ (p : Fin 44) (k : Fin 2048), a0 (ix2 p k) = A (ix2 p (⟨k.val, by omega⟩ : Fin 4096)))
    (ha1 : ∀ (p : Fin 44) (k : Fin 2048), a1 (ix2 p k) = A (ix2 p (⟨2048 + k.val, by omega⟩ : Fin 4096)))
    (hw0 : ∀ (q k : Fin 2048), w0 (ix2 q k)
      = W (ix2 (⟨2048 * n + q.val, by omega⟩ : Fin 4096) (⟨k.val, by omega⟩ : Fin 4096)))
    (hw1 : ∀ (q k : Fin 2048), w1 (ix2 q k)
      = W (ix2 (⟨2048 * n + q.val, by omega⟩ : Fin 4096) (⟨2048 + k.val, by omega⟩ : Fin 4096)))
    (hb : ∀ q : Fin 2048, b (ix1 q) = B (ix1 (⟨2048 * n + q.val, by omega⟩ : Fin 4096)))
    (p : Fin 44) (q : Fin 2048) :
    Gen.k4_pay3 (Gen.k4_pay2 (Gen.k4_pay2 Gen.k4_pay1 a0 w0) a1 w1) b (ix2 p q)
      = layerAct A W B (ix2 p (⟨2048 * n + q.val, by omega⟩ : Fin 4096)) := by
  rw [Layer.pay3_apply_4, Layer.pay2_apply_4, Layer.pay2_apply_4, Layer.pay1_apply_4]
  exact congrArg Layer.actE (block_entry A W B a0 a1 w0 w1 b n hn ha0 ha1 hw0 hw1 hb p q)

/-- What a point with k = 1 writes back is its block of the layer's whole-array function. -/
theorem flushed_eq4 (c : Dev nD) (t : Fin cfg4.N) (hf : (cfg4.win 3).flush t = true) :
    (dat4 V c).flushed 3 t
      = ((cfg4.win 3).blk t).view.read (Elt Ideal) (layerAct (V c main_v197) (V c main_v198) (V c main_arg12)) := by
  have h1 : t.val % 2 = 1 := (flush4_3 t).mp hf
  have hN : cfg4.N = 4 := N_4
  have hlt : t.val < 4 := hN ▸ t.isLt
  have hp0 : (prev4 t).val % 2 = 0 := by show (t.val - 1) % 2 = 0; omega
  have hp1 : (prev4 t).val / 2 = t.val / 2 := by show (t.val - 1) / 2 = t.val / 2; omega
  obtain ⟨-, -, -, -, -, e5, e6⟩ := idx_facts4 t
  show (cfg4.win 3).cut (grid4.coords t) ((dat4 V c).after 3 t) = _
  rw [after4_3, after3_odd4 V c t h1]
  funext j
  obtain ⟨p, q, rfl⟩ : ∃ (p : Fin 44) (q : Fin 2048), j = ix2 p q := ⟨j 0, j 1, eq_ix2 j⟩
  rw [View.read_apply]
  have hemb : ((cfg4.win 3).blk t).view.emb (ix2 p q)
      = (ix2 p (⟨2048 * (t.val / 2) + q.val, by omega⟩ : Fin 4096) : S44x4096.Idx) := by
    funext a
    apply Fin.ext
    match a with
    | ⟨0, _⟩ => show win4_3.index t 0 * 44 + 1 * p.val = p.val; rw [e5]; omega
    | ⟨1, _⟩ => show win4_3.index t 1 * 2048 + 1 * q.val = 2048 * (t.val / 2) + q.val; rw [e6]; omega
  rw [hemb]
  have hx : (cfg4.win 3).xinj (grid4.coords t) (ix2 p q) = (ix2 p q : S44x2048.Idx) :=
    funext fun a => match a with | ⟨0, _⟩ => rfl | ⟨1, _⟩ => rfl
  show Gen.k4_pay3 _ _ ((cfg4.win 3).xinj (grid4.coords t) (ix2 p q)) = _
  rw [hx]
  exact point_entry4 (V c main_v197) (V c main_v198) (V c main_arg12)
    (iblk4 V c 0 (prev4 t)) (iblk4 V c 0 t) (iblk4 V c 1 (prev4 t)) (iblk4 V c 1 t) (iblk4 V c 2 t) (t.val / 2) (by omega)
    (fun p k => iblk4_0_apply V c (prev4 t) p k _ (by rw [hp0]; exact (by omega : k.val = 2048 * 0 + k.val)))
    (fun p k => iblk4_0_apply V c t p k _ (by rw [h1]))
    (fun q k => iblk4_1_apply V c (prev4 t) q k _ _ (by rw [hp1]) (by rw [hp0]; exact (by omega : k.val = 2048 * 0 + k.val)))
    (fun q k => iblk4_1_apply V c t q k _ _ rfl (by rw [h1]))
    (fun q => iblk4_2_apply V c t q _ rfl) p q

/-- Every index of the output array is in the block some point with k = 1 writes back: the point 2 (col / 2048) + 1. -/
theorem cover4 (c : Dev nD) (i : ((cfg4.win 3).arr.view.loc (c.tc : Thread nD τ)).2.ty.Idx) :
    ∃ t : Fin cfg4.N, (cfg4.win 3).flush t = true ∧ i ∈ ((cfg4.win 3).blk t).view.set := by
  have hN : cfg4.N = 4 := N_4
  have hi0 : (i 0 : ℕ) < 44 := (i 0).isLt
  have hi1 : (i 1 : ℕ) < 4096 := (i 1).isLt
  have ht : 2 * ((i 1 : ℕ) / 2048) + 1 < cfg4.N := by omega
  obtain ⟨-, -, -, -, -, e5, e6⟩ := idx_facts4 ⟨2 * ((i 1 : ℕ) / 2048) + 1, ht⟩
  refine ⟨⟨2 * ((i 1 : ℕ) / 2048) + 1, ht⟩, (flush4_3 _).mpr (by show (2 * ((i 1 : ℕ) / 2048) + 1) % 2 = 1; omega), ?_⟩
  show i ∈ ((View.whole main_v199).slice (win4_3.rect ⟨2 * ((i 1 : ℕ) / 2048) + 1, ht⟩)).set
  rw [View.set_slice_whole, Rect.mem_set_unit]
  intro a
  match a with
  | ⟨0, _⟩ =>
    show win4_3.index ⟨2 * ((i 1 : ℕ) / 2048) + 1, ht⟩ 0 * 44 ≤ (i 0 : ℕ)
      ∧ (i 0 : ℕ) < win4_3.index ⟨2 * ((i 1 : ℕ) / 2048) + 1, ht⟩ 0 * 44 + 44
    rw [e5]; omega
  | ⟨1, _⟩ =>
    show win4_3.index ⟨2 * ((i 1 : ℕ) / 2048) + 1, ht⟩ 1 * 2048 ≤ (i 1 : ℕ)
      ∧ (i 1 : ℕ) < win4_3.index ⟨2 * ((i 1 : ℕ) / 2048) + 1, ht⟩ 1 * 2048 + 2048
    rw [e6]; show (2 * ((i 1 : ℕ) / 2048) + 1) / 2 * 2048 ≤ (i 1 : ℕ) ∧ (i 1 : ℕ) < (2 * ((i 1 : ℕ) / 2048) + 1) / 2 * 2048 + 2048; omega

/-- The region's output array after the run is the layer of the three arrays as the region finds them. -/
theorem final4 (c : Dev nD) :
    (dat4 (F := Ideal) V c).arrAt 3 cfg4.N = layerAct (V c main_v197) (V c main_v198) (V c main_arg12) :=
  (dat4 V c).arrAt_eq_of_cover 3 (layerAct (V c main_v197) (V c main_v198) (V c main_arg12))
    (fun t hf => flushed_eq4 V c t hf) (cover4 c)

end Cert.KernelIdeal.Fr

end
-- ==== Proof.IdealR5Pieces.lean ====
/-
  Region 5: the pieces each case of the body stores, read back as values. A point with k = 0 leaves in the
  accumulator the accumulate step applied to the zero block; a point with k = 1 leaves there the accumulate step applied
  to what the accumulator held, and in the output window the bias step of that.
-/
import proofs.«135243_j27986006901491_1_alg».proof.Proof.IdealR5Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz5 : (![0, 0] : Fin 2 → Nat) = fun _ => 0 := funext fun a => by fin_cases a <;> rfl
theorem hz5' : (![0] : Fin 1 → Nat) = fun _ => 0 := funext fun a => by fin_cases a; rfl

theorem soutA_eq5 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : cond5_0 i) (hc1 : ¬cond5_1 i)
    (x0 : Vec F S44x2048 .bf16) (x1 : Vec F S1x2048 .bf16) (x2 : Vec F S1 .f32) :
    sout5_A_0 c i arg2 harg2 arg3 harg3 arg4 harg4 arg5 harg5 arg6 harg6 hc0 hc1 x0 x1 x2 = Gen.k5_pay2 (Gen.k5_pay1) x0 x1 := by
  unfold sout5_A_0
  rw [View.read_writes_eq_canon _ _ _ (scover5_A_0 c i arg2 harg2 arg3 harg3 arg4 harg4 arg5 harg5 arg6 harg6 hc0 hc1 x0 x1 x2)]
  unfold kernelRun5_A
  dsimp only
  sl_unfold_words
  rw [View.canon_cons_unit_zero (S := S44x1) hz5, View.readCov_unit_zero (S := S44x1) _ hz5]
  simp only [View.readAt_eq_ld, harg2.read_unread, harg3.read_unread, View.ld_unit_zero (S := S44x2048) hz5, View.ld_unit_zero (S := S1x2048) hz5, View.ld_unit_zero (S := S44x1) hz5]

theorem soutC_eq5 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : ¬cond5_0 i) (hc1 : cond5_1 i)
    (x0 : Vec F S44x2048 .bf16) (x1 : Vec F S1x2048 .bf16) (x2 : Vec F S1 .f32) (xs0 : Vec F S44x1 .f32) :
    sout5_C_0 c i arg2 harg2 arg3 harg3 arg4 harg4 arg5 harg5 arg6 harg6 hc0 hc1 x0 x1 x2 xs0 = Gen.k5_pay2 xs0 x0 x1 := by
  unfold sout5_C_0
  rw [View.read_writes_eq_canon _ _ _ (scover5_C_0 c i arg2 harg2 arg3 harg3 arg4 harg4 arg5 harg5 arg6 harg6 hc0 hc1 x0 x1 x2 xs0)]
  unfold kernelRun5_C
  dsimp only
  sl_unfold_words
  rw [View.canon_unit_zero (S := S44x1) hz5]
  simp only [View.readAt_eq_ld, harg2.read_unread, harg3.read_unread, harg6.read_unread, View.ld_unit_zero (S := S44x2048) hz5, View.ld_unit_zero (S := S1x2048) hz5, View.ld_unit_zero (S := S44x1) hz5]

theorem outC_eq5 (c : Dev nD) (i : grid5.Coords) (arg2 : Memref sig .tc .vmem S44x2048 .bf16) (harg2 : arg2.IsWhole) (arg3 : Memref sig .tc .vmem S1x2048 .bf16) (harg3 : arg3.IsWhole) (arg4 : Memref sig .tc .vmem S1 .f32) (harg4 : arg4.IsWhole) (arg5 : Memref sig .tc .vmem S44x1 .f32) (harg5 : arg5.IsWhole) (arg6 : Memref sig .tc .vmem S44x1 .f32) (harg6 : arg6.IsWhole) (hc0 : ¬cond5_0 i) (hc1 : cond5_1 i)
    (x0 : Vec F S44x2048 .bf16) (x1 : Vec F S1x2048 .bf16) (x2 : Vec F S1 .f32) (xs0 : Vec F S44x1 .f32) :
    out5_C_3 c i arg2 harg2 arg3 harg3 arg4 harg4 arg5 harg5 arg6 harg6 hc0 hc1 x0 x1 x2 xs0 = Gen.k5_pay3 (Gen.k5_pay2 xs0 x0 x1) x2 := by
  unfold out5_C_3
  rw [View.read_writes_eq_canon _ _ _ (cover5_C_3 c i arg2 harg2 arg3 harg3 arg4 harg4 arg5 harg5 arg6 harg6 hc0 hc1 x0 x1 x2 xs0)]
  unfold kernelRun5_C
  dsimp only
  sl_unfold_words
  rw [View.canon_unit_zero (S := S44x1) hz5, View.readCov_unit_zero (S := S44x1) _ hz5]
  simp only [View.readAt_eq_ld, harg2.read_unread, harg3.read_unread, harg4.read_unread, harg6.read_unread, View.ld_unit_zero (S := S44x2048) hz5, View.ld_unit_zero (S := S1x2048) hz5, View.ld_unit_zero (S := S44x1) hz5, View.ld_unit_zero (S := S1) hz5']

variable (V : (c : Dev nD) → (b : Ref sig .tc) → Buf (Elt F) ((c : Thread nD τ).loc b))

/-- The point before. -/
abbrev prev5 (t : Fin cfg5.N) : Fin cfg5.N := ⟨t.val - 1, Nat.lt_of_le_of_lt (Nat.sub_le _ _) t.isLt⟩

/-- After a point with k = 0 the accumulator holds the accumulate step applied to the zero block. -/
theorem accA5 (c : Dev nD) (t : Fin cfg5.N) (hp : t.val % 2 = 0) :
    (outsAt5 V c t.val t.isLt).2 = Gen.k5_pay2 Gen.k5_pay1 (iblk5 V c 0 t) (iblk5 V c 1 t) := by
  have hne : ¬t.val % 2 = 1 := by omega
  have hc0' : cond5_0 (grid5.coords t) := (hcond5_0 t).mpr hp
  have hc1' : ¬cond5_1 (grid5.coords t) := fun h => hne ((hcond5_1 t).mp h)
  rw [outsAt5_A V c t hp]
  dsimp only
  exact soutA_eq5 c (grid5.coords t) (ms5_0 t) (hs5_0 t) (ms5_1 t) (hs5_1 t) (ms5_2 t) (hs5_2 t) (ms5_3 t) (hs5_3 t) scM5_0 (Memref.isWhole_whole _) hc0' hc1' (iblk5 V c 0 t) (iblk5 V c 1 t) (iblk5 V c 2 t)

/-- After a point with k = 1 the output window holds the bias step of the two accumulate steps, the
    first from the zero block over the blocks of the point before, the second over this point's blocks. -/
theorem after3_odd5 (c : Dev nD) (t : Fin cfg5.N) (h1 : t.val % 2 = 1) :
    (outsAt5 V c t.val t.isLt).1
      = Gen.k5_pay3 (Gen.k5_pay2 (Gen.k5_pay2 Gen.k5_pay1 (iblk5 V c 0 (prev5 t)) (iblk5 V c 1 (prev5 t))) (iblk5 V c 0 t) (iblk5 V c 1 t)) (iblk5 V c 2 t) := by
  have h0 : ¬t.val % 2 = 0 := by omega
  have hp : (prev5 t).val % 2 = 0 := by show (t.val - 1) % 2 = 0; omega
  have hc0 : ¬cond5_0 (grid5.coords t) := fun h => h0 ((hcond5_0 t).mp h)
  have hc1 : cond5_1 (grid5.coords t) := (hcond5_1 t).mpr h1
  rw [outsAt5_C V c t h0]
  dsimp only
  rw [outC_eq5 c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) (outsAt5 V c (t.val - 1) (Nat.lt_of_le_of_lt (Nat.sub_le _ _) t.isLt)).2]
  rw [show (outsAt5 V c (t.val - 1) (Nat.lt_of_le_of_lt (Nat.sub_le _ _) t.isLt)).2 = Gen.k5_pay2 Gen.k5_pay1 (iblk5 V c 0 (prev5 t)) (iblk5 V c 1 (prev5 t)) from accA5 V c (prev5 t) hp]

end Cert.KernelIdeal.Fr

end
-- ==== Proof.IdealR5Value.lean ====
/-
  Region 5: what its output array holds after the run, at the ideal instance — the single-column layer's whole-array
  function of the three arrays the region reads.

  The grid has one output block (the whole [44, 1] column) visited twice, the contraction coordinate running 0 then 1.
  Only the second visit writes it back; what it writes is the bias step of the two accumulate steps from the zero
  block. The input and weight blocks at a point are columns [2048 k, 2048 k + 2048) of their arrays, so, entry by
  entry, the two visits' sums over 2048 positions are the two halves of the sum over all 4096.
-/
import proofs.«135243_j27986006901491_1_alg».proof.Proof.IdealR5Pieces
import proofs.«135243_j27986006901491_1_alg».proof.Proof.IdealLayerDef
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The printed index maps, decided over the grid (one output block, two contraction blocks): with k = t % 2 the
    contraction block, the input block is (0, k), the weight block (0, k), the bias block 0, the output block (0, 0). -/
theorem idx_facts5 : ∀ t : Fin cfg5.N,
    win5_0.index t (0 : Fin 2) = 0 ∧ win5_0.index t (1 : Fin 2) = t.val % 2
    ∧ win5_1.index t (0 : Fin 2) = 0 ∧ win5_1.index t (1 : Fin 2) = t.val % 2
    ∧ win5_2.index t (0 : Fin 1) = 0
    ∧ win5_3.index t (0 : Fin 2) = 0 ∧ win5_3.index t (1 : Fin 2) = 0 :=
  (by decide +kernel : ∀ t : Fin grid5.N, _)

/-- The input block at a point: columns [2048 k, 2048 k + 2048) of the input array. -/
theorem iblk5_0_apply (c : Dev nD) (t : Fin cfg5.N) (p : Fin 44) (k : Fin 2048) (K : Fin 4096)
    (hK : K.val = 2048 * (t.val % 2) + k.val) :
    (iblk5 V c 0 t : Vec Ideal S44x2048 .bf16) (ix2 p k) = (V c main_v237 : Vec Ideal S44x4096 .bf16) (ix2 p K) := by
  obtain ⟨e0, e1, -⟩ := idx_facts5 t
  unfold iblk5
  rw [View.read_apply]
  show V c main_v237 _ = V c main_v237 _
  congr 1
  funext a
  apply Fin.ext
  match a with
  | ⟨0, _⟩ => show win5_0.index t 0 * 44 + 1 * p.val = p.val; rw [e0]; omega
  | ⟨1, _⟩ => show win5_0.index t 1 * 2048 + 1 * k.val = K.val; rw [e1, hK]; omega

/-- The weight block at a point: columns [2048 k, 2048 k + 2048) of the one weight row. -/
theorem iblk5_1_apply (c : Dev nD) (t : Fin cfg5.N) (k : Fin 2048) (K : Fin 4096)
    (hK : K.val = 2048 * (t.val % 2) + k.val) :
    (iblk5 V c 1 t : Vec Ideal S1x2048 .bf16) (ix2 (0 : Fin 1) k)
      = (V c main_v238 : Vec Ideal S1x4096 .bf16) (ix2 (0 : Fin 1) K) := by
  obtain ⟨-, -, e2, e3, -⟩ := idx_facts5 t
  unfold iblk5
  rw [View.read_apply]
  show V c main_v238 _ = V c main_v238 _
  congr 1
  funext a
  apply Fin.ext
  match a with
  | ⟨0, _⟩ => show win5_1.index t 0 * 1 + 1 * 0 = 0; rw [e2]
  | ⟨1, _⟩ => show win5_1.index t 1 * 2048 + 1 * k.val = K.val; rw [e3, hK]; omega

/-- The bias block at a point is the one bias entry. -/
theorem iblk5_2_apply (c : Dev nD) (t : Fin cfg5.N) :
    (iblk5 V c 2 t : Vec Ideal S1 .f32) (ix1 (0 : Fin 1)) = (V c main_arg14 : Vec Ideal S1 .f32) (ix1 (0 : Fin 1)) := by
  obtain ⟨-, -, -, -, e4, -⟩ := idx_facts5 t
  unfold iblk5
  rw [View.read_apply]
  show V c main_arg14 _ = V c main_arg14 _
  congr 1
  funext a
  apply Fin.ext
  match a with
  | ⟨0, _⟩ => show win5_2.index t 0 * 1 + 1 * 0 = 0; rw [e4]

/-- The written block, entry by entry, over variables of the blocks' own types: the bias step of the two accumulate
    steps from the zero block is the layer at (p, 0). -/
theorem point_entry5 (A : Vec Ideal S44x4096 .bf16) (W : Vec Ideal S1x4096 .bf16) (B : Vec Ideal S1 .f32)
    (a0 a1 : Vec Ideal S44x2048 .bf16) (w0 w1 : Vec Ideal S1x2048 .bf16) (b : Vec Ideal S1 .f32)
    (ha0 : ∀ (p : Fin 44) (k : Fin 2048), a0 (ix2 p k) = A (ix2 p (⟨k.val, by omega⟩ : Fin 4096)))
    (ha1 : ∀ (p : Fin 44) (k : Fin 2048), a1 (ix2 p k) = A (ix2 p (⟨2048 + k.val, by omega⟩ : Fin 4096)))
    (hw0 : ∀ k : Fin 2048, w0 (ix2 (0 : Fin 1) k) = W (ix2 (0 : Fin 1) (⟨k.val, by omega⟩ : Fin 4096)))
    (hw1 : ∀ k : Fin 2048, w1 (ix2 (0 : Fin 1) k) = W (ix2 (0 : Fin 1) (⟨2048 + k.val, by omega⟩ : Fin 4096)))
    (hb : b (ix1 (0 : Fin 1)) = B (ix1 (0 : Fin 1)))
    (p : Fin 44) :
    Gen.k5_pay3 (Gen.k5_pay2 (Gen.k5_pay2 Gen.k5_pay1 a0 w0) a1 w1) b (ix2 p (0 : Fin 1))
      = layerCol A W B (ix2 p (0 : Fin 1)) := by
  rw [Layer.pay3_apply_5, Layer.pay2_apply_5, Layer.pay2_apply_5, Layer.pay1_apply_5]
  exact block_entry_col A W B a0 a1 w0 w1 b ha0 ha1 hw0 hw1 hb p

/-- What the point with k = 1 writes back is the layer's whole-array function (its one block is the whole array). -/
theorem flushed_eq5 (c : Dev nD) (t : Fin cfg5.N) (hf : (cfg5.win 3).flush t = true) :
    (dat5 V c).flushed 3 t
      = ((cfg5.win 3).blk t).view.read (Elt Ideal) (layerCol (V c main_v237) (V c main_v238) (V c main_arg14)) := by
  have h1 : t.val % 2 = 1 := (flush5_3 t).mp hf
  have hN : cfg5.N = 2 := N_5
  have hlt : t.val < 2 := hN ▸ t.isLt
  have hp0 : (prev5 t).val % 2 = 0 := by show (t.val - 1) % 2 = 0; omega
  obtain ⟨-, -, -, -, -, e5, e6⟩ := idx_facts5 t
  show (cfg5.win 3).cut (grid5.coords t) ((dat5 V c).after 3 t) = _
  rw [after5_3, after3_odd5 V c t h1]
  funext j
  obtain ⟨p, q, rfl⟩ : ∃ (p : Fin 44) (q : Fin 1), j = ix2 p q := ⟨j 0, j 1, eq_ix2 j⟩
  obtain rfl : q = 0 := Subsingleton.elim _ _
  rw [View.read_apply]
  have hemb : ((cfg5.win 3).blk t).view.emb (ix2 p (0 : Fin 1)) = (ix2 p (0 : Fin 1) : S44x1.Idx) := by
    funext a
    apply Fin.ext
    match a with
    | ⟨0, _⟩ => show win5_3.index t 0 * 44 + 1 * p.val = p.val; rw [e5]; omega
    | ⟨1, _⟩ => show win5_3.index t 1 * 1 + 1 * 0 = 0; rw [e6]
  rw [hemb]
  have hx : (cfg5.win 3).xinj (grid5.coords t) (ix2 p (0 : Fin 1)) = (ix2 p (0 : Fin 1) : S44x1.Idx) :=
    funext fun a => match a with | ⟨0, _⟩ => rfl | ⟨1, _⟩ => rfl
  show Gen.k5_pay3 _ _ ((cfg5.win 3).xinj (grid5.coords t) (ix2 p (0 : Fin 1))) = _
  rw [hx]
  exact point_entry5 (V c main_v237) (V c main_v238) (V c main_arg14)
    (iblk5 V c 0 (prev5 t)) (iblk5 V c 0 t) (iblk5 V c 1 (prev5 t)) (iblk5 V c 1 t) (iblk5 V c 2 t)
    (fun p k => iblk5_0_apply V c (prev5 t) p k _ (by rw [hp0]; exact (by omega : k.val = 2048 * 0 + k.val)))
    (fun p k => iblk5_0_apply V c t p k _ (by rw [h1]))
    (fun k => iblk5_1_apply V c (prev5 t) k _ (by rw [hp0]; exact (by omega : k.val = 2048 * 0 + k.val)))
    (fun k => iblk5_1_apply V c t k _ (by rw [h1]))
    (iblk5_2_apply V c t) p

/-- Every index of the output array is in the block the point with k = 1 writes back. -/
theorem cover5 (c : Dev nD) (i : ((cfg5.win 3).arr.view.loc (c.tc : Thread nD τ)).2.ty.Idx) :
    ∃ t : Fin cfg5.N, (cfg5.win 3).flush t = true ∧ i ∈ ((cfg5.win 3).blk t).view.set := by
  have hN : cfg5.N = 2 := N_5
  have hi0 : (i 0 : ℕ) < 44 := (i 0).isLt
  have hi1 : (i 1 : ℕ) < 1 := (i 1).isLt
  have ht : 1 < cfg5.N := by omega
  obtain ⟨-, -, -, -, -, e5, e6⟩ := idx_facts5 ⟨1, ht⟩
  refine ⟨⟨1, ht⟩, (flush5_3 _).mpr rfl, ?_⟩
  show i ∈ ((View.whole main_v239).slice (win5_3.rect ⟨1, ht⟩)).set
  rw [View.set_slice_whole, Rect.mem_set_unit]
  intro a
  match a with
  | ⟨0, _⟩ =>
    show win5_3.index ⟨1, ht⟩ 0 * 44 ≤ (i 0 : ℕ) ∧ (i 0 : ℕ) < win5_3.index ⟨1, ht⟩ 0 * 44 + 44
    rw [e5]; omega
  | ⟨1, _⟩ =>
    show win5_3.index ⟨1, ht⟩ 1 * 1 ≤ (i 1 : ℕ) ∧ (i 1 : ℕ) < win5_3.index ⟨1, ht⟩ 1 * 1 + 1
    rw [e6]; omega

/-- The region's output array after the run is the single-column layer of the three arrays as the region finds them. -/
theorem final5 (c : Dev nD) :
    (dat5 (F := Ideal) V c).arrAt 3 cfg5.N = layerCol (V c main_v237) (V c main_v238) (V c main_arg14) :=
  (dat5 V c).arrAt_eq_of_cover 3 (layerCol (V c main_v237) (V c main_v238) (V c main_arg14))
    (fun t hf => flushed_eq5 V c t hf) (cover5 c)

end Cert.KernelIdeal.Fr

end
-- ==== Proof.IdealBridge.lean ====
import proofs.«135243_j27986006901491_1_alg».proof.Proof.IdealRun
import proofs.«135243_j27986006901491_1_alg».proof.Proof.IdealEntries
import proofs.«135243_j27986006901491_1_alg».proof.Proof.SpecMath
import proofs.«135243_j27986006901491_1_alg».proof.Proof.IdealLayerDef
import proofs.«135243_j27986006901491_1_alg».proof.Proof.IdealR0Value
import proofs.«135243_j27986006901491_1_alg».proof.Proof.IdealR1Value
import proofs.«135243_j27986006901491_1_alg».proof.Proof.IdealR2Value
import proofs.«135243_j27986006901491_1_alg».proof.Proof.IdealR3Value
import proofs.«135243_j27986006901491_1_alg».proof.Proof.IdealR4Value
import proofs.«135243_j27986006901491_1_alg».proof.Proof.IdealR5Value

/-! The kernel program's two results are the reference's three-layer compositions of the launch contents.

Each region's output array ends at one layer of the kernel applied to the three arrays it was entered with;
that layer is the reference's affine map (followed, for a hidden layer, by its rectifier), entry by entry. The
arrays a region is entered with are what the host stretch before it leaves: the reference's edge-feature stage
of the previous region's output (or of the input), the weight argument, and the bias argument. Walking the
twelve boundaries from the launch memory, every argument is carried unchanged, and the outputs compose. -/

noncomputable section

namespace Cert.KernelIdeal.Fr

open Cert.KernelIdeal Cert.KernelIdeal.Gen
open Idealize.ShloMosaic Idealize.ShloMosaic.TcCoe Idealize.SL.Sem
open Idealize.ShloMosaic.ValueIdx

/-! ## One layer of the kernel is the reference's affine map and rectifier -/

theorem layerAct_eq (a : Vec Ideal S44x4096 .bf16) (w : Vec Ideal S4096x4096 .bf16) (b : Vec Ideal S4096 .f32) :
    layerAct a w b = Cert.Spec.act (Cert.Spec.lin a w b) := by
  funext j
  obtain ⟨p, q, rfl⟩ : ∃ (p : Fin 44) (q : Fin 4096), j = ix2 p q := ⟨j 0, j 1, eq_ix2 j⟩
  rw [layerAct_apply, Cert.Spec.act_apply, Cert.Spec.lin_apply]

theorem layerLin_eq (a : Vec Ideal S44x4096 .bf16) (w : Vec Ideal S4096x4096 .bf16) (b : Vec Ideal S4096 .f32) :
    layerLin a w b = Cert.Spec.lin a w b := by
  funext j
  obtain ⟨p, q, rfl⟩ : ∃ (p : Fin 44) (q : Fin 4096), j = ix2 p q := ⟨j 0, j 1, eq_ix2 j⟩
  rw [layerLin_apply, Cert.Spec.lin_apply]

theorem layerCol_eq (a : Vec Ideal S44x4096 .bf16) (w : Vec Ideal S1x4096 .bf16) (b : Vec Ideal S1 .f32) :
    layerCol a w b = Cert.Spec.lin1 a w b := by
  funext j
  obtain ⟨p, q, rfl⟩ : ∃ (p : Fin 44) (q : Fin 1), j = ix2 p q := ⟨j 0, j 1, eq_ix2 j⟩
  obtain rfl : q = 0 := Subsingleton.elim _ _
  rw [layerCol_apply, Cert.Spec.lin1_apply]

/-! ## The arguments at every region's entry are as launched -/

variable (m : (ℓ : Loc nD τ sig) → Buf (Elt Ideal) ℓ)

/-- A buffer that the first 1 host stretch do not write and the first 1 region do not output is, after them, as launched. -/
theorem Bd2_arg (c : Dev nD) (b : Ref sig .tc) (h0 : b ∉ hostOps0_W) (o0 : b ≠ main_v39) :
    Bd2 m c (Proc.devRef .tc b) = m ((c.tc : Thread nD τ).loc b) :=
  (Bd2_keep m c b o0).trans <|
  StableHlo.after_of_writes_sub hostOps0 _ hostOps0_writes h0

/-- A buffer that the first 2 host stretches do not write and the first 2 regions do not output is, after them, as launched. -/
theorem Bd4_arg (c : Dev nD) (b : Ref sig .tc) (h0 : b ∉ hostOps0_W) (o0 : b ≠ main_v39) (h1 : b ∉ hostOps1_W) (o1 : b ≠ main_v79) :
    Bd4 m c (Proc.devRef .tc b) = m ((c.tc : Thread nD τ).loc b) :=
  (Bd4_keep m c b o1).trans <|
  (StableHlo.after_of_writes_sub hostOps1 _ hostOps1_writes h1).trans <|
  (Bd2_keep m c b o0).trans <|
  StableHlo.after_of_writes_sub hostOps0 _ hostOps0_writes h0

/-- A buffer that the first 3 host stretches do not write and the first 3 regions do not output is, after them, as launched. -/
theorem Bd6_arg (c : Dev nD) (b : Ref sig .tc) (h0 : b ∉ hostOps0_W) (o0 : b ≠ main_v39) (h1 : b ∉ hostOps1_W) (o1 : b ≠ main_v79) (h2 : b ∉ hostOps2_W) (o2 : b ≠ main_v119) :
    Bd6 m c (Proc.devRef .tc b) = m ((c.tc : Thread nD τ).loc b) :=
  (Bd6_keep m c b o2).trans <|
  (StableHlo.after_of_writes_sub hostOps2 _ hostOps2_writes h2).trans <|
  (Bd4_keep m c b o1).trans <|
  (StableHlo.after_of_writes_sub hostOps1 _ hostOps1_writes h1).trans <|
  (Bd2_keep m c b o0).trans <|
  StableHlo.after_of_writes_sub hostOps0 _ hostOps0_writes h0

/-- A buffer that the first 4 host stretches do not write and the first 4 regions do not output is, after them, as launched. -/
theorem Bd8_arg (c : Dev nD) (b : Ref sig .tc) (h0 : b ∉ hostOps0_W) (o0 : b ≠ main_v39) (h1 : b ∉ hostOps1_W) (o1 : b ≠ main_v79) (h2 : b ∉ hostOps2_W) (o2 : b ≠ main_v119) (h3 : b ∉ hostOps3_W) (o3 : b ≠ main_v159) :
    Bd8 m c (Proc.devRef .tc b) = m ((c.tc : Thread nD τ).loc b) :=
  (Bd8_keep m c b o3).trans <|
  (StableHlo.after_of_writes_sub hostOps3 _ hostOps3_writes h3).trans <|
  (Bd6_keep m c b o2).trans <|
  (StableHlo.after_of_writes_sub hostOps2 _ hostOps2_writes h2).trans <|
  (Bd4_keep m c b o1).trans <|
  (StableHlo.after_of_writes_sub hostOps1 _ hostOps1_writes h1).trans <|
  (Bd2_keep m c b o0).trans <|
  StableHlo.after_of_writes_sub hostOps0 _ hostOps0_writes h0

/-- A buffer that the first 5 host stretches do not write and the first 5 regions do not output is, after them, as launched. -/
theorem Bd10_arg (c : Dev nD) (b : Ref sig .tc) (h0 : b ∉ hostOps0_W) (o0 : b ≠ main_v39) (h1 : b ∉ hostOps1_W) (o1 : b ≠ main_v79) (h2 : b ∉ hostOps2_W) (o2 : b ≠ main_v119) (h3 : b ∉ hostOps3_W) (o3 : b ≠ main_v159) (h4 : b ∉ hostOps4_W) (o4 : b ≠ main_v199) :
    Bd10 m c (Proc.devRef .tc b) = m ((c.tc : Thread nD τ).loc b) :=
  (Bd10_keep m c b o4).trans <|
  (StableHlo.after_of_writes_sub hostOps4 _ hostOps4_writes h4).trans <|
  (Bd8_keep m c b o3).trans <|
  (StableHlo.after_of_writes_sub hostOps3 _ hostOps3_writes h3).trans <|
  (Bd6_keep m c b o2).trans <|
  (StableHlo.after_of_writes_sub hostOps2 _ hostOps2_writes h2).trans <|
  (Bd4_keep m c b o1).trans <|
  (StableHlo.after_of_writes_sub hostOps1 _ hostOps1_writes h1).trans <|
  (Bd2_keep m c b o0).trans <|
  StableHlo.after_of_writes_sub hostOps0 _ hostOps0_writes h0

/-! ## The regions' outputs, one after the other -/

/-- Region 0's output array at its exit, in the reference's stages over the launch contents. -/
theorem reg0_val (c : Dev nD) :
    (dat0 (F := Ideal) (En1 m) c).arrAt 3 cfg0.N = Cert.Spec.act (Cert.Spec.lin (Cert.Spec.glue (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) := by
  refine (final0 (En1 m) c).trans ?_
  rw [layerAct_eq]
  have ha : En1 m c main_v37 = Cert.Spec.glue (m ((c.tc : Thread nD τ).loc main_arg0)) (m ((c.tc : Thread nD τ).loc main_arg1)) (m ((c.tc : Thread nD τ).loc main_arg2)) := entry0_act (Bd0 m c)
  have hw : En1 m c main_v38 = m ((c.tc : Thread nD τ).loc main_arg3) := entry0_w (Bd0 m c)
  have hb : En1 m c main_arg4 = m ((c.tc : Thread nD τ).loc main_arg4) := entry0_b (Bd0 m c)
  rw [ha, hw, hb]

/-- Region 1's output array at its exit, in the reference's stages over the launch contents. -/
theorem reg1_val (c : Dev nD) :
    (dat1 (F := Ideal) (En3 m) c).arrAt 3 cfg1.N = Cert.Spec.act (Cert.Spec.lin (Cert.Spec.glue (Cert.Spec.act (Cert.Spec.lin (Cert.Spec.glue (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)))) (m ((c.tc : Thread nD τ).loc main_arg1)) (m ((c.tc : Thread nD τ).loc main_arg2))) (m ((c.tc : Thread nD τ).loc main_arg5)) (m ((c.tc : Thread nD τ).loc main_arg6))) := by
  refine (final1 (En3 m) c).trans ?_
  rw [layerAct_eq]
  have hi : Bd2 m c (Proc.devRef .tc main_v39 : DevRef τ sig) = Cert.Spec.act (Cert.Spec.lin (Cert.Spec.glue (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) :=
    (Bd2_arr m c 3).trans (reg0_val m c)
  have h1 : Bd2 m c (Proc.devRef .tc main_arg1 : DevRef τ sig) = m ((c.tc : Thread nD τ).loc main_arg1) := Bd2_arg m c main_arg1 (by decide) (by decide)
  have h2 : Bd2 m c (Proc.devRef .tc main_arg2 : DevRef τ sig) = m ((c.tc : Thread nD τ).loc main_arg2) := Bd2_arg m c main_arg2 (by decide) (by decide)
  have hW : Bd2 m c (Proc.devRef .tc main_arg5 : DevRef τ sig) = m ((c.tc : Thread nD τ).loc main_arg5) := Bd2_arg m c main_arg5 (by decide) (by decide)
  have hB : Bd2 m c (Proc.devRef .tc main_arg6 : DevRef τ sig) = m ((c.tc : Thread nD τ).loc main_arg6) := Bd2_arg m c main_arg6 (by decide) (by decide)
  have ha : En3 m c main_v77 = Cert.Spec.glue (Bd2 m c (Proc.devRef .tc main_v39 : DevRef τ sig)) (Bd2 m c (Proc.devRef .tc main_arg1 : DevRef τ sig)) (Bd2 m c (Proc.devRef .tc main_arg2 : DevRef τ sig)) := entry1_act (Bd2 m c)
  have hw : En3 m c main_v78 = Bd2 m c (Proc.devRef .tc main_arg5 : DevRef τ sig) := entry1_w (Bd2 m c)
  have hb : En3 m c main_arg6 = Bd2 m c (Proc.devRef .tc main_arg6 : DevRef τ sig) := entry1_b (Bd2 m c)
  rw [ha, hw, hb, hi, h1, h2, hW, hB]

/-- Region 2's output array at its exit, in the reference's stages over the launch contents. -/
theorem reg2_val (c : Dev nD) :
    (dat2 (F := Ideal) (En5 m) c).arrAt 3 cfg2.N = Cert.Spec.lin (Cert.Spec.glue (Cert.Spec.act (Cert.Spec.lin (Cert.Spec.glue (Cert.Spec.act (Cert.Spec.lin (Cert.Spec.glue (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)))) (m ((c.tc : Thread nD τ).loc main_arg1)) (m ((c.tc : Thread nD τ).loc main_arg2))) (m ((c.tc : Thread nD τ).loc main_arg5)) (m ((c.tc : Thread nD τ).loc main_arg6)))) (m ((c.tc : Thread nD τ).loc main_arg1)) (m ((c.tc : Thread nD τ).loc main_arg2))) (m ((c.tc : Thread nD τ).loc main_arg7)) (m ((c.tc : Thread nD τ).loc main_arg8)) := by
  refine (final2 (En5 m) c).trans ?_
  rw [layerLin_eq]
  have hi : Bd4 m c (Proc.devRef .tc main_v79 : DevRef τ sig) = Cert.Spec.act (Cert.Spec.lin (Cert.Spec.glue (Cert.Spec.act (Cert.Spec.lin (Cert.Spec.glue (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)))) (m ((c.tc : Thread nD τ).loc main_arg1)) (m ((c.tc : Thread nD τ).loc main_arg2))) (m ((c.tc : Thread nD τ).loc main_arg5)) (m ((c.tc : Thread nD τ).loc main_arg6))) :=
    (Bd4_arr m c 3).trans (reg1_val m c)
  have h1 : Bd4 m c (Proc.devRef .tc main_arg1 : DevRef τ sig) = m ((c.tc : Thread nD τ).loc main_arg1) := Bd4_arg m c main_arg1 (by decide) (by decide) (by decide) (by decide)
  have h2 : Bd4 m c (Proc.devRef .tc main_arg2 : DevRef τ sig) = m ((c.tc : Thread nD τ).loc main_arg2) := Bd4_arg m c main_arg2 (by decide) (by decide) (by decide) (by decide)
  have hW : Bd4 m c (Proc.devRef .tc main_arg7 : DevRef τ sig) = m ((c.tc : Thread nD τ).loc main_arg7) := Bd4_arg m c main_arg7 (by decide) (by decide) (by decide) (by decide)
  have hB : Bd4 m c (Proc.devRef .tc main_arg8 : DevRef τ sig) = m ((c.tc : Thread nD τ).loc main_arg8) := Bd4_arg m c main_arg8 (by decide) (by decide) (by decide) (by decide)
  have ha : En5 m c main_v117 = Cert.Spec.glue (Bd4 m c (Proc.devRef .tc main_v79 : DevRef τ sig)) (Bd4 m c (Proc.devRef .tc main_arg1 : DevRef τ sig)) (Bd4 m c (Proc.devRef .tc main_arg2 : DevRef τ sig)) := entry2_act (Bd4 m c)
  have hw : En5 m c main_v118 = Bd4 m c (Proc.devRef .tc main_arg7 : DevRef τ sig) := entry2_w (Bd4 m c)
  have hb : En5 m c main_arg8 = Bd4 m c (Proc.devRef .tc main_arg8 : DevRef τ sig) := entry2_b (Bd4 m c)
  rw [ha, hw, hb, hi, h1, h2, hW, hB]

/-- Region 3's output array at its exit, in the reference's stages over the launch contents. -/
theorem reg3_val (c : Dev nD) :
    (dat3 (F := Ideal) (En7 m) c).arrAt 3 cfg3.N = Cert.Spec.act (Cert.Spec.lin (Cert.Spec.glue (m ((c.tc : Thread nD τ).loc main_arg0)) (m ((c.tc : Thread nD τ).loc main_arg1)) (m ((c.tc : Thread nD τ).loc main_arg2))) (m ((c.tc : Thread nD τ).loc main_arg9)) (m ((c.tc : Thread nD τ).loc main_arg10))) := by
  refine (final3 (En7 m) c).trans ?_
  rw [layerAct_eq]
  have hi : Bd6 m c (Proc.devRef .tc main_arg0 : DevRef τ sig) = m ((c.tc : Thread nD τ).loc main_arg0) :=
    Bd6_arg m c main_arg0 (by decide) (by decide) (by decide) (by decide) (by decide) (by decide)
  have h1 : Bd6 m c (Proc.devRef .tc main_arg1 : DevRef τ sig) = m ((c.tc : Thread nD τ).loc main_arg1) := Bd6_arg m c main_arg1 (by decide) (by decide) (by decide) (by decide) (by decide) (by decide)
  have h2 : Bd6 m c (Proc.devRef .tc main_arg2 : DevRef τ sig) = m ((c.tc : Thread nD τ).loc main_arg2) := Bd6_arg m c main_arg2 (by decide) (by decide) (by decide) (by decide) (by decide) (by decide)
  have hW : Bd6 m c (Proc.devRef .tc main_arg9 : DevRef τ sig) = m ((c.tc : Thread nD τ).loc main_arg9) := Bd6_arg m c main_arg9 (by decide) (by decide) (by decide) (by decide) (by decide) (by decide)
  have hB : Bd6 m c (Proc.devRef .tc main_arg10 : DevRef τ sig) = m ((c.tc : Thread nD τ).loc main_arg10) := Bd6_arg m c main_arg10 (by decide) (by decide) (by decide) (by decide) (by decide) (by decide)
  have ha : En7 m c main_v157 = Cert.Spec.glue (Bd6 m c (Proc.devRef .tc main_arg0 : DevRef τ sig)) (Bd6 m c (Proc.devRef .tc main_arg1 : DevRef τ sig)) (Bd6 m c (Proc.devRef .tc main_arg2 : DevRef τ sig)) := entry3_act (Bd6 m c)
  have hw : En7 m c main_v158 = Bd6 m c (Proc.devRef .tc main_arg9 : DevRef τ sig) := entry3_w (Bd6 m c)
  have hb : En7 m c main_arg10 = Bd6 m c (Proc.devRef .tc main_arg10 : DevRef τ sig) := entry3_b (Bd6 m c)
  rw [ha, hw, hb, hi, h1, h2, hW, hB]

/-- Region 4's output array at its exit, in the reference's stages over the launch contents. -/
theorem reg4_val (c : Dev nD) :
    (dat4 (F := Ideal) (En9 m) c).arrAt 3 cfg4.N = Cert.Spec.act (Cert.Spec.lin (Cert.Spec.glue (Cert.Spec.act (Cert.Spec.lin (Cert.Spec.glue (m ((c.tc : Thread nD τ).loc main_arg0)) (m ((c.tc : Thread nD τ).loc main_arg1)) (m ((c.tc : Thread nD τ).loc main_arg2))) (m ((c.tc : Thread nD τ).loc main_arg9)) (m ((c.tc : Thread nD τ).loc main_arg10)))) (m ((c.tc : Thread nD τ).loc main_arg1)) (m ((c.tc : Thread nD τ).loc main_arg2))) (m ((c.tc : Thread nD τ).loc main_arg11)) (m ((c.tc : Thread nD τ).loc main_arg12))) := by
  refine (final4 (En9 m) c).trans ?_
  rw [layerAct_eq]
  have hi : Bd8 m c (Proc.devRef .tc main_v159 : DevRef τ sig) = Cert.Spec.act (Cert.Spec.lin (Cert.Spec.glue (m ((c.tc : Thread nD τ).loc main_arg0)) (m ((c.tc : Thread nD τ).loc main_arg1)) (m ((c.tc : Thread nD τ).loc main_arg2))) (m ((c.tc : Thread nD τ).loc main_arg9)) (m ((c.tc : Thread nD τ).loc main_arg10))) :=
    (Bd8_arr m c 3).trans (reg3_val m c)
  have h1 : Bd8 m c (Proc.devRef .tc main_arg1 : DevRef τ sig) = m ((c.tc : Thread nD τ).loc main_arg1) := Bd8_arg m c main_arg1 (by decide) (by decide) (by decide) (by decide) (by decide) (by decide) (by decide) (by decide)
  have h2 : Bd8 m c (Proc.devRef .tc main_arg2 : DevRef τ sig) = m ((c.tc : Thread nD τ).loc main_arg2) := Bd8_arg m c main_arg2 (by decide) (by decide) (by decide) (by decide) (by decide) (by decide) (by decide) (by decide)
  have hW : Bd8 m c (Proc.devRef .tc main_arg11 : DevRef τ sig) = m ((c.tc : Thread nD τ).loc main_arg11) := Bd8_arg m c main_arg11 (by decide) (by decide) (by decide) (by decide) (by decide) (by decide) (by decide) (by decide)
  have hB : Bd8 m c (Proc.devRef .tc main_arg12 : DevRef τ sig) = m ((c.tc : Thread nD τ).loc main_arg12) := Bd8_arg m c main_arg12 (by decide) (by decide) (by decide) (by decide) (by decide) (by decide) (by decide) (by decide)
  have ha : En9 m c main_v197 = Cert.Spec.glue (Bd8 m c (Proc.devRef .tc main_v159 : DevRef τ sig)) (Bd8 m c (Proc.devRef .tc main_arg1 : DevRef τ sig)) (Bd8 m c (Proc.devRef .tc main_arg2 : DevRef τ sig)) := entry4_act (Bd8 m c)
  have hw : En9 m c main_v198 = Bd8 m c (Proc.devRef .tc main_arg11 : DevRef τ sig) := entry4_w (Bd8 m c)
  have hb : En9 m c main_arg12 = Bd8 m c (Proc.devRef .tc main_arg12 : DevRef τ sig) := entry4_b (Bd8 m c)
  rw [ha, hw, hb, hi, h1, h2, hW, hB]

/-- Region 5's output array at its exit, in the reference's stages over the launch contents. -/
theorem reg5_val (c : Dev nD) :
    (dat5 (F := Ideal) (En11 m) c).arrAt 3 cfg5.N = Cert.Spec.lin1 (Cert.Spec.glue (Cert.Spec.act (Cert.Spec.lin (Cert.Spec.glue (Cert.Spec.act (Cert.Spec.lin (Cert.Spec.glue (m ((c.tc : Thread nD τ).loc main_arg0)) (m ((c.tc : Thread nD τ).loc main_arg1)) (m ((c.tc : Thread nD τ).loc main_arg2))) (m ((c.tc : Thread nD τ).loc main_arg9)) (m ((c.tc : Thread nD τ).loc main_arg10)))) (m ((c.tc : Thread nD τ).loc main_arg1)) (m ((c.tc : Thread nD τ).loc main_arg2))) (m ((c.tc : Thread nD τ).loc main_arg11)) (m ((c.tc : Thread nD τ).loc main_arg12)))) (m ((c.tc : Thread nD τ).loc main_arg1)) (m ((c.tc : Thread nD τ).loc main_arg2))) (m ((c.tc : Thread nD τ).loc main_arg13)) (m ((c.tc : Thread nD τ).loc main_arg14)) := by
  refine (final5 (En11 m) c).trans ?_
  rw [layerCol_eq]
  have hi : Bd10 m c (Proc.devRef .tc main_v199 : DevRef τ sig) = Cert.Spec.act (Cert.Spec.lin (Cert.Spec.glue (Cert.Spec.act (Cert.Spec.lin (Cert.Spec.glue (m ((c.tc : Thread nD τ).loc main_arg0)) (m ((c.tc : Thread nD τ).loc main_arg1)) (m ((c.tc : Thread nD τ).loc main_arg2))) (m ((c.tc : Thread nD τ).loc main_arg9)) (m ((c.tc : Thread nD τ).loc main_arg10)))) (m ((c.tc : Thread nD τ).loc main_arg1)) (m ((c.tc : Thread nD τ).loc main_arg2))) (m ((c.tc : Thread nD τ).loc main_arg11)) (m ((c.tc : Thread nD τ).loc main_arg12))) :=
    (Bd10_arr m c 3).trans (reg4_val m c)
  have h1 : Bd10 m c (Proc.devRef .tc main_arg1 : DevRef τ sig) = m ((c.tc : Thread nD τ).loc main_arg1) := Bd10_arg m c main_arg1 (by decide) (by decide) (by decide) (by decide) (by decide) (by decide) (by decide) (by decide) (by decide) (by decide)
  have h2 : Bd10 m c (Proc.devRef .tc main_arg2 : DevRef τ sig) = m ((c.tc : Thread nD τ).loc main_arg2) := Bd10_arg m c main_arg2 (by decide) (by decide) (by decide) (by decide) (by decide) (by decide) (by decide) (by decide) (by decide) (by decide)
  have hW : Bd10 m c (Proc.devRef .tc main_arg13 : DevRef τ sig) = m ((c.tc : Thread nD τ).loc main_arg13) := Bd10_arg m c main_arg13 (by decide) (by decide) (by decide) (by decide) (by decide) (by decide) (by decide) (by decide) (by decide) (by decide)
  have hB : Bd10 m c (Proc.devRef .tc main_arg14 : DevRef τ sig) = m ((c.tc : Thread nD τ).loc main_arg14) := Bd10_arg m c main_arg14 (by decide) (by decide) (by decide) (by decide) (by decide) (by decide) (by decide) (by decide) (by decide) (by decide)
  have ha : En11 m c main_v237 = Cert.Spec.glue (Bd10 m c (Proc.devRef .tc main_v199 : DevRef τ sig)) (Bd10 m c (Proc.devRef .tc main_arg1 : DevRef τ sig)) (Bd10 m c (Proc.devRef .tc main_arg2 : DevRef τ sig)) := entry5_act (Bd10 m c)
  have hw : En11 m c main_v238 = Bd10 m c (Proc.devRef .tc main_arg13 : DevRef τ sig) := entry5_w (Bd10 m c)
  have hb : En11 m c main_arg14 = Bd10 m c (Proc.devRef .tc main_arg14 : DevRef τ sig) := entry5_b (Bd10 m c)
  rw [ha, hw, hb, hi, h1, h2, hW, hB]

/-- The kernel program's first result: the three-layer composition of the launch contents. -/
theorem kernel_out0 (c : Dev nD) :
    (dat2 (F := Ideal) (En5 m) c).arrAt 3 cfg2.N
      = Cert.Spec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  reg2_val m c

/-- The kernel program's second result. -/
theorem kernel_out1 (c : Dev nD) :
    (dat5 (F := Ideal) (En11 m) c).arrAt 3 cfg5.N
      = Cert.Spec.out1 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  reg5_val m c

end Cert.KernelIdeal.Fr

end
-- ==== Proof.lean ====
/-
  The certificate of the blocked graph-layer kernel against its reference.

  Both programs apply six graph layers. One layer gathers and scatter-adds the edge features over the graph (host
  operations, the same in both programs), multiplies by a transposed weight matrix, adds a bias and, in four of the six
  layers, applies the leaky rectifier. The reference multiplies whole matrices; the kernel walks a grid of (output
  block, contraction block) with an accumulator it zeroes at the first contraction block, adds each block's product
  to, and at the last contraction block stores with the bias (and the rectifier) into the output block.

  Frames. Each kernel launch is a region of the program whose invariant tracks the accumulator from grid point to grid
  point; the program is twelve segments, host stretches and regions alternating, and every argument array ends as
  launched because no host operation writes it and a region only reads it. The reference is a straight line of host
  operations once its outlined functions are inlined.

  Values, on the extended reals. The two contraction blocks' sums add up to the whole sum over the contraction axis,
  starting from zero: only commutativity and associativity of addition are used, so no finiteness of the inputs is
  needed and the precondition is never opened. Format changes are the identity, the rectifier's literal is the same
  word on both sides and is never evaluated.
-/
import proofs.«135243_j27986006901491_1_alg».proof.Defs
import proofs.«135243_j27986006901491_1_alg».proof.Proof.Gen.Kernel
import proofs.«135243_j27986006901491_1_alg».proof.Proof.Gen.KernelIdeal
import proofs.«135243_j27986006901491_1_alg».proof.Proof.Gen.ReferenceIdeal
import proofs.«135243_j27986006901491_1_alg».proof.Proof.Gen.Pre_finite_inputs
import proofs.«135243_j27986006901491_1_alg».proof.Proof.BitsRun
import proofs.«135243_j27986006901491_1_alg».proof.Proof.IdealRun
import proofs.«135243_j27986006901491_1_alg».proof.Proof.RefRun
import proofs.«135243_j27986006901491_1_alg».proof.Proof.IdealBridge

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Fr.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RefRun.run m ρ)

/-- Both idealized programs end with the six layers' composition of the arguments: the kernel's regions each leave one
    layer's array (the two contraction blocks' sums joined), the reference's operations compose to the same functions,
    and the arguments agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Fr.kernel_out0 m c), (h c).2.1.trans (Cert.KernelIdeal.Fr.kernel_out1 m c), (h c).2.2⟩)
      (Cert.KernelIdeal.Fr.run_results m ρ)
  · refine (θ_run Cert.ReferenceIdeal.defs _ _).mono (fun r h c => ⟨?_, ?_, (h c).2.2⟩) (Cert.ReferenceIdeal.RefRun.run m' ρ')
    · rw [(h c).1]
      obtain ⟨a0, a1, a2, a3, a4, a5, a6, a7, a8, a9, a10, a11, a12, a13, a14⟩ := hagree c
      rw [a0, a1, a2, a3, a4, a5, a6, a7, a8]
    · rw [(h c).2.1]
      obtain ⟨a0, a1, a2, a3, a4, a5, a6, a7, a8, a9, a10, a11, a12, a13, a14⟩ := hagree c
      rw [a0, a1, a2, a9, a10, a11, a12, a13, a14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
